-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S1000000 : Shape := ⟨1, ![1000000]⟩
abbrev S320000 : Shape := ⟨1, ![320000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg24 : FVec F S128 .f32) (main_arg25 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg24
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg25
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  main_v98

def fn_part4 {F : FTy → Type} [FloatOps F] (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg22
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg20 main_arg21 main_arg22 main_arg23 main_arg24 main_arg25 main_v63 main_v67

def fn_part2 {F : FTy → Type} [FloatOps F] (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg14
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg16
  let main_cst_18 : FVec F S_ .f32 := constant S_ .f32 0x7F800000#32
  let main_v50 : FVec F S128x128 .f32 := broadcastInDim S128x128 ![] bcast_S_S128x128 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : FVec F S100000x128 .f32) (main_arg1 : FVec F S50000x128 .f32) (main_arg2 : IVec S1000000 32) (main_arg3 : IVec S1000000 32) (main_arg4 : IVec S320000 32) (main_arg5 : IVec S320000 32) (main_arg6 : IVec S320000 32) (main_arg7 : IVec S320000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_arg23 : FVec F S128x128 .f32) (main_arg24 : FVec F S128 .f32) (main_arg25 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x128 : Shape := ⟨2, ![100000, 128]⟩
abbrev S50000x128 : Shape := ⟨2, ![50000, 128]⟩
abbrev S1000000 : Shape := ⟨1, ![1000000]⟩
abbrev S320000 : Shape := ⟨1, ![320000]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S100000 : Shape := ⟨1, ![100000]⟩
abbrev S100000x1 : Shape := ⟨2, ![100000, 1]⟩
abbrev S320000x1 : Shape := ⟨2, ![320000, 1]⟩
abbrev S320000x128 : Shape := ⟨2, ![320000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 270
  | .vmem => 46
  | .smem => 0
  | _ => 0

abbrev hbmTy0_0 (i : Nat) : BufTy := match i % 128 with
  | 0 => ⟨S100000x128, .f32⟩
  | 1 => ⟨S50000x128, .f32⟩
  | 2 => ⟨S1000000, .i32⟩
  | 3 => ⟨S1000000, .i32⟩
  | 4 => ⟨S320000, .i32⟩
  | 5 => ⟨S320000, .i32⟩
  | 6 => ⟨S320000, .i32⟩
  | 7 => ⟨S320000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1, .i32⟩
  | 35 => ⟨S_, .i32⟩
  | 36 => ⟨S1000000x1, .i32⟩
  | 37 => ⟨S1000000x1, .i1⟩
  | 38 => ⟨S1x1, .i32⟩
  | 39 => ⟨S1000000x1, .i32⟩
  | 40 => ⟨S1000000x1, .i1⟩
  | 41 => ⟨S1000000x1, .i1⟩
  | 42 => ⟨S_, .i1⟩
  | 43 => ⟨S1000000, .i1⟩
  | 44 => ⟨S1000000x128, .f32⟩
  | 45 => ⟨S1000000x128, .i1⟩
  | 46 => ⟨S_, .f32⟩
  | 47 => ⟨S1000000x128, .f32⟩
  | 48 => ⟨S1000000x128, .f32⟩
  | 49 => ⟨S_, .f32⟩
  | 50 => ⟨S100000x128, .f32⟩
  | 51 => ⟨S1000000x1, .i32⟩
  | 52 => ⟨S100000x128, .f32⟩
  | 53 => ⟨S_, .f32⟩
  | 54 => ⟨S1000000, .f32⟩
  | 55 => ⟨S_, .f32⟩
  | 56 => ⟨S100000, .f32⟩
  | 57 => ⟨S1000000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S1, .i32⟩
  | 74 => ⟨S_, .i32⟩
  | 75 => ⟨S320000x1, .i32⟩
  | 76 => ⟨S320000x1, .i1⟩
  | 77 => ⟨S1x1, .i32⟩
  | 78 => ⟨S320000x1, .i32⟩
  | 79 => ⟨S320000x1, .i1⟩
  | 80 => ⟨S320000x1, .i1⟩
  | 81 => ⟨S_, .i1⟩
  | 82 => ⟨S320000, .i1⟩
  | 83 => ⟨S320000x128, .f32⟩
  | 84 => ⟨S320000x128, .i1⟩
  | 85 => ⟨S_, .f32⟩
  | 86 => ⟨S320000x128, .f32⟩
  | 87 => ⟨S320000x128, .f32⟩
  | 88 => ⟨S_, .f32⟩
  | 89 => ⟨S100000x128, .f32⟩
  | 90 => ⟨S320000x1, .i32⟩
  | 91 => ⟨S100000x128, .f32⟩
  | 92 => ⟨S_, .f32⟩
  | 93 => ⟨S320000, .f32⟩
  | 94 => ⟨S_, .f32⟩
  | 95 => ⟨S100000, .f32⟩
  | 96 => ⟨S320000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S1, .i32⟩
  | 113 => ⟨S_, .i32⟩
  | 114 => ⟨S320000x1, .i32⟩
  | 115 => ⟨S320000x1, .i1⟩
  | 116 => ⟨S1x1, .i32⟩
  | 117 => ⟨S320000x1, .i32⟩
  | 118 => ⟨S320000x1, .i1⟩
  | 119 => ⟨S320000x1, .i1⟩
  | 120 => ⟨S_, .i1⟩
  | 121 => ⟨S320000, .i1⟩
  | 122 => ⟨S320000x128, .f32⟩
  | 123 => ⟨S320000x128, .i1⟩
  | 124 => ⟨S_, .f32⟩
  | 125 => ⟨S320000x128, .f32⟩
  | 126 => ⟨S320000x128, .f32⟩
  | 127 => ⟨S_, .f32⟩
  | _ => ⟨S100000x128, .f32⟩

abbrev hbmTy0_1 (i : Nat) : BufTy := match i % 128 with
  | 0 => ⟨S50000x128, .f32⟩
  | 1 => ⟨S320000x1, .i32⟩
  | 2 => ⟨S50000x128, .f32⟩
  | 3 => ⟨S_, .f32⟩
  | 4 => ⟨S320000, .f32⟩
  | 5 => ⟨S_, .f32⟩
  | 6 => ⟨S50000, .f32⟩
  | 7 => ⟨S320000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x128, .f32⟩
  | 14 => ⟨S50000x128, .f32⟩
  | 15 => ⟨S1x128, .f32⟩
  | 16 => ⟨S1x128, .f32⟩
  | 17 => ⟨S100000x128, .f32⟩
  | 18 => ⟨S1x128, .f32⟩
  | 19 => ⟨S50000x128, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1, .i32⟩
  | 29 => ⟨S_, .i32⟩
  | 30 => ⟨S1000000x1, .i32⟩
  | 31 => ⟨S1000000x1, .i1⟩
  | 32 => ⟨S1x1, .i32⟩
  | 33 => ⟨S1000000x1, .i32⟩
  | 34 => ⟨S1000000x1, .i1⟩
  | 35 => ⟨S1000000x1, .i1⟩
  | 36 => ⟨S_, .i1⟩
  | 37 => ⟨S1000000, .i1⟩
  | 38 => ⟨S1000000x128, .f32⟩
  | 39 => ⟨S1000000x128, .i1⟩
  | 40 => ⟨S_, .f32⟩
  | 41 => ⟨S1000000x128, .f32⟩
  | 42 => ⟨S1000000x128, .f32⟩
  | 43 => ⟨S_, .f32⟩
  | 44 => ⟨S100000x128, .f32⟩
  | 45 => ⟨S1000000x1, .i32⟩
  | 46 => ⟨S100000x128, .f32⟩
  | 47 => ⟨S_, .f32⟩
  | 48 => ⟨S1000000, .f32⟩
  | 49 => ⟨S_, .f32⟩
  | 50 => ⟨S100000, .f32⟩
  | 51 => ⟨S1000000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S1, .i32⟩
  | 68 => ⟨S_, .i32⟩
  | 69 => ⟨S320000x1, .i32⟩
  | 70 => ⟨S320000x1, .i1⟩
  | 71 => ⟨S1x1, .i32⟩
  | 72 => ⟨S320000x1, .i32⟩
  | 73 => ⟨S320000x1, .i1⟩
  | 74 => ⟨S320000x1, .i1⟩
  | 75 => ⟨S_, .i1⟩
  | 76 => ⟨S320000, .i1⟩
  | 77 => ⟨S320000x128, .f32⟩
  | 78 => ⟨S320000x128, .i1⟩
  | 79 => ⟨S_, .f32⟩
  | 80 => ⟨S320000x128, .f32⟩
  | 81 => ⟨S320000x128, .f32⟩
  | 82 => ⟨S_, .f32⟩
  | 83 => ⟨S100000x128, .f32⟩
  | 84 => ⟨S320000x1, .i32⟩
  | 85 => ⟨S100000x128, .f32⟩
  | 86 => ⟨S_, .f32⟩
  | 87 => ⟨S320000, .f32⟩
  | 88 => ⟨S_, .f32⟩
  | 89 => ⟨S100000, .f32⟩
  | 90 => ⟨S320000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S1, .i32⟩
  | 107 => ⟨S_, .i32⟩
  | 108 => ⟨S320000x1, .i32⟩
  | 109 => ⟨S320000x1, .i1⟩
  | 110 => ⟨S1x1, .i32⟩
  | 111 => ⟨S320000x1, .i32⟩
  | 112 => ⟨S320000x1, .i1⟩
  | 113 => ⟨S320000x1, .i1⟩
  | 114 => ⟨S_, .i1⟩
  | 115 => ⟨S320000, .i1⟩
  | 116 => ⟨S320000x128, .f32⟩
  | 117 => ⟨S320000x128, .i1⟩
  | 118 => ⟨S_, .f32⟩
  | 119 => ⟨S320000x128, .f32⟩
  | 120 => ⟨S320000x128, .f32⟩
  | 121 => ⟨S_, .f32⟩
  | 122 => ⟨S50000x128, .f32⟩
  | 123 => ⟨S320000x1, .i32⟩
  | 124 => ⟨S50000x128, .f32⟩
  | 125 => ⟨S_, .f32⟩
  | 126 => ⟨S320000, .f32⟩
  | 127 => ⟨S_, .f32⟩
  | _ => ⟨S100000x128, .f32⟩

abbrev hbmTy0_2 (i : Nat) : BufTy := match i % 128 with
  | 0 => ⟨S50000, .f32⟩
  | 1 => ⟨S320000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x128, .f32⟩
  | 8 => ⟨S50000x128, .f32⟩
  | 9 => ⟨S1x128, .f32⟩
  | 10 => ⟨S1x128, .f32⟩
  | 11 => ⟨S100000x128, .f32⟩
  | 12 => ⟨S1x128, .f32⟩
  | 13 => ⟨S50000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S2000x128, .f32⟩
  | .local _ .vmem, ⟨45, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_cst : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_cst_0 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v13 : Ref sig .tc := ⟨.hbm, 87, rfl⟩
abbrev main_cst_3 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_cst_4 : Ref sig .tc := ⟨.hbm, 92, rfl⟩
abbrev main_v17 : Ref sig .tc := ⟨.hbm, 93, rfl⟩
abbrev main_cst_5 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_6 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v26 : Ref sig .tc := ⟨.hbm, 126, rfl⟩
abbrev main_cst_7 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_cst_8 : Ref sig .tc := ⟨.hbm, 131, rfl⟩
abbrev main_v30 : Ref sig .tc := ⟨.hbm, 132, rfl⟩
abbrev main_cst_9 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_cst_10 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_v14 : Ref sig .tc := ⟨.hbm, 167, rfl⟩
abbrev main_call3_cst : Ref sig .tc := ⟨.hbm, 168, rfl⟩
abbrev main_call3_v15 : Ref sig .tc := ⟨.hbm, 169, rfl⟩
abbrev main_v44 : Ref sig .tc := ⟨.hbm, 170, rfl⟩
abbrev main_cst_11 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_cst_12 : Ref sig .tc := ⟨.hbm, 175, rfl⟩
abbrev main_v48 : Ref sig .tc := ⟨.hbm, 176, rfl⟩
abbrev main_cst_13 : Ref sig .tc := ⟨.hbm, 177, rfl⟩
abbrev main_v49 : Ref sig .tc := ⟨.hbm, 178, rfl⟩
abbrev main_v50 : Ref sig .tc := ⟨.hbm, 179, rfl⟩
abbrev main_v51 : Ref sig .tc := ⟨.hbm, 180, rfl⟩
abbrev main_cst_14 : Ref sig .tc := ⟨.hbm, 181, rfl⟩
abbrev main_v52 : Ref sig .tc := ⟨.hbm, 182, rfl⟩
abbrev main_v53 : Ref sig .tc := ⟨.hbm, 183, rfl⟩
abbrev main_v54 : Ref sig .tc := ⟨.hbm, 184, rfl⟩
abbrev main_v55 : Ref sig .tc := ⟨.hbm, 185, rfl⟩
abbrev main_v56 : Ref sig .tc := ⟨.hbm, 186, rfl⟩
abbrev main_call4_c : Ref sig .tc := ⟨.hbm, 187, rfl⟩
abbrev main_call4_v0 : Ref sig .tc := ⟨.hbm, 188, rfl⟩
abbrev main_call4_v1 : Ref sig .tc := ⟨.hbm, 189, rfl⟩
abbrev main_call4_c_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_c_1 : Ref sig .tc := ⟨.hbm, 195, rfl⟩
abbrev main_call4_c_2 : Ref sig .tc := ⟨.hbm, 196, rfl⟩
abbrev main_call4_v6 : Ref sig .tc := ⟨.hbm, 197, rfl⟩
abbrev main_call4_v7 : Ref sig .tc := ⟨.hbm, 198, rfl⟩
abbrev main_call4_v8 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_c_3 : Ref sig .tc := ⟨.hbm, 203, rfl⟩
abbrev main_call4_v12 : Ref sig .tc := ⟨.hbm, 204, rfl⟩
abbrev main_call4_v13 : Ref sig .tc := ⟨.hbm, 205, rfl⟩
abbrev main_call4_v14 : Ref sig .tc := ⟨.hbm, 206, rfl⟩
abbrev main_call4_cst : Ref sig .tc := ⟨.hbm, 207, rfl⟩
abbrev main_call4_v15 : Ref sig .tc := ⟨.hbm, 208, rfl⟩
abbrev main_v57 : Ref sig .tc := ⟨.hbm, 209, rfl⟩
abbrev main_cst_15 : Ref sig .tc := ⟨.hbm, 210, rfl⟩
abbrev main_v58 : Ref sig .tc := ⟨.hbm, 211, rfl⟩
abbrev main_v59 : Ref sig .tc := ⟨.hbm, 212, rfl⟩
abbrev main_v60 : Ref sig .tc := ⟨.hbm, 213, rfl⟩
abbrev main_cst_16 : Ref sig .tc := ⟨.hbm, 214, rfl⟩
abbrev main_v61 : Ref sig .tc := ⟨.hbm, 215, rfl⟩
abbrev main_cst_17 : Ref sig .tc := ⟨.hbm, 216, rfl⟩
abbrev main_v62 : Ref sig .tc := ⟨.hbm, 217, rfl⟩
abbrev main_v63 : Ref sig .tc := ⟨.hbm, 218, rfl⟩
abbrev main_v64 : Ref sig .tc := ⟨.hbm, 219, rfl⟩
abbrev main_cst_18 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_v69 : Ref sig .tc := ⟨.hbm, 225, rfl⟩
abbrev main_call5_c : Ref sig .tc := ⟨.hbm, 226, rfl⟩
abbrev main_call5_v0 : Ref sig .tc := ⟨.hbm, 227, rfl⟩
abbrev main_call5_v1 : Ref sig .tc := ⟨.hbm, 228, rfl⟩
abbrev main_call5_c_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_v5 : Ref sig .tc := ⟨.hbm, 233, rfl⟩
abbrev main_call5_c_1 : Ref sig .tc := ⟨.hbm, 234, rfl⟩
abbrev main_call5_c_2 : Ref sig .tc := ⟨.hbm, 235, rfl⟩
abbrev main_call5_v6 : Ref sig .tc := ⟨.hbm, 236, rfl⟩
abbrev main_call5_v7 : Ref sig .tc := ⟨.hbm, 237, rfl⟩
abbrev main_call5_v8 : Ref sig .tc := ⟨.hbm, 238, rfl⟩
abbrev main_call5_v9 : Ref sig .tc := ⟨.hbm, 239, rfl⟩
abbrev main_call5_v10 : Ref sig .tc := ⟨.hbm, 240, rfl⟩
abbrev main_call5_v11 : Ref sig .tc := ⟨.hbm, 241, rfl⟩
abbrev main_call5_c_3 : Ref sig .tc := ⟨.hbm, 242, rfl⟩
abbrev main_call5_v12 : Ref sig .tc := ⟨.hbm, 243, rfl⟩
abbrev main_call5_v13 : Ref sig .tc := ⟨.hbm, 244, rfl⟩
abbrev main_call5_v14 : Ref sig .tc := ⟨.hbm, 245, rfl⟩
abbrev main_call5_cst : Ref sig .tc := ⟨.hbm, 246, rfl⟩
abbrev main_call5_v15 : Ref sig .tc := ⟨.hbm, 247, rfl⟩
abbrev main_v70 : Ref sig .tc := ⟨.hbm, 248, rfl⟩
abbrev main_cst_19 : Ref sig .tc := ⟨.hbm, 249, rfl⟩
abbrev main_v71 : Ref sig .tc := ⟨.hbm, 250, rfl⟩
abbrev main_v72 : Ref sig .tc := ⟨.hbm, 251, rfl⟩
abbrev main_v73 : Ref sig .tc := ⟨.hbm, 252, rfl⟩
abbrev main_cst_20 : Ref sig .tc := ⟨.hbm, 253, rfl⟩
abbrev main_v74 : Ref sig .tc := ⟨.hbm, 254, rfl⟩
abbrev main_cst_21 : Ref sig .tc := ⟨.hbm, 255, rfl⟩
abbrev main_v75 : Ref sig .tc := ⟨.hbm, 256, rfl⟩
abbrev main_v76 : Ref sig .tc := ⟨.hbm, 257, rfl⟩
abbrev main_v77 : Ref sig .tc := ⟨.hbm, 258, rfl⟩
abbrev main_cst_22 : Ref sig .tc := ⟨.hbm, 259, rfl⟩
abbrev main_v78 : Ref sig .tc := ⟨.hbm, 260, rfl⟩
abbrev main_v79 : Ref sig .tc := ⟨.hbm, 261, rfl⟩
abbrev main_v80 : Ref sig .tc := ⟨.hbm, 262, rfl⟩
abbrev main_v81 : Ref sig .tc := ⟨.hbm, 263, rfl⟩
abbrev main_v82 : Ref sig .tc := ⟨.hbm, 264, rfl⟩
abbrev main_v83 : Ref sig .tc := ⟨.hbm, 265, rfl⟩
abbrev main_v84 : Ref sig .tc := ⟨.hbm, 266, rfl⟩
abbrev main_v85 : Ref sig .tc := ⟨.hbm, 267, rfl⟩
abbrev main_v86 : Ref sig .tc := ⟨.hbm, 268, rfl⟩
abbrev main_v87 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  gather_S50000x128_S320000x1_S320000x128_1_0_n_n_0_1_1128_wf : GatherDims.WF S50000x128 S320000x1 S320000x128 [1] [0] [] [0] [] 1 ![1, 128]
  scatter_S100000x128_S320000x1_S320000x128_1_0_0_1_wf : ScatterDims.WF S100000x128 S320000x1 S320000x128 [1] [0] [0] 1
  scatter_S100000_S320000x1_S320000_n_0_0_1_wf : ScatterDims.WF S100000 S320000x1 S320000 [] [0] [0] 1
  gather_S100000x128_S320000x1_S320000x128_1_0_n_n_0_1_1128_wf : GatherDims.WF S100000x128 S320000x1 S320000x128 [1] [0] [] [0] [] 1 ![1, 128]
  scatter_S50000x128_S320000x1_S320000x128_1_0_0_1_wf : ScatterDims.WF S50000x128 S320000x1 S320000x128 [1] [0] [0] 1
  scatter_S50000_S320000x1_S320000_n_0_0_1_wf : ScatterDims.WF S50000 S320000x1 S320000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S100000x128_S320000x1_S320000x128_1_0_0_1 : ScatterDims S100000x128 S320000x1 S320000x128 where
  updateWindowDims := [1]
  insertedWindowDims := [0]
  scatterDimsToOperandDims := [0]
  indexVectorDim := 1
  wf := scatter_S100000x128_S320000x1_S320000x128_1_0_0_1_wf
def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x128_S320000x1_S320000x128_1_0_n_n_0_1_1128 : GatherDims S100000x128 S320000x1 S320000x128 where
  offsetDims := [1]
  collapsedSliceDims := [0]
  operandBatchingDims := []
  startIndicesBatchingDims := []
  startIndexMap := [0]
  indexVectorDim := 1
  sliceSizes := ![1, 128]
  wf := gather_S100000x128_S320000x1_S320000x128_1_0_n_n_0_1_1128_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v83) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg22) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v85) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v82) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg23) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg25) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S1000000 : Shape := ⟨1, ![1000000]⟩
abbrev S320000 : Shape := ⟨1, ![320000]⟩
abbrev S128x128 : Shape := ⟨2, ![128, 128]⟩
abbrev S128 : Shape := ⟨1, ![128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S100000 : Shape := ⟨1, ![100000]⟩
abbrev S100000x1 : Shape := ⟨2, ![100000, 1]⟩
abbrev S1x128 : Shape := ⟨2, ![1, 128]⟩
abbrev S320000x1 : Shape := ⟨2, ![320000, 1]⟩
abbrev S320000x128 : Shape := ⟨2, ![320000, 128]⟩
abbrev S50000 : Shape := ⟨1, ![50000]⟩
abbrev S50000x1 : Shape := ⟨2, ![50000, 1]⟩

abbrev nBuf : Space → Nat
  | .hbm => 376
  | .vmem => 0
  | .smem => 0
  | _ => 0

abbrev hbmTy0_0 (i : Nat) : BufTy := match i % 128 with
  | 0 => ⟨S100000x128, .f32⟩
  | 1 => ⟨S50000x128, .f32⟩
  | 2 => ⟨S1000000, .i32⟩
  | 3 => ⟨S1000000, .i32⟩
  | 4 => ⟨S320000, .i32⟩
  | 5 => ⟨S320000, .i32⟩
  | 6 => ⟨S320000, .i32⟩
  | 7 => ⟨S320000, .i32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S128x128, .f32⟩
  | 24 => ⟨S128, .f32⟩
  | 25 => ⟨S128x128, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1, .i32⟩
  | 35 => ⟨S_, .i32⟩
  | 36 => ⟨S1000000x1, .i32⟩
  | 37 => ⟨S1000000x1, .i1⟩
  | 38 => ⟨S1x1, .i32⟩
  | 39 => ⟨S1000000x1, .i32⟩
  | 40 => ⟨S1000000x1, .i1⟩
  | 41 => ⟨S1000000x1, .i1⟩
  | 42 => ⟨S_, .i1⟩
  | 43 => ⟨S1000000, .i1⟩
  | 44 => ⟨S1000000x128, .f32⟩
  | 45 => ⟨S1000000x128, .i1⟩
  | 46 => ⟨S_, .f32⟩
  | 47 => ⟨S1000000x128, .f32⟩
  | 48 => ⟨S1000000x128, .f32⟩
  | 49 => ⟨S_, .f32⟩
  | 50 => ⟨S100000x128, .f32⟩
  | 51 => ⟨S1000000x1, .i32⟩
  | 52 => ⟨S100000x128, .f32⟩
  | 53 => ⟨S_, .f32⟩
  | 54 => ⟨S1000000, .f32⟩
  | 55 => ⟨S_, .f32⟩
  | 56 => ⟨S100000, .f32⟩
  | 57 => ⟨S1000000x1, .i32⟩
  | 58 => ⟨S100000, .f32⟩
  | 59 => ⟨S_, .f32⟩
  | 60 => ⟨S100000, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S1, .i32⟩
  | 90 => ⟨S_, .i32⟩
  | 91 => ⟨S320000x1, .i32⟩
  | 92 => ⟨S320000x1, .i1⟩
  | 93 => ⟨S1x1, .i32⟩
  | 94 => ⟨S320000x1, .i32⟩
  | 95 => ⟨S320000x1, .i1⟩
  | 96 => ⟨S320000x1, .i1⟩
  | 97 => ⟨S_, .i1⟩
  | 98 => ⟨S320000, .i1⟩
  | 99 => ⟨S320000x128, .f32⟩
  | 100 => ⟨S320000x128, .i1⟩
  | 101 => ⟨S_, .f32⟩
  | 102 => ⟨S320000x128, .f32⟩
  | 103 => ⟨S320000x128, .f32⟩
  | 104 => ⟨S_, .f32⟩
  | 105 => ⟨S100000x128, .f32⟩
  | 106 => ⟨S320000x1, .i32⟩
  | 107 => ⟨S100000x128, .f32⟩
  | 108 => ⟨S_, .f32⟩
  | 109 => ⟨S320000, .f32⟩
  | 110 => ⟨S_, .f32⟩
  | 111 => ⟨S100000, .f32⟩
  | 112 => ⟨S320000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S1, .i32⟩
  | 21 => ⟨S_, .i32⟩
  | 22 => ⟨S320000x1, .i32⟩
  | 23 => ⟨S320000x1, .i1⟩
  | 24 => ⟨S1x1, .i32⟩
  | 25 => ⟨S320000x1, .i32⟩
  | 26 => ⟨S320000x1, .i1⟩
  | 27 => ⟨S320000x1, .i1⟩
  | 28 => ⟨S_, .i1⟩
  | 29 => ⟨S320000, .i1⟩
  | 30 => ⟨S320000x128, .f32⟩
  | 31 => ⟨S320000x128, .i1⟩
  | 32 => ⟨S_, .f32⟩
  | 33 => ⟨S320000x128, .f32⟩
  | 34 => ⟨S320000x128, .f32⟩
  | 35 => ⟨S_, .f32⟩
  | 36 => ⟨S50000x128, .f32⟩
  | 37 => ⟨S320000x1, .i32⟩
  | 38 => ⟨S50000x128, .f32⟩
  | 39 => ⟨S_, .f32⟩
  | 40 => ⟨S320000, .f32⟩
  | 41 => ⟨S_, .f32⟩
  | 42 => ⟨S50000, .f32⟩
  | 43 => ⟨S320000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S_, .f32⟩
  | 59 => ⟨S50000, .f32⟩
  | 60 => ⟨S50000x1, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S100000x128, .f32⟩
  | 69 => ⟨S100000x128, .f32⟩
  | 70 => ⟨S_, .f32⟩
  | 71 => ⟨S50000x128, .f32⟩
  | 72 => ⟨S50000x128, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1, .i32⟩
  | 82 => ⟨S_, .i32⟩
  | 83 => ⟨S1000000x1, .i32⟩
  | 84 => ⟨S1000000x1, .i1⟩
  | 85 => ⟨S1x1, .i32⟩
  | 86 => ⟨S1000000x1, .i32⟩
  | 87 => ⟨S1000000x1, .i1⟩
  | 88 => ⟨S1000000x1, .i1⟩
  | 89 => ⟨S_, .i1⟩
  | 90 => ⟨S1000000, .i1⟩
  | 91 => ⟨S1000000x128, .f32⟩
  | 92 => ⟨S1000000x128, .i1⟩
  | 93 => ⟨S_, .f32⟩
  | 94 => ⟨S1000000x128, .f32⟩
  | 95 => ⟨S1000000x128, .f32⟩
  | 96 => ⟨S_, .f32⟩
  | 97 => ⟨S100000x128, .f32⟩
  | 98 => ⟨S1000000x1, .i32⟩
  | 99 => ⟨S100000x128, .f32⟩
  | 100 => ⟨S_, .f32⟩
  | 101 => ⟨S1000000, .f32⟩
  | 102 => ⟨S_, .f32⟩
  | 103 => ⟨S100000, .f32⟩
  | 104 => ⟨S1000000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S100000x128, .f32⟩
  | 127 => ⟨S100000x128, .f32⟩
  | _ => ⟨S100000x128, .f32⟩

abbrev hbmTy0_2 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S1, .i32⟩
  | 9 => ⟨S_, .i32⟩
  | 10 => ⟨S320000x1, .i32⟩
  | 11 => ⟨S320000x1, .i1⟩
  | 12 => ⟨S1x1, .i32⟩
  | 13 => ⟨S320000x1, .i32⟩
  | 14 => ⟨S320000x1, .i1⟩
  | 15 => ⟨S320000x1, .i1⟩
  | 16 => ⟨S_, .i1⟩
  | 17 => ⟨S320000, .i1⟩
  | 18 => ⟨S320000x128, .f32⟩
  | 19 => ⟨S320000x128, .i1⟩
  | 20 => ⟨S_, .f32⟩
  | 21 => ⟨S320000x128, .f32⟩
  | 22 => ⟨S320000x128, .f32⟩
  | 23 => ⟨S_, .f32⟩
  | 24 => ⟨S100000x128, .f32⟩
  | 25 => ⟨S320000x1, .i32⟩
  | 26 => ⟨S100000x128, .f32⟩
  | 27 => ⟨S_, .f32⟩
  | 28 => ⟨S320000, .f32⟩
  | 29 => ⟨S_, .f32⟩
  | 30 => ⟨S100000, .f32⟩
  | 31 => ⟨S320000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000, .f32⟩
  | 48 => ⟨S100000x1, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S1, .i32⟩
  | 68 => ⟨S_, .i32⟩
  | 69 => ⟨S320000x1, .i32⟩
  | 70 => ⟨S320000x1, .i1⟩
  | 71 => ⟨S1x1, .i32⟩
  | 72 => ⟨S320000x1, .i32⟩
  | 73 => ⟨S320000x1, .i1⟩
  | 74 => ⟨S320000x1, .i1⟩
  | 75 => ⟨S_, .i1⟩
  | 76 => ⟨S320000, .i1⟩
  | 77 => ⟨S320000x128, .f32⟩
  | 78 => ⟨S320000x128, .i1⟩
  | 79 => ⟨S_, .f32⟩
  | 80 => ⟨S320000x128, .f32⟩
  | 81 => ⟨S320000x128, .f32⟩
  | 82 => ⟨S_, .f32⟩
  | 83 => ⟨S50000x128, .f32⟩
  | 84 => ⟨S320000x1, .i32⟩
  | 85 => ⟨S50000x128, .f32⟩
  | 86 => ⟨S_, .f32⟩
  | 87 => ⟨S320000, .f32⟩
  | 88 => ⟨S_, .f32⟩
  | 89 => ⟨S50000, .f32⟩
  | 90 => ⟨S320000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000, .f32⟩
  | 107 => ⟨S50000x1, .f32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S_, .f32⟩
  | 115 => ⟨S100000x128, .f32⟩
  | 116 => ⟨S100000x128, .f32⟩
  | 117 => ⟨S_, .f32⟩
  | 118 => ⟨S50000x128, .f32⟩
  | 119 => ⟨S50000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_cst : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩
abbrev main_cst_0 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_call1_v0 : Ref sig .tc := ⟨.hbm, 71, rfl⟩
abbrev main_call1_cst : Ref sig .tc := ⟨.hbm, 72, rfl⟩
abbrev main_call1_v1 : Ref sig .tc := ⟨.hbm, 73, rfl⟩
abbrev main_call1_v2 : Ref sig .tc := ⟨.hbm, 74, rfl⟩
abbrev main_v19 : Ref sig .tc := ⟨.hbm, 75, rfl⟩
abbrev main_cst_3 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v24 : Ref sig .tc := ⟨.hbm, 103, rfl⟩
abbrev main_cst_4 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_cst_5 : Ref sig .tc := ⟨.hbm, 108, rfl⟩
abbrev main_v28 : Ref sig .tc := ⟨.hbm, 109, rfl⟩
abbrev main_cst_6 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_cst_7 : Ref sig .tc := ⟨.hbm, 114, rfl⟩
abbrev main_v32 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_call3_v0 : Ref sig .tc := ⟨.hbm, 126, rfl⟩
abbrev main_call3_cst : Ref sig .tc := ⟨.hbm, 127, rfl⟩
abbrev main_call3_v1 : Ref sig .tc := ⟨.hbm, 128, rfl⟩
abbrev main_call3_v2 : Ref sig .tc := ⟨.hbm, 129, rfl⟩
abbrev main_v43 : Ref sig .tc := ⟨.hbm, 130, rfl⟩
abbrev main_cst_8 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_cst_9 : Ref sig .tc := ⟨.hbm, 137, rfl⟩
abbrev main_v49 : Ref sig .tc := ⟨.hbm, 138, rfl⟩
abbrev main_v50 : Ref sig .tc := ⟨.hbm, 139, rfl⟩
abbrev main_call4_c : Ref sig .tc := ⟨.hbm, 140, rfl⟩
abbrev main_call4_v0 : Ref sig .tc := ⟨.hbm, 141, rfl⟩
abbrev main_call4_v1 : Ref sig .tc := ⟨.hbm, 142, rfl⟩
abbrev main_call4_c_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_c_1 : Ref sig .tc := ⟨.hbm, 148, rfl⟩
abbrev main_call4_c_2 : Ref sig .tc := ⟨.hbm, 149, rfl⟩
abbrev main_call4_v6 : Ref sig .tc := ⟨.hbm, 150, rfl⟩
abbrev main_call4_v7 : Ref sig .tc := ⟨.hbm, 151, rfl⟩
abbrev main_call4_v8 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_c_3 : Ref sig .tc := ⟨.hbm, 156, rfl⟩
abbrev main_call4_v12 : Ref sig .tc := ⟨.hbm, 157, rfl⟩
abbrev main_call4_v13 : Ref sig .tc := ⟨.hbm, 158, rfl⟩
abbrev main_call4_v14 : Ref sig .tc := ⟨.hbm, 159, rfl⟩
abbrev main_call4_cst : Ref sig .tc := ⟨.hbm, 160, rfl⟩
abbrev main_call4_v15 : Ref sig .tc := ⟨.hbm, 161, rfl⟩
abbrev main_v51 : Ref sig .tc := ⟨.hbm, 162, rfl⟩
abbrev main_cst_10 : Ref sig .tc := ⟨.hbm, 163, rfl⟩
abbrev main_v52 : Ref sig .tc := ⟨.hbm, 164, rfl⟩
abbrev main_v53 : Ref sig .tc := ⟨.hbm, 165, rfl⟩
abbrev main_v54 : Ref sig .tc := ⟨.hbm, 166, rfl⟩
abbrev main_cst_11 : Ref sig .tc := ⟨.hbm, 167, rfl⟩
abbrev main_v55 : Ref sig .tc := ⟨.hbm, 168, rfl⟩
abbrev main_cst_12 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_cst_13 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_v63 : Ref sig .tc := ⟨.hbm, 178, rfl⟩
abbrev main_v64 : Ref sig .tc := ⟨.hbm, 179, rfl⟩
abbrev main_v65 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_call5_v0 : Ref sig .tc := ⟨.hbm, 185, rfl⟩
abbrev main_call5_cst : Ref sig .tc := ⟨.hbm, 186, rfl⟩
abbrev main_call5_v1 : Ref sig .tc := ⟨.hbm, 187, rfl⟩
abbrev main_call5_v2 : Ref sig .tc := ⟨.hbm, 188, rfl⟩
abbrev main_v70 : Ref sig .tc := ⟨.hbm, 189, rfl⟩
abbrev main_cst_14 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_call6_cst : Ref sig .tc := ⟨.hbm, 195, rfl⟩
abbrev main_call6_v0 : Ref sig .tc := ⟨.hbm, 196, rfl⟩
abbrev main_v75 : Ref sig .tc := ⟨.hbm, 197, rfl⟩
abbrev main_call7_cst : Ref sig .tc := ⟨.hbm, 198, rfl⟩
abbrev main_call7_v0 : Ref sig .tc := ⟨.hbm, 199, rfl⟩
abbrev main_v76 : Ref sig .tc := ⟨.hbm, 200, rfl⟩
abbrev main_call8_c : Ref sig .tc := ⟨.hbm, 201, rfl⟩
abbrev main_call8_v0 : Ref sig .tc := ⟨.hbm, 202, rfl⟩
abbrev main_call8_v1 : Ref sig .tc := ⟨.hbm, 203, rfl⟩
abbrev main_call8_c_0 : Ref sig .tc := ⟨.hbm, 204, rfl⟩
abbrev main_call8_v2 : Ref sig .tc := ⟨.hbm, 205, rfl⟩
abbrev main_call8_v3 : Ref sig .tc := ⟨.hbm, 206, rfl⟩
abbrev main_call8_v4 : Ref sig .tc := ⟨.hbm, 207, rfl⟩
abbrev main_call8_v5 : Ref sig .tc := ⟨.hbm, 208, rfl⟩
abbrev main_call8_c_1 : Ref sig .tc := ⟨.hbm, 209, rfl⟩
abbrev main_call8_c_2 : Ref sig .tc := ⟨.hbm, 210, rfl⟩
abbrev main_call8_v6 : Ref sig .tc := ⟨.hbm, 211, rfl⟩
abbrev main_call8_v7 : Ref sig .tc := ⟨.hbm, 212, rfl⟩
abbrev main_call8_v8 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_c_3 : Ref sig .tc := ⟨.hbm, 217, rfl⟩
abbrev main_call8_v12 : Ref sig .tc := ⟨.hbm, 218, rfl⟩
abbrev main_call8_v13 : Ref sig .tc := ⟨.hbm, 219, rfl⟩
abbrev main_call8_v14 : Ref sig .tc := ⟨.hbm, 220, rfl⟩
abbrev main_call8_cst : Ref sig .tc := ⟨.hbm, 221, rfl⟩
abbrev main_call8_v15 : Ref sig .tc := ⟨.hbm, 222, rfl⟩
abbrev main_v77 : Ref sig .tc := ⟨.hbm, 223, rfl⟩
abbrev main_cst_15 : Ref sig .tc := ⟨.hbm, 224, rfl⟩
abbrev main_v78 : Ref sig .tc := ⟨.hbm, 225, rfl⟩
abbrev main_v79 : Ref sig .tc := ⟨.hbm, 226, rfl⟩
abbrev main_v80 : Ref sig .tc := ⟨.hbm, 227, rfl⟩
abbrev main_cst_16 : Ref sig .tc := ⟨.hbm, 228, rfl⟩
abbrev main_v81 : Ref sig .tc := ⟨.hbm, 229, rfl⟩
abbrev main_cst_17 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_cst_18 : Ref sig .tc := ⟨.hbm, 234, rfl⟩
abbrev main_v85 : Ref sig .tc := ⟨.hbm, 235, rfl⟩
abbrev main_v86 : Ref sig .tc := ⟨.hbm, 236, rfl⟩
abbrev main_v87 : Ref sig .tc := ⟨.hbm, 237, rfl⟩
abbrev main_v88 : Ref sig .tc := ⟨.hbm, 238, rfl⟩
abbrev main_v89 : Ref sig .tc := ⟨.hbm, 239, rfl⟩
abbrev main_v90 : Ref sig .tc := ⟨.hbm, 240, rfl⟩
abbrev main_v91 : Ref sig .tc := ⟨.hbm, 241, rfl⟩
abbrev main_v92 : Ref sig .tc := ⟨.hbm, 242, rfl⟩
abbrev main_v93 : Ref sig .tc := ⟨.hbm, 243, rfl⟩
abbrev main_v94 : Ref sig .tc := ⟨.hbm, 244, rfl⟩
abbrev main_v95 : Ref sig .tc := ⟨.hbm, 245, rfl⟩
abbrev main_call9_v0 : Ref sig .tc := ⟨.hbm, 246, rfl⟩
abbrev main_call9_cst : Ref sig .tc := ⟨.hbm, 247, rfl⟩
abbrev main_call9_v1 : Ref sig .tc := ⟨.hbm, 248, rfl⟩
abbrev main_call9_v2 : Ref sig .tc := ⟨.hbm, 249, rfl⟩
abbrev main_v96 : Ref sig .tc := ⟨.hbm, 250, rfl⟩
abbrev main_cst_19 : Ref sig .tc := ⟨.hbm, 251, rfl⟩
abbrev main_v97 : Ref sig .tc := ⟨.hbm, 252, rfl⟩
abbrev main_v98 : Ref sig .tc := ⟨.hbm, 253, rfl⟩
abbrev main_v99 : Ref sig .tc := ⟨.hbm, 254, rfl⟩
abbrev main_v100 : Ref sig .tc := ⟨.hbm, 255, rfl⟩
abbrev main_call10_c : Ref sig .tc := ⟨.hbm, 256, rfl⟩
abbrev main_call10_v0 : Ref sig .tc := ⟨.hbm, 257, rfl⟩
abbrev main_call10_v1 : Ref sig .tc := ⟨.hbm, 258, rfl⟩
abbrev main_call10_c_0 : Ref sig .tc := ⟨.hbm, 259, rfl⟩
abbrev main_call10_v2 : Ref sig .tc := ⟨.hbm, 260, rfl⟩
abbrev main_call10_v3 : Ref sig .tc := ⟨.hbm, 261, rfl⟩
abbrev main_call10_v4 : Ref sig .tc := ⟨.hbm, 262, rfl⟩
abbrev main_call10_v5 : Ref sig .tc := ⟨.hbm, 263, rfl⟩
abbrev main_call10_c_1 : Ref sig .tc := ⟨.hbm, 264, rfl⟩
abbrev main_call10_c_2 : Ref sig .tc := ⟨.hbm, 265, rfl⟩
abbrev main_call10_v6 : Ref sig .tc := ⟨.hbm, 266, rfl⟩
abbrev main_call10_v7 : Ref sig .tc := ⟨.hbm, 267, rfl⟩
abbrev main_call10_v8 : Ref sig .tc := ⟨.hbm, 268, rfl⟩
abbrev main_call10_v9 : Ref sig .tc := ⟨.hbm, 269, rfl⟩
abbrev main_call10_v10 : Ref sig .tc := ⟨.hbm, 270, rfl⟩
abbrev main_call10_v11 : Ref sig .tc := ⟨.hbm, 271, rfl⟩
abbrev main_call10_c_3 : Ref sig .tc := ⟨.hbm, 272, rfl⟩
abbrev main_call10_v12 : Ref sig .tc := ⟨.hbm, 273, rfl⟩
abbrev main_call10_v13 : Ref sig .tc := ⟨.hbm, 274, rfl⟩
abbrev main_call10_v14 : Ref sig .tc := ⟨.hbm, 275, rfl⟩
abbrev main_call10_cst : Ref sig .tc := ⟨.hbm, 276, rfl⟩
abbrev main_call10_v15 : Ref sig .tc := ⟨.hbm, 277, rfl⟩
abbrev main_v101 : Ref sig .tc := ⟨.hbm, 278, rfl⟩
abbrev main_cst_20 : Ref sig .tc := ⟨.hbm, 279, rfl⟩
abbrev main_v102 : Ref sig .tc := ⟨.hbm, 280, rfl⟩
abbrev main_v103 : Ref sig .tc := ⟨.hbm, 281, rfl⟩
abbrev main_v104 : Ref sig .tc := ⟨.hbm, 282, rfl⟩
abbrev main_cst_21 : Ref sig .tc := ⟨.hbm, 283, rfl⟩
abbrev main_v105 : Ref sig .tc := ⟨.hbm, 284, rfl⟩
abbrev main_cst_22 : Ref sig .tc := ⟨.hbm, 285, rfl⟩
abbrev main_v106 : Ref sig .tc := ⟨.hbm, 286, rfl⟩
abbrev main_v107 : Ref sig .tc := ⟨.hbm, 287, rfl⟩
abbrev main_v108 : Ref sig .tc := ⟨.hbm, 288, rfl⟩
abbrev main_cst_23 : Ref sig .tc := ⟨.hbm, 289, rfl⟩
abbrev main_v109 : Ref sig .tc := ⟨.hbm, 290, rfl⟩
abbrev main_v110 : Ref sig .tc := ⟨.hbm, 291, rfl⟩
abbrev main_v111 : Ref sig .tc := ⟨.hbm, 292, rfl⟩
abbrev main_v112 : Ref sig .tc := ⟨.hbm, 293, rfl⟩
abbrev main_v113 : Ref sig .tc := ⟨.hbm, 294, rfl⟩
abbrev main_v114 : Ref sig .tc := ⟨.hbm, 295, rfl⟩
abbrev main_v115 : Ref sig .tc := ⟨.hbm, 296, rfl⟩
abbrev main_v116 : Ref sig .tc := ⟨.hbm, 297, rfl⟩
abbrev main_v117 : Ref sig .tc := ⟨.hbm, 298, rfl⟩
abbrev main_v118 : Ref sig .tc := ⟨.hbm, 299, rfl⟩
abbrev main_v119 : Ref sig .tc := ⟨.hbm, 300, rfl⟩
abbrev main_call11_v0 : Ref sig .tc := ⟨.hbm, 301, rfl⟩
abbrev main_call11_cst : Ref sig .tc := ⟨.hbm, 302, rfl⟩
abbrev main_call11_v1 : Ref sig .tc := ⟨.hbm, 303, rfl⟩
abbrev main_call11_v2 : Ref sig .tc := ⟨.hbm, 304, rfl⟩
abbrev main_v120 : Ref sig .tc := ⟨.hbm, 305, rfl⟩
abbrev main_cst_24 : Ref sig .tc := ⟨.hbm, 306, rfl⟩
abbrev main_v121 : Ref sig .tc := ⟨.hbm, 307, rfl⟩
abbrev main_v122 : Ref sig .tc := ⟨.hbm, 308, rfl⟩
abbrev main_v123 : Ref sig .tc := ⟨.hbm, 309, rfl⟩
abbrev main_v124 : Ref sig .tc := ⟨.hbm, 310, rfl⟩
abbrev main_v125 : Ref sig .tc := ⟨.hbm, 311, rfl⟩
abbrev main_cst_25 : Ref sig .tc := ⟨.hbm, 312, rfl⟩
abbrev main_v126 : Ref sig .tc := ⟨.hbm, 313, rfl⟩
abbrev main_v127 : Ref sig .tc := ⟨.hbm, 314, rfl⟩
abbrev main_call12_c : Ref sig .tc := ⟨.hbm, 315, rfl⟩
abbrev main_call12_v0 : Ref sig .tc := ⟨.hbm, 316, rfl⟩
abbrev main_call12_v1 : Ref sig .tc := ⟨.hbm, 317, rfl⟩
abbrev main_call12_c_0 : Ref sig .tc := ⟨.hbm, 318, rfl⟩
abbrev main_call12_v2 : Ref sig .tc := ⟨.hbm, 319, rfl⟩
abbrev main_call12_v3 : Ref sig .tc := ⟨.hbm, 320, rfl⟩
abbrev main_call12_v4 : Ref sig .tc := ⟨.hbm, 321, rfl⟩
abbrev main_call12_v5 : Ref sig .tc := ⟨.hbm, 322, rfl⟩
abbrev main_call12_c_1 : Ref sig .tc := ⟨.hbm, 323, rfl⟩
abbrev main_call12_c_2 : Ref sig .tc := ⟨.hbm, 324, rfl⟩
abbrev main_call12_v6 : Ref sig .tc := ⟨.hbm, 325, rfl⟩
abbrev main_call12_v7 : Ref sig .tc := ⟨.hbm, 326, rfl⟩
abbrev main_call12_v8 : Ref sig .tc := ⟨.hbm, 327, rfl⟩
abbrev main_call12_v9 : Ref sig .tc := ⟨.hbm, 328, rfl⟩
abbrev main_call12_v10 : Ref sig .tc := ⟨.hbm, 329, rfl⟩
abbrev main_call12_v11 : Ref sig .tc := ⟨.hbm, 330, rfl⟩
abbrev main_call12_c_3 : Ref sig .tc := ⟨.hbm, 331, rfl⟩
abbrev main_call12_v12 : Ref sig .tc := ⟨.hbm, 332, rfl⟩
abbrev main_call12_v13 : Ref sig .tc := ⟨.hbm, 333, rfl⟩
abbrev main_call12_v14 : Ref sig .tc := ⟨.hbm, 334, rfl⟩
abbrev main_call12_cst : Ref sig .tc := ⟨.hbm, 335, rfl⟩
abbrev main_call12_v15 : Ref sig .tc := ⟨.hbm, 336, rfl⟩
abbrev main_v128 : Ref sig .tc := ⟨.hbm, 337, rfl⟩
abbrev main_cst_26 : Ref sig .tc := ⟨.hbm, 338, rfl⟩
abbrev main_v129 : Ref sig .tc := ⟨.hbm, 339, rfl⟩
abbrev main_v130 : Ref sig .tc := ⟨.hbm, 340, rfl⟩
abbrev main_v131 : Ref sig .tc := ⟨.hbm, 341, rfl⟩
abbrev main_cst_27 : Ref sig .tc := ⟨.hbm, 342, rfl⟩
abbrev main_v132 : Ref sig .tc := ⟨.hbm, 343, rfl⟩
abbrev main_cst_28 : Ref sig .tc := ⟨.hbm, 344, rfl⟩
abbrev main_v133 : Ref sig .tc := ⟨.hbm, 345, rfl⟩
abbrev main_v134 : Ref sig .tc := ⟨.hbm, 346, rfl⟩
abbrev main_v135 : Ref sig .tc := ⟨.hbm, 347, rfl⟩
abbrev main_cst_29 : Ref sig .tc := ⟨.hbm, 348, rfl⟩
abbrev main_v136 : Ref sig .tc := ⟨.hbm, 349, rfl⟩
abbrev main_v137 : Ref sig .tc := ⟨.hbm, 350, rfl⟩
abbrev main_v138 : Ref sig .tc := ⟨.hbm, 351, rfl⟩
abbrev main_v139 : Ref sig .tc := ⟨.hbm, 352, rfl⟩
abbrev main_v140 : Ref sig .tc := ⟨.hbm, 353, rfl⟩
abbrev main_v141 : Ref sig .tc := ⟨.hbm, 354, rfl⟩
abbrev main_v142 : Ref sig .tc := ⟨.hbm, 355, rfl⟩
abbrev main_v143 : Ref sig .tc := ⟨.hbm, 356, rfl⟩
abbrev main_v144 : Ref sig .tc := ⟨.hbm, 357, rfl⟩
abbrev main_v145 : Ref sig .tc := ⟨.hbm, 358, rfl⟩
abbrev main_v146 : Ref sig .tc := ⟨.hbm, 359, rfl⟩
abbrev main_call13_v0 : Ref sig .tc := ⟨.hbm, 360, rfl⟩
abbrev main_call13_cst : Ref sig .tc := ⟨.hbm, 361, rfl⟩
abbrev main_call13_v1 : Ref sig .tc := ⟨.hbm, 362, rfl⟩
abbrev main_call13_v2 : Ref sig .tc := ⟨.hbm, 363, rfl⟩
abbrev main_v147 : Ref sig .tc := ⟨.hbm, 364, rfl⟩
abbrev main_cst_30 : Ref sig .tc := ⟨.hbm, 365, rfl⟩
abbrev main_v148 : Ref sig .tc := ⟨.hbm, 366, rfl⟩
abbrev main_v149 : Ref sig .tc := ⟨.hbm, 367, rfl⟩
abbrev main_v150 : Ref sig .tc := ⟨.hbm, 368, rfl⟩
abbrev main_v151 : Ref sig .tc := ⟨.hbm, 369, rfl⟩
abbrev main_call14_cst : Ref sig .tc := ⟨.hbm, 370, rfl⟩
abbrev main_call14_v0 : Ref sig .tc := ⟨.hbm, 371, rfl⟩
abbrev main_v152 : Ref sig .tc := ⟨.hbm, 372, rfl⟩
abbrev main_call15_cst : Ref sig .tc := ⟨.hbm, 373, rfl⟩
abbrev main_call15_v0 : Ref sig .tc := ⟨.hbm, 374, rfl⟩
abbrev main_v153 : Ref sig .tc := ⟨.hbm, 375, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x128_S100000x128_1_0_0_1_n_n_wf : DotDims.WF S100000x128 S128x128 S100000x128 [1] [0] [0] [1] [] []
  gather_S50000x128_S320000x1_S320000x128_1_0_n_n_0_1_1128_wf : GatherDims.WF S50000x128 S320000x1 S320000x128 [1] [0] [] [0] [] 1 ![1, 128]
  scatter_S100000x128_S320000x1_S320000x128_1_0_0_1_wf : ScatterDims.WF S100000x128 S320000x1 S320000x128 [1] [0] [0] 1
  scatter_S100000_S320000x1_S320000_n_0_0_1_wf : ScatterDims.WF S100000 S320000x1 S320000 [] [0] [0] 1
  gather_S100000x128_S320000x1_S320000x128_1_0_n_n_0_1_1128_wf : GatherDims.WF S100000x128 S320000x1 S320000x128 [1] [0] [] [0] [] 1 ![1, 128]
  scatter_S50000x128_S320000x1_S320000x128_1_0_0_1_wf : ScatterDims.WF S50000x128 S320000x1 S320000x128 [1] [0] [0] 1
  scatter_S50000_S320000x1_S320000_n_0_0_1_wf : ScatterDims.WF S50000 S320000x1 S320000 [] [0] [0] 1
  dot_S50000x128_S128x128_S50000x128_1_0_0_1_n_n_wf : DotDims.WF S50000x128 S128x128 S50000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S100000x128_S320000x1_S320000x128_1_0_0_1 : ScatterDims S100000x128 S320000x1 S320000x128 where
  updateWindowDims := [1]
  insertedWindowDims := [0]
  scatterDimsToOperandDims := [0]
  indexVectorDim := 1
  wf := scatter_S100000x128_S320000x1_S320000x128_1_0_0_1_wf
def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def gather_S100000x128_S320000x1_S320000x128_1_0_n_n_0_1_1128 : GatherDims S100000x128 S320000x1 S320000x128 where
  offsetDims := [1]
  collapsedSliceDims := [0]
  operandBatchingDims := []
  startIndicesBatchingDims := []
  startIndexMap := [0]
  indexVectorDim := 1
  sliceSizes := ![1, 128]
  wf := gather_S100000x128_S320000x1_S320000x128_1_0_n_n_0_1_1128_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Stages.lean ====
/-
  The stages of the two-layer heterogeneous GraphSAGE forward pass, as pure functions of arrays, each written as the
  straight line of host operations that computes it: the row gather with its index wrap and out-of-range fill, the
  mean aggregation (scatter-add of the gathered rows and of ones, divided by the count clamped below at one), the
  SAGE update  normalize(mean · Wl + b + x · Wr)  with the row norm clamped below at 1e-12, the average of the two
  paper updates, and the rectifier; then the two layers composed.
-/
import proofs.«106662_j20968030339503_1_alg».proof.Proof.Gen.ReferenceIdeal

noncomputable section

namespace Cert.Sage

open Cert.ReferenceIdeal Cert.ReferenceIdeal.Gen Idealize.ShloMosaic

variable {F : FTy → Type} [FloatOps F]

/-- Rows of `x` (papers) at the 1,000,000 indices `src`: a negative index is wrapped by adding 100000, a row whose wrapped index lies outside 0 … 99999 is filled with the quiet-NaN word. -/
noncomputable def takeC (x : (⟨S100000x128, .f32⟩ : BufTy).Contents (Elt F)) (src : (⟨S1000000, .i32⟩ : BufTy).Contents (Elt F)) :
    (⟨S1000000x128, .f32⟩ : BufTy).Contents (Elt F) :=
  let t0 : (⟨S_, .i32⟩ : BufTy).Contents (Elt F) := constantI S_ 32 0#32
  let t1 : (⟨S1000000, .i32⟩ : BufTy).Contents (Elt F) := broadcastInDim S1000000 ![] bcast_S_S1000000 t0
  let t2 : (⟨S1000000, .i1⟩ : BufTy).Contents (Elt F) := cmpi .slt src t1
  let t3 : (⟨S_, .i32⟩ : BufTy).Contents (Elt F) := constantI S_ 32 100000#32
  let t4 : (⟨S1000000, .i32⟩ : BufTy).Contents (Elt F) := broadcastInDim S1000000 ![] bcast_S_S1000000 t3
  let t5 : (⟨S1000000, .i32⟩ : BufTy).Contents (Elt F) := addi src t4
  let t6 : (⟨S1000000, .i32⟩ : BufTy).Contents (Elt F) := select t2 t5 src
  let t7 : (⟨S1000000x1, .i32⟩ : BufTy).Contents (Elt F) := broadcastInDim S1000000x1 ![0] bcast_S1000000_S1000000x1_0 t6
  let t8 : (⟨S1, .i32⟩ : BufTy).Contents (Elt F) := constantI S1 32 99999#32
  let t9 : (⟨S_, .i32⟩ : BufTy).Contents (Elt F) := constantI S_ 32 0#32
  let t10 : (⟨S1000000x1, .i32⟩ : BufTy).Contents (Elt F) := broadcastInDim S1000000x1 ![] bcast_S_S1000000x1 t9
  let t11 : (⟨S1000000x1, .i1⟩ : BufTy).Contents (Elt F) := cmpi .sge t7 t10
  let t12 : (⟨S1x1, .i32⟩ : BufTy).Contents (Elt F) := broadcastInDim S1x1 ![1] bcast_S1_S1x1_1 t8
  let t13 : (⟨S1000000x1, .i32⟩ : BufTy).Contents (Elt F) := broadcastInDim S1000000x1 ![0, 1] bcast_S1x1_S1000000x1_0_1 t12
  let t14 : (⟨S1000000x1, .i1⟩ : BufTy).Contents (Elt F) := cmpi .sle t7 t13
  let t15 : (⟨S1000000x1, .i1⟩ : BufTy).Contents (Elt F) := andi t11 t14
  let t16 : (⟨S_, .i1⟩ : BufTy).Contents (Elt F) := constantI S_ 1 1#1
  let t17 : (⟨S1000000, .i1⟩ : BufTy).Contents (Elt F) := Host.reduce IntOp.andi t15 t16 reducesTo_S1000000x1_S1000000_d1 h_S_
  let t18 : (⟨S1000000x128, .f32⟩ : BufTy).Contents (Elt F) := Host.gather gather_S100000x128_S1000000x1_S1000000x128_1_0_n_n_0_1_1128 x t7
  let t19 : (⟨S1000000x128, .i1⟩ : BufTy).Contents (Elt F) := broadcastInDim S1000000x128 ![0] bcast_S1000000_S1000000x128_0 t17
  let t20 : (⟨S_, .f32⟩ : BufTy).Contents (Elt F) := constant S_ .f32 0x7FC00000#32
  let t21 : (⟨S1000000x128, .f32⟩ : BufTy).Contents (Elt F) := broadcastInDim S1000000x128 ![] bcast_S_S1000000x128 t20
  select t19 t18 t21

/-- Rows of `x` (authors) at the 320,000 indices `src`: a negative index is wrapped by adding 50000, a row whose wrapped index lies outside 0 … 49999 is filled with the quiet-NaN word. -/
noncomputable def takeW (x : (⟨S50000x128, .f32⟩ : BufTy).Contents (Elt F)) (src : (⟨S320000, .i32⟩ : BufTy).Contents (Elt F)) :
    (⟨S320000x128, .f32⟩ : BufTy).Contents (Elt F) :=
  let t0 : (⟨S_, .i32⟩ : BufTy).Contents (Elt F) := constantI S_ 32 0#32
  let t1 : (⟨S320000, .i32⟩ : BufTy).Contents (Elt F) := broadcastInDim S320000 ![] bcast_S_S320000 t0
  let t2 : (⟨S320000, .i1⟩ : BufTy).Contents (Elt F) := cmpi .slt src t1
  let t3 : (⟨S_, .i32⟩ : BufTy).Contents (Elt F) := constantI S_ 32 50000#32
  let t4 : (⟨S320000, .i32⟩ : BufTy).Contents (Elt F) := broadcastInDim S320000 ![] bcast_S_S320000 t3
  let t5 : (⟨S320000, .i32⟩ : BufTy).Contents (Elt F) := addi src t4
  let t6 : (⟨S320000, .i32⟩ : BufTy).Contents (Elt F) := select t2 t5 src
  let t7 : (⟨S320000x1, .i32⟩ : BufTy).Contents (Elt F) := broadcastInDim S320000x1 ![0] bcast_S320000_S320000x1_0 t6
  let t8 : (⟨S1, .i32⟩ : BufTy).Contents (Elt F) := constantI S1 32 49999#32
  let t9 : (⟨S_, .i32⟩ : BufTy).Contents (Elt F) := constantI S_ 32 0#32
  let t10 : (⟨S320000x1, .i32⟩ : BufTy).Contents (Elt F) := broadcastInDim S320000x1 ![] bcast_S_S320000x1 t9
  let t11 : (⟨S320000x1, .i1⟩ : BufTy).Contents (Elt F) := cmpi .sge t7 t10
  let t12 : (⟨S1x1, .i32⟩ : BufTy).Contents (Elt F) := broadcastInDim S1x1 ![1] bcast_S1_S1x1_1 t8
  let t13 : (⟨S320000x1, .i32⟩ : BufTy).Contents (Elt F) := broadcastInDim S320000x1 ![0, 1] bcast_S1x1_S320000x1_0_1 t12
  let t14 : (⟨S320000x1, .i1⟩ : BufTy).Contents (Elt F) := cmpi .sle t7 t13
  let t15 : (⟨S320000x1, .i1⟩ : BufTy).Contents (Elt F) := andi t11 t14
  let t16 : (⟨S_, .i1⟩ : BufTy).Contents (Elt F) := constantI S_ 1 1#1
  let t17 : (⟨S320000, .i1⟩ : BufTy).Contents (Elt F) := Host.reduce IntOp.andi t15 t16 reducesTo_S320000x1_S320000_d1 h_S_
  let t18 : (⟨S320000x128, .f32⟩ : BufTy).Contents (Elt F) := Host.gather gather_S50000x128_S320000x1_S320000x128_1_0_n_n_0_1_1128 x t7
  let t19 : (⟨S320000x128, .i1⟩ : BufTy).Contents (Elt F) := broadcastInDim S320000x128 ![0] bcast_S320000_S320000x128_0 t17
  let t20 : (⟨S_, .f32⟩ : BufTy).Contents (Elt F) := constant S_ .f32 0x7FC00000#32
  let t21 : (⟨S320000x128, .f32⟩ : BufTy).Contents (Elt F) := broadcastInDim S320000x128 ![] bcast_S_S320000x128 t20
  select t19 t18 t21

/-- Rows of `x` (papers) at the 320,000 indices `src`: a negative index is wrapped by adding 100000, a row whose wrapped index lies outside 0 … 99999 is filled with the quiet-NaN word. -/
noncomputable def takeR (x : (⟨S100000x128, .f32⟩ : BufTy).Contents (Elt F)) (src : (⟨S320000, .i32⟩ : BufTy).Contents (Elt F)) :
    (⟨S320000x128, .f32⟩ : BufTy).Contents (Elt F) :=
  let t0 : (⟨S_, .i32⟩ : BufTy).Contents (Elt F) := constantI S_ 32 0#32
  let t1 : (⟨S320000, .i32⟩ : BufTy).Contents (Elt F) := broadcastInDim S320000 ![] bcast_S_S320000 t0
  let t2 : (⟨S320000, .i1⟩ : BufTy).Contents (Elt F) := cmpi .slt src t1
  let t3 : (⟨S_, .i32⟩ : BufTy).Contents (Elt F) := constantI S_ 32 100000#32
  let t4 : (⟨S320000, .i32⟩ : BufTy).Contents (Elt F) := broadcastInDim S320000 ![] bcast_S_S320000 t3
  let t5 : (⟨S320000, .i32⟩ : BufTy).Contents (Elt F) := addi src t4
  let t6 : (⟨S320000, .i32⟩ : BufTy).Contents (Elt F) := select t2 t5 src
  let t7 : (⟨S320000x1, .i32⟩ : BufTy).Contents (Elt F) := broadcastInDim S320000x1 ![0] bcast_S320000_S320000x1_0 t6
  let t8 : (⟨S1, .i32⟩ : BufTy).Contents (Elt F) := constantI S1 32 99999#32
  let t9 : (⟨S_, .i32⟩ : BufTy).Contents (Elt F) := constantI S_ 32 0#32
  let t10 : (⟨S320000x1, .i32⟩ : BufTy).Contents (Elt F) := broadcastInDim S320000x1 ![] bcast_S_S320000x1 t9
  let t11 : (⟨S320000x1, .i1⟩ : BufTy).Contents (Elt F) := cmpi .sge t7 t10
  let t12 : (⟨S1x1, .i32⟩ : BufTy).Contents (Elt F) := broadcastInDim S1x1 ![1] bcast_S1_S1x1_1 t8
  let t13 : (⟨S320000x1, .i32⟩ : BufTy).Contents (Elt F) := broadcastInDim S320000x1 ![0, 1] bcast_S1x1_S320000x1_0_1 t12
  let t14 : (⟨S320000x1, .i1⟩ : BufTy).Contents (Elt F) := cmpi .sle t7 t13
  let t15 : (⟨S320000x1, .i1⟩ : BufTy).Contents (Elt F) := andi t11 t14
  let t16 : (⟨S_, .i1⟩ : BufTy).Contents (Elt F) := constantI S_ 1 1#1
  let t17 : (⟨S320000, .i1⟩ : BufTy).Contents (Elt F) := Host.reduce IntOp.andi t15 t16 reducesTo_S320000x1_S320000_d1 h_S_
  let t18 : (⟨S320000x128, .f32⟩ : BufTy).Contents (Elt F) := Host.gather gather_S100000x128_S320000x1_S320000x128_1_0_n_n_0_1_1128 x t7
  let t19 : (⟨S320000x128, .i1⟩ : BufTy).Contents (Elt F) := broadcastInDim S320000x128 ![0] bcast_S320000_S320000x128_0 t17
  let t20 : (⟨S_, .f32⟩ : BufTy).Contents (Elt F) := constant S_ .f32 0x7FC00000#32
  let t21 : (⟨S320000x128, .f32⟩ : BufTy).Contents (Elt F) := broadcastInDim S320000x128 ![] bcast_S_S320000x128 t20
  select t19 t18 t21

/-- Mean over the cites edges: the gathered paper rows summed into their destination paper (scatter-add into zeros), divided by the number of edges into that paper (scatter-add of ones) clamped below at 1. -/
noncomputable def meanC (x : (⟨S100000x128, .f32⟩ : BufTy).Contents (Elt F)) (src dst : (⟨S1000000, .i32⟩ : BufTy).Contents (Elt F)) :
    (⟨S100000x128, .f32⟩ : BufTy).Contents (Elt F) :=
  let t : (⟨S1000000x128, .f32⟩ : BufTy).Contents (Elt F) := takeC x src
  let t0 : (⟨S_, .f32⟩ : BufTy).Contents (Elt F) := constant S_ .f32 0x00000000#32
  let t1 : (⟨S100000x128, .f32⟩ : BufTy).Contents (Elt F) := broadcastInDim S100000x128 ![] bcast_S_S100000x128 t0
  let t2 : (⟨S1000000x1, .i32⟩ : BufTy).Contents (Elt F) := broadcastInDim S1000000x1 ![0] bcast_S1000000_S1000000x1_0 dst
  let t3 : (⟨S100000x128, .f32⟩ : BufTy).Contents (Elt F) := Host.scatterAdd scatter_S100000x128_S1000000x1_S1000000x128_1_0_0_1 t1 t2 t
  let t4 : (⟨S_, .f32⟩ : BufTy).Contents (Elt F) := constant S_ .f32 0x3F800000#32
  let t5 : (⟨S1000000, .f32⟩ : BufTy).Contents (Elt F) := broadcastInDim S1000000 ![] bcast_S_S1000000 t4
  let t6 : (⟨S_, .f32⟩ : BufTy).Contents (Elt F) := constant S_ .f32 0x00000000#32
  let t7 : (⟨S100000, .f32⟩ : BufTy).Contents (Elt F) := broadcastInDim S100000 ![] bcast_S_S100000 t6
  let t8 : (⟨S1000000x1, .i32⟩ : BufTy).Contents (Elt F) := broadcastInDim S1000000x1 ![0] bcast_S1000000_S1000000x1_0 dst
  let t9 : (⟨S100000, .f32⟩ : BufTy).Contents (Elt F) := Host.scatterAdd scatter_S100000_S1000000x1_S1000000_n_0_0_1 t7 t8 t5
  let t10 : (⟨S_, .f32⟩ : BufTy).Contents (Elt F) := constant S_ .f32 0x3F800000#32
  let t11 : (⟨S100000, .f32⟩ : BufTy).Contents (Elt F) := broadcastInDim S100000 ![] bcast_S_S100000 t10
  let t12 : (⟨S100000, .f32⟩ : BufTy).Contents (Elt F) := maximumf t9 t11
  let t13 : (⟨S100000x1, .f32⟩ : BufTy).Contents (Elt F) := broadcastInDim S100000x1 ![0] bcast_S100000_S100000x1_0 t12
  let t14 : (⟨S100000x128, .f32⟩ : BufTy).Contents (Elt F) := broadcastInDim S100000x128 ![0, 1] bcast_S100000x1_S100000x128_0_1 t13
  Host.divf t3 t14

/-- Mean over the writes edges: the gathered author rows summed into their destination paper, divided by the number of edges into that paper clamped below at 1. -/
noncomputable def meanW (x : (⟨S50000x128, .f32⟩ : BufTy).Contents (Elt F)) (src dst : (⟨S320000, .i32⟩ : BufTy).Contents (Elt F)) :
    (⟨S100000x128, .f32⟩ : BufTy).Contents (Elt F) :=
  let t : (⟨S320000x128, .f32⟩ : BufTy).Contents (Elt F) := takeW x src
  let t0 : (⟨S_, .f32⟩ : BufTy).Contents (Elt F) := constant S_ .f32 0x00000000#32
  let t1 : (⟨S100000x128, .f32⟩ : BufTy).Contents (Elt F) := broadcastInDim S100000x128 ![] bcast_S_S100000x128 t0
  let t2 : (⟨S320000x1, .i32⟩ : BufTy).Contents (Elt F) := broadcastInDim S320000x1 ![0] bcast_S320000_S320000x1_0 dst
  let t3 : (⟨S100000x128, .f32⟩ : BufTy).Contents (Elt F) := Host.scatterAdd scatter_S100000x128_S320000x1_S320000x128_1_0_0_1 t1 t2 t
  let t4 : (⟨S_, .f32⟩ : BufTy).Contents (Elt F) := constant S_ .f32 0x3F800000#32
  let t5 : (⟨S320000, .f32⟩ : BufTy).Contents (Elt F) := broadcastInDim S320000 ![] bcast_S_S320000 t4
  let t6 : (⟨S_, .f32⟩ : BufTy).Contents (Elt F) := constant S_ .f32 0x00000000#32
  let t7 : (⟨S100000, .f32⟩ : BufTy).Contents (Elt F) := broadcastInDim S100000 ![] bcast_S_S100000 t6
  let t8 : (⟨S320000x1, .i32⟩ : BufTy).Contents (Elt F) := broadcastInDim S320000x1 ![0] bcast_S320000_S320000x1_0 dst
  let t9 : (⟨S100000, .f32⟩ : BufTy).Contents (Elt F) := Host.scatterAdd scatter_S100000_S320000x1_S320000_n_0_0_1 t7 t8 t5
  let t10 : (⟨S_, .f32⟩ : BufTy).Contents (Elt F) := constant S_ .f32 0x3F800000#32
  let t11 : (⟨S100000, .f32⟩ : BufTy).Contents (Elt F) := broadcastInDim S100000 ![] bcast_S_S100000 t10
  let t12 : (⟨S100000, .f32⟩ : BufTy).Contents (Elt F) := maximumf t9 t11
  let t13 : (⟨S100000x1, .f32⟩ : BufTy).Contents (Elt F) := broadcastInDim S100000x1 ![0] bcast_S100000_S100000x1_0 t12
  let t14 : (⟨S100000x128, .f32⟩ : BufTy).Contents (Elt F) := broadcastInDim S100000x128 ![0, 1] bcast_S100000x1_S100000x128_0_1 t13
  Host.divf t3 t14

/-- Mean over the reversed writes edges: the gathered paper rows summed into their destination author, divided by the number of edges into that author clamped below at 1. -/
noncomputable def meanR (x : (⟨S100000x128, .f32⟩ : BufTy).Contents (Elt F)) (src dst : (⟨S320000, .i32⟩ : BufTy).Contents (Elt F)) :
    (⟨S50000x128, .f32⟩ : BufTy).Contents (Elt F) :=
  let t : (⟨S320000x128, .f32⟩ : BufTy).Contents (Elt F) := takeR x src
  let t0 : (⟨S_, .f32⟩ : BufTy).Contents (Elt F) := constant S_ .f32 0x00000000#32
  let t1 : (⟨S50000x128, .f32⟩ : BufTy).Contents (Elt F) := broadcastInDim S50000x128 ![] bcast_S_S50000x128 t0
  let t2 : (⟨S320000x1, .i32⟩ : BufTy).Contents (Elt F) := broadcastInDim S320000x1 ![0] bcast_S320000_S320000x1_0 dst
  let t3 : (⟨S50000x128, .f32⟩ : BufTy).Contents (Elt F) := Host.scatterAdd scatter_S50000x128_S320000x1_S320000x128_1_0_0_1 t1 t2 t
  let t4 : (⟨S_, .f32⟩ : BufTy).Contents (Elt F) := constant S_ .f32 0x3F800000#32
  let t5 : (⟨S320000, .f32⟩ : BufTy).Contents (Elt F) := broadcastInDim S320000 ![] bcast_S_S320000 t4
  let t6 : (⟨S_, .f32⟩ : BufTy).Contents (Elt F) := constant S_ .f32 0x00000000#32
  let t7 : (⟨S50000, .f32⟩ : BufTy).Contents (Elt F) := broadcastInDim S50000 ![] bcast_S_S50000 t6
  let t8 : (⟨S320000x1, .i32⟩ : BufTy).Contents (Elt F) := broadcastInDim S320000x1 ![0] bcast_S320000_S320000x1_0 dst
  let t9 : (⟨S50000, .f32⟩ : BufTy).Contents (Elt F) := Host.scatterAdd scatter_S50000_S320000x1_S320000_n_0_0_1 t7 t8 t5
  let t10 : (⟨S_, .f32⟩ : BufTy).Contents (Elt F) := constant S_ .f32 0x3F800000#32
  let t11 : (⟨S50000, .f32⟩ : BufTy).Contents (Elt F) := broadcastInDim S50000 ![] bcast_S_S50000 t10
  let t12 : (⟨S50000, .f32⟩ : BufTy).Contents (Elt F) := maximumf t9 t11
  let t13 : (⟨S50000x1, .f32⟩ : BufTy).Contents (Elt F) := broadcastInDim S50000x1 ![0] bcast_S50000_S50000x1_0 t12
  let t14 : (⟨S50000x128, .f32⟩ : BufTy).Contents (Elt F) := broadcastInDim S50000x128 ![0, 1] bcast_S50000x1_S50000x128_0_1 t13
  Host.divf t3 t14

/-- The SAGE update of the papers: `pre = mean · Wl + b + x · Wr`, each row divided by its Euclidean norm clamped below at the f32 word of 1e-12. -/
noncomputable def sageP (mean : (⟨S100000x128, .f32⟩ : BufTy).Contents (Elt F)) (x : (⟨S100000x128, .f32⟩ : BufTy).Contents (Elt F)) (Wl : (⟨S128x128, .f32⟩ : BufTy).Contents (Elt F)) (b : (⟨S128, .f32⟩ : BufTy).Contents (Elt F)) (Wr : (⟨S128x128, .f32⟩ : BufTy).Contents (Elt F)) :
    (⟨S100000x128, .f32⟩ : BufTy).Contents (Elt F) :=
  let t0 : (⟨S100000x128, .f32⟩ : BufTy).Contents (Elt F) := Host.dotGeneral dot_S100000x128_S128x128_S100000x128_1_0_0_1_n_n none mean Wl
  let t1 : (⟨S1x128, .f32⟩ : BufTy).Contents (Elt F) := broadcastInDim S1x128 ![1] bcast_S128_S1x128_1 b
  let t2 : (⟨S100000x128, .f32⟩ : BufTy).Contents (Elt F) := broadcastInDim S100000x128 ![0, 1] bcast_S1x128_S100000x128_0_1 t1
  let t3 : (⟨S100000x128, .f32⟩ : BufTy).Contents (Elt F) := addf t0 t2
  let t4 : (⟨S100000x128, .f32⟩ : BufTy).Contents (Elt F) := Host.dotGeneral dot_S100000x128_S128x128_S100000x128_1_0_0_1_n_n none x Wr
  let t5 : (⟨S100000x128, .f32⟩ : BufTy).Contents (Elt F) := addf t3 t4
  let t6 : (⟨S100000x128, .f32⟩ : BufTy).Contents (Elt F) := mulf t5 t5
  let t7 : (⟨S_, .f32⟩ : BufTy).Contents (Elt F) := constant S_ .f32 0x00000000#32
  let t8 : (⟨S100000, .f32⟩ : BufTy).Contents (Elt F) := Host.reduceAdd t6 t7 reducesTo_S100000x128_S100000_d1 h_S_
  let t9 : (⟨S100000x1, .f32⟩ : BufTy).Contents (Elt F) := broadcastInDim S100000x1 ![0] bcast_S100000_S100000x1_0 t8
  let t10 : (⟨S100000x1, .f32⟩ : BufTy).Contents (Elt F) := Host.sqrt t9
  let t11 : (⟨S_, .f32⟩ : BufTy).Contents (Elt F) := constant S_ .f32 0x2B8CBCCC#32
  let t12 : (⟨S100000x1, .f32⟩ : BufTy).Contents (Elt F) := broadcastInDim S100000x1 ![] bcast_S_S100000x1 t11
  let t13 : (⟨S100000x1, .f32⟩ : BufTy).Contents (Elt F) := maximumf t10 t12
  let t14 : (⟨S100000x128, .f32⟩ : BufTy).Contents (Elt F) := broadcastInDim S100000x128 ![0, 1] bcast_S100000x1_S100000x128_0_1 t13
  Host.divf t5 t14

/-- The SAGE update of the authors: `pre = mean · Wl + b + x · Wr`, each row divided by its Euclidean norm clamped below at the f32 word of 1e-12. -/
noncomputable def sageA (mean : (⟨S50000x128, .f32⟩ : BufTy).Contents (Elt F)) (x : (⟨S50000x128, .f32⟩ : BufTy).Contents (Elt F)) (Wl : (⟨S128x128, .f32⟩ : BufTy).Contents (Elt F)) (b : (⟨S128, .f32⟩ : BufTy).Contents (Elt F)) (Wr : (⟨S128x128, .f32⟩ : BufTy).Contents (Elt F)) :
    (⟨S50000x128, .f32⟩ : BufTy).Contents (Elt F) :=
  let t0 : (⟨S50000x128, .f32⟩ : BufTy).Contents (Elt F) := Host.dotGeneral dot_S50000x128_S128x128_S50000x128_1_0_0_1_n_n none mean Wl
  let t1 : (⟨S1x128, .f32⟩ : BufTy).Contents (Elt F) := broadcastInDim S1x128 ![1] bcast_S128_S1x128_1 b
  let t2 : (⟨S50000x128, .f32⟩ : BufTy).Contents (Elt F) := broadcastInDim S50000x128 ![0, 1] bcast_S1x128_S50000x128_0_1 t1
  let t3 : (⟨S50000x128, .f32⟩ : BufTy).Contents (Elt F) := addf t0 t2
  let t4 : (⟨S50000x128, .f32⟩ : BufTy).Contents (Elt F) := Host.dotGeneral dot_S50000x128_S128x128_S50000x128_1_0_0_1_n_n none x Wr
  let t5 : (⟨S50000x128, .f32⟩ : BufTy).Contents (Elt F) := addf t3 t4
  let t6 : (⟨S50000x128, .f32⟩ : BufTy).Contents (Elt F) := mulf t5 t5
  let t7 : (⟨S_, .f32⟩ : BufTy).Contents (Elt F) := constant S_ .f32 0x00000000#32
  let t8 : (⟨S50000, .f32⟩ : BufTy).Contents (Elt F) := Host.reduceAdd t6 t7 reducesTo_S50000x128_S50000_d1 h_S_
  let t9 : (⟨S50000x1, .f32⟩ : BufTy).Contents (Elt F) := broadcastInDim S50000x1 ![0] bcast_S50000_S50000x1_0 t8
  let t10 : (⟨S50000x1, .f32⟩ : BufTy).Contents (Elt F) := Host.sqrt t9
  let t11 : (⟨S_, .f32⟩ : BufTy).Contents (Elt F) := constant S_ .f32 0x2B8CBCCC#32
  let t12 : (⟨S50000x1, .f32⟩ : BufTy).Contents (Elt F) := broadcastInDim S50000x1 ![] bcast_S_S50000x1 t11
  let t13 : (⟨S50000x1, .f32⟩ : BufTy).Contents (Elt F) := maximumf t10 t12
  let t14 : (⟨S50000x128, .f32⟩ : BufTy).Contents (Elt F) := broadcastInDim S50000x128 ![0, 1] bcast_S50000x1_S50000x128_0_1 t13
  Host.divf t5 t14

/-- Half the sum of two paper arrays: the mean over the two edge types that end at a paper. -/
noncomputable def halfSum (p : (⟨S100000x128, .f32⟩ : BufTy).Contents (Elt F)) (q : (⟨S100000x128, .f32⟩ : BufTy).Contents (Elt F)) :
    (⟨S100000x128, .f32⟩ : BufTy).Contents (Elt F) :=
  let t0 : (⟨S100000x128, .f32⟩ : BufTy).Contents (Elt F) := addf p q
  let t1 : (⟨S_, .f32⟩ : BufTy).Contents (Elt F) := constant S_ .f32 0x3F000000#32
  let t2 : (⟨S100000x128, .f32⟩ : BufTy).Contents (Elt F) := broadcastInDim S100000x128 ![] bcast_S_S100000x128 t1
  mulf t2 t0

/-- The rectifier on a paper array: the maximum with zero. -/
noncomputable def reluP (v : (⟨S100000x128, .f32⟩ : BufTy).Contents (Elt F)) :
    (⟨S100000x128, .f32⟩ : BufTy).Contents (Elt F) :=
  let t0 : (⟨S_, .f32⟩ : BufTy).Contents (Elt F) := constant S_ .f32 0x00000000#32
  let t1 : (⟨S100000x128, .f32⟩ : BufTy).Contents (Elt F) := broadcastInDim S100000x128 ![] bcast_S_S100000x128 t0
  maximumf v t1

/-- The rectifier on an author array: the maximum with zero. -/
noncomputable def reluA (v : (⟨S50000x128, .f32⟩ : BufTy).Contents (Elt F)) :
    (⟨S50000x128, .f32⟩ : BufTy).Contents (Elt F) :=
  let t0 : (⟨S_, .f32⟩ : BufTy).Contents (Elt F) := constant S_ .f32 0x00000000#32
  let t1 : (⟨S50000x128, .f32⟩ : BufTy).Contents (Elt F) := broadcastInDim S50000x128 ![] bcast_S_S50000x128 t0
  maximumf v t1

/-- One layer's new paper features: the rectified mean of the cites update and the writes update. -/
noncomputable def paperL (mc mw xp : (⟨S100000x128, .f32⟩ : BufTy).Contents (Elt F))
    (Wlc : (⟨S128x128, .f32⟩ : BufTy).Contents (Elt F)) (blc : (⟨S128, .f32⟩ : BufTy).Contents (Elt F)) (Wrc Wlw : (⟨S128x128, .f32⟩ : BufTy).Contents (Elt F)) (blw : (⟨S128, .f32⟩ : BufTy).Contents (Elt F)) (Wrw : (⟨S128x128, .f32⟩ : BufTy).Contents (Elt F)) :
    (⟨S100000x128, .f32⟩ : BufTy).Contents (Elt F) :=
  reluP (halfSum (sageP mc xp Wlc blc Wrc) (sageP mw xp Wlw blw Wrw))

/-- One layer's new author features: the rectified update over the reversed writes edges. -/
noncomputable def authorL (mr xa : (⟨S50000x128, .f32⟩ : BufTy).Contents (Elt F)) (Wl : (⟨S128x128, .f32⟩ : BufTy).Contents (Elt F)) (b : (⟨S128, .f32⟩ : BufTy).Contents (Elt F)) (Wr : (⟨S128x128, .f32⟩ : BufTy).Contents (Elt F)) :
    (⟨S50000x128, .f32⟩ : BufTy).Contents (Elt F) :=
  reluA (sageA mr xa Wl b Wr)

/-- The papers after layer 0, as a function of the 26 arguments' first seventeen. -/
noncomputable def xp1 (a0 : (⟨S100000x128, .f32⟩ : BufTy).Contents (Elt F))
    (a1 : (⟨S50000x128, .f32⟩ : BufTy).Contents (Elt F))
    (a2 : (⟨S1000000, .i32⟩ : BufTy).Contents (Elt F))
    (a3 : (⟨S1000000, .i32⟩ : BufTy).Contents (Elt F))
    (a4 : (⟨S320000, .i32⟩ : BufTy).Contents (Elt F))
    (a5 : (⟨S320000, .i32⟩ : BufTy).Contents (Elt F))
    (a6 : (⟨S320000, .i32⟩ : BufTy).Contents (Elt F))
    (a7 : (⟨S320000, .i32⟩ : BufTy).Contents (Elt F))
    (a8 : (⟨S128x128, .f32⟩ : BufTy).Contents (Elt F))
    (a9 : (⟨S128, .f32⟩ : BufTy).Contents (Elt F))
    (a10 : (⟨S128x128, .f32⟩ : BufTy).Contents (Elt F))
    (a11 : (⟨S128x128, .f32⟩ : BufTy).Contents (Elt F))
    (a12 : (⟨S128, .f32⟩ : BufTy).Contents (Elt F))
    (a13 : (⟨S128x128, .f32⟩ : BufTy).Contents (Elt F))
    (a14 : (⟨S128x128, .f32⟩ : BufTy).Contents (Elt F))
    (a15 : (⟨S128, .f32⟩ : BufTy).Contents (Elt F))
    (a16 : (⟨S128x128, .f32⟩ : BufTy).Contents (Elt F))
    (a17 : (⟨S128x128, .f32⟩ : BufTy).Contents (Elt F))
    (a18 : (⟨S128, .f32⟩ : BufTy).Contents (Elt F))
    (a19 : (⟨S128x128, .f32⟩ : BufTy).Contents (Elt F))
    (a20 : (⟨S128x128, .f32⟩ : BufTy).Contents (Elt F))
    (a21 : (⟨S128, .f32⟩ : BufTy).Contents (Elt F))
    (a22 : (⟨S128x128, .f32⟩ : BufTy).Contents (Elt F))
    (a23 : (⟨S128x128, .f32⟩ : BufTy).Contents (Elt F))
    (a24 : (⟨S128, .f32⟩ : BufTy).Contents (Elt F))
    (a25 : (⟨S128x128, .f32⟩ : BufTy).Contents (Elt F)) :
    (⟨S100000x128, .f32⟩ : BufTy).Contents (Elt F) :=
  paperL (meanC a0 a2 a3) (meanW a1 a4 a5) a0 a8 a9 a10 a11 a12 a13

/-- The authors after layer 0. -/
noncomputable def xa1 (a0 : (⟨S100000x128, .f32⟩ : BufTy).Contents (Elt F))
    (a1 : (⟨S50000x128, .f32⟩ : BufTy).Contents (Elt F))
    (a2 : (⟨S1000000, .i32⟩ : BufTy).Contents (Elt F))
    (a3 : (⟨S1000000, .i32⟩ : BufTy).Contents (Elt F))
    (a4 : (⟨S320000, .i32⟩ : BufTy).Contents (Elt F))
    (a5 : (⟨S320000, .i32⟩ : BufTy).Contents (Elt F))
    (a6 : (⟨S320000, .i32⟩ : BufTy).Contents (Elt F))
    (a7 : (⟨S320000, .i32⟩ : BufTy).Contents (Elt F))
    (a8 : (⟨S128x128, .f32⟩ : BufTy).Contents (Elt F))
    (a9 : (⟨S128, .f32⟩ : BufTy).Contents (Elt F))
    (a10 : (⟨S128x128, .f32⟩ : BufTy).Contents (Elt F))
    (a11 : (⟨S128x128, .f32⟩ : BufTy).Contents (Elt F))
    (a12 : (⟨S128, .f32⟩ : BufTy).Contents (Elt F))
    (a13 : (⟨S128x128, .f32⟩ : BufTy).Contents (Elt F))
    (a14 : (⟨S128x128, .f32⟩ : BufTy).Contents (Elt F))
    (a15 : (⟨S128, .f32⟩ : BufTy).Contents (Elt F))
    (a16 : (⟨S128x128, .f32⟩ : BufTy).Contents (Elt F))
    (a17 : (⟨S128x128, .f32⟩ : BufTy).Contents (Elt F))
    (a18 : (⟨S128, .f32⟩ : BufTy).Contents (Elt F))
    (a19 : (⟨S128x128, .f32⟩ : BufTy).Contents (Elt F))
    (a20 : (⟨S128x128, .f32⟩ : BufTy).Contents (Elt F))
    (a21 : (⟨S128, .f32⟩ : BufTy).Contents (Elt F))
    (a22 : (⟨S128x128, .f32⟩ : BufTy).Contents (Elt F))
    (a23 : (⟨S128x128, .f32⟩ : BufTy).Contents (Elt F))
    (a24 : (⟨S128, .f32⟩ : BufTy).Contents (Elt F))
    (a25 : (⟨S128x128, .f32⟩ : BufTy).Contents (Elt F)) :
    (⟨S50000x128, .f32⟩ : BufTy).Contents (Elt F) :=
  authorL (meanR a0 a6 a7) a1 a14 a15 a16

/-- The first result: the papers after layer 1. -/
noncomputable def out0 (a0 : (⟨S100000x128, .f32⟩ : BufTy).Contents (Elt F))
    (a1 : (⟨S50000x128, .f32⟩ : BufTy).Contents (Elt F))
    (a2 : (⟨S1000000, .i32⟩ : BufTy).Contents (Elt F))
    (a3 : (⟨S1000000, .i32⟩ : BufTy).Contents (Elt F))
    (a4 : (⟨S320000, .i32⟩ : BufTy).Contents (Elt F))
    (a5 : (⟨S320000, .i32⟩ : BufTy).Contents (Elt F))
    (a6 : (⟨S320000, .i32⟩ : BufTy).Contents (Elt F))
    (a7 : (⟨S320000, .i32⟩ : BufTy).Contents (Elt F))
    (a8 : (⟨S128x128, .f32⟩ : BufTy).Contents (Elt F))
    (a9 : (⟨S128, .f32⟩ : BufTy).Contents (Elt F))
    (a10 : (⟨S128x128, .f32⟩ : BufTy).Contents (Elt F))
    (a11 : (⟨S128x128, .f32⟩ : BufTy).Contents (Elt F))
    (a12 : (⟨S128, .f32⟩ : BufTy).Contents (Elt F))
    (a13 : (⟨S128x128, .f32⟩ : BufTy).Contents (Elt F))
    (a14 : (⟨S128x128, .f32⟩ : BufTy).Contents (Elt F))
    (a15 : (⟨S128, .f32⟩ : BufTy).Contents (Elt F))
    (a16 : (⟨S128x128, .f32⟩ : BufTy).Contents (Elt F))
    (a17 : (⟨S128x128, .f32⟩ : BufTy).Contents (Elt F))
    (a18 : (⟨S128, .f32⟩ : BufTy).Contents (Elt F))
    (a19 : (⟨S128x128, .f32⟩ : BufTy).Contents (Elt F))
    (a20 : (⟨S128x128, .f32⟩ : BufTy).Contents (Elt F))
    (a21 : (⟨S128, .f32⟩ : BufTy).Contents (Elt F))
    (a22 : (⟨S128x128, .f32⟩ : BufTy).Contents (Elt F))
    (a23 : (⟨S128x128, .f32⟩ : BufTy).Contents (Elt F))
    (a24 : (⟨S128, .f32⟩ : BufTy).Contents (Elt F))
    (a25 : (⟨S128x128, .f32⟩ : BufTy).Contents (Elt F)) :
    (⟨S100000x128, .f32⟩ : BufTy).Contents (Elt F) :=
  let p := xp1 a0 a1 a2 a3 a4 a5 a6 a7 a8 a9 a10 a11 a12 a13 a14 a15 a16 a17 a18 a19 a20 a21 a22 a23 a24 a25
  let q := xa1 a0 a1 a2 a3 a4 a5 a6 a7 a8 a9 a10 a11 a12 a13 a14 a15 a16 a17 a18 a19 a20 a21 a22 a23 a24 a25
  paperL (meanC p a2 a3) (meanW q a4 a5) p a17 a18 a19 a20 a21 a22

/-- The second result: the authors after layer 1. -/
noncomputable def out1 (a0 : (⟨S100000x128, .f32⟩ : BufTy).Contents (Elt F))
    (a1 : (⟨S50000x128, .f32⟩ : BufTy).Contents (Elt F))
    (a2 : (⟨S1000000, .i32⟩ : BufTy).Contents (Elt F))
    (a3 : (⟨S1000000, .i32⟩ : BufTy).Contents (Elt F))
    (a4 : (⟨S320000, .i32⟩ : BufTy).Contents (Elt F))
    (a5 : (⟨S320000, .i32⟩ : BufTy).Contents (Elt F))
    (a6 : (⟨S320000, .i32⟩ : BufTy).Contents (Elt F))
    (a7 : (⟨S320000, .i32⟩ : BufTy).Contents (Elt F))
    (a8 : (⟨S128x128, .f32⟩ : BufTy).Contents (Elt F))
    (a9 : (⟨S128, .f32⟩ : BufTy).Contents (Elt F))
    (a10 : (⟨S128x128, .f32⟩ : BufTy).Contents (Elt F))
    (a11 : (⟨S128x128, .f32⟩ : BufTy).Contents (Elt F))
    (a12 : (⟨S128, .f32⟩ : BufTy).Contents (Elt F))
    (a13 : (⟨S128x128, .f32⟩ : BufTy).Contents (Elt F))
    (a14 : (⟨S128x128, .f32⟩ : BufTy).Contents (Elt F))
    (a15 : (⟨S128, .f32⟩ : BufTy).Contents (Elt F))
    (a16 : (⟨S128x128, .f32⟩ : BufTy).Contents (Elt F))
    (a17 : (⟨S128x128, .f32⟩ : BufTy).Contents (Elt F))
    (a18 : (⟨S128, .f32⟩ : BufTy).Contents (Elt F))
    (a19 : (⟨S128x128, .f32⟩ : BufTy).Contents (Elt F))
    (a20 : (⟨S128x128, .f32⟩ : BufTy).Contents (Elt F))
    (a21 : (⟨S128, .f32⟩ : BufTy).Contents (Elt F))
    (a22 : (⟨S128x128, .f32⟩ : BufTy).Contents (Elt F))
    (a23 : (⟨S128x128, .f32⟩ : BufTy).Contents (Elt F))
    (a24 : (⟨S128, .f32⟩ : BufTy).Contents (Elt F))
    (a25 : (⟨S128x128, .f32⟩ : BufTy).Contents (Elt F)) :
    (⟨S50000x128, .f32⟩ : BufTy).Contents (Elt F) :=
  let p := xp1 a0 a1 a2 a3 a4 a5 a6 a7 a8 a9 a10 a11 a12 a13 a14 a15 a16 a17 a18 a19 a20 a21 a22 a23 a24 a25
  let q := xa1 a0 a1 a2 a3 a4 a5 a6 a7 a8 a9 a10 a11 a12 a13 a14 a15 a16 a17 a18 a19 a20 a21 a22 a23 a24 a25
  authorL (meanR p a6 a7) q a23 a24 a25

end Cert.Sage

end
-- ==== Proof.KernelRun.lean ====
/-
  The kernel program's run with its two results named.

  The program is four pipelined regions among stretches of host operations. Its generated frame follows the contents of every
  unscoped buffer from the launch through each stretch and each region; at the return they are `W18 m ρ c`. The frame claim
  only reads the argument arrays out of that final valuation. Here the same launch is read at the two result buffers as well:
  every weakly fair execution terminates, nothing faulting, the paper result holds `W18 m ρ c` at its buffer, the author
  result likewise, and the arguments are as launched.
-/
import proofs.«106662_j20968030339503_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; each result buffer then holds what the final
    valuation `W18` has there, and every argument array is as launched. -/
theorem run_out : θ_run defs (onTc (τ := τ) (main (F := F))) ⟨m, fun _ => 0, ρ⟩ (fun r => ∀ c : Dev nD,
      r.2.mem ((c.tc : Thread nD τ).loc main_v85) = W18 m ρ c (Proc.devRef .tc main_v85)
      ∧ r.2.mem ((c.tc : Thread nD τ).loc main_v87) = W18 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v85 (by decide)),
       h c _ (mem_uc main_v87 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c),
       (h c _ (mem_uc main_arg25 (by decide))).trans (W18_main_arg25 m ρ c)⟩)

end Cert.KernelIdeal.Out

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.KernelHost.lean ====
/-
  The kernel program's host stretches, read as the stage functions.

  Between its four pipelined regions the program runs host operations in fourteen stretches. Six pairs of stretches are the
  three mean aggregations of each round — rows gathered at the source indices (negative indices wrapped, out-of-range rows
  filled), summed into their destination node, divided by the number of incoming edges clamped below at 1 — and are, operation
  for operation, the stage functions meanC, meanW, meanR of the shared vocabulary applied to the stretch's input buffers.
  The remaining operations reshape a bias vector [128] into one row [1,128]: the row's entry (0, j) is the vector's entry j.
  A stretch writes only its own result buffers, so every other buffer keeps its contents across it.
-/
import proofs.«106662_j20968030339503_1_alg».proof.Proof.Gen.KernelIdeal.Frame
import proofs.«106662_j20968030339503_1_alg».proof.Proof.Stages
import proofs.«106662_j20968030339503_1_alg».proof.Proof.LibTypedRefs
import Idealize.ShloMosaic.Lib.StableHlo.Run
import Idealize.ShloMosaic.Lib.ValueLayout
import Idealize.ShloMosaic.Lib.ValueIdx

set_option maxRecDepth 16384

noncomputable section

open Idealize.ShloMosaic Idealize.ShloMosaic.TcCoe Idealize.SL.Sem Idealize.ShloMosaic.StableHlo Idealize.ShloMosaic.ValueIdx

namespace Cert.KernelIdeal.HostStages

open Cert.KernelIdeal Cert.KernelIdeal.Gen

variable {F : FTy → Type} [FloatOps F]

/-! ## What each stretch writes, and what it therefore keeps -/

/-- The result buffers of the stretch `hostOps0`. -/
def wr_0 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]

theorem wr_0_sub : (hostOps0 : List (HloOp τ sig (Elt F))).Forall fun op => op.writes ⊆ ((wr_0).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0`. -/
theorem keep_0 (X : Valuation τ sig (Elt F)) (r : Ref sig .tc) (hr : r ∉ wr_0) :
    after hostOps0 X (Proc.devRef .tc r) = X (Proc.devRef .tc r) :=
  after_of_writes_sub hostOps0 X wr_0_sub hr

/-- The result buffers of the stretch `hostOps0_1`. -/
def wr_0_1 : List (Ref sig .tc) :=
  [main_cst, main_v1, main_v2, main_v3, main_cst_0, main_v4, main_cst_1, main_v5, main_v6, main_v7, main_cst_2, main_v8, main_v9, main_v10, main_v11, main_v12]

theorem wr_0_1_sub : (hostOps0_1 : List (HloOp τ sig (Elt F))).Forall fun op => op.writes ⊆ ((wr_0_1).map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0_1`. -/
theorem keep_0_1 (X : Valuation τ sig (Elt F)) (r : Ref sig .tc) (hr : r ∉ wr_0_1) :
    after hostOps0_1 X (Proc.devRef .tc r) = X (Proc.devRef .tc r) :=
  after_of_writes_sub hostOps0_1 X wr_0_1_sub hr

/-- The result buffers of the stretch `hostOps0_2`. -/
def wr_0_2 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v13]

theorem wr_0_2_sub : (hostOps0_2 : List (HloOp τ sig (Elt F))).Forall fun op => op.writes ⊆ ((wr_0_2).map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0_2`. -/
theorem keep_0_2 (X : Valuation τ sig (Elt F)) (r : Ref sig .tc) (hr : r ∉ wr_0_2) :
    after hostOps0_2 X (Proc.devRef .tc r) = X (Proc.devRef .tc r) :=
  after_of_writes_sub hostOps0_2 X wr_0_2_sub hr

/-- The result buffers of the stretch `hostOps0_3`. -/
def wr_0_3 : List (Ref sig .tc) :=
  [main_cst_3, main_v14, main_v15, main_v16, main_cst_4, main_v17, main_cst_5, main_v18, main_v19, main_v20, main_cst_6, main_v21, main_v22, main_v23, main_v24, main_v25]

theorem wr_0_3_sub : (hostOps0_3 : List (HloOp τ sig (Elt F))).Forall fun op => op.writes ⊆ ((wr_0_3).map (Proc.devRef (τ := τ) .tc)).toFinset := by
  simp only [hostOps0_3, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0_3`. -/
theorem keep_0_3 (X : Valuation τ sig (Elt F)) (r : Ref sig .tc) (hr : r ∉ wr_0_3) :
    after hostOps0_3 X (Proc.devRef .tc r) = X (Proc.devRef .tc r) :=
  after_of_writes_sub hostOps0_3 X wr_0_3_sub hr

/-- The result buffers of the stretch `hostOps0_4`. -/
def wr_0_4 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v26]

theorem wr_0_4_sub : (hostOps0_4 : List (HloOp τ sig (Elt F))).Forall fun op => op.writes ⊆ ((wr_0_4).map (Proc.devRef (τ := τ) .tc)).toFinset := by
  simp only [hostOps0_4, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0_4`. -/
theorem keep_0_4 (X : Valuation τ sig (Elt F)) (r : Ref sig .tc) (hr : r ∉ wr_0_4) :
    after hostOps0_4 X (Proc.devRef .tc r) = X (Proc.devRef .tc r) :=
  after_of_writes_sub hostOps0_4 X wr_0_4_sub hr

/-- The result buffers of the stretch `hostOps0_5`. -/
def wr_0_5 : List (Ref sig .tc) :=
  [main_cst_7, main_v27, main_v28, main_v29, main_cst_8, main_v30, main_cst_9, main_v31, main_v32, main_v33, main_cst_10, main_v34, main_v35, main_v36, main_v37, main_v38, main_v39, main_v40]

theorem wr_0_5_sub : (hostOps0_5 : List (HloOp τ sig (Elt F))).Forall fun op => op.writes ⊆ ((wr_0_5).map (Proc.devRef (τ := τ) .tc)).toFinset := by
  simp only [hostOps0_5, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps0_5`. -/
theorem keep_0_5 (X : Valuation τ sig (Elt F)) (r : Ref sig .tc) (hr : r ∉ wr_0_5) :
    after hostOps0_5 X (Proc.devRef .tc r) = X (Proc.devRef .tc r) :=
  after_of_writes_sub hostOps0_5 X wr_0_5_sub hr

/-- The result buffers of the stretch `hostOps1`. -/
def wr_1 : List (Ref sig .tc) :=
  [main_v42]

theorem wr_1_sub : (hostOps1 : List (HloOp τ sig (Elt F))).Forall fun op => op.writes ⊆ ((wr_1).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps1`. -/
theorem keep_1 (X : Valuation τ sig (Elt F)) (r : Ref sig .tc) (hr : r ∉ wr_1) :
    after hostOps1 X (Proc.devRef .tc r) = X (Proc.devRef .tc r) :=
  after_of_writes_sub hostOps1 X wr_1_sub hr

/-- The result buffers of the stretch `hostOps2`. -/
def wr_2 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v44]

theorem wr_2_sub : (hostOps2 : List (HloOp τ sig (Elt F))).Forall fun op => op.writes ⊆ ((wr_2).map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2`. -/
theorem keep_2 (X : Valuation τ sig (Elt F)) (r : Ref sig .tc) (hr : r ∉ wr_2) :
    after hostOps2 X (Proc.devRef .tc r) = X (Proc.devRef .tc r) :=
  after_of_writes_sub hostOps2 X wr_2_sub hr

/-- The result buffers of the stretch `hostOps2_1`. -/
def wr_2_1 : List (Ref sig .tc) :=
  [main_cst_11, main_v45, main_v46, main_v47, main_cst_12, main_v48, main_cst_13, main_v49, main_v50, main_v51, main_cst_14, main_v52, main_v53, main_v54, main_v55, main_v56]

theorem wr_2_1_sub : (hostOps2_1 : List (HloOp τ sig (Elt F))).Forall fun op => op.writes ⊆ ((wr_2_1).map (Proc.devRef (τ := τ) .tc)).toFinset := by
  simp only [hostOps2_1, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2_1`. -/
theorem keep_2_1 (X : Valuation τ sig (Elt F)) (r : Ref sig .tc) (hr : r ∉ wr_2_1) :
    after hostOps2_1 X (Proc.devRef .tc r) = X (Proc.devRef .tc r) :=
  after_of_writes_sub hostOps2_1 X wr_2_1_sub hr

/-- The result buffers of the stretch `hostOps2_2`. -/
def wr_2_2 : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v57]

theorem wr_2_2_sub : (hostOps2_2 : List (HloOp τ sig (Elt F))).Forall fun op => op.writes ⊆ ((wr_2_2).map (Proc.devRef (τ := τ) .tc)).toFinset := by
  simp only [hostOps2_2, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2_2`. -/
theorem keep_2_2 (X : Valuation τ sig (Elt F)) (r : Ref sig .tc) (hr : r ∉ wr_2_2) :
    after hostOps2_2 X (Proc.devRef .tc r) = X (Proc.devRef .tc r) :=
  after_of_writes_sub hostOps2_2 X wr_2_2_sub hr

/-- The result buffers of the stretch `hostOps2_3`. -/
def wr_2_3 : List (Ref sig .tc) :=
  [main_cst_15, main_v58, main_v59, main_v60, main_cst_16, main_v61, main_cst_17, main_v62, main_v63, main_v64, main_cst_18, main_v65, main_v66, main_v67, main_v68, main_v69]

theorem wr_2_3_sub : (hostOps2_3 : List (HloOp τ sig (Elt F))).Forall fun op => op.writes ⊆ ((wr_2_3).map (Proc.devRef (τ := τ) .tc)).toFinset := by
  simp only [hostOps2_3, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2_3`. -/
theorem keep_2_3 (X : Valuation τ sig (Elt F)) (r : Ref sig .tc) (hr : r ∉ wr_2_3) :
    after hostOps2_3 X (Proc.devRef .tc r) = X (Proc.devRef .tc r) :=
  after_of_writes_sub hostOps2_3 X wr_2_3_sub hr

/-- The result buffers of the stretch `hostOps2_4`. -/
def wr_2_4 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v70]

theorem wr_2_4_sub : (hostOps2_4 : List (HloOp τ sig (Elt F))).Forall fun op => op.writes ⊆ ((wr_2_4).map (Proc.devRef (τ := τ) .tc)).toFinset := by
  simp only [hostOps2_4, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2_4`. -/
theorem keep_2_4 (X : Valuation τ sig (Elt F)) (r : Ref sig .tc) (hr : r ∉ wr_2_4) :
    after hostOps2_4 X (Proc.devRef .tc r) = X (Proc.devRef .tc r) :=
  after_of_writes_sub hostOps2_4 X wr_2_4_sub hr

/-- The result buffers of the stretch `hostOps2_5`. -/
def wr_2_5 : List (Ref sig .tc) :=
  [main_cst_19, main_v71, main_v72, main_v73, main_cst_20, main_v74, main_cst_21, main_v75, main_v76, main_v77, main_cst_22, main_v78, main_v79, main_v80, main_v81, main_v82, main_v83, main_v84]

theorem wr_2_5_sub : (hostOps2_5 : List (HloOp τ sig (Elt F))).Forall fun op => op.writes ⊆ ((wr_2_5).map (Proc.devRef (τ := τ) .tc)).toFinset := by
  simp only [hostOps2_5, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps2_5`. -/
theorem keep_2_5 (X : Valuation τ sig (Elt F)) (r : Ref sig .tc) (hr : r ∉ wr_2_5) :
    after hostOps2_5 X (Proc.devRef .tc r) = X (Proc.devRef .tc r) :=
  after_of_writes_sub hostOps2_5 X wr_2_5_sub hr

/-- The result buffers of the stretch `hostOps3`. -/
def wr_3 : List (Ref sig .tc) :=
  [main_v86]

theorem wr_3_sub : (hostOps3 : List (HloOp τ sig (Elt F))).Forall fun op => op.writes ⊆ ((wr_3).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals (refine ⟨_, ?_, rfl⟩; decide)

/-- A buffer that is not one of its results keeps its contents across `hostOps3`. -/
theorem keep_3 (X : Valuation τ sig (Elt F)) (r : Ref sig .tc) (hr : r ∉ wr_3) :
    after hostOps3 X (Proc.devRef .tc r) = X (Proc.devRef .tc r) :=
  after_of_writes_sub hostOps3 X wr_3_sub hr

/-! ## The six mean aggregations -/

attribute [local irreducible] Host.gather Host.scatterAdd Host.reduce in
/-- The pair of stretches `hostOps0`, `hostOps0_1` leaves in `main_v12` the aggregation `meanC` of its three input buffers. -/
theorem v12_of (X : Valuation τ sig (Elt F)) :
    after hostOps0_1 (after hostOps0 X) (Proc.devRef .tc main_v12)
      = Cert.Sage.meanC (X (Proc.devRef .tc main_arg0)) (X (Proc.devRef .tc main_arg2)) (X (Proc.devRef .tc main_arg3)) := by
  after_results_simp
  simp only [TRef.ofBuf_toBuf]
  rfl

attribute [local irreducible] Host.gather Host.scatterAdd Host.reduce in
/-- The pair of stretches `hostOps0_2`, `hostOps0_3` leaves in `main_v25` the aggregation `meanW` of its three input buffers. -/
theorem v25_of (X : Valuation τ sig (Elt F)) :
    after hostOps0_3 (after hostOps0_2 X) (Proc.devRef .tc main_v25)
      = Cert.Sage.meanW (X (Proc.devRef .tc main_arg1)) (X (Proc.devRef .tc main_arg4)) (X (Proc.devRef .tc main_arg5)) := by
  after_results_simp
  simp only [TRef.ofBuf_toBuf]
  rfl

attribute [local irreducible] Host.gather Host.scatterAdd Host.reduce in
/-- The pair of stretches `hostOps0_4`, `hostOps0_5` leaves in `main_v38` the aggregation `meanR` of its three input buffers. -/
theorem v38_of (X : Valuation τ sig (Elt F)) :
    after hostOps0_5 (after hostOps0_4 X) (Proc.devRef .tc main_v38)
      = Cert.Sage.meanR (X (Proc.devRef .tc main_arg0)) (X (Proc.devRef .tc main_arg6)) (X (Proc.devRef .tc main_arg7)) := by
  after_results_simp
  simp only [TRef.ofBuf_toBuf]
  rfl

attribute [local irreducible] Host.gather Host.scatterAdd Host.reduce in
/-- The pair of stretches `hostOps2`, `hostOps2_1` leaves in `main_v56` the aggregation `meanC` of its three input buffers. -/
theorem v56_of (X : Valuation τ sig (Elt F)) :
    after hostOps2_1 (after hostOps2 X) (Proc.devRef .tc main_v56)
      = Cert.Sage.meanC (X (Proc.devRef .tc main_v41)) (X (Proc.devRef .tc main_arg2)) (X (Proc.devRef .tc main_arg3)) := by
  after_results_simp
  simp only [TRef.ofBuf_toBuf]
  rfl

attribute [local irreducible] Host.gather Host.scatterAdd Host.reduce in
/-- The pair of stretches `hostOps2_2`, `hostOps2_3` leaves in `main_v69` the aggregation `meanW` of its three input buffers. -/
theorem v69_of (X : Valuation τ sig (Elt F)) :
    after hostOps2_3 (after hostOps2_2 X) (Proc.devRef .tc main_v69)
      = Cert.Sage.meanW (X (Proc.devRef .tc main_v43)) (X (Proc.devRef .tc main_arg4)) (X (Proc.devRef .tc main_arg5)) := by
  after_results_simp
  simp only [TRef.ofBuf_toBuf]
  rfl

attribute [local irreducible] Host.gather Host.scatterAdd Host.reduce in
/-- The pair of stretches `hostOps2_4`, `hostOps2_5` leaves in `main_v82` the aggregation `meanR` of its three input buffers. -/
theorem v82_of (X : Valuation τ sig (Elt F)) :
    after hostOps2_5 (after hostOps2_4 X) (Proc.devRef .tc main_v82)
      = Cert.Sage.meanR (X (Proc.devRef .tc main_v41)) (X (Proc.devRef .tc main_arg6)) (X (Proc.devRef .tc main_arg7)) := by
  after_results_simp
  simp only [TRef.ofBuf_toBuf]
  rfl

/-! ## The bias rows -/

/-- `hostOps0_5` leaves in `main_v39` the vector `main_arg9` as one row. -/
theorem v39_of (X : Valuation τ sig (Elt F)) (j : Fin 128) :
    (after hostOps0_5 X (Proc.devRef .tc main_v39) : S1x128.Idx → F .f32) (ix2 (0 : Fin 1) j)
      = (X (Proc.devRef .tc main_arg9) : S128.Idx → F .f32) (ix1 j) := by
  after_results_simp
  exact shapeCast_a_1a_apply _ _ (0 : Fin 1) j

/-- `hostOps0_5` leaves in `main_v40` the vector `main_arg12` as one row. -/
theorem v40_of (X : Valuation τ sig (Elt F)) (j : Fin 128) :
    (after hostOps0_5 X (Proc.devRef .tc main_v40) : S1x128.Idx → F .f32) (ix2 (0 : Fin 1) j)
      = (X (Proc.devRef .tc main_arg12) : S128.Idx → F .f32) (ix1 j) := by
  after_results_simp
  exact shapeCast_a_1a_apply _ _ (0 : Fin 1) j

/-- `hostOps1` leaves in `main_v42` the vector `main_arg15` as one row. -/
theorem v42_of (X : Valuation τ sig (Elt F)) (j : Fin 128) :
    (after hostOps1 X (Proc.devRef .tc main_v42) : S1x128.Idx → F .f32) (ix2 (0 : Fin 1) j)
      = (X (Proc.devRef .tc main_arg15) : S128.Idx → F .f32) (ix1 j) := by
  after_results_simp
  exact shapeCast_a_1a_apply _ _ (0 : Fin 1) j

/-- `hostOps2_5` leaves in `main_v83` the vector `main_arg18` as one row. -/
theorem v83_of (X : Valuation τ sig (Elt F)) (j : Fin 128) :
    (after hostOps2_5 X (Proc.devRef .tc main_v83) : S1x128.Idx → F .f32) (ix2 (0 : Fin 1) j)
      = (X (Proc.devRef .tc main_arg18) : S128.Idx → F .f32) (ix1 j) := by
  after_results_simp
  exact shapeCast_a_1a_apply _ _ (0 : Fin 1) j

/-- `hostOps2_5` leaves in `main_v84` the vector `main_arg21` as one row. -/
theorem v84_of (X : Valuation τ sig (Elt F)) (j : Fin 128) :
    (after hostOps2_5 X (Proc.devRef .tc main_v84) : S1x128.Idx → F .f32) (ix2 (0 : Fin 1) j)
      = (X (Proc.devRef .tc main_arg21) : S128.Idx → F .f32) (ix1 j) := by
  after_results_simp
  exact shapeCast_a_1a_apply _ _ (0 : Fin 1) j

/-- `hostOps3` leaves in `main_v86` the vector `main_arg24` as one row. -/
theorem v86_of (X : Valuation τ sig (Elt F)) (j : Fin 128) :
    (after hostOps3 X (Proc.devRef .tc main_v86) : S1x128.Idx → F .f32) (ix2 (0 : Fin 1) j)
      = (X (Proc.devRef .tc main_arg24) : S128.Idx → F .f32) (ix1 j) := by
  after_results_simp
  exact shapeCast_a_1a_apply _ _ (0 : Fin 1) j

end Cert.KernelIdeal.HostStages

end
-- ==== Proof.KernelBlocks0.lean ====
/-
  The array a pipelined region leaves: the paper layer of the first round.

  The region walks 50 grid points; point t fetches rows 2000 t … 2000 t + 1999 of each row array, the whole of each 128 x 128
  weight array and each one-row bias array, and writes the body's result back to rows 2000 t … 2000 t + 1999 of the output
  array. If the body's result at (p, q) is a function PA of row p of the row blocks, of the weights and of the bias rows, and
  G is an array whose entry (i, q) is the same PA of row i of the row arrays, then point t writes back exactly block t of G
  (an element of block t sits at row 2000 t + p, the block index times the block height plus its row in the block); the 50
  blocks tile the 100000 rows (row r lies in block r / 2000); so the output array ends holding G. The statement is over an
  arbitrary valuation V of the buffers at the region's entry and an arbitrary PA, nine input windows.
-/
import proofs.«106662_j20968030339503_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks0

open Cert.KernelIdeal Cert.KernelIdeal.Gen

variable (V : (c : Dev nD) → (b : Ref sig .tc) → Buf (Elt Ideal) ((c : Thread nD τ).loc b))

/-! ## The index maps over the grid -/

theorem idx_0 : ∀ t : Fin cfg0.N, win0_0.index t (0 : Fin 2) = t.val ∧ win0_0.index t (1 : Fin 2) = 0 :=
  (by decide +kernel : ∀ t : Fin grid0.N, _)

theorem idx_1 : ∀ t : Fin cfg0.N, win0_1.index t (0 : Fin 2) = t.val ∧ win0_1.index t (1 : Fin 2) = 0 :=
  (by decide +kernel : ∀ t : Fin grid0.N, _)

theorem idx_2 : ∀ t : Fin cfg0.N, win0_2.index t (0 : Fin 2) = t.val ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = 0 ∧ win0_7.index t (1 : Fin 2) = 0 :=
  (by decide +kernel : ∀ t : Fin grid0.N, _)

theorem idx_8 : ∀ t : Fin cfg0.N, win0_8.index t (0 : Fin 2) = 0 ∧ win0_8.index t (1 : Fin 2) = 0 :=
  (by decide +kernel : ∀ t : Fin grid0.N, _)

theorem idx_9 : ∀ t : Fin cfg0.N, win0_9.index t (0 : Fin 2) = t.val ∧ win0_9.index t (1 : Fin 2) = 0 :=
  (by decide +kernel : ∀ t : Fin grid0.N, _)

/-! ## Each input window's block, read off its array -/

/-- Window 0's block at point t is rows 2000 t … 2000 t + 1999 of its array. -/
theorem iblk_0 (c : Dev nD) (t : Fin cfg0.N) (p : Fin 2000) (k : Fin 128) (i : Fin 100000) (hi : i.val = 2000 * t.val + p.val) :
    (iblk0 V c 0 t : Vec Ideal S2000x128 .f32) (ix2 p k) = (V c main_v12 : S100000x128.Idx → EReal) (ix2 i k) := by
  obtain ⟨e0, e1⟩ := idx_0 t
  unfold iblk0
  rw [View.read_apply]
  show V c main_v12 _ = V c main_v12 _
  congr 1
  funext a
  apply Fin.ext
  match a with
  | ⟨0, _⟩ => show win0_0.index t 0 * 2000 + 1 * p.val = i.val; rw [e0, hi]; omega
  | ⟨1, _⟩ => show win0_0.index t 1 * 128 + 1 * k.val = k.val; rw [e1]; omega

/-- Window 1's block at point t is rows 2000 t … 2000 t + 1999 of its array. -/
theorem iblk_1 (c : Dev nD) (t : Fin cfg0.N) (p : Fin 2000) (k : Fin 128) (i : Fin 100000) (hi : i.val = 2000 * t.val + p.val) :
    (iblk0 V c 1 t : Vec Ideal S2000x128 .f32) (ix2 p k) = (V c main_v25 : S100000x128.Idx → EReal) (ix2 i k) := by
  obtain ⟨e0, e1⟩ := idx_1 t
  unfold iblk0
  rw [View.read_apply]
  show V c main_v25 _ = V c main_v25 _
  congr 1
  funext a
  apply Fin.ext
  match a with
  | ⟨0, _⟩ => show win0_1.index t 0 * 2000 + 1 * p.val = i.val; rw [e0, hi]; omega
  | ⟨1, _⟩ => show win0_1.index t 1 * 128 + 1 * k.val = k.val; rw [e1]; omega

/-- Window 2's block at point t is rows 2000 t … 2000 t + 1999 of its array. -/
theorem iblk_2 (c : Dev nD) (t : Fin cfg0.N) (p : Fin 2000) (k : Fin 128) (i : Fin 100000) (hi : i.val = 2000 * t.val + p.val) :
    (iblk0 V c 2 t : Vec Ideal S2000x128 .f32) (ix2 p k) = (V c main_arg0 : S100000x128.Idx → EReal) (ix2 i k) := by
  obtain ⟨e0, e1⟩ := idx_2 t
  unfold iblk0
  rw [View.read_apply]
  show V c main_arg0 _ = V c main_arg0 _
  congr 1
  funext a
  apply Fin.ext
  match a with
  | ⟨0, _⟩ => show win0_2.index t 0 * 2000 + 1 * p.val = i.val; rw [e0, hi]; omega
  | ⟨1, _⟩ => show win0_2.index t 1 * 128 + 1 * k.val = k.val; rw [e1]; omega

/-- Window 3's block at every point is its whole 128 x 128 array. -/
theorem iblk_3 (c : Dev nD) (t : Fin cfg0.N) (k j : Fin 128) :
    (iblk0 V c 3 t : Vec Ideal S128x128 .f32) (ix2 k j) = (V c main_arg8 : S128x128.Idx → EReal) (ix2 k j) := by
  obtain ⟨e0, e1⟩ := idx_3 t
  unfold iblk0
  rw [View.read_apply]
  show V c main_arg8 _ = V c main_arg8 _
  congr 1
  funext a
  apply Fin.ext
  match a with
  | ⟨0, _⟩ => show win0_3.index t 0 * 128 + 1 * k.val = k.val; rw [e0]; omega
  | ⟨1, _⟩ => show win0_3.index t 1 * 128 + 1 * j.val = j.val; rw [e1]; omega

/-- Window 4's block at every point is its whole one-row array. -/
theorem iblk_4 (c : Dev nD) (t : Fin cfg0.N) (j : Fin 128) :
    (iblk0 V c 4 t : Vec Ideal S1x128 .f32) (ix2 (0 : Fin 1) j) = (V c main_v39 : S1x128.Idx → EReal) (ix2 (0 : Fin 1) j) := by
  obtain ⟨e0, e1⟩ := idx_4 t
  unfold iblk0
  rw [View.read_apply]
  show V c main_v39 _ = V c main_v39 _
  congr 1
  funext a
  apply Fin.ext
  match a with
  | ⟨0, _⟩ => show win0_4.index t 0 * 1 + 1 * (0 : Fin 1).val = (0 : Fin 1).val; rw [e0]; rfl
  | ⟨1, _⟩ => show win0_4.index t 1 * 128 + 1 * j.val = j.val; rw [e1]; omega

/-- Window 5's block at every point is its whole 128 x 128 array. -/
theorem iblk_5 (c : Dev nD) (t : Fin cfg0.N) (k j : Fin 128) :
    (iblk0 V c 5 t : Vec Ideal S128x128 .f32) (ix2 k j) = (V c main_arg10 : S128x128.Idx → EReal) (ix2 k j) := by
  obtain ⟨e0, e1⟩ := idx_5 t
  unfold iblk0
  rw [View.read_apply]
  show V c main_arg10 _ = V c main_arg10 _
  congr 1
  funext a
  apply Fin.ext
  match a with
  | ⟨0, _⟩ => show win0_5.index t 0 * 128 + 1 * k.val = k.val; rw [e0]; omega
  | ⟨1, _⟩ => show win0_5.index t 1 * 128 + 1 * j.val = j.val; rw [e1]; omega

/-- Window 6's block at every point is its whole 128 x 128 array. -/
theorem iblk_6 (c : Dev nD) (t : Fin cfg0.N) (k j : Fin 128) :
    (iblk0 V c 6 t : Vec Ideal S128x128 .f32) (ix2 k j) = (V c main_arg11 : S128x128.Idx → EReal) (ix2 k j) := by
  obtain ⟨e0, e1⟩ := idx_6 t
  unfold iblk0
  rw [View.read_apply]
  show V c main_arg11 _ = V c main_arg11 _
  congr 1
  funext a
  apply Fin.ext
  match a with
  | ⟨0, _⟩ => show win0_6.index t 0 * 128 + 1 * k.val = k.val; rw [e0]; omega
  | ⟨1, _⟩ => show win0_6.index t 1 * 128 + 1 * j.val = j.val; rw [e1]; omega

/-- Window 7's block at every point is its whole one-row array. -/
theorem iblk_7 (c : Dev nD) (t : Fin cfg0.N) (j : Fin 128) :
    (iblk0 V c 7 t : Vec Ideal S1x128 .f32) (ix2 (0 : Fin 1) j) = (V c main_v40 : S1x128.Idx → EReal) (ix2 (0 : Fin 1) j) := by
  obtain ⟨e0, e1⟩ := idx_7 t
  unfold iblk0
  rw [View.read_apply]
  show V c main_v40 _ = V c main_v40 _
  congr 1
  funext a
  apply Fin.ext
  match a with
  | ⟨0, _⟩ => show win0_7.index t 0 * 1 + 1 * (0 : Fin 1).val = (0 : Fin 1).val; rw [e0]; rfl
  | ⟨1, _⟩ => show win0_7.index t 1 * 128 + 1 * j.val = j.val; rw [e1]; omega

/-- Window 8's block at every point is its whole 128 x 128 array. -/
theorem iblk_8 (c : Dev nD) (t : Fin cfg0.N) (k j : Fin 128) :
    (iblk0 V c 8 t : Vec Ideal S128x128 .f32) (ix2 k j) = (V c main_arg13 : S128x128.Idx → EReal) (ix2 k j) := by
  obtain ⟨e0, e1⟩ := idx_8 t
  unfold iblk0
  rw [View.read_apply]
  show V c main_arg13 _ = V c main_arg13 _
  congr 1
  funext a
  apply Fin.ext
  match a with
  | ⟨0, _⟩ => show win0_8.index t 0 * 128 + 1 * k.val = k.val; rw [e0]; omega
  | ⟨1, _⟩ => show win0_8.index t 1 * 128 + 1 * j.val = j.val; rw [e1]; omega

/-! ## What a point writes back, the cover, the array after the region -/

/-- WHAT POINT t WRITES BACK is block t of G, for any array G whose entry (i, q) is the per-node function PA of row i of the
    row arrays, the whole weight arrays and the bias rows, when the body's result at (p, q) is PA of row p of the row blocks. -/
theorem flushed_eq (PA : (Fin 128 → EReal) → (Fin 128 → EReal) → (Fin 128 → EReal) → (Fin 128 → Fin 128 → EReal) → (Fin 128 → EReal) → (Fin 128 → Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S2000x128 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x128 .f32) (p : Fin 2000) (q : Fin 128),
      out0_9 (F := Ideal) x0 x1 x2 x3 x4 x5 x6 x7 x8 (ix2 p q) = PA (fun k => x0 (ix2 p k)) (fun k => x1 (ix2 p k)) (fun k => x2 (ix2 p k)) (fun k j => x3 (ix2 k j)) (fun j => x4 (ix2 (0 : Fin 1) j)) (fun k j => x5 (ix2 k j)) (fun k j => x6 (ix2 k j)) (fun j => x7 (ix2 (0 : Fin 1) j)) (fun k j => x8 (ix2 k j)) q)
    (c : Dev nD) (G : S100000x128.Idx → EReal)
    (hG : ∀ (i : Fin 100000) (q : Fin 128), G (ix2 i q) = PA (fun k => (V c main_v12 : S100000x128.Idx → EReal) (ix2 i k)) (fun k => (V c main_v25 : S100000x128.Idx → EReal) (ix2 i k)) (fun k => (V c main_arg0 : S100000x128.Idx → EReal) (ix2 i k)) (fun k j => (V c main_arg8 : S128x128.Idx → EReal) (ix2 k j)) (fun j => (V c main_v39 : S1x128.Idx → EReal) (ix2 (0 : Fin 1) j)) (fun k j => (V c main_arg10 : S128x128.Idx → EReal) (ix2 k j)) (fun k j => (V c main_arg11 : S128x128.Idx → EReal) (ix2 k j)) (fun j => (V c main_v40 : S1x128.Idx → EReal) (ix2 (0 : Fin 1) j)) (fun k j => (V c main_arg13 : S128x128.Idx → EReal) (ix2 k j)) q)
    (t : Fin cfg0.N) :
    (dat0 V c).flushed 9 t = ((cfg0.win 9).blk t).view.read (Elt Ideal) G := by
  show (cfg0.win 9).cut (grid0.coords t) ((dat0 V c).after 9 t) = _
  rw [after0_9]
  obtain ⟨e0, e1⟩ := idx_9 t
  have hN : t.val < 50 := Nat.lt_of_lt_of_eq t.isLt (show cfg0.N = 50 from N_0)
  funext y
  obtain ⟨p, q, rfl⟩ : ∃ (p : Fin 2000) (q : Fin 128), y = ix2 p q := ⟨y 0, y 1, eq_ix2 y⟩
  rw [View.read_apply]
  have hi : (⟨2000 * t.val + p.val, by have := p.isLt; omega⟩ : Fin 100000).val = 2000 * t.val + p.val := rfl
  generalize (⟨2000 * t.val + p.val, by have := p.isLt; omega⟩ : Fin 100000) = i at hi
  have hemb : ((cfg0.win 9).blk t).view.emb (ix2 p q) = ix2 i q := by
    funext a
    apply Fin.ext
    match a with
    | ⟨0, _⟩ => show win0_9.index t 0 * 2000 + 1 * p.val = i.val; rw [e0, hi]; omega
    | ⟨1, _⟩ => show win0_9.index t 1 * 128 + 1 * q.val = q.val; rw [e1]; omega
  rw [hemb]
  show out0_9 (F := Ideal) _ _ _ _ _ _ _ _ _ (ix2 p q) = G (ix2 i q)
  rw [hout, hG]
  have h0 : (fun k => (iblk0 V c 0 t : Vec Ideal S2000x128 .f32) (ix2 p k)) = (fun k => (V c main_v12 : S100000x128.Idx → EReal) (ix2 i k)) := funext fun k => iblk_0 V c t p k i hi
  have h1 : (fun k => (iblk0 V c 1 t : Vec Ideal S2000x128 .f32) (ix2 p k)) = (fun k => (V c main_v25 : S100000x128.Idx → EReal) (ix2 i k)) := funext fun k => iblk_1 V c t p k i hi
  have h2 : (fun k => (iblk0 V c 2 t : Vec Ideal S2000x128 .f32) (ix2 p k)) = (fun k => (V c main_arg0 : S100000x128.Idx → EReal) (ix2 i k)) := funext fun k => iblk_2 V c t p k i hi
  have h3 : (fun k j => (iblk0 V c 3 t : Vec Ideal S128x128 .f32) (ix2 k j)) = (fun k j => (V c main_arg8 : S128x128.Idx → EReal) (ix2 k j)) := funext fun k => funext fun j => iblk_3 V c t k j
  have h4 : (fun j => (iblk0 V c 4 t : Vec Ideal S1x128 .f32) (ix2 (0 : Fin 1) j)) = (fun j => (V c main_v39 : S1x128.Idx → EReal) (ix2 (0 : Fin 1) j)) := funext fun j => iblk_4 V c t j
  have h5 : (fun k j => (iblk0 V c 5 t : Vec Ideal S128x128 .f32) (ix2 k j)) = (fun k j => (V c main_arg10 : S128x128.Idx → EReal) (ix2 k j)) := funext fun k => funext fun j => iblk_5 V c t k j
  have h6 : (fun k j => (iblk0 V c 6 t : Vec Ideal S128x128 .f32) (ix2 k j)) = (fun k j => (V c main_arg11 : S128x128.Idx → EReal) (ix2 k j)) := funext fun k => funext fun j => iblk_6 V c t k j
  have h7 : (fun j => (iblk0 V c 7 t : Vec Ideal S1x128 .f32) (ix2 (0 : Fin 1) j)) = (fun j => (V c main_v40 : S1x128.Idx → EReal) (ix2 (0 : Fin 1) j)) := funext fun j => iblk_7 V c t j
  have h8 : (fun k j => (iblk0 V c 8 t : Vec Ideal S128x128 .f32) (ix2 k j)) = (fun k j => (V c main_arg13 : S128x128.Idx → EReal) (ix2 k j)) := funext fun k => funext fun j => iblk_8 V c t k j
  rw [h0, h1, h2, h3, h4, h5, h6, h7, h8]

/-- An index of the output array is in point t's block iff each coordinate is in the block's range on its axis. -/
theorem mem_blk (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v41).slice (win0_9.rect t)).set ↔ _
  rw [View.set_slice_whole, Rect.mem_set_unit]
  exact Iff.rfl

/-- The blocks tile the output array: row r lies in the block of point r / 2000. -/
theorem cover (i : S100000x128.Idx) : ∃ t : Fin cfg0.N, (cfg0.win 9).flush t = true ∧ i ∈ ((cfg0.win 9).blk t).view.set := by
  have h0 : (i 0).val < 100000 := (i 0).isLt
  have h1 : (i 1).val < 128 := (i 1).isLt
  have ht : (i 0).val / 2000 < cfg0.N := by rw [show cfg0.N = 50 from N_0]; omega
  refine ⟨⟨(i 0).val / 2000, ht⟩, flush0_9 _, ?_⟩
  rw [mem_blk]
  obtain ⟨e0, e1⟩ := idx_9 ⟨(i 0).val / 2000, ht⟩
  intro a
  match a with
  | ⟨0, _⟩ =>
    show win0_9.index ⟨(i 0).val / 2000, ht⟩ 0 * 2000 ≤ (i 0).val ∧ (i 0).val < win0_9.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_9.index ⟨(i 0).val / 2000, ht⟩ 1 * 128 ≤ (i 1).val ∧ (i 1).val < win0_9.index ⟨(i 0).val / 2000, ht⟩ 1 * 128 + 128
    rw [e1]; omega

/-- THE ARRAY AFTER THE REGION: the output array ends holding G. -/
theorem final (PA : (Fin 128 → EReal) → (Fin 128 → EReal) → (Fin 128 → EReal) → (Fin 128 → Fin 128 → EReal) → (Fin 128 → EReal) → (Fin 128 → Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S2000x128 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x128 .f32) (p : Fin 2000) (q : Fin 128),
      out0_9 (F := Ideal) x0 x1 x2 x3 x4 x5 x6 x7 x8 (ix2 p q) = PA (fun k => x0 (ix2 p k)) (fun k => x1 (ix2 p k)) (fun k => x2 (ix2 p k)) (fun k j => x3 (ix2 k j)) (fun j => x4 (ix2 (0 : Fin 1) j)) (fun k j => x5 (ix2 k j)) (fun k j => x6 (ix2 k j)) (fun j => x7 (ix2 (0 : Fin 1) j)) (fun k j => x8 (ix2 k j)) q)
    (c : Dev nD) (G : S100000x128.Idx → EReal)
    (hG : ∀ (i : Fin 100000) (q : Fin 128), G (ix2 i q) = PA (fun k => (V c main_v12 : S100000x128.Idx → EReal) (ix2 i k)) (fun k => (V c main_v25 : S100000x128.Idx → EReal) (ix2 i k)) (fun k => (V c main_arg0 : S100000x128.Idx → EReal) (ix2 i k)) (fun k j => (V c main_arg8 : S128x128.Idx → EReal) (ix2 k j)) (fun j => (V c main_v39 : S1x128.Idx → EReal) (ix2 (0 : Fin 1) j)) (fun k j => (V c main_arg10 : S128x128.Idx → EReal) (ix2 k j)) (fun k j => (V c main_arg11 : S128x128.Idx → EReal) (ix2 k j)) (fun j => (V c main_v40 : S1x128.Idx → EReal) (ix2 (0 : Fin 1) j)) (fun k j => (V c main_arg13 : S128x128.Idx → EReal) (ix2 k j)) q) :
    (dat0 V c).arrAt 9 cfg0.N = G :=
  (dat0 V c).arrAt_eq_of_cover 9 G (fun t _ => flushed_eq V PA hout c G hG t) cover

end Cert.KernelIdeal.Blocks0

end
-- ==== Proof.KernelBlocks1.lean ====
/-
  The array a pipelined region leaves: the author layer of the first round.

  The region walks 25 grid points; point t fetches rows 2000 t … 2000 t + 1999 of each row array, the whole of each 128 x 128
  weight array and each one-row bias array, and writes the body's result back to rows 2000 t … 2000 t + 1999 of the output
  array. If the body's result at (p, q) is a function PA of row p of the row blocks, of the weights and of the bias rows, and
  G is an array whose entry (i, q) is the same PA of row i of the row arrays, then point t writes back exactly block t of G
  (an element of block t sits at row 2000 t + p, the block index times the block height plus its row in the block); the 25
  blocks tile the 50000 rows (row r lies in block r / 2000); so the output array ends holding G. The statement is over an
  arbitrary valuation V of the buffers at the region's entry and an arbitrary PA, five input windows.
-/
import proofs.«106662_j20968030339503_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks1

open Cert.KernelIdeal Cert.KernelIdeal.Gen

variable (V : (c : Dev nD) → (b : Ref sig .tc) → Buf (Elt Ideal) ((c : Thread nD τ).loc b))

/-! ## The index maps over the grid -/

theorem idx_0 : ∀ t : Fin cfg1.N, win1_0.index t (0 : Fin 2) = t.val ∧ win1_0.index t (1 : Fin 2) = 0 :=
  (by decide +kernel : ∀ t : Fin grid1.N, _)

theorem idx_1 : ∀ t : Fin cfg1.N, win1_1.index t (0 : Fin 2) = t.val ∧ win1_1.index t (1 : Fin 2) = 0 :=
  (by decide +kernel : ∀ t : Fin grid1.N, _)

theorem idx_2 : ∀ t : Fin cfg1.N, win1_2.index t (0 : Fin 2) = 0 ∧ win1_2.index t (1 : Fin 2) = 0 :=
  (by decide +kernel : ∀ t : Fin grid1.N, _)

theorem idx_3 : ∀ t : Fin cfg1.N, win1_3.index t (0 : Fin 2) = 0 ∧ win1_3.index t (1 : Fin 2) = 0 :=
  (by decide +kernel : ∀ t : Fin grid1.N, _)

theorem idx_4 : ∀ t : Fin cfg1.N, win1_4.index t (0 : Fin 2) = 0 ∧ win1_4.index t (1 : Fin 2) = 0 :=
  (by decide +kernel : ∀ t : Fin grid1.N, _)

theorem idx_5 : ∀ t : Fin cfg1.N, win1_5.index t (0 : Fin 2) = t.val ∧ win1_5.index t (1 : Fin 2) = 0 :=
  (by decide +kernel : ∀ t : Fin grid1.N, _)

/-! ## Each input window's block, read off its array -/

/-- Window 0's block at point t is rows 2000 t … 2000 t + 1999 of its array. -/
theorem iblk_0 (c : Dev nD) (t : Fin cfg1.N) (p : Fin 2000) (k : Fin 128) (i : Fin 50000) (hi : i.val = 2000 * t.val + p.val) :
    (iblk1 V c 0 t : Vec Ideal S2000x128 .f32) (ix2 p k) = (V c main_v38 : S50000x128.Idx → EReal) (ix2 i k) := by
  obtain ⟨e0, e1⟩ := idx_0 t
  unfold iblk1
  rw [View.read_apply]
  show V c main_v38 _ = V c main_v38 _
  congr 1
  funext a
  apply Fin.ext
  match a with
  | ⟨0, _⟩ => show win1_0.index t 0 * 2000 + 1 * p.val = i.val; rw [e0, hi]; omega
  | ⟨1, _⟩ => show win1_0.index t 1 * 128 + 1 * k.val = k.val; rw [e1]; omega

/-- Window 1's block at point t is rows 2000 t … 2000 t + 1999 of its array. -/
theorem iblk_1 (c : Dev nD) (t : Fin cfg1.N) (p : Fin 2000) (k : Fin 128) (i : Fin 50000) (hi : i.val = 2000 * t.val + p.val) :
    (iblk1 V c 1 t : Vec Ideal S2000x128 .f32) (ix2 p k) = (V c main_arg1 : S50000x128.Idx → EReal) (ix2 i k) := by
  obtain ⟨e0, e1⟩ := idx_1 t
  unfold iblk1
  rw [View.read_apply]
  show V c main_arg1 _ = V c main_arg1 _
  congr 1
  funext a
  apply Fin.ext
  match a with
  | ⟨0, _⟩ => show win1_1.index t 0 * 2000 + 1 * p.val = i.val; rw [e0, hi]; omega
  | ⟨1, _⟩ => show win1_1.index t 1 * 128 + 1 * k.val = k.val; rw [e1]; omega

/-- Window 2's block at every point is its whole 128 x 128 array. -/
theorem iblk_2 (c : Dev nD) (t : Fin cfg1.N) (k j : Fin 128) :
    (iblk1 V c 2 t : Vec Ideal S128x128 .f32) (ix2 k j) = (V c main_arg14 : S128x128.Idx → EReal) (ix2 k j) := by
  obtain ⟨e0, e1⟩ := idx_2 t
  unfold iblk1
  rw [View.read_apply]
  show V c main_arg14 _ = V c main_arg14 _
  congr 1
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

/-- Window 3's block at every point is its whole one-row array. -/
theorem iblk_3 (c : Dev nD) (t : Fin cfg1.N) (j : Fin 128) :
    (iblk1 V c 3 t : Vec Ideal S1x128 .f32) (ix2 (0 : Fin 1) j) = (V c main_v42 : S1x128.Idx → EReal) (ix2 (0 : Fin 1) j) := by
  obtain ⟨e0, e1⟩ := idx_3 t
  unfold iblk1
  rw [View.read_apply]
  show V c main_v42 _ = V c main_v42 _
  congr 1
  funext a
  apply Fin.ext
  match a with
  | ⟨0, _⟩ => show win1_3.index t 0 * 1 + 1 * (0 : Fin 1).val = (0 : Fin 1).val; rw [e0]; rfl
  | ⟨1, _⟩ => show win1_3.index t 1 * 128 + 1 * j.val = j.val; rw [e1]; omega

/-- Window 4's block at every point is its whole 128 x 128 array. -/
theorem iblk_4 (c : Dev nD) (t : Fin cfg1.N) (k j : Fin 128) :
    (iblk1 V c 4 t : Vec Ideal S128x128 .f32) (ix2 k j) = (V c main_arg16 : S128x128.Idx → EReal) (ix2 k j) := by
  obtain ⟨e0, e1⟩ := idx_4 t
  unfold iblk1
  rw [View.read_apply]
  show V c main_arg16 _ = V c main_arg16 _
  congr 1
  funext a
  apply Fin.ext
  match a with
  | ⟨0, _⟩ => show win1_4.index t 0 * 128 + 1 * k.val = k.val; rw [e0]; omega
  | ⟨1, _⟩ => show win1_4.index t 1 * 128 + 1 * j.val = j.val; rw [e1]; omega

/-! ## What a point writes back, the cover, the array after the region -/

/-- WHAT POINT t WRITES BACK is block t of G, for any array G whose entry (i, q) is the per-node function PA of row i of the
    row arrays, the whole weight arrays and the bias rows, when the body's result at (p, q) is PA of row p of the row blocks. -/
theorem flushed_eq (PA : (Fin 128 → EReal) → (Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S128x128 .f32) (x3 : Vec Ideal S1x128 .f32) (x4 : Vec Ideal S128x128 .f32) (p : Fin 2000) (q : Fin 128),
      out1_5 (F := Ideal) x0 x1 x2 x3 x4 (ix2 p q) = PA (fun k => x0 (ix2 p k)) (fun k => x1 (ix2 p k)) (fun k j => x2 (ix2 k j)) (fun j => x3 (ix2 (0 : Fin 1) j)) (fun k j => x4 (ix2 k j)) q)
    (c : Dev nD) (G : S50000x128.Idx → EReal)
    (hG : ∀ (i : Fin 50000) (q : Fin 128), G (ix2 i q) = PA (fun k => (V c main_v38 : S50000x128.Idx → EReal) (ix2 i k)) (fun k => (V c main_arg1 : S50000x128.Idx → EReal) (ix2 i k)) (fun k j => (V c main_arg14 : S128x128.Idx → EReal) (ix2 k j)) (fun j => (V c main_v42 : S1x128.Idx → EReal) (ix2 (0 : Fin 1) j)) (fun k j => (V c main_arg16 : S128x128.Idx → EReal) (ix2 k j)) q)
    (t : Fin cfg1.N) :
    (dat1 V c).flushed 5 t = ((cfg1.win 5).blk t).view.read (Elt Ideal) G := by
  show (cfg1.win 5).cut (grid1.coords t) ((dat1 V c).after 5 t) = _
  rw [after1_5]
  obtain ⟨e0, e1⟩ := idx_5 t
  have hN : t.val < 25 := Nat.lt_of_lt_of_eq t.isLt (show cfg1.N = 25 from N_1)
  funext y
  obtain ⟨p, q, rfl⟩ : ∃ (p : Fin 2000) (q : Fin 128), y = ix2 p q := ⟨y 0, y 1, eq_ix2 y⟩
  rw [View.read_apply]
  have hi : (⟨2000 * t.val + p.val, by have := p.isLt; omega⟩ : Fin 50000).val = 2000 * t.val + p.val := rfl
  generalize (⟨2000 * t.val + p.val, by have := p.isLt; omega⟩ : Fin 50000) = i at hi
  have hemb : ((cfg1.win 5).blk t).view.emb (ix2 p q) = ix2 i q := by
    funext a
    apply Fin.ext
    match a with
    | ⟨0, _⟩ => show win1_5.index t 0 * 2000 + 1 * p.val = i.val; rw [e0, hi]; omega
    | ⟨1, _⟩ => show win1_5.index t 1 * 128 + 1 * q.val = q.val; rw [e1]; omega
  rw [hemb]
  show out1_5 (F := Ideal) _ _ _ _ _ (ix2 p q) = G (ix2 i q)
  rw [hout, hG]
  have h0 : (fun k => (iblk1 V c 0 t : Vec Ideal S2000x128 .f32) (ix2 p k)) = (fun k => (V c main_v38 : S50000x128.Idx → EReal) (ix2 i k)) := funext fun k => iblk_0 V c t p k i hi
  have h1 : (fun k => (iblk1 V c 1 t : Vec Ideal S2000x128 .f32) (ix2 p k)) = (fun k => (V c main_arg1 : S50000x128.Idx → EReal) (ix2 i k)) := funext fun k => iblk_1 V c t p k i hi
  have h2 : (fun k j => (iblk1 V c 2 t : Vec Ideal S128x128 .f32) (ix2 k j)) = (fun k j => (V c main_arg14 : S128x128.Idx → EReal) (ix2 k j)) := funext fun k => funext fun j => iblk_2 V c t k j
  have h3 : (fun j => (iblk1 V c 3 t : Vec Ideal S1x128 .f32) (ix2 (0 : Fin 1) j)) = (fun j => (V c main_v42 : S1x128.Idx → EReal) (ix2 (0 : Fin 1) j)) := funext fun j => iblk_3 V c t j
  have h4 : (fun k j => (iblk1 V c 4 t : Vec Ideal S128x128 .f32) (ix2 k j)) = (fun k j => (V c main_arg16 : S128x128.Idx → EReal) (ix2 k j)) := funext fun k => funext fun j => iblk_4 V c t k j
  rw [h0, h1, h2, h3, h4]

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v43).slice (win1_5.rect t)).set ↔ _
  rw [View.set_slice_whole, Rect.mem_set_unit]
  exact Iff.rfl

/-- The blocks tile the output array: row r lies in the block of point r / 2000. -/
theorem cover (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  have ht : (i 0).val / 2000 < cfg1.N := by rw [show cfg1.N = 25 from N_1]; omega
  refine ⟨⟨(i 0).val / 2000, ht⟩, flush1_5 _, ?_⟩
  rw [mem_blk]
  obtain ⟨e0, e1⟩ := idx_5 ⟨(i 0).val / 2000, ht⟩
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, ht⟩ 1 * 128 ≤ (i 1).val ∧ (i 1).val < win1_5.index ⟨(i 0).val / 2000, ht⟩ 1 * 128 + 128
    rw [e1]; omega

/-- THE ARRAY AFTER THE REGION: the output array ends holding G. -/
theorem final (PA : (Fin 128 → EReal) → (Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S128x128 .f32) (x3 : Vec Ideal S1x128 .f32) (x4 : Vec Ideal S128x128 .f32) (p : Fin 2000) (q : Fin 128),
      out1_5 (F := Ideal) x0 x1 x2 x3 x4 (ix2 p q) = PA (fun k => x0 (ix2 p k)) (fun k => x1 (ix2 p k)) (fun k j => x2 (ix2 k j)) (fun j => x3 (ix2 (0 : Fin 1) j)) (fun k j => x4 (ix2 k j)) q)
    (c : Dev nD) (G : S50000x128.Idx → EReal)
    (hG : ∀ (i : Fin 50000) (q : Fin 128), G (ix2 i q) = PA (fun k => (V c main_v38 : S50000x128.Idx → EReal) (ix2 i k)) (fun k => (V c main_arg1 : S50000x128.Idx → EReal) (ix2 i k)) (fun k j => (V c main_arg14 : S128x128.Idx → EReal) (ix2 k j)) (fun j => (V c main_v42 : S1x128.Idx → EReal) (ix2 (0 : Fin 1) j)) (fun k j => (V c main_arg16 : S128x128.Idx → EReal) (ix2 k j)) q) :
    (dat1 V c).arrAt 5 cfg1.N = G :=
  (dat1 V c).arrAt_eq_of_cover 5 G (fun t _ => flushed_eq V PA hout c G hG t) cover

end Cert.KernelIdeal.Blocks1

end
-- ==== Proof.KernelBlocks2.lean ====
/-
  The array a pipelined region leaves: the paper layer of the second round.

  The region walks 50 grid points; point t fetches rows 2000 t … 2000 t + 1999 of each row array, the whole of each 128 x 128
  weight array and each one-row bias array, and writes the body's result back to rows 2000 t … 2000 t + 1999 of the output
  array. If the body's result at (p, q) is a function PA of row p of the row blocks, of the weights and of the bias rows, and
  G is an array whose entry (i, q) is the same PA of row i of the row arrays, then point t writes back exactly block t of G
  (an element of block t sits at row 2000 t + p, the block index times the block height plus its row in the block); the 50
  blocks tile the 100000 rows (row r lies in block r / 2000); so the output array ends holding G. The statement is over an
  arbitrary valuation V of the buffers at the region's entry and an arbitrary PA, nine input windows.
-/
import proofs.«106662_j20968030339503_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks2

open Cert.KernelIdeal Cert.KernelIdeal.Gen

variable (V : (c : Dev nD) → (b : Ref sig .tc) → Buf (Elt Ideal) ((c : Thread nD τ).loc b))

/-! ## The index maps over the grid -/

theorem idx_0 : ∀ t : Fin cfg2.N, win2_0.index t (0 : Fin 2) = t.val ∧ win2_0.index t (1 : Fin 2) = 0 :=
  (by decide +kernel : ∀ t : Fin grid2.N, _)

theorem idx_1 : ∀ t : Fin cfg2.N, win2_1.index t (0 : Fin 2) = t.val ∧ win2_1.index t (1 : Fin 2) = 0 :=
  (by decide +kernel : ∀ t : Fin grid2.N, _)

theorem idx_2 : ∀ t : Fin cfg2.N, win2_2.index t (0 : Fin 2) = t.val ∧ win2_2.index t (1 : Fin 2) = 0 :=
  (by decide +kernel : ∀ t : Fin grid2.N, _)

theorem idx_3 : ∀ t : Fin cfg2.N, win2_3.index t (0 : Fin 2) = 0 ∧ win2_3.index t (1 : Fin 2) = 0 :=
  (by decide +kernel : ∀ t : Fin grid2.N, _)

theorem idx_4 : ∀ t : Fin cfg2.N, win2_4.index t (0 : Fin 2) = 0 ∧ win2_4.index t (1 : Fin 2) = 0 :=
  (by decide +kernel : ∀ t : Fin grid2.N, _)

theorem idx_5 : ∀ t : Fin cfg2.N, win2_5.index t (0 : Fin 2) = 0 ∧ win2_5.index t (1 : Fin 2) = 0 :=
  (by decide +kernel : ∀ t : Fin grid2.N, _)

theorem idx_6 : ∀ t : Fin cfg2.N, win2_6.index t (0 : Fin 2) = 0 ∧ win2_6.index t (1 : Fin 2) = 0 :=
  (by decide +kernel : ∀ t : Fin grid2.N, _)

theorem idx_7 : ∀ t : Fin cfg2.N, win2_7.index t (0 : Fin 2) = 0 ∧ win2_7.index t (1 : Fin 2) = 0 :=
  (by decide +kernel : ∀ t : Fin grid2.N, _)

theorem idx_8 : ∀ t : Fin cfg2.N, win2_8.index t (0 : Fin 2) = 0 ∧ win2_8.index t (1 : Fin 2) = 0 :=
  (by decide +kernel : ∀ t : Fin grid2.N, _)

theorem idx_9 : ∀ t : Fin cfg2.N, win2_9.index t (0 : Fin 2) = t.val ∧ win2_9.index t (1 : Fin 2) = 0 :=
  (by decide +kernel : ∀ t : Fin grid2.N, _)

/-! ## Each input window's block, read off its array -/

/-- Window 0's block at point t is rows 2000 t … 2000 t + 1999 of its array. -/
theorem iblk_0 (c : Dev nD) (t : Fin cfg2.N) (p : Fin 2000) (k : Fin 128) (i : Fin 100000) (hi : i.val = 2000 * t.val + p.val) :
    (iblk2 V c 0 t : Vec Ideal S2000x128 .f32) (ix2 p k) = (V c main_v56 : S100000x128.Idx → EReal) (ix2 i k) := by
  obtain ⟨e0, e1⟩ := idx_0 t
  unfold iblk2
  rw [View.read_apply]
  show V c main_v56 _ = V c main_v56 _
  congr 1
  funext a
  apply Fin.ext
  match a with
  | ⟨0, _⟩ => show win2_0.index t 0 * 2000 + 1 * p.val = i.val; rw [e0, hi]; omega
  | ⟨1, _⟩ => show win2_0.index t 1 * 128 + 1 * k.val = k.val; rw [e1]; omega

/-- Window 1's block at point t is rows 2000 t … 2000 t + 1999 of its array. -/
theorem iblk_1 (c : Dev nD) (t : Fin cfg2.N) (p : Fin 2000) (k : Fin 128) (i : Fin 100000) (hi : i.val = 2000 * t.val + p.val) :
    (iblk2 V c 1 t : Vec Ideal S2000x128 .f32) (ix2 p k) = (V c main_v69 : S100000x128.Idx → EReal) (ix2 i k) := by
  obtain ⟨e0, e1⟩ := idx_1 t
  unfold iblk2
  rw [View.read_apply]
  show V c main_v69 _ = V c main_v69 _
  congr 1
  funext a
  apply Fin.ext
  match a with
  | ⟨0, _⟩ => show win2_1.index t 0 * 2000 + 1 * p.val = i.val; rw [e0, hi]; omega
  | ⟨1, _⟩ => show win2_1.index t 1 * 128 + 1 * k.val = k.val; rw [e1]; omega

/-- Window 2's block at point t is rows 2000 t … 2000 t + 1999 of its array. -/
theorem iblk_2 (c : Dev nD) (t : Fin cfg2.N) (p : Fin 2000) (k : Fin 128) (i : Fin 100000) (hi : i.val = 2000 * t.val + p.val) :
    (iblk2 V c 2 t : Vec Ideal S2000x128 .f32) (ix2 p k) = (V c main_v41 : S100000x128.Idx → EReal) (ix2 i k) := by
  obtain ⟨e0, e1⟩ := idx_2 t
  unfold iblk2
  rw [View.read_apply]
  show V c main_v41 _ = V c main_v41 _
  congr 1
  funext a
  apply Fin.ext
  match a with
  | ⟨0, _⟩ => show win2_2.index t 0 * 2000 + 1 * p.val = i.val; rw [e0, hi]; omega
  | ⟨1, _⟩ => show win2_2.index t 1 * 128 + 1 * k.val = k.val; rw [e1]; omega

/-- Window 3's block at every point is its whole 128 x 128 array. -/
theorem iblk_3 (c : Dev nD) (t : Fin cfg2.N) (k j : Fin 128) :
    (iblk2 V c 3 t : Vec Ideal S128x128 .f32) (ix2 k j) = (V c main_arg17 : S128x128.Idx → EReal) (ix2 k j) := by
  obtain ⟨e0, e1⟩ := idx_3 t
  unfold iblk2
  rw [View.read_apply]
  show V c main_arg17 _ = V c main_arg17 _
  congr 1
  funext a
  apply Fin.ext
  match a with
  | ⟨0, _⟩ => show win2_3.index t 0 * 128 + 1 * k.val = k.val; rw [e0]; omega
  | ⟨1, _⟩ => show win2_3.index t 1 * 128 + 1 * j.val = j.val; rw [e1]; omega

/-- Window 4's block at every point is its whole one-row array. -/
theorem iblk_4 (c : Dev nD) (t : Fin cfg2.N) (j : Fin 128) :
    (iblk2 V c 4 t : Vec Ideal S1x128 .f32) (ix2 (0 : Fin 1) j) = (V c main_v83 : S1x128.Idx → EReal) (ix2 (0 : Fin 1) j) := by
  obtain ⟨e0, e1⟩ := idx_4 t
  unfold iblk2
  rw [View.read_apply]
  show V c main_v83 _ = V c main_v83 _
  congr 1
  funext a
  apply Fin.ext
  match a with
  | ⟨0, _⟩ => show win2_4.index t 0 * 1 + 1 * (0 : Fin 1).val = (0 : Fin 1).val; rw [e0]; rfl
  | ⟨1, _⟩ => show win2_4.index t 1 * 128 + 1 * j.val = j.val; rw [e1]; omega

/-- Window 5's block at every point is its whole 128 x 128 array. -/
theorem iblk_5 (c : Dev nD) (t : Fin cfg2.N) (k j : Fin 128) :
    (iblk2 V c 5 t : Vec Ideal S128x128 .f32) (ix2 k j) = (V c main_arg19 : S128x128.Idx → EReal) (ix2 k j) := by
  obtain ⟨e0, e1⟩ := idx_5 t
  unfold iblk2
  rw [View.read_apply]
  show V c main_arg19 _ = V c main_arg19 _
  congr 1
  funext a
  apply Fin.ext
  match a with
  | ⟨0, _⟩ => show win2_5.index t 0 * 128 + 1 * k.val = k.val; rw [e0]; omega
  | ⟨1, _⟩ => show win2_5.index t 1 * 128 + 1 * j.val = j.val; rw [e1]; omega

/-- Window 6's block at every point is its whole 128 x 128 array. -/
theorem iblk_6 (c : Dev nD) (t : Fin cfg2.N) (k j : Fin 128) :
    (iblk2 V c 6 t : Vec Ideal S128x128 .f32) (ix2 k j) = (V c main_arg20 : S128x128.Idx → EReal) (ix2 k j) := by
  obtain ⟨e0, e1⟩ := idx_6 t
  unfold iblk2
  rw [View.read_apply]
  show V c main_arg20 _ = V c main_arg20 _
  congr 1
  funext a
  apply Fin.ext
  match a with
  | ⟨0, _⟩ => show win2_6.index t 0 * 128 + 1 * k.val = k.val; rw [e0]; omega
  | ⟨1, _⟩ => show win2_6.index t 1 * 128 + 1 * j.val = j.val; rw [e1]; omega

/-- Window 7's block at every point is its whole one-row array. -/
theorem iblk_7 (c : Dev nD) (t : Fin cfg2.N) (j : Fin 128) :
    (iblk2 V c 7 t : Vec Ideal S1x128 .f32) (ix2 (0 : Fin 1) j) = (V c main_v84 : S1x128.Idx → EReal) (ix2 (0 : Fin 1) j) := by
  obtain ⟨e0, e1⟩ := idx_7 t
  unfold iblk2
  rw [View.read_apply]
  show V c main_v84 _ = V c main_v84 _
  congr 1
  funext a
  apply Fin.ext
  match a with
  | ⟨0, _⟩ => show win2_7.index t 0 * 1 + 1 * (0 : Fin 1).val = (0 : Fin 1).val; rw [e0]; rfl
  | ⟨1, _⟩ => show win2_7.index t 1 * 128 + 1 * j.val = j.val; rw [e1]; omega

/-- Window 8's block at every point is its whole 128 x 128 array. -/
theorem iblk_8 (c : Dev nD) (t : Fin cfg2.N) (k j : Fin 128) :
    (iblk2 V c 8 t : Vec Ideal S128x128 .f32) (ix2 k j) = (V c main_arg22 : S128x128.Idx → EReal) (ix2 k j) := by
  obtain ⟨e0, e1⟩ := idx_8 t
  unfold iblk2
  rw [View.read_apply]
  show V c main_arg22 _ = V c main_arg22 _
  congr 1
  funext a
  apply Fin.ext
  match a with
  | ⟨0, _⟩ => show win2_8.index t 0 * 128 + 1 * k.val = k.val; rw [e0]; omega
  | ⟨1, _⟩ => show win2_8.index t 1 * 128 + 1 * j.val = j.val; rw [e1]; omega

/-! ## What a point writes back, the cover, the array after the region -/

/-- WHAT POINT t WRITES BACK is block t of G, for any array G whose entry (i, q) is the per-node function PA of row i of the
    row arrays, the whole weight arrays and the bias rows, when the body's result at (p, q) is PA of row p of the row blocks. -/
theorem flushed_eq (PA : (Fin 128 → EReal) → (Fin 128 → EReal) → (Fin 128 → EReal) → (Fin 128 → Fin 128 → EReal) → (Fin 128 → EReal) → (Fin 128 → Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S2000x128 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x128 .f32) (p : Fin 2000) (q : Fin 128),
      out2_9 (F := Ideal) x0 x1 x2 x3 x4 x5 x6 x7 x8 (ix2 p q) = PA (fun k => x0 (ix2 p k)) (fun k => x1 (ix2 p k)) (fun k => x2 (ix2 p k)) (fun k j => x3 (ix2 k j)) (fun j => x4 (ix2 (0 : Fin 1) j)) (fun k j => x5 (ix2 k j)) (fun k j => x6 (ix2 k j)) (fun j => x7 (ix2 (0 : Fin 1) j)) (fun k j => x8 (ix2 k j)) q)
    (c : Dev nD) (G : S100000x128.Idx → EReal)
    (hG : ∀ (i : Fin 100000) (q : Fin 128), G (ix2 i q) = PA (fun k => (V c main_v56 : S100000x128.Idx → EReal) (ix2 i k)) (fun k => (V c main_v69 : S100000x128.Idx → EReal) (ix2 i k)) (fun k => (V c main_v41 : S100000x128.Idx → EReal) (ix2 i k)) (fun k j => (V c main_arg17 : S128x128.Idx → EReal) (ix2 k j)) (fun j => (V c main_v83 : S1x128.Idx → EReal) (ix2 (0 : Fin 1) j)) (fun k j => (V c main_arg19 : S128x128.Idx → EReal) (ix2 k j)) (fun k j => (V c main_arg20 : S128x128.Idx → EReal) (ix2 k j)) (fun j => (V c main_v84 : S1x128.Idx → EReal) (ix2 (0 : Fin 1) j)) (fun k j => (V c main_arg22 : S128x128.Idx → EReal) (ix2 k j)) q)
    (t : Fin cfg2.N) :
    (dat2 V c).flushed 9 t = ((cfg2.win 9).blk t).view.read (Elt Ideal) G := by
  show (cfg2.win 9).cut (grid2.coords t) ((dat2 V c).after 9 t) = _
  rw [after2_9]
  obtain ⟨e0, e1⟩ := idx_9 t
  have hN : t.val < 50 := Nat.lt_of_lt_of_eq t.isLt (show cfg2.N = 50 from N_2)
  funext y
  obtain ⟨p, q, rfl⟩ : ∃ (p : Fin 2000) (q : Fin 128), y = ix2 p q := ⟨y 0, y 1, eq_ix2 y⟩
  rw [View.read_apply]
  have hi : (⟨2000 * t.val + p.val, by have := p.isLt; omega⟩ : Fin 100000).val = 2000 * t.val + p.val := rfl
  generalize (⟨2000 * t.val + p.val, by have := p.isLt; omega⟩ : Fin 100000) = i at hi
  have hemb : ((cfg2.win 9).blk t).view.emb (ix2 p q) = ix2 i q := by
    funext a
    apply Fin.ext
    match a with
    | ⟨0, _⟩ => show win2_9.index t 0 * 2000 + 1 * p.val = i.val; rw [e0, hi]; omega
    | ⟨1, _⟩ => show win2_9.index t 1 * 128 + 1 * q.val = q.val; rw [e1]; omega
  rw [hemb]
  show out2_9 (F := Ideal) _ _ _ _ _ _ _ _ _ (ix2 p q) = G (ix2 i q)
  rw [hout, hG]
  have h0 : (fun k => (iblk2 V c 0 t : Vec Ideal S2000x128 .f32) (ix2 p k)) = (fun k => (V c main_v56 : S100000x128.Idx → EReal) (ix2 i k)) := funext fun k => iblk_0 V c t p k i hi
  have h1 : (fun k => (iblk2 V c 1 t : Vec Ideal S2000x128 .f32) (ix2 p k)) = (fun k => (V c main_v69 : S100000x128.Idx → EReal) (ix2 i k)) := funext fun k => iblk_1 V c t p k i hi
  have h2 : (fun k => (iblk2 V c 2 t : Vec Ideal S2000x128 .f32) (ix2 p k)) = (fun k => (V c main_v41 : S100000x128.Idx → EReal) (ix2 i k)) := funext fun k => iblk_2 V c t p k i hi
  have h3 : (fun k j => (iblk2 V c 3 t : Vec Ideal S128x128 .f32) (ix2 k j)) = (fun k j => (V c main_arg17 : S128x128.Idx → EReal) (ix2 k j)) := funext fun k => funext fun j => iblk_3 V c t k j
  have h4 : (fun j => (iblk2 V c 4 t : Vec Ideal S1x128 .f32) (ix2 (0 : Fin 1) j)) = (fun j => (V c main_v83 : S1x128.Idx → EReal) (ix2 (0 : Fin 1) j)) := funext fun j => iblk_4 V c t j
  have h5 : (fun k j => (iblk2 V c 5 t : Vec Ideal S128x128 .f32) (ix2 k j)) = (fun k j => (V c main_arg19 : S128x128.Idx → EReal) (ix2 k j)) := funext fun k => funext fun j => iblk_5 V c t k j
  have h6 : (fun k j => (iblk2 V c 6 t : Vec Ideal S128x128 .f32) (ix2 k j)) = (fun k j => (V c main_arg20 : S128x128.Idx → EReal) (ix2 k j)) := funext fun k => funext fun j => iblk_6 V c t k j
  have h7 : (fun j => (iblk2 V c 7 t : Vec Ideal S1x128 .f32) (ix2 (0 : Fin 1) j)) = (fun j => (V c main_v84 : S1x128.Idx → EReal) (ix2 (0 : Fin 1) j)) := funext fun j => iblk_7 V c t j
  have h8 : (fun k j => (iblk2 V c 8 t : Vec Ideal S128x128 .f32) (ix2 k j)) = (fun k j => (V c main_arg22 : S128x128.Idx → EReal) (ix2 k j)) := funext fun k => funext fun j => iblk_8 V c t k j
  rw [h0, h1, h2, h3, h4, h5, h6, h7, h8]

/-- An index of the output array is in point t's block iff each coordinate is in the block's range on its axis. -/
theorem mem_blk (t : Fin cfg2.N) (i : S100000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v85).slice (win2_9.rect t)).set ↔ _
  rw [View.set_slice_whole, Rect.mem_set_unit]
  exact Iff.rfl

/-- The blocks tile the output array: row r lies in the block of point r / 2000. -/
theorem cover (i : S100000x128.Idx) : ∃ t : Fin cfg2.N, (cfg2.win 9).flush t = true ∧ i ∈ ((cfg2.win 9).blk t).view.set := by
  have h0 : (i 0).val < 100000 := (i 0).isLt
  have h1 : (i 1).val < 128 := (i 1).isLt
  have ht : (i 0).val / 2000 < cfg2.N := by rw [show cfg2.N = 50 from N_2]; omega
  refine ⟨⟨(i 0).val / 2000, ht⟩, flush2_9 _, ?_⟩
  rw [mem_blk]
  obtain ⟨e0, e1⟩ := idx_9 ⟨(i 0).val / 2000, ht⟩
  intro a
  match a with
  | ⟨0, _⟩ =>
    show win2_9.index ⟨(i 0).val / 2000, ht⟩ 0 * 2000 ≤ (i 0).val ∧ (i 0).val < win2_9.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win2_9.index ⟨(i 0).val / 2000, ht⟩ 1 * 128 ≤ (i 1).val ∧ (i 1).val < win2_9.index ⟨(i 0).val / 2000, ht⟩ 1 * 128 + 128
    rw [e1]; omega

/-- THE ARRAY AFTER THE REGION: the output array ends holding G. -/
theorem final (PA : (Fin 128 → EReal) → (Fin 128 → EReal) → (Fin 128 → EReal) → (Fin 128 → Fin 128 → EReal) → (Fin 128 → EReal) → (Fin 128 → Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S2000x128 .f32) (x3 : Vec Ideal S128x128 .f32) (x4 : Vec Ideal S1x128 .f32) (x5 : Vec Ideal S128x128 .f32) (x6 : Vec Ideal S128x128 .f32) (x7 : Vec Ideal S1x128 .f32) (x8 : Vec Ideal S128x128 .f32) (p : Fin 2000) (q : Fin 128),
      out2_9 (F := Ideal) x0 x1 x2 x3 x4 x5 x6 x7 x8 (ix2 p q) = PA (fun k => x0 (ix2 p k)) (fun k => x1 (ix2 p k)) (fun k => x2 (ix2 p k)) (fun k j => x3 (ix2 k j)) (fun j => x4 (ix2 (0 : Fin 1) j)) (fun k j => x5 (ix2 k j)) (fun k j => x6 (ix2 k j)) (fun j => x7 (ix2 (0 : Fin 1) j)) (fun k j => x8 (ix2 k j)) q)
    (c : Dev nD) (G : S100000x128.Idx → EReal)
    (hG : ∀ (i : Fin 100000) (q : Fin 128), G (ix2 i q) = PA (fun k => (V c main_v56 : S100000x128.Idx → EReal) (ix2 i k)) (fun k => (V c main_v69 : S100000x128.Idx → EReal) (ix2 i k)) (fun k => (V c main_v41 : S100000x128.Idx → EReal) (ix2 i k)) (fun k j => (V c main_arg17 : S128x128.Idx → EReal) (ix2 k j)) (fun j => (V c main_v83 : S1x128.Idx → EReal) (ix2 (0 : Fin 1) j)) (fun k j => (V c main_arg19 : S128x128.Idx → EReal) (ix2 k j)) (fun k j => (V c main_arg20 : S128x128.Idx → EReal) (ix2 k j)) (fun j => (V c main_v84 : S1x128.Idx → EReal) (ix2 (0 : Fin 1) j)) (fun k j => (V c main_arg22 : S128x128.Idx → EReal) (ix2 k j)) q) :
    (dat2 V c).arrAt 9 cfg2.N = G :=
  (dat2 V c).arrAt_eq_of_cover 9 G (fun t _ => flushed_eq V PA hout c G hG t) cover

end Cert.KernelIdeal.Blocks2

end
-- ==== Proof.KernelBlocks3.lean ====
/-
  The array a pipelined region leaves: the author layer of the second round.

  The region walks 25 grid points; point t fetches rows 2000 t … 2000 t + 1999 of each row array, the whole of each 128 x 128
  weight array and each one-row bias array, and writes the body's result back to rows 2000 t … 2000 t + 1999 of the output
  array. If the body's result at (p, q) is a function PA of row p of the row blocks, of the weights and of the bias rows, and
  G is an array whose entry (i, q) is the same PA of row i of the row arrays, then point t writes back exactly block t of G
  (an element of block t sits at row 2000 t + p, the block index times the block height plus its row in the block); the 25
  blocks tile the 50000 rows (row r lies in block r / 2000); so the output array ends holding G. The statement is over an
  arbitrary valuation V of the buffers at the region's entry and an arbitrary PA, five input windows.
-/
import proofs.«106662_j20968030339503_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks3

open Cert.KernelIdeal Cert.KernelIdeal.Gen

variable (V : (c : Dev nD) → (b : Ref sig .tc) → Buf (Elt Ideal) ((c : Thread nD τ).loc b))

/-! ## The index maps over the grid -/

theorem idx_0 : ∀ t : Fin cfg3.N, win3_0.index t (0 : Fin 2) = t.val ∧ win3_0.index t (1 : Fin 2) = 0 :=
  (by decide +kernel : ∀ t : Fin grid3.N, _)

theorem idx_1 : ∀ t : Fin cfg3.N, win3_1.index t (0 : Fin 2) = t.val ∧ win3_1.index t (1 : Fin 2) = 0 :=
  (by decide +kernel : ∀ t : Fin grid3.N, _)

theorem idx_2 : ∀ t : Fin cfg3.N, win3_2.index t (0 : Fin 2) = 0 ∧ win3_2.index t (1 : Fin 2) = 0 :=
  (by decide +kernel : ∀ t : Fin grid3.N, _)

theorem idx_3 : ∀ t : Fin cfg3.N, win3_3.index t (0 : Fin 2) = 0 ∧ win3_3.index t (1 : Fin 2) = 0 :=
  (by decide +kernel : ∀ t : Fin grid3.N, _)

theorem idx_4 : ∀ t : Fin cfg3.N, win3_4.index t (0 : Fin 2) = 0 ∧ win3_4.index t (1 : Fin 2) = 0 :=
  (by decide +kernel : ∀ t : Fin grid3.N, _)

theorem idx_5 : ∀ t : Fin cfg3.N, win3_5.index t (0 : Fin 2) = t.val ∧ win3_5.index t (1 : Fin 2) = 0 :=
  (by decide +kernel : ∀ t : Fin grid3.N, _)

/-! ## Each input window's block, read off its array -/

/-- Window 0's block at point t is rows 2000 t … 2000 t + 1999 of its array. -/
theorem iblk_0 (c : Dev nD) (t : Fin cfg3.N) (p : Fin 2000) (k : Fin 128) (i : Fin 50000) (hi : i.val = 2000 * t.val + p.val) :
    (iblk3 V c 0 t : Vec Ideal S2000x128 .f32) (ix2 p k) = (V c main_v82 : S50000x128.Idx → EReal) (ix2 i k) := by
  obtain ⟨e0, e1⟩ := idx_0 t
  unfold iblk3
  rw [View.read_apply]
  show V c main_v82 _ = V c main_v82 _
  congr 1
  funext a
  apply Fin.ext
  match a with
  | ⟨0, _⟩ => show win3_0.index t 0 * 2000 + 1 * p.val = i.val; rw [e0, hi]; omega
  | ⟨1, _⟩ => show win3_0.index t 1 * 128 + 1 * k.val = k.val; rw [e1]; omega

/-- Window 1's block at point t is rows 2000 t … 2000 t + 1999 of its array. -/
theorem iblk_1 (c : Dev nD) (t : Fin cfg3.N) (p : Fin 2000) (k : Fin 128) (i : Fin 50000) (hi : i.val = 2000 * t.val + p.val) :
    (iblk3 V c 1 t : Vec Ideal S2000x128 .f32) (ix2 p k) = (V c main_v43 : S50000x128.Idx → EReal) (ix2 i k) := by
  obtain ⟨e0, e1⟩ := idx_1 t
  unfold iblk3
  rw [View.read_apply]
  show V c main_v43 _ = V c main_v43 _
  congr 1
  funext a
  apply Fin.ext
  match a with
  | ⟨0, _⟩ => show win3_1.index t 0 * 2000 + 1 * p.val = i.val; rw [e0, hi]; omega
  | ⟨1, _⟩ => show win3_1.index t 1 * 128 + 1 * k.val = k.val; rw [e1]; omega

/-- Window 2's block at every point is its whole 128 x 128 array. -/
theorem iblk_2 (c : Dev nD) (t : Fin cfg3.N) (k j : Fin 128) :
    (iblk3 V c 2 t : Vec Ideal S128x128 .f32) (ix2 k j) = (V c main_arg23 : S128x128.Idx → EReal) (ix2 k j) := by
  obtain ⟨e0, e1⟩ := idx_2 t
  unfold iblk3
  rw [View.read_apply]
  show V c main_arg23 _ = V c main_arg23 _
  congr 1
  funext a
  apply Fin.ext
  match a with
  | ⟨0, _⟩ => show win3_2.index t 0 * 128 + 1 * k.val = k.val; rw [e0]; omega
  | ⟨1, _⟩ => show win3_2.index t 1 * 128 + 1 * j.val = j.val; rw [e1]; omega

/-- Window 3's block at every point is its whole one-row array. -/
theorem iblk_3 (c : Dev nD) (t : Fin cfg3.N) (j : Fin 128) :
    (iblk3 V c 3 t : Vec Ideal S1x128 .f32) (ix2 (0 : Fin 1) j) = (V c main_v86 : S1x128.Idx → EReal) (ix2 (0 : Fin 1) j) := by
  obtain ⟨e0, e1⟩ := idx_3 t
  unfold iblk3
  rw [View.read_apply]
  show V c main_v86 _ = V c main_v86 _
  congr 1
  funext a
  apply Fin.ext
  match a with
  | ⟨0, _⟩ => show win3_3.index t 0 * 1 + 1 * (0 : Fin 1).val = (0 : Fin 1).val; rw [e0]; rfl
  | ⟨1, _⟩ => show win3_3.index t 1 * 128 + 1 * j.val = j.val; rw [e1]; omega

/-- Window 4's block at every point is its whole 128 x 128 array. -/
theorem iblk_4 (c : Dev nD) (t : Fin cfg3.N) (k j : Fin 128) :
    (iblk3 V c 4 t : Vec Ideal S128x128 .f32) (ix2 k j) = (V c main_arg25 : S128x128.Idx → EReal) (ix2 k j) := by
  obtain ⟨e0, e1⟩ := idx_4 t
  unfold iblk3
  rw [View.read_apply]
  show V c main_arg25 _ = V c main_arg25 _
  congr 1
  funext a
  apply Fin.ext
  match a with
  | ⟨0, _⟩ => show win3_4.index t 0 * 128 + 1 * k.val = k.val; rw [e0]; omega
  | ⟨1, _⟩ => show win3_4.index t 1 * 128 + 1 * j.val = j.val; rw [e1]; omega

/-! ## What a point writes back, the cover, the array after the region -/

/-- WHAT POINT t WRITES BACK is block t of G, for any array G whose entry (i, q) is the per-node function PA of row i of the
    row arrays, the whole weight arrays and the bias rows, when the body's result at (p, q) is PA of row p of the row blocks. -/
theorem flushed_eq (PA : (Fin 128 → EReal) → (Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S128x128 .f32) (x3 : Vec Ideal S1x128 .f32) (x4 : Vec Ideal S128x128 .f32) (p : Fin 2000) (q : Fin 128),
      out3_5 (F := Ideal) x0 x1 x2 x3 x4 (ix2 p q) = PA (fun k => x0 (ix2 p k)) (fun k => x1 (ix2 p k)) (fun k j => x2 (ix2 k j)) (fun j => x3 (ix2 (0 : Fin 1) j)) (fun k j => x4 (ix2 k j)) q)
    (c : Dev nD) (G : S50000x128.Idx → EReal)
    (hG : ∀ (i : Fin 50000) (q : Fin 128), G (ix2 i q) = PA (fun k => (V c main_v82 : S50000x128.Idx → EReal) (ix2 i k)) (fun k => (V c main_v43 : S50000x128.Idx → EReal) (ix2 i k)) (fun k j => (V c main_arg23 : S128x128.Idx → EReal) (ix2 k j)) (fun j => (V c main_v86 : S1x128.Idx → EReal) (ix2 (0 : Fin 1) j)) (fun k j => (V c main_arg25 : S128x128.Idx → EReal) (ix2 k j)) q)
    (t : Fin cfg3.N) :
    (dat3 V c).flushed 5 t = ((cfg3.win 5).blk t).view.read (Elt Ideal) G := by
  show (cfg3.win 5).cut (grid3.coords t) ((dat3 V c).after 5 t) = _
  rw [after3_5]
  obtain ⟨e0, e1⟩ := idx_5 t
  have hN : t.val < 25 := Nat.lt_of_lt_of_eq t.isLt (show cfg3.N = 25 from N_3)
  funext y
  obtain ⟨p, q, rfl⟩ : ∃ (p : Fin 2000) (q : Fin 128), y = ix2 p q := ⟨y 0, y 1, eq_ix2 y⟩
  rw [View.read_apply]
  have hi : (⟨2000 * t.val + p.val, by have := p.isLt; omega⟩ : Fin 50000).val = 2000 * t.val + p.val := rfl
  generalize (⟨2000 * t.val + p.val, by have := p.isLt; omega⟩ : Fin 50000) = i at hi
  have hemb : ((cfg3.win 5).blk t).view.emb (ix2 p q) = ix2 i q := by
    funext a
    apply Fin.ext
    match a with
    | ⟨0, _⟩ => show win3_5.index t 0 * 2000 + 1 * p.val = i.val; rw [e0, hi]; omega
    | ⟨1, _⟩ => show win3_5.index t 1 * 128 + 1 * q.val = q.val; rw [e1]; omega
  rw [hemb]
  show out3_5 (F := Ideal) _ _ _ _ _ (ix2 p q) = G (ix2 i q)
  rw [hout, hG]
  have h0 : (fun k => (iblk3 V c 0 t : Vec Ideal S2000x128 .f32) (ix2 p k)) = (fun k => (V c main_v82 : S50000x128.Idx → EReal) (ix2 i k)) := funext fun k => iblk_0 V c t p k i hi
  have h1 : (fun k => (iblk3 V c 1 t : Vec Ideal S2000x128 .f32) (ix2 p k)) = (fun k => (V c main_v43 : S50000x128.Idx → EReal) (ix2 i k)) := funext fun k => iblk_1 V c t p k i hi
  have h2 : (fun k j => (iblk3 V c 2 t : Vec Ideal S128x128 .f32) (ix2 k j)) = (fun k j => (V c main_arg23 : S128x128.Idx → EReal) (ix2 k j)) := funext fun k => funext fun j => iblk_2 V c t k j
  have h3 : (fun j => (iblk3 V c 3 t : Vec Ideal S1x128 .f32) (ix2 (0 : Fin 1) j)) = (fun j => (V c main_v86 : S1x128.Idx → EReal) (ix2 (0 : Fin 1) j)) := funext fun j => iblk_3 V c t j
  have h4 : (fun k j => (iblk3 V c 4 t : Vec Ideal S128x128 .f32) (ix2 k j)) = (fun k j => (V c main_arg25 : S128x128.Idx → EReal) (ix2 k j)) := funext fun k => funext fun j => iblk_4 V c t k j
  rw [h0, h1, h2, h3, h4]

/-- An index of the output array is in point t's block iff each coordinate is in the block's range on its axis. -/
theorem mem_blk (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v87).slice (win3_5.rect t)).set ↔ _
  rw [View.set_slice_whole, Rect.mem_set_unit]
  exact Iff.rfl

/-- The blocks tile the output array: row r lies in the block of point r / 2000. -/
theorem cover (i : S50000x128.Idx) : ∃ t : Fin cfg3.N, (cfg3.win 5).flush t = true ∧ i ∈ ((cfg3.win 5).blk t).view.set := by
  have h0 : (i 0).val < 50000 := (i 0).isLt
  have h1 : (i 1).val < 128 := (i 1).isLt
  have ht : (i 0).val / 2000 < cfg3.N := by rw [show cfg3.N = 25 from N_3]; omega
  refine ⟨⟨(i 0).val / 2000, ht⟩, flush3_5 _, ?_⟩
  rw [mem_blk]
  obtain ⟨e0, e1⟩ := idx_5 ⟨(i 0).val / 2000, ht⟩
  intro a
  match a with
  | ⟨0, _⟩ =>
    show win3_5.index ⟨(i 0).val / 2000, ht⟩ 0 * 2000 ≤ (i 0).val ∧ (i 0).val < win3_5.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win3_5.index ⟨(i 0).val / 2000, ht⟩ 1 * 128 ≤ (i 1).val ∧ (i 1).val < win3_5.index ⟨(i 0).val / 2000, ht⟩ 1 * 128 + 128
    rw [e1]; omega

/-- THE ARRAY AFTER THE REGION: the output array ends holding G. -/
theorem final (PA : (Fin 128 → EReal) → (Fin 128 → EReal) → (Fin 128 → Fin 128 → EReal) → (Fin 128 → EReal) → (Fin 128 → Fin 128 → EReal) → Fin 128 → EReal)
    (hout : ∀ (x0 : Vec Ideal S2000x128 .f32) (x1 : Vec Ideal S2000x128 .f32) (x2 : Vec Ideal S128x128 .f32) (x3 : Vec Ideal S1x128 .f32) (x4 : Vec Ideal S128x128 .f32) (p : Fin 2000) (q : Fin 128),
      out3_5 (F := Ideal) x0 x1 x2 x3 x4 (ix2 p q) = PA (fun k => x0 (ix2 p k)) (fun k => x1 (ix2 p k)) (fun k j => x2 (ix2 k j)) (fun j => x3 (ix2 (0 : Fin 1) j)) (fun k j => x4 (ix2 k j)) q)
    (c : Dev nD) (G : S50000x128.Idx → EReal)
    (hG : ∀ (i : Fin 50000) (q : Fin 128), G (ix2 i q) = PA (fun k => (V c main_v82 : S50000x128.Idx → EReal) (ix2 i k)) (fun k => (V c main_v43 : S50000x128.Idx → EReal) (ix2 i k)) (fun k j => (V c main_arg23 : S128x128.Idx → EReal) (ix2 k j)) (fun j => (V c main_v86 : S1x128.Idx → EReal) (ix2 (0 : Fin 1) j)) (fun k j => (V c main_arg25 : S128x128.Idx → EReal) (ix2 k j)) q) :
    (dat3 V c).arrAt 5 cfg3.N = G :=
  (dat3 V c).arrAt_eq_of_cover 5 G (fun t _ => flushed_eq V PA hout c G hG t) cover

end Cert.KernelIdeal.Blocks3

end
-- ==== Proof.Spec.lean ====
/-
  The specification of one layer of the two-type graph network, one node at a time, on the extended reals.

  A node has a row of 128 features and, per incoming edge type, the mean of its neighbours' rows. For one edge type

      pre_j = (Σ_k mean_k · Wl_{k j} + b_j) + Σ_k x_k · Wr_{k j}          (j = 0 … 127)

  and the layer's row is pre divided by its Euclidean length, the length clamped below by a tiny positive constant:

      sage_j = pre_j / max(√(Σ_j' pre_j' · pre_j'), ε).

  A paper node averages the rows of its two edge types and clamps at zero; an author node has one edge type and
  clamps at zero. The square root, the maximum and the quotient are the extended reals' operations as the instance of
  exact arithmetic defines them; ε and one half are kept as the words the programs carry, never evaluated (the same
  word stands on both sides of every equation they enter).
-/
import Idealize.ShloMosaic.PureOps.Ideal
import Idealize.ShloMosaic.PureOps.Ideal.Laws
import Idealize.ShloMosaic.Lib.ValueIdx

noncomputable section

open scoped BigOperators

namespace Cert.Sage

open Idealize.ShloMosaic

/-- The clamp of the Euclidean length: the single-precision word nearest to 1e-12. -/
def eps : EReal := Ideal.ofBits .f32 0x2B8CBCCC#32

/-- One half, as its single-precision word. -/
def half : EReal := Ideal.ofBits .f32 0x3F000000#32

/-- The row before normalisation: the mean's product with `Wl`, plus the bias, plus the node's own product with `Wr`
    (the bias joins the first product, the second product is added last). -/
def preAt (mean x : Fin 128 → EReal) (Wl : Fin 128 → Fin 128 → EReal) (b : Fin 128 → EReal)
    (Wr : Fin 128 → Fin 128 → EReal) (j : Fin 128) : EReal :=
  ((∑ k : Fin 128, mean k * Wl k j) + b j) + ∑ k : Fin 128, x k * Wr k j

/-- The clamped Euclidean length of a row. -/
def normAt (pre : Fin 128 → EReal) : EReal :=
  max (Ideal.sqrt (∑ j' : Fin 128, pre j' * pre j')) eps

/-- One edge type's row: `pre` divided by its clamped length. -/
def sageAt (mean x : Fin 128 → EReal) (Wl : Fin 128 → Fin 128 → EReal) (b : Fin 128 → EReal)
    (Wr : Fin 128 → Fin 128 → EReal) (j : Fin 128) : EReal :=
  Ideal.div (preAt mean x Wl b Wr j) (normAt (preAt mean x Wl b Wr))

/-- A paper node's new row: half the sum of its two edge types' rows, clamped at zero. -/
def paperAt (mc mw xp : Fin 128 → EReal) (Wlc : Fin 128 → Fin 128 → EReal) (blc : Fin 128 → EReal)
    (Wrc Wlw : Fin 128 → Fin 128 → EReal) (blw : Fin 128 → EReal) (Wrw : Fin 128 → Fin 128 → EReal)
    (j : Fin 128) : EReal :=
  max (half * (sageAt mc xp Wlc blc Wrc j + sageAt mw xp Wlw blw Wrw j)) 0

/-- An author node's new row: its one edge type's row, clamped at zero. -/
def authorAt (mr xa : Fin 128 → EReal) (Wl : Fin 128 → Fin 128 → EReal) (b : Fin 128 → EReal)
    (Wr : Fin 128 → Fin 128 → EReal) (j : Fin 128) : EReal :=
  max (sageAt mr xa Wl b Wr j) 0

end Cert.Sage

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«106662_j20968030339503_1_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.PayCommon.lean ====
/-
  One edge type's row on a block of 2000 nodes, as the kernel bodies compute it with vector operations, read at one
  entry.

  The bodies form  pre = (m @ Wl + b) + x @ Wr  on the matrix unit from zero splats, with the bias row [1, 128]
  repeated down the block's rows, then divide pre by a column [2000, 1] holding each row's clamped Euclidean length
  (the lane sum of the squares, cast to a column, its square root, its maximum with the splat of ε), the column repeated
  across the 128 lanes. Entry (p, q) of the result depends on row p of the two left operands only, and is the
  specification's row function of those rows at q: a product is a sum over the contraction index, a repeated row or
  column is read at its one entry, the lane sum at row p is the sum over the lanes.
-/
import proofs.«106662_j20968030339503_1_alg».proof.Proof.Spec
import proofs.«106662_j20968030339503_1_alg».proof.Proof.LibDotInnerHost
import proofs.«106662_j20968030339503_1_alg».proof.Proof.LibRowSum
import proofs.«106662_j20968030339503_1_alg».proof.Proof.LibKeepdimsLayout
import proofs.«106662_j20968030339503_1_alg».proof.Proof.Gen.KernelIdeal.Frame
import Idealize.ShloMosaic.Lib.ValueLayout

noncomputable section

open scoped BigOperators

namespace Cert.Sage

open Cert.KernelIdeal Cert.KernelIdeal.Gen Idealize.ShloMosaic Idealize.ShloMosaic.ValueIdx

/-- The zero offsets of a whole-block access, however spelt. -/
theorem zeros2 : (![0, 0] : Fin 2 → Nat) = fun _ => 0 := funext fun a => by fin_cases a <;> rfl

/-- The bodies' one record of dimension numbers says rows by columns: [2000, 128] against [128, 128]. -/
theorem plainK : DotInner.Plain dot_S2000x128_S128x128_S2000x128_1_0_0_1_n_n :=
  plain_record dot_S2000x128_S128x128_S2000x128_1_0_0_1_n_n, S2000x128, S128x128

/-- The row before normalisation on a block: the first product from the zero splat, plus the repeated bias row, plus the
    second product from the zero splat. -/
def preV (m x : FVec Ideal S2000x128 .bf16) (Wl Wr : FVec Ideal S128x128 .bf16) (b : FVec Ideal S1x128 .f32) :
    FVec Ideal S2000x128 .f32 :=
  addf (addf (matmul dot_S2000x128_S128x128_S2000x128_1_0_0_1_n_n none m Wl (constant S2000x128 .f32 0x00000000#32))
      (broadcastTo S2000x128 b broadcasts_S1x128_S2000x128))
    (matmul dot_S2000x128_S128x128_S2000x128_1_0_0_1_n_n none x Wr (constant S2000x128 .f32 0x00000000#32))

/-- A block divided, row by row, by the clamped Euclidean length of the row. -/
def normV (v : FVec Ideal S2000x128 .f32) : FVec Ideal S2000x128 .f32 :=
  divf v (broadcastTo S2000x128
    (maximumf (sqrt (shapeCast S2000x1
        (multiReduction .add [1] S2000 (mulf v v) 0x00000000#32 reduces_S2000x128_S2000 (.inl rfl) rfl)
        shapeCasts_S2000_S2000x1))
      (broadcast S2000x1 (Scalar.ofBits .f32 0x2B8CBCCC#32)))
    broadcasts_S2000x1_S2000x128)

/-- Entry (p, q) of `pre` on a block is the specification's `pre` of row p of the left operands, at q. -/
theorem preV_apply (m x : FVec Ideal S2000x128 .bf16) (Wl Wr : FVec Ideal S128x128 .bf16) (b : FVec Ideal S1x128 .f32)
    (p : Fin 2000) (q : Fin 128) :
    preV m x Wl Wr b (ix2 p q)
      = preAt (fun k => m (ix2 p k)) (fun k => x (ix2 p k)) (fun k j => Wl (ix2 k j)) (fun j => b (ix2 (0 : Fin 1) j))
          (fun k j => Wr (ix2 k j)) q := by
  unfold preV preAt
  refine (addf_apply _ _ _).trans ?_
  refine congrArg₂ (· + ·) ?_ (plainK.matmul_zero none x Wr p q)
  refine (addf_apply _ _ _).trans ?_
  exact congrArg₂ (· + ·) (plainK.matmul_zero none m Wl p q) (broadcastTo_1b_ab_apply b _ p q)

/-- Entry (p, q) of the normalised block is the entry divided by the clamped length of row p. -/
theorem normV_apply (v : FVec Ideal S2000x128 .f32) (p : Fin 2000) (q : Fin 128) :
    normV v (ix2 p q) = Ideal.div (v (ix2 p q)) (normAt (fun j => v (ix2 p j))) := by
  unfold normV normAt eps
  refine (divf_apply _ _ _).trans ?_
  refine congrArg (Ideal.div (v (ix2 p q))) ?_
  refine (Cert.LayoutKeepdims.broadcastTo_a1_ab_apply _ _ p q).trans ?_
  refine (maximumf_apply _ _ _).trans ?_
  refine congrArg₂ max ?_ rfl
  refine congrArg Ideal.sqrt ?_
  refine (Cert.LayoutKeepdims.shapeCast_a_a1_apply _ _ p (0 : Fin 1)).trans ?_
  exact RowSum.rowSum_apply _ _ _ _ p

/-- One edge type's row on a block: `pre`, normalised. -/
def sageV (m x : FVec Ideal S2000x128 .bf16) (Wl Wr : FVec Ideal S128x128 .bf16) (b : FVec Ideal S1x128 .f32) :
    FVec Ideal S2000x128 .f32 :=
  normV (preV m x Wl Wr b)

/-- Entry (p, q) of one edge type's block is the specification's row function of row p of the left operands, at q. -/
theorem sageV_apply (m x : FVec Ideal S2000x128 .bf16) (Wl Wr : FVec Ideal S128x128 .bf16) (b : FVec Ideal S1x128 .f32)
    (p : Fin 2000) (q : Fin 128) :
    sageV m x Wl Wr b (ix2 p q)
      = sageAt (fun k => m (ix2 p k)) (fun k => x (ix2 p k)) (fun k j => Wl (ix2 k j)) (fun j => b (ix2 (0 : Fin 1) j))
          (fun k j => Wr (ix2 k j)) q := by
  unfold sageV sageAt
  refine (normV_apply _ p q).trans ?_
  rw [preV_apply]
  exact congrArg _ (congrArg normAt (funext fun j => preV_apply m x Wl Wr b p j))

/-- The splat of the zero word reads zero. -/
theorem zeroV_apply (i : S2000x128.Idx) :
    broadcast S2000x128 (Scalar.ofBits (F := Ideal) .f32 0x00000000#32) i = (0 : EReal) :=
  Ideal.ofBits_zero_f32

/-- The splat of one half reads the specification's word. -/
theorem halfV_apply (i : S2000x128.Idx) :
    broadcast S2000x128 (Scalar.ofBits (F := Ideal) .f32 0x3F000000#32) i = half := rfl

end Cert.Sage

end
-- ==== Proof.PayPaper0.lean ====
/-
  The paper kernel of layer 0, read at one entry of its output block.

  The body stores once, over the whole block, the maximum with zero of one half of the sum of two normalised rows, one
  per edge type ending at a paper; both use the block of the papers' own features as the second product's left operand.
  The store covers the block and the loads read whole blocks, so the block after the body is that payload of the nine
  input blocks; at entry (p, q) it is the specification's paper row function of row p of the two mean blocks and of the
  feature block, with the six weights and the two bias rows read entry by entry. Rounding an operand to half precision
  before a product changes nothing on the extended reals.
-/
import proofs.«106662_j20968030339503_1_alg».proof.Proof.PayCommon

noncomputable section

open scoped BigOperators

namespace Cert.Sage

open Cert.KernelIdeal Cert.KernelIdeal.Gen Idealize.ShloMosaic Idealize.ShloMosaic.ValueIdx

/-- Entry (p, q) of the paper kernel's output block, as a function of the input blocks. -/
theorem out0_9_apply (x0 x1 x2 : Vec Ideal S2000x128 .f32) (x3 : Vec Ideal S128x128 .f32) (x4 : Vec Ideal S1x128 .f32)
    (x5 x6 : Vec Ideal S128x128 .f32) (x7 : Vec Ideal S1x128 .f32) (x8 : Vec Ideal S128x128 .f32) (p : Fin 2000) (q : Fin 128) :
    out0_9 (F := Ideal) x0 x1 x2 x3 x4 x5 x6 x7 x8 (ix2 p q)
      = paperAt (fun k => x0 (ix2 p k)) (fun k => x1 (ix2 p k)) (fun k => x2 (ix2 p k)) (fun k j => x3 (ix2 k j))
          (fun j => x4 (ix2 (0 : Fin 1) j)) (fun k j => x5 (ix2 k j)) (fun k j => x6 (ix2 k j))
          (fun j => x7 (ix2 (0 : Fin 1) j)) (fun k j => x8 (ix2 k j)) q := by
  unfold out0_9
  rw [View.canon_unit_zero zeros2]
  simp only [View.ld_unit_zero (S := S2000x128) zeros2, View.ld_unit_zero (S := S128x128) zeros2,
    View.ld_unit_zero (S := S1x128) zeros2]
  unfold k0_pay1 k0_pay4 k0_pay5 k0_pay2 k0_pay3
  simp only [shapeCast_self]
  unfold paperAt
  refine (maximumf_apply _ _ _).trans ?_
  refine congrArg₂ max ?_ (zeroV_apply _)
  refine (mulf_apply _ _ _).trans ?_
  refine congrArg₂ (· * ·) (halfV_apply _) ?_
  refine (addf_apply _ _ _).trans ?_
  exact congrArg₂ (· + ·)
    (sageV_apply (truncf .bf16 x0 bitsLt_bf16_f32) (truncf .bf16 x2 bitsLt_bf16_f32) (truncf .bf16 x3 bitsLt_bf16_f32)
      (truncf .bf16 x5 bitsLt_bf16_f32) x4 p q)
    (sageV_apply (truncf .bf16 x1 bitsLt_bf16_f32) (truncf .bf16 x2 bitsLt_bf16_f32) (truncf .bf16 x6 bitsLt_bf16_f32)
      (truncf .bf16 x8 bitsLt_bf16_f32) x7 p q)

end Cert.Sage

end
-- ==== Proof.PayAuthor0.lean ====
/-
  The author kernel of layer 0, read at one entry of its output block.

  The body stores once, over the whole block, the maximum with zero of one edge type's normalised row. The store covers the
  block and the loads read whole blocks, so the block after the body is that payload of the five input blocks; at
  entry (p, q) it is the specification's author row function of row p of the mean block and of the feature block, with the
  weights and the bias row read entry by entry. Rounding an operand to half precision before a product changes nothing
  on the extended reals.
-/
import proofs.«106662_j20968030339503_1_alg».proof.Proof.PayCommon

noncomputable section

open scoped BigOperators

namespace Cert.Sage

open Cert.KernelIdeal Cert.KernelIdeal.Gen Idealize.ShloMosaic Idealize.ShloMosaic.ValueIdx

/-- Entry (p, q) of the author kernel's output block, as a function of the input blocks. -/
theorem out1_5_apply (x0 x1 : Vec Ideal S2000x128 .f32) (x2 : Vec Ideal S128x128 .f32) (x3 : Vec Ideal S1x128 .f32)
    (x4 : Vec Ideal S128x128 .f32) (p : Fin 2000) (q : Fin 128) :
    out1_5 (F := Ideal) x0 x1 x2 x3 x4 (ix2 p q)
      = authorAt (fun k => x0 (ix2 p k)) (fun k => x1 (ix2 p k)) (fun k j => x2 (ix2 k j))
          (fun j => x3 (ix2 (0 : Fin 1) j)) (fun k j => x4 (ix2 k j)) q := by
  unfold out1_5
  rw [View.canon_unit_zero zeros2]
  simp only [View.ld_unit_zero (S := S2000x128) zeros2, View.ld_unit_zero (S := S128x128) zeros2,
    View.ld_unit_zero (S := S1x128) zeros2]
  unfold k1_pay1
  simp only [shapeCast_self]
  unfold authorAt
  refine (maximumf_apply _ _ _).trans ?_
  refine congrArg₂ max ?_ (zeroV_apply _)
  exact sageV_apply (truncf .bf16 x0 bitsLt_bf16_f32) (truncf .bf16 x1 bitsLt_bf16_f32) (truncf .bf16 x2 bitsLt_bf16_f32)
    (truncf .bf16 x4 bitsLt_bf16_f32) x3 p q

end Cert.Sage

end
-- ==== Proof.PayPaper1.lean ====
/-
  The paper kernel of layer 1, read at one entry of its output block.

  The body stores once, over the whole block, the maximum with zero of one half of the sum of two normalised rows, one
  per edge type ending at a paper; both use the block of the papers' own features as the second product's left operand.
  The store covers the block and the loads read whole blocks, so the block after the body is that payload of the nine
  input blocks; at entry (p, q) it is the specification's paper row function of row p of the two mean blocks and of the
  feature block, with the six weights and the two bias rows read entry by entry. Rounding an operand to half precision
  before a product changes nothing on the extended reals.
-/
import proofs.«106662_j20968030339503_1_alg».proof.Proof.PayCommon

noncomputable section

open scoped BigOperators

namespace Cert.Sage

open Cert.KernelIdeal Cert.KernelIdeal.Gen Idealize.ShloMosaic Idealize.ShloMosaic.ValueIdx

/-- Entry (p, q) of the paper kernel's output block, as a function of the input blocks. -/
theorem out2_9_apply (x0 x1 x2 : Vec Ideal S2000x128 .f32) (x3 : Vec Ideal S128x128 .f32) (x4 : Vec Ideal S1x128 .f32)
    (x5 x6 : Vec Ideal S128x128 .f32) (x7 : Vec Ideal S1x128 .f32) (x8 : Vec Ideal S128x128 .f32) (p : Fin 2000) (q : Fin 128) :
    out2_9 (F := Ideal) x0 x1 x2 x3 x4 x5 x6 x7 x8 (ix2 p q)
      = paperAt (fun k => x0 (ix2 p k)) (fun k => x1 (ix2 p k)) (fun k => x2 (ix2 p k)) (fun k j => x3 (ix2 k j))
          (fun j => x4 (ix2 (0 : Fin 1) j)) (fun k j => x5 (ix2 k j)) (fun k j => x6 (ix2 k j))
          (fun j => x7 (ix2 (0 : Fin 1) j)) (fun k j => x8 (ix2 k j)) q := by
  unfold out2_9
  rw [View.canon_unit_zero zeros2]
  simp only [View.ld_unit_zero (S := S2000x128) zeros2, View.ld_unit_zero (S := S128x128) zeros2,
    View.ld_unit_zero (S := S1x128) zeros2]
  unfold k2_pay1 k2_pay4 k2_pay5 k2_pay6 k2_pay2 k2_pay3
  simp only [shapeCast_self]
  unfold paperAt
  refine (maximumf_apply _ _ _).trans ?_
  refine congrArg₂ max ?_ (zeroV_apply _)
  refine (mulf_apply _ _ _).trans ?_
  refine congrArg₂ (· * ·) (halfV_apply _) ?_
  refine (addf_apply _ _ _).trans ?_
  exact congrArg₂ (· + ·)
    (sageV_apply (truncf .bf16 x0 bitsLt_bf16_f32) (truncf .bf16 x2 bitsLt_bf16_f32) (truncf .bf16 x3 bitsLt_bf16_f32)
      (truncf .bf16 x5 bitsLt_bf16_f32) x4 p q)
    (sageV_apply (truncf .bf16 x1 bitsLt_bf16_f32) (truncf .bf16 x2 bitsLt_bf16_f32) (truncf .bf16 x6 bitsLt_bf16_f32)
      (truncf .bf16 x8 bitsLt_bf16_f32) x7 p q)

end Cert.Sage

end
-- ==== Proof.PayAuthor1.lean ====
/-
  The author kernel of layer 1, read at one entry of its output block.

  The body stores once, over the whole block, the maximum with zero of one edge type's normalised row. The store covers the
  block and the loads read whole blocks, so the block after the body is that payload of the five input blocks; at
  entry (p, q) it is the specification's author row function of row p of the mean block and of the feature block, with the
  weights and the bias row read entry by entry. Rounding an operand to half precision before a product changes nothing
  on the extended reals.
-/
import proofs.«106662_j20968030339503_1_alg».proof.Proof.PayCommon

noncomputable section

open scoped BigOperators

namespace Cert.Sage

open Cert.KernelIdeal Cert.KernelIdeal.Gen Idealize.ShloMosaic Idealize.ShloMosaic.ValueIdx

/-- Entry (p, q) of the author kernel's output block, as a function of the input blocks. -/
theorem out3_5_apply (x0 x1 : Vec Ideal S2000x128 .f32) (x2 : Vec Ideal S128x128 .f32) (x3 : Vec Ideal S1x128 .f32)
    (x4 : Vec Ideal S128x128 .f32) (p : Fin 2000) (q : Fin 128) :
    out3_5 (F := Ideal) x0 x1 x2 x3 x4 (ix2 p q)
      = authorAt (fun k => x0 (ix2 p k)) (fun k => x1 (ix2 p k)) (fun k j => x2 (ix2 k j))
          (fun j => x3 (ix2 (0 : Fin 1) j)) (fun k j => x4 (ix2 k j)) q := by
  unfold out3_5
  rw [View.canon_unit_zero zeros2]
  simp only [View.ld_unit_zero (S := S2000x128) zeros2, View.ld_unit_zero (S := S128x128) zeros2,
    View.ld_unit_zero (S := S1x128) zeros2]
  unfold k3_pay1
  simp only [shapeCast_self]
  unfold authorAt
  refine (maximumf_apply _ _ _).trans ?_
  refine congrArg₂ max ?_ (zeroV_apply _)
  exact sageV_apply (truncf .bf16 x0 bitsLt_bf16_f32) (truncf .bf16 x1 bitsLt_bf16_f32) (truncf .bf16 x2 bitsLt_bf16_f32)
    (truncf .bf16 x4 bitsLt_bf16_f32) x3 p q

end Cert.Sage

end
-- ==== Proof.LibDenseLayer.lean ====
/-
  A host-side dense layer read at an entry, on the extended reals.

  jnp's  x @ W + b  lowers to a dot_general, the bias vector broadcast to a one-row matrix and then down the rows, and an
  add; a relu lowers to a maximum against the zero scalar broadcast to the whole shape. Read at entry (e, k):
  the broadcast bias is b[k] whatever the row; the zero splat is the extended real 0; the layer is Σ_j x[e,j]·W[j,k] + b[k].
-/
import Idealize.ShloMosaic.PureOps.Ideal.Laws
import Idealize.ShloMosaic.Lib.ValueIdx
import Idealize.ShloMosaic.Lib.Pipeline.Value
import proofs.«106662_j20968030339503_1_alg».proof.Proof.LibDotInnerHost

noncomputable section

open scoped BigOperators

namespace Idealize.ShloMosaic.DenseLayer

open Idealize.ShloMosaic Idealize.ShloMosaic.ValueIdx Idealize.ShloMosaic.DotInner

variable {n d h : ℕ}

/-- A vector broadcast to one row and then down n rows reads, at (e, k), the vector at k. -/
theorem bias_apply (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    broadcastInDim ⟨2, ![n, h]⟩ ![0, 1] h2 (broadcastInDim ⟨2, ![1, h]⟩ ![1] h1 b) (ix2 e k) = b (ix1 k) := by
  rw [broadcastInDim_apply ![0, 1] h2 _ (ix2 e k) (ix2 (0 : Fin 1) k) (fun a => by
        match a with
        | ⟨0, _⟩ => rfl
        | ⟨1, _⟩ =>
          show k.val = if h = 1 then 0 else k.val
          split
          · have := k.isLt; omega
          · rfl)]
  exact broadcastInDim_apply ![1] h1 b (ix2 (0 : Fin 1) k) (ix1 k) (fun a => by
        match a with
        | ⟨0, _⟩ =>
          show k.val = if h = 1 then 0 else k.val
          split
          · have := k.isLt; omega
          · rfl)

/-- The zero scalar broadcast to a whole shape reads the extended real 0 everywhere. -/
theorem zero_splat_apply {t : Shape} (h0 : (⟨0, ![]⟩ : Shape).BroadcastsInDim t ![]) (i : t.Idx) :
    broadcastInDim t ![] h0 (constant (F := Ideal) ⟨0, ![]⟩ .f32 0x00000000#32) i = 0 := by
  rw [broadcastInDim_apply ![] h0 _ i ix0 (fun a => a.elim0), constant_apply]
  exact Ideal.ofBits_zero_f32

/-- THE LAYER: a rows-by-columns host product plus the broadcast bias, at entry (e, k). -/
theorem dense_apply {D : DotDims ⟨2, ![n, d]⟩ ⟨2, ![d, h]⟩ ⟨2, ![n, h]⟩} (hD : Plain D)
    (x : (⟨2, ![n, d]⟩ : Shape).Idx → EReal) (W : (⟨2, ![d, h]⟩ : Shape).Idx → EReal) (b : (⟨1, ![h]⟩ : Shape).Idx → EReal)
    (h1 : (⟨1, ![h]⟩ : Shape).BroadcastsInDim ⟨2, ![1, h]⟩ ![1])
    (h2 : (⟨2, ![1, h]⟩ : Shape).BroadcastsInDim ⟨2, ![n, h]⟩ ![0, 1]) (e : Fin n) (k : Fin h) :
    addf (F := Ideal) (φ := .f32) (Host.dotGeneral (F := Ideal) (φ₁ := .f32) (φ₂ := .f32) D none x W)
        (broadcastInDim ⟨2, ![n, h]⟩ ![0, 1] h2 (broadcastInDim ⟨2, ![1, h]⟩ ![1] h1 b)) (ix2 e k)
      = (∑ j : Fin d, x (ix2 e j) * W (ix2 j k)) + b (ix1 k) := by
  rw [addf_apply, hD.dotGeneral, bias_apply]

end Idealize.ShloMosaic.DenseLayer

end
-- ==== Proof.AtCommon.lean ====
/-
  One edge type's row as the reference computes it with host operations on a whole array of n nodes, read at one entry.

  The reference forms  pre = (mean @ Wl + b) + x @ Wr  with two host products, the bias vector repeated to one row and
  then down the n rows, then divides pre by each row's clamped Euclidean length: the host sum of the squares over the
  lanes from the zero scalar, repeated to a column [n, 1], its square root, its maximum with the splat of ε, the
  column repeated across the 128 lanes. Entry (i, j) depends on row i of the two left operands only and is the
  specification's row function of those rows at j: a product is a sum over the contraction index, a repeated vector,
  row, column or scalar is read at its one entry, the host sum at row i is zero plus the sum over the lanes.
-/
import proofs.«106662_j20968030339503_1_alg».proof.Proof.Spec
import proofs.«106662_j20968030339503_1_alg».proof.Proof.LibDotInnerHost
import proofs.«106662_j20968030339503_1_alg».proof.Proof.LibDenseLayer
import proofs.«106662_j20968030339503_1_alg».proof.Proof.LibRowSum
import Idealize.ShloMosaic.Lib.Pipeline.Value

noncomputable section

open scoped BigOperators

namespace Cert.Sage

open Idealize.ShloMosaic Idealize.ShloMosaic.ValueIdx

variable {n : ℕ}

/-- A vector [n] repeated to a column [n, 1] reads, at (i, u), the vector at i. -/
theorem col_apply (x : (⟨1, ![n]⟩ : Shape).Idx → EReal) (h : (⟨1, ![n]⟩ : Shape).BroadcastsInDim ⟨2, ![n, 1]⟩ ![0])
    (i : Fin n) (u : Fin 1) : broadcastInDim ⟨2, ![n, 1]⟩ ![0] h x (ix2 i u) = x (ix1 i) :=
  broadcastInDim_apply ![0] h x (ix2 i u) (ix1 i) (fun a => by
    match a with
    | ⟨0, _⟩ =>
      show i.val = if n = 1 then 0 else i.val
      split
      · have := i.isLt; omega
      · rfl)

/-- A column [n, 1] repeated across 128 lanes reads, at (i, j), the column at row i. -/
theorem colRep_apply (x : (⟨2, ![n, 1]⟩ : Shape).Idx → EReal)
    (h : (⟨2, ![n, 1]⟩ : Shape).BroadcastsInDim ⟨2, ![n, 128]⟩ ![0, 1]) (i : Fin n) (j : Fin 128) :
    broadcastInDim ⟨2, ![n, 128]⟩ ![0, 1] h x (ix2 i j) = x (ix2 i (0 : Fin 1)) :=
  broadcastInDim_apply ![0, 1] h x (ix2 i j) (ix2 i (0 : Fin 1)) (fun a => by
    match a with
    | ⟨0, _⟩ =>
      show i.val = if n = 1 then 0 else i.val
      split
      · have := i.isLt; omega
      · rfl
    | ⟨1, _⟩ => rfl)

/-- A scalar word repeated to a whole shape reads the word's value everywhere. -/
theorem splat_apply {t : Shape} (h0 : (⟨0, ![]⟩ : Shape).BroadcastsInDim t ![]) (w : BitVec 32) (i : t.Idx) :
    broadcastInDim t ![] h0 (constant (F := Ideal) ⟨0, ![]⟩ .f32 w) i = Ideal.ofBits .f32 w := by
  rw [broadcastInDim_apply ![] h0 _ i ix0 (fun a => a.elim0), constant_apply]

/-- Entry (i, j) of the host's `pre` is the specification's `pre` of row i of the left operands, at j. -/
theorem hostPre_apply {D : DotDims ⟨2, ![n, 128]⟩ ⟨2, ![128, 128]⟩ ⟨2, ![n, 128]⟩} (hD : DotInner.Plain D)
    (mean x : (⟨2, ![n, 128]⟩ : Shape).Idx → EReal) (Wl : (⟨2, ![128, 128]⟩ : Shape).Idx → EReal)
    (b : (⟨1, ![128]⟩ : Shape).Idx → EReal) (Wr : (⟨2, ![128, 128]⟩ : Shape).Idx → EReal)
    (h1 : (⟨1, ![128]⟩ : Shape).BroadcastsInDim ⟨2, ![1, 128]⟩ ![1])
    (h2 : (⟨2, ![1, 128]⟩ : Shape).BroadcastsInDim ⟨2, ![n, 128]⟩ ![0, 1]) (i : Fin n) (j : Fin 128) :
    addf (F := Ideal) (φ := .f32)
        (addf (F := Ideal) (φ := .f32) (Host.dotGeneral (F := Ideal) (φ₁ := .f32) (φ₂ := .f32) D none mean Wl)
          (broadcastInDim ⟨2, ![n, 128]⟩ ![0, 1] h2 (broadcastInDim ⟨2, ![1, 128]⟩ ![1] h1 b)))
        (Host.dotGeneral (F := Ideal) (φ₁ := .f32) (φ₂ := .f32) D none x Wr) (ix2 i j)
      = preAt (fun k => mean (ix2 i k)) (fun k => x (ix2 i k)) (fun k j => Wl (ix2 k j)) (fun j => b (ix1 j))
          (fun k j => Wr (ix2 k j)) j := by
  unfold preAt
  refine (addf_apply _ _ _).trans ?_
  exact congrArg₂ (· + ·) (DenseLayer.dense_apply hD mean Wl b h1 h2 i j) (hD.dotGeneral none x Wr i j)

/-- Entry (i, j) of an array divided, row by row, by the clamped Euclidean length of the row, as the host computes it. -/
theorem hostNorm_apply (v : FVec Ideal ⟨2, ![n, 128]⟩ .f32)
    (hT : (⟨2, ![n, 128]⟩ : Shape).ReducesTo [1] ⟨1, ![n]⟩) (hR : (⟨2, ![n, 128]⟩ : Shape).Reduces [1] ⟨1, ![n]⟩)
    (h0 : 0 < (⟨0, ![]⟩ : Shape).numel)
    (hc : (⟨1, ![n]⟩ : Shape).BroadcastsInDim ⟨2, ![n, 1]⟩ ![0])
    (he : (⟨0, ![]⟩ : Shape).BroadcastsInDim ⟨2, ![n, 1]⟩ ![])
    (hb : (⟨2, ![n, 1]⟩ : Shape).BroadcastsInDim ⟨2, ![n, 128]⟩ ![0, 1]) (i : Fin n) (j : Fin 128) :
    Host.divf (F := Ideal) v
        (broadcastInDim ⟨2, ![n, 128]⟩ ![0, 1] hb
          (maximumf (F := Ideal)
            (Host.sqrt (F := Ideal) (broadcastInDim ⟨2, ![n, 1]⟩ ![0] hc
              (Host.reduceAdd (F := Ideal) (mulf v v) (constant (F := Ideal) ⟨0, ![]⟩ .f32 0x00000000#32) hT h0)))
            (broadcastInDim ⟨2, ![n, 1]⟩ ![] he (constant (F := Ideal) ⟨0, ![]⟩ .f32 0x2B8CBCCC#32))))
        (ix2 i j)
      = Ideal.div (v (ix2 i j)) (normAt fun j' => v (ix2 i j')) := by
  unfold normAt eps
  show Ideal.div (v (ix2 i j)) _ = _
  refine congrArg (Ideal.div (v (ix2 i j))) ?_
  refine (colRep_apply _ hb i j).trans ?_
  refine (maximumf_apply _ _ _).trans ?_
  refine congrArg₂ max ?_ (splat_apply he _ _)
  show Ideal.sqrt _ = _
  refine congrArg Ideal.sqrt ?_
  refine (col_apply _ hc i (0 : Fin 1)).trans ?_
  show Ideal.hostReduceAdd hT (mulf v v) (Ideal.ofBits .f32 0x00000000#32) (ix1 i) = _
  rw [Ideal.hostReduceAdd_single hT hR, Ideal.ofBits_zero_f32, zero_add]
  exact Finset.sum_congr rfl fun k _ => congrArg (mulf v v) (RowSum.lift_row hR i k)

end Cert.Sage

end
-- ==== Proof.AtPaper.lean ====
/-
  The reference's paper stage, read at one entry.

  One layer's new paper array is the maximum with zero of one half of the sum of two arrays of normalised rows, one per
  edge type ending at a paper, all by host operations on [100000, 128] arrays. Entry (i, j) is the specification's paper
  row function of row i of the two mean arrays and of the feature array, with the six weights and the two bias vectors
  read entry by entry.
-/
import proofs.«106662_j20968030339503_1_alg».proof.Proof.AtCommon
import proofs.«106662_j20968030339503_1_alg».proof.Proof.Stages

noncomputable section

open scoped BigOperators

namespace Cert.Sage

open Cert.ReferenceIdeal Cert.ReferenceIdeal.Gen Idealize.ShloMosaic Idealize.ShloMosaic.ValueIdx

/-- The reference's record of dimension numbers at 100000 rows says rows by columns: [100000, 128] against [128, 128]. -/
theorem plainP : DotInner.Plain dot_S100000x128_S128x128_S100000x128_1_0_0_1_n_n :=
  plain_record dot_S100000x128_S128x128_S100000x128_1_0_0_1_n_n, S100000x128, S128x128

/-- The lane sum's shape condition in the vector unit's form, which names the lane put back over a row. -/
theorem reducesP : S100000x128.Reduces [1] S100000 := by decide

/-- Entry (i, j) of one edge type's array of normalised rows. -/
theorem sageP_apply (mean x : (⟨S100000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal))
    (i : Fin 100000) (j : Fin 128) :
    Cert.Sage.sageP (F := Ideal) mean x Wl b Wr (ix2 i j)
      = sageAt (fun k => mean (ix2 i k)) (fun k => x (ix2 i k)) (fun k j => Wl (ix2 k j)) (fun j => b (ix1 j))
          (fun k j => Wr (ix2 k j)) j := by
  simp only [sageP]
  unfold sageAt
  refine (hostNorm_apply _ _ reducesP _ _ _ _ i j).trans ?_
  rw [hostPre_apply plainP]
  exact congrArg _ (congrArg normAt (funext fun j' => hostPre_apply plainP mean x Wl b Wr _ _ i j'))

/-- Entry (i, j) of one layer's new paper array. -/
theorem paperL_apply (mc mw xp : (⟨S100000x128, .f32⟩ : BufTy).Contents (Elt Ideal)) (Wlc : (⟨S128x128, .f32⟩ : BufTy).Contents (Elt Ideal)) (blc : (⟨S128, .f32⟩ : BufTy).Contents (Elt Ideal))
    (Wrc Wlw : (⟨S128x128, .f32⟩ : BufTy).Contents (Elt Ideal)) (blw : (⟨S128, .f32⟩ : BufTy).Contents (Elt Ideal)) (Wrw : (⟨S128x128, .f32⟩ : BufTy).Contents (Elt Ideal))
    (i : Fin 100000) (j : Fin 128) :
    Cert.Sage.paperL (F := Ideal) mc mw xp Wlc blc Wrc Wlw blw Wrw (ix2 i j)
      = paperAt (fun k => mc (ix2 i k)) (fun k => mw (ix2 i k)) (fun k => xp (ix2 i k)) (fun k j => Wlc (ix2 k j))
          (fun j => blc (ix1 j)) (fun k j => Wrc (ix2 k j)) (fun k j => Wlw (ix2 k j)) (fun j => blw (ix1 j))
          (fun k j => Wrw (ix2 k j)) j := by
  simp only [paperL, reluP, halfSum]
  unfold paperAt half
  refine (maximumf_apply _ _ _).trans ?_
  refine congrArg₂ max ?_ (DenseLayer.zero_splat_apply _ _)
  refine (mulf_apply _ _ _).trans ?_
  refine congrArg₂ (· * ·) (splat_apply _ _ _) ?_
  refine (addf_apply _ _ _).trans ?_
  exact congrArg₂ (· + ·) (sageP_apply mc xp Wlc blc Wrc i j) (sageP_apply mw xp Wlw blw Wrw i j)

end Cert.Sage

end
-- ==== Proof.AtAuthor.lean ====
/-
  The reference's author stage, read at one entry.

  One layer's new author array is the maximum with zero of the array of normalised rows of the one edge type ending at
  an author, all by host operations on [50000, 128] arrays. Entry (i, j) is the specification's author row function of
  row i of the mean array and of the feature array, with the two weights and the bias vector read entry by entry.
-/
import proofs.«106662_j20968030339503_1_alg».proof.Proof.AtCommon
import proofs.«106662_j20968030339503_1_alg».proof.Proof.Stages

noncomputable section

open scoped BigOperators

namespace Cert.Sage

open Cert.ReferenceIdeal Cert.ReferenceIdeal.Gen Idealize.ShloMosaic Idealize.ShloMosaic.ValueIdx

/-- The reference's record of dimension numbers at 50000 rows says rows by columns: [50000, 128] against [128, 128]. -/
theorem plainA : DotInner.Plain dot_S50000x128_S128x128_S50000x128_1_0_0_1_n_n :=
  plain_record dot_S50000x128_S128x128_S50000x128_1_0_0_1_n_n, S50000x128, S128x128

/-- The lane sum's shape condition in the vector unit's form, which names the lane put back over a row. -/
theorem reducesA : S50000x128.Reduces [1] S50000 := by decide

/-- Entry (i, j) of one edge type's array of normalised rows. -/
theorem sageA_apply (mean x : (⟨S50000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal))
    (i : Fin 50000) (j : Fin 128) :
    Cert.Sage.sageA (F := Ideal) mean x Wl b Wr (ix2 i j)
      = sageAt (fun k => mean (ix2 i k)) (fun k => x (ix2 i k)) (fun k j => Wl (ix2 k j)) (fun j => b (ix1 j))
          (fun k j => Wr (ix2 k j)) j := by
  simp only [sageA]
  unfold sageAt
  refine (hostNorm_apply _ _ reducesA _ _ _ _ i j).trans ?_
  rw [hostPre_apply plainA]
  exact congrArg _ (congrArg normAt (funext fun j' => hostPre_apply plainA mean x Wl b Wr _ _ i j'))

/-- Entry (i, j) of one layer's new author array. -/
theorem authorL_apply (mr xa : (⟨S50000x128, .f32⟩ : BufTy).Contents (Elt Ideal)) (Wl : (⟨S128x128, .f32⟩ : BufTy).Contents (Elt Ideal)) (b : (⟨S128, .f32⟩ : BufTy).Contents (Elt Ideal)) (Wr : (⟨S128x128, .f32⟩ : BufTy).Contents (Elt Ideal))
    (i : Fin 50000) (j : Fin 128) :
    Cert.Sage.authorL (F := Ideal) mr xa Wl b Wr (ix2 i j)
      = authorAt (fun k => mr (ix2 i k)) (fun k => xa (ix2 i k)) (fun k j => Wl (ix2 k j)) (fun j => b (ix1 j))
          (fun k j => Wr (ix2 k j)) j := by
  simp only [authorL, reluA]
  unfold authorAt
  refine (maximumf_apply _ _ _).trans ?_
  exact congrArg₂ max (sageA_apply mr xa Wl b Wr i j) (DenseLayer.zero_splat_apply _ _)

end Cert.Sage

end
-- ==== Proof.KernelValue.lean ====
/-
  The kernel program's two results as functions of its arguments.

  The program's buffers are followed from the launch through fourteen stretches of host operations and four pipelined regions.
  No stretch and no region writes an argument array that a later stage still reads, so each such array is, at every stage, what
  was launched. Before the first round's regions the stretches leave the three mean aggregations of the arguments; the paper
  region then leaves, block by block, the paper layer of its input arrays (read at an entry, the body's result and the layer
  are one function of the node's rows), and the author region the author layer. The second round does the same from the first
  round's two results. So the final valuation holds at the two result buffers the two-round functions out0 and out1 of the
  launched arguments, and the run of the program ends there.
-/
import proofs.«106662_j20968030339503_1_alg».proof.Proof.KernelRun
import proofs.«106662_j20968030339503_1_alg».proof.Proof.KernelHost
import proofs.«106662_j20968030339503_1_alg».proof.Proof.KernelBlocks0
import proofs.«106662_j20968030339503_1_alg».proof.Proof.KernelBlocks1
import proofs.«106662_j20968030339503_1_alg».proof.Proof.KernelBlocks2
import proofs.«106662_j20968030339503_1_alg».proof.Proof.KernelBlocks3
import proofs.«106662_j20968030339503_1_alg».proof.Proof.PayPaper0
import proofs.«106662_j20968030339503_1_alg».proof.Proof.PayAuthor0
import proofs.«106662_j20968030339503_1_alg».proof.Proof.PayPaper1
import proofs.«106662_j20968030339503_1_alg».proof.Proof.PayAuthor1
import proofs.«106662_j20968030339503_1_alg».proof.Proof.AtPaper
import proofs.«106662_j20968030339503_1_alg».proof.Proof.AtAuthor

set_option maxRecDepth 16384

noncomputable section

open Idealize.ShloMosaic Idealize.ShloMosaic.TcCoe Idealize.SL.Sem Idealize.ShloMosaic.StableHlo Idealize.ShloMosaic.ValueIdx

namespace Cert.KernelIdeal.Out

open Cert.KernelIdeal Cert.KernelIdeal.Gen Cert.KernelIdeal.HostStages

variable (m : (ℓ : Loc nD τ sig) → Buf (Elt Ideal) ℓ) (ρ : Dev nD → PrngReg) (c : Dev nD)

/-! ## The argument arrays a later stage still reads are as launched at every stage -/

/-- All 26 arguments: read up to the first round's paper region. -/
def L0 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]
/-- The arguments read after the first round's paper region. -/
def L7 : List (Ref sig .tc) := [main_arg1, main_arg2, main_arg3, main_arg4, main_arg5, main_arg6, main_arg7, main_arg14, main_arg15, main_arg16, main_arg17, main_arg18, main_arg19, main_arg20, main_arg21, main_arg22, main_arg23, main_arg24, main_arg25]
/-- The arguments read after the first round's author region. -/
def L9 : List (Ref sig .tc) := [main_arg2, main_arg3, main_arg4, main_arg5, main_arg6, main_arg7, main_arg17, main_arg18, main_arg19, main_arg20, main_arg21, main_arg22, main_arg23, main_arg24, main_arg25]
/-- The arguments read after the second round's paper region. -/
def L16 : List (Ref sig .tc) := [main_arg23, main_arg24, main_arg25]

theorem L7_sub : ∀ r ∈ L7, r ∈ L0 := by decide
theorem L9_sub : ∀ r ∈ L9, r ∈ L7 := by decide
theorem L16_sub : ∀ r ∈ L16, r ∈ L9 := by decide

theorem args_0 (r : Ref sig .tc) : W0 m ρ c (Proc.devRef .tc r) = m ((c.tc : Thread nD τ).loc r) := rfl

theorem L0_nw_0 : ∀ r ∈ L0, r ∉ wr_0 := by decide
theorem args_1 (r : Ref sig .tc) (hr : r ∈ L0) : W1 m ρ c (Proc.devRef .tc r) = m ((c.tc : Thread nD τ).loc r) :=
  (keep_0 (W0 m ρ c) r (L0_nw_0 r hr)).trans (args_0 m ρ c r)

theorem L0_nw_0_1 : ∀ r ∈ L0, r ∉ wr_0_1 := by decide
theorem args_2 (r : Ref sig .tc) (hr : r ∈ L0) : W2 m ρ c (Proc.devRef .tc r) = m ((c.tc : Thread nD τ).loc r) :=
  (keep_0_1 (W1 m ρ c) r (L0_nw_0_1 r hr)).trans (args_1 m ρ c r hr)

theorem L0_nw_0_2 : ∀ r ∈ L0, r ∉ wr_0_2 := by decide
theorem args_3 (r : Ref sig .tc) (hr : r ∈ L0) : W3 m ρ c (Proc.devRef .tc r) = m ((c.tc : Thread nD τ).loc r) :=
  (keep_0_2 (W2 m ρ c) r (L0_nw_0_2 r hr)).trans (args_2 m ρ c r hr)

theorem L0_nw_0_3 : ∀ r ∈ L0, r ∉ wr_0_3 := by decide
theorem args_4 (r : Ref sig .tc) (hr : r ∈ L0) : W4 m ρ c (Proc.devRef .tc r) = m ((c.tc : Thread nD τ).loc r) :=
  (keep_0_3 (W3 m ρ c) r (L0_nw_0_3 r hr)).trans (args_3 m ρ c r hr)

theorem L0_nw_0_4 : ∀ r ∈ L0, r ∉ wr_0_4 := by decide
theorem args_5 (r : Ref sig .tc) (hr : r ∈ L0) : W5 m ρ c (Proc.devRef .tc r) = m ((c.tc : Thread nD τ).loc r) :=
  (keep_0_4 (W4 m ρ c) r (L0_nw_0_4 r hr)).trans (args_4 m ρ c r hr)

theorem L0_nw_0_5 : ∀ r ∈ L0, r ∉ wr_0_5 := by decide
theorem args_6 (r : Ref sig .tc) (hr : r ∈ L0) : W6 m ρ c (Proc.devRef .tc r) = m ((c.tc : Thread nD τ).loc r) :=
  (keep_0_5 (W5 m ρ c) r (L0_nw_0_5 r hr)).trans (args_5 m ρ c r hr)

theorem L7_nw_region0 : ∀ r ∈ L7, ∀ w, Pipeline.arrRef spec0 w ≠ r := by decide
theorem args_7 (r : Ref sig .tc) (hr : r ∈ L7) : W7 m ρ c (Proc.devRef .tc r) = m ((c.tc : Thread nD τ).loc r) :=
  (W7_of_ne m ρ c r (L7_nw_region0 r hr)).trans (args_6 m ρ c r (L7_sub r hr))

theorem L7_nw_1 : ∀ r ∈ L7, r ∉ wr_1 := by decide
theorem args_8 (r : Ref sig .tc) (hr : r ∈ L7) : W8 m ρ c (Proc.devRef .tc r) = m ((c.tc : Thread nD τ).loc r) :=
  (keep_1 (W7 m ρ c) r (L7_nw_1 r hr)).trans (args_7 m ρ c r hr)

theorem L9_nw_region1 : ∀ r ∈ L9, ∀ w, Pipeline.arrRef spec1 w ≠ r := by decide
theorem args_9 (r : Ref sig .tc) (hr : r ∈ L9) : W9 m ρ c (Proc.devRef .tc r) = m ((c.tc : Thread nD τ).loc r) :=
  (W9_of_ne m ρ c r (L9_nw_region1 r hr)).trans (args_8 m ρ c r (L9_sub r hr))

theorem L9_nw_2 : ∀ r ∈ L9, r ∉ wr_2 := by decide
theorem args_10 (r : Ref sig .tc) (hr : r ∈ L9) : W10 m ρ c (Proc.devRef .tc r) = m ((c.tc : Thread nD τ).loc r) :=
  (keep_2 (W9 m ρ c) r (L9_nw_2 r hr)).trans (args_9 m ρ c r hr)

theorem L9_nw_2_1 : ∀ r ∈ L9, r ∉ wr_2_1 := by decide
theorem args_11 (r : Ref sig .tc) (hr : r ∈ L9) : W11 m ρ c (Proc.devRef .tc r) = m ((c.tc : Thread nD τ).loc r) :=
  (keep_2_1 (W10 m ρ c) r (L9_nw_2_1 r hr)).trans (args_10 m ρ c r hr)

theorem L9_nw_2_2 : ∀ r ∈ L9, r ∉ wr_2_2 := by decide
theorem args_12 (r : Ref sig .tc) (hr : r ∈ L9) : W12 m ρ c (Proc.devRef .tc r) = m ((c.tc : Thread nD τ).loc r) :=
  (keep_2_2 (W11 m ρ c) r (L9_nw_2_2 r hr)).trans (args_11 m ρ c r hr)

theorem L9_nw_2_3 : ∀ r ∈ L9, r ∉ wr_2_3 := by decide
theorem args_13 (r : Ref sig .tc) (hr : r ∈ L9) : W13 m ρ c (Proc.devRef .tc r) = m ((c.tc : Thread nD τ).loc r) :=
  (keep_2_3 (W12 m ρ c) r (L9_nw_2_3 r hr)).trans (args_12 m ρ c r hr)

theorem L9_nw_2_4 : ∀ r ∈ L9, r ∉ wr_2_4 := by decide
theorem args_14 (r : Ref sig .tc) (hr : r ∈ L9) : W14 m ρ c (Proc.devRef .tc r) = m ((c.tc : Thread nD τ).loc r) :=
  (keep_2_4 (W13 m ρ c) r (L9_nw_2_4 r hr)).trans (args_13 m ρ c r hr)

theorem L9_nw_2_5 : ∀ r ∈ L9, r ∉ wr_2_5 := by decide
theorem args_15 (r : Ref sig .tc) (hr : r ∈ L9) : W15 m ρ c (Proc.devRef .tc r) = m ((c.tc : Thread nD τ).loc r) :=
  (keep_2_5 (W14 m ρ c) r (L9_nw_2_5 r hr)).trans (args_14 m ρ c r hr)

theorem L16_nw_region2 : ∀ r ∈ L16, ∀ w, Pipeline.arrRef spec2 w ≠ r := by decide
theorem args_16 (r : Ref sig .tc) (hr : r ∈ L16) : W16 m ρ c (Proc.devRef .tc r) = m ((c.tc : Thread nD τ).loc r) :=
  (W16_of_ne m ρ c r (L16_nw_region2 r hr)).trans (args_15 m ρ c r (L16_sub r hr))

theorem L16_nw_3 : ∀ r ∈ L16, r ∉ wr_3 := by decide
theorem args_17 (r : Ref sig .tc) (hr : r ∈ L16) : W17 m ρ c (Proc.devRef .tc r) = m ((c.tc : Thread nD τ).loc r) :=
  (keep_3 (W16 m ρ c) r (L16_nw_3 r hr)).trans (args_16 m ρ c r hr)

/-! ## The first round -/

/-- The cites aggregation of the launched arrays, at the first paper region's entry. -/
theorem v12_V6 : V6 m ρ c main_v12 = Cert.Sage.meanC (m ((c.tc : Thread nD τ).loc main_arg0)) (m ((c.tc : Thread nD τ).loc main_arg2)) (m ((c.tc : Thread nD τ).loc main_arg3)) := by
  show after hostOps0_5 (after hostOps0_4 (after hostOps0_3 (after hostOps0_2 (after hostOps0_1 (after hostOps0 (W0 m ρ c)))))) (Proc.devRef .tc main_v12) = _
  rw [keep_0_5 _ main_v12 (by decide), keep_0_4 _ main_v12 (by decide), keep_0_3 _ main_v12 (by decide), keep_0_2 _ main_v12 (by decide), v12_of]

/-- The writes aggregation, at the first paper region's entry. -/
theorem v25_V6 : V6 m ρ c main_v25 = Cert.Sage.meanW (m ((c.tc : Thread nD τ).loc main_arg1)) (m ((c.tc : Thread nD τ).loc main_arg4)) (m ((c.tc : Thread nD τ).loc main_arg5)) := by
  show after hostOps0_5 (after hostOps0_4 (after hostOps0_3 (after hostOps0_2 (W2 m ρ c)))) (Proc.devRef .tc main_v25) = _
  rw [keep_0_5 _ main_v25 (by decide), keep_0_4 _ main_v25 (by decide), v25_of,
    args_2 m ρ c main_arg1 (by decide), args_2 m ρ c main_arg4 (by decide), args_2 m ρ c main_arg5 (by decide)]

/-- The rev aggregation, once its two stretches have run. -/
theorem v38_W6 : W6 m ρ c (Proc.devRef .tc main_v38) = Cert.Sage.meanR (m ((c.tc : Thread nD τ).loc main_arg0)) (m ((c.tc : Thread nD τ).loc main_arg6)) (m ((c.tc : Thread nD τ).loc main_arg7)) := by
  show after hostOps0_5 (after hostOps0_4 (W4 m ρ c)) (Proc.devRef .tc main_v38) = _
  rw [v38_of, args_4 m ρ c main_arg0 (by decide), args_4 m ρ c main_arg6 (by decide), args_4 m ρ c main_arg7 (by decide)]

/-- The cites bias as one row. -/
theorem b39_V6 : (fun j : Fin 128 => (V6 m ρ c main_v39 : S1x128.Idx → EReal) (ix2 (0 : Fin 1) j))
    = fun j => ((m ((c.tc : Thread nD τ).loc main_arg9)) : S128.Idx → EReal) (ix1 j) := by
  funext j
  show (after hostOps0_5 (W5 m ρ c) (Proc.devRef .tc main_v39) : S1x128.Idx → Ideal .f32) (ix2 (0 : Fin 1) j) = _
  rw [v39_of, args_5 m ρ c main_arg9 (by decide)]

/-- The writes bias as one row. -/
theorem b40_V6 : (fun j : Fin 128 => (V6 m ρ c main_v40 : S1x128.Idx → EReal) (ix2 (0 : Fin 1) j))
    = fun j => ((m ((c.tc : Thread nD τ).loc main_arg12)) : S128.Idx → EReal) (ix1 j) := by
  funext j
  show (after hostOps0_5 (W5 m ρ c) (Proc.devRef .tc main_v40) : S1x128.Idx → Ideal .f32) (ix2 (0 : Fin 1) j) = _
  rw [v40_of, args_5 m ρ c main_arg12 (by decide)]

/-- THE FIRST PAPER REGION leaves the first round's paper features. -/
theorem region0 : W7 m ρ c (Proc.devRef .tc main_v41) = Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (W7_arr m ρ c 9).trans ?_
  refine Blocks0.final (V6 m ρ) Cert.Sage.paperAt Cert.Sage.out0_9_apply c _ (fun i q => ?_)
  rw [v12_V6 m ρ c, v25_V6 m ρ c, b39_V6 m ρ c, b40_V6 m ρ c,
    show V6 m ρ c main_arg0 = (m ((c.tc : Thread nD τ).loc main_arg0)) from args_6 m ρ c main_arg0 (by decide),
    show V6 m ρ c main_arg8 = (m ((c.tc : Thread nD τ).loc main_arg8)) from args_6 m ρ c main_arg8 (by decide),
    show V6 m ρ c main_arg10 = (m ((c.tc : Thread nD τ).loc main_arg10)) from args_6 m ρ c main_arg10 (by decide),
    show V6 m ρ c main_arg11 = (m ((c.tc : Thread nD τ).loc main_arg11)) from args_6 m ρ c main_arg11 (by decide),
    show V6 m ρ c main_arg13 = (m ((c.tc : Thread nD τ).loc main_arg13)) from args_6 m ρ c main_arg13 (by decide)]
  unfold Cert.Sage.xp1
  exact Cert.Sage.paperL_apply _ _ _ _ _ _ _ _ _ i q

/-- The rev aggregation at the first author region's entry. -/
theorem v38_V8 : V8 m ρ c main_v38 = Cert.Sage.meanR (m ((c.tc : Thread nD τ).loc main_arg0)) (m ((c.tc : Thread nD τ).loc main_arg6)) (m ((c.tc : Thread nD τ).loc main_arg7)) := by
  show after hostOps1 (W7 m ρ c) (Proc.devRef .tc main_v38) = _
  rw [keep_1 _ main_v38 (by decide), W7_of_ne m ρ c main_v38 (by decide), v38_W6]

/-- The rev bias as one row. -/
theorem b42_V8 : (fun j : Fin 128 => (V8 m ρ c main_v42 : S1x128.Idx → EReal) (ix2 (0 : Fin 1) j))
    = fun j => ((m ((c.tc : Thread nD τ).loc main_arg15)) : S128.Idx → EReal) (ix1 j) := by
  funext j
  show (after hostOps1 (W7 m ρ c) (Proc.devRef .tc main_v42) : S1x128.Idx → Ideal .f32) (ix2 (0 : Fin 1) j) = _
  rw [v42_of, args_7 m ρ c main_arg15 (by decide)]

/-- THE FIRST AUTHOR REGION leaves the first round's author features. -/
theorem region1 : W9 m ρ c (Proc.devRef .tc main_v43) = Cert.Sage.xa1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (W9_arr m ρ c 5).trans ?_
  refine Blocks1.final (V8 m ρ) Cert.Sage.authorAt Cert.Sage.out1_5_apply c _ (fun i q => ?_)
  rw [v38_V8 m ρ c, b42_V8 m ρ c,
    show V8 m ρ c main_arg1 = (m ((c.tc : Thread nD τ).loc main_arg1)) from args_8 m ρ c main_arg1 (by decide),
    show V8 m ρ c main_arg14 = (m ((c.tc : Thread nD τ).loc main_arg14)) from args_8 m ρ c main_arg14 (by decide),
    show V8 m ρ c main_arg16 = (m ((c.tc : Thread nD τ).loc main_arg16)) from args_8 m ρ c main_arg16 (by decide)]
  unfold Cert.Sage.xa1
  exact Cert.Sage.authorL_apply _ _ _ _ _ i q

/-! ## The second round -/

/-- The first round's paper features are still there after the first author region. -/
theorem v41_W9 : W9 m ρ c (Proc.devRef .tc main_v41) = Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (W9_of_ne m ρ c main_v41 (by decide)).trans ((keep_1 _ main_v41 (by decide)).trans (region0 m ρ c))

theorem v41_W13 : W13 m ρ c (Proc.devRef .tc main_v41) = Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show after hostOps2_3 (after hostOps2_2 (after hostOps2_1 (after hostOps2 (W9 m ρ c)))) (Proc.devRef .tc main_v41) = _
  rw [keep_2_3 _ main_v41 (by decide), keep_2_2 _ main_v41 (by decide), keep_2_1 _ main_v41 (by decide), keep_2 _ main_v41 (by decide), v41_W9]

theorem v41_V15 : V15 m ρ c main_v41 = Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show after hostOps2_5 (after hostOps2_4 (W13 m ρ c)) (Proc.devRef .tc main_v41) = _
  rw [keep_2_5 _ main_v41 (by decide), keep_2_4 _ main_v41 (by decide), v41_W13]

theorem v43_W11 : W11 m ρ c (Proc.devRef .tc main_v43) = Cert.Sage.xa1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show after hostOps2_1 (after hostOps2 (W9 m ρ c)) (Proc.devRef .tc main_v43) = _
  rw [keep_2_1 _ main_v43 (by decide), keep_2 _ main_v43 (by decide), region1]

theorem v43_W15 : W15 m ρ c (Proc.devRef .tc main_v43) = Cert.Sage.xa1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show after hostOps2_5 (after hostOps2_4 (after hostOps2_3 (after hostOps2_2 (W11 m ρ c)))) (Proc.devRef .tc main_v43) = _
  rw [keep_2_5 _ main_v43 (by decide), keep_2_4 _ main_v43 (by decide), keep_2_3 _ main_v43 (by decide), keep_2_2 _ main_v43 (by decide), v43_W11]

/-- The cites aggregation of the first round's paper features. -/
theorem v56_V15 : V15 m ρ c main_v56 = Cert.Sage.meanC (Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) (m ((c.tc : Thread nD τ).loc main_arg2)) (m ((c.tc : Thread nD τ).loc main_arg3)) := by
  show after hostOps2_5 (after hostOps2_4 (after hostOps2_3 (after hostOps2_2 (after hostOps2_1 (after hostOps2 (W9 m ρ c)))))) (Proc.devRef .tc main_v56) = _
  rw [keep_2_5 _ main_v56 (by decide), keep_2_4 _ main_v56 (by decide), keep_2_3 _ main_v56 (by decide), keep_2_2 _ main_v56 (by decide), v56_of, v41_W9,
    args_9 m ρ c main_arg2 (by decide), args_9 m ρ c main_arg3 (by decide)]

/-- The writes aggregation of the first round's author features. -/
theorem v69_V15 : V15 m ρ c main_v69 = Cert.Sage.meanW (Cert.Sage.xa1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) (m ((c.tc : Thread nD τ).loc main_arg4)) (m ((c.tc : Thread nD τ).loc main_arg5)) := by
  show after hostOps2_5 (after hostOps2_4 (after hostOps2_3 (after hostOps2_2 (W11 m ρ c)))) (Proc.devRef .tc main_v69) = _
  rw [keep_2_5 _ main_v69 (by decide), keep_2_4 _ main_v69 (by decide), v69_of, v43_W11,
    args_11 m ρ c main_arg4 (by decide), args_11 m ρ c main_arg5 (by decide)]

/-- The rev aggregation of the first round's paper features. -/
theorem v82_W15 : W15 m ρ c (Proc.devRef .tc main_v82) = Cert.Sage.meanR (Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) (m ((c.tc : Thread nD τ).loc main_arg6)) (m ((c.tc : Thread nD τ).loc main_arg7)) := by
  show after hostOps2_5 (after hostOps2_4 (W13 m ρ c)) (Proc.devRef .tc main_v82) = _
  rw [v82_of, v41_W13, args_13 m ρ c main_arg6 (by decide), args_13 m ρ c main_arg7 (by decide)]

theorem b83_V15 : (fun j : Fin 128 => (V15 m ρ c main_v83 : S1x128.Idx → EReal) (ix2 (0 : Fin 1) j))
    = fun j => ((m ((c.tc : Thread nD τ).loc main_arg18)) : S128.Idx → EReal) (ix1 j) := by
  funext j
  show (after hostOps2_5 (W14 m ρ c) (Proc.devRef .tc main_v83) : S1x128.Idx → Ideal .f32) (ix2 (0 : Fin 1) j) = _
  rw [v83_of, args_14 m ρ c main_arg18 (by decide)]

theorem b84_V15 : (fun j : Fin 128 => (V15 m ρ c main_v84 : S1x128.Idx → EReal) (ix2 (0 : Fin 1) j))
    = fun j => ((m ((c.tc : Thread nD τ).loc main_arg21)) : S128.Idx → EReal) (ix1 j) := by
  funext j
  show (after hostOps2_5 (W14 m ρ c) (Proc.devRef .tc main_v84) : S1x128.Idx → Ideal .f32) (ix2 (0 : Fin 1) j) = _
  rw [v84_of, args_14 m ρ c main_arg21 (by decide)]

/-- THE SECOND PAPER REGION leaves the program's paper result. -/
theorem region2 : W16 m ρ c (Proc.devRef .tc main_v85) = Cert.Sage.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (W16_arr m ρ c 9).trans ?_
  refine Blocks2.final (V15 m ρ) Cert.Sage.paperAt Cert.Sage.out2_9_apply c _ (fun i q => ?_)
  rw [v56_V15 m ρ c, v69_V15 m ρ c, v41_V15 m ρ c, b83_V15 m ρ c, b84_V15 m ρ c,
    show V15 m ρ c main_arg17 = (m ((c.tc : Thread nD τ).loc main_arg17)) from args_15 m ρ c main_arg17 (by decide),
    show V15 m ρ c main_arg19 = (m ((c.tc : Thread nD τ).loc main_arg19)) from args_15 m ρ c main_arg19 (by decide),
    show V15 m ρ c main_arg20 = (m ((c.tc : Thread nD τ).loc main_arg20)) from args_15 m ρ c main_arg20 (by decide),
    show V15 m ρ c main_arg22 = (m ((c.tc : Thread nD τ).loc main_arg22)) from args_15 m ρ c main_arg22 (by decide)]
  unfold Cert.Sage.out0
  exact Cert.Sage.paperL_apply _ _ _ _ _ _ _ _ _ i q

theorem v82_V17 : V17 m ρ c main_v82 = Cert.Sage.meanR (Cert.Sage.xp1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) (m ((c.tc : Thread nD τ).loc main_arg6)) (m ((c.tc : Thread nD τ).loc main_arg7)) := by
  show after hostOps3 (W16 m ρ c) (Proc.devRef .tc main_v82) = _
  rw [keep_3 _ main_v82 (by decide), W16_of_ne m ρ c main_v82 (by decide), v82_W15]

theorem v43_V17 : V17 m ρ c main_v43 = Cert.Sage.xa1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  show after hostOps3 (W16 m ρ c) (Proc.devRef .tc main_v43) = _
  rw [keep_3 _ main_v43 (by decide), W16_of_ne m ρ c main_v43 (by decide), v43_W15]

theorem b86_V17 : (fun j : Fin 128 => (V17 m ρ c main_v86 : S1x128.Idx → EReal) (ix2 (0 : Fin 1) j))
    = fun j => ((m ((c.tc : Thread nD τ).loc main_arg24)) : S128.Idx → EReal) (ix1 j) := by
  funext j
  show (after hostOps3 (W16 m ρ c) (Proc.devRef .tc main_v86) : S1x128.Idx → Ideal .f32) (ix2 (0 : Fin 1) j) = _
  rw [v86_of, args_16 m ρ c main_arg24 (by decide)]

/-- THE SECOND AUTHOR REGION leaves the program's author result. -/
theorem region3 : W18 m ρ c (Proc.devRef .tc main_v87) = Cert.Sage.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  refine (W18_arr m ρ c 5).trans ?_
  refine Blocks3.final (V17 m ρ) Cert.Sage.authorAt Cert.Sage.out3_5_apply c _ (fun i q => ?_)
  rw [v82_V17 m ρ c, v43_V17 m ρ c, b86_V17 m ρ c,
    show V17 m ρ c main_arg23 = (m ((c.tc : Thread nD τ).loc main_arg23)) from args_17 m ρ c main_arg23 (by decide),
    show V17 m ρ c main_arg25 = (m ((c.tc : Thread nD τ).loc main_arg25)) from args_17 m ρ c main_arg25 (by decide)]
  unfold Cert.Sage.out1
  exact Cert.Sage.authorL_apply _ _ _ _ _ i q

/-- The paper result is untouched by what follows its region. -/
theorem v85_W18 : W18 m ρ c (Proc.devRef .tc main_v85) = Cert.Sage.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (W18_of_ne m ρ c main_v85 (by decide)).trans ((keep_3 _ main_v85 (by decide)).trans (region2 m ρ c))

/-! ## The run -/

/-- Every weakly fair execution of the program terminates without a fault, with the two results at the two-round functions of
    the launched arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v85) = Cert.Sage.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v87) = Cert.Sage.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (v85_W18 m ρ c), (h c).2.1.trans (region3 m ρ c), (h c).2.2⟩) (run_out m ρ)

end Cert.KernelIdeal.Out

end
-- ==== Proof.RefCommon.lean ====
/-
  Small facts about straight lines of host operations used by the reading of the reference program's run: a line that
  writes only buffers of a given list leaves every other buffer alone; lines run one after the other compose; the side
  conditions of a concatenated line follow from those of its parts.
-/
import Idealize.ShloMosaic.Lib.StableHlo.Run
import proofs.«106662_j20968030339503_1_alg».proof.Proof.Stages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

variable {τ' : Topo} {sig' : RefSig} {Val : EltTy → Type}

/-- An operation whose one written buffer is listed writes inside the list. -/
theorem writes_sub_of_mem {W : List (Ref sig' .tc)} {op : HloOp τ' sig' Val} {y : Ref sig' .tc}
    (hw : op.writes = {Proc.devRef .tc y}) (hy : y ∈ W) :
    op.writes ⊆ (W.map (Proc.devRef (τ := τ') .tc)).toFinset := by
  rw [hw, Finset.singleton_subset_iff, List.mem_toFinset]
  exact List.mem_map_of_mem hy

/-- The contents after two lines run one after the other. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- A property of every operation of two lines holds of their concatenation. -/
theorem forall_append {p : HloOp τ' sig' Val → Prop} {l₁ l₂ : List (HloOp τ' sig' Val)}
    (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- Contents written through a typed reference read back through it unchanged. -/
theorem tref_ofBuf_toBuf {T : BufTy} (x : TRef sig' T) (v : T.Contents Val) : x.ofBuf (x.toBuf v) = v := by
  obtain ⟨r, rfl, h2, h3⟩ := x
  rfl

end Cert.ReferenceIdeal.RefRun

end
-- ==== Proof.RefItems.lean ====
/-
  The reference program's @main as a chain of stretches of host operations: every call's body inlined over that call's
  buffers, a stretch opened and closed at every call and at every window of the printed @main.
-/
import proofs.«106662_j20968030339503_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 23 operations of the call with record `main_call0`, window 0, in order. -/
abbrev I00 : List (HloOp τ sig (Elt F)) :=
  [ StableHlo.TRef.nullary main_call0.c (constantI S_ 32 0#32),
    StableHlo.TRef.unary main_call0.c main_call0.v0 (broadcastInDim S1000000 ![] bcast_S_S1000000),
    StableHlo.TRef.binary (.of main_arg2 : TRef sig ⟨S1000000, .i32⟩) main_call0.v0 main_call0.v1 (cmpi .slt),
    StableHlo.TRef.nullary main_call0.c_0 (constantI S_ 32 100000#32),
    StableHlo.TRef.unary main_call0.c_0 main_call0.v2 (broadcastInDim S1000000 ![] bcast_S_S1000000),
    StableHlo.TRef.binary (.of main_arg2 : TRef sig ⟨S1000000, .i32⟩) main_call0.v2 main_call0.v3 addi,
    StableHlo.TRef.ternary main_call0.v1 main_call0.v3 (.of main_arg2 : TRef sig ⟨S1000000, .i32⟩) main_call0.call0.v0 select,
    StableHlo.TRef.unary main_call0.call0.v0 main_call0.v5 (broadcastInDim S1000000x1 ![0] bcast_S1000000_S1000000x1_0),
    StableHlo.TRef.nullary main_call0.c_1 (constantI S1 32 99999#32),
    StableHlo.TRef.nullary main_call0.c_2 (constantI S_ 32 0#32),
    StableHlo.TRef.unary main_call0.c_2 main_call0.v6 (broadcastInDim S1000000x1 ![] bcast_S_S1000000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1000000x1 ![0, 1] bcast_S1x1_S1000000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1000000x1_S1000000_d1 h_S_),
    StableHlo.TRef.binary (.of main_arg0 : TRef sig ⟨S100000x128, .f32⟩) main_call0.v5 main_call0.v13 (fun x i => Host.gather gather_S100000x128_S1000000x1_S1000000x128_1_0_n_n_0_1_1128 x i),
    StableHlo.TRef.unary main_call0.v12 main_call0.v14 (broadcastInDim S1000000x128 ![0] bcast_S1000000_S1000000x128_0),
    StableHlo.TRef.nullary main_call0.cst (constant S_ .f32 0x7FC00000#32),
    StableHlo.TRef.unary main_call0.cst main_call0.v15 (broadcastInDim S1000000x128 ![] bcast_S_S1000000x128),
    StableHlo.TRef.ternary main_call0.v14 main_call0.v13 main_call0.v15 main_call0.v16 select ]

/-- 22 operations of @main, window 0, in order. -/
abbrev I01 : List (HloOp τ sig (Elt F)) :=
  [ StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg3 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1000000 ![] bcast_S_S1000000 : (⟨S_, .f32⟩ : BufTy).Contents (Elt F) → (⟨S1000000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg3 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)),
    StableHlo.binary main_v12 main_arg8 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)),
    StableHlo.binary main_arg0 main_arg10 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v16 main_v17 main_v18 (addf : (⟨S100000x128, .f32⟩ : BufTy).Contents (Elt F) → (⟨S100000x128, .f32⟩ : BufTy).Contents (Elt F) → (⟨S100000x128, .f32⟩ : BufTy).Contents (Elt F)) ]

/-- 5 operations of the call with record `main_call1`, window 0, in order. -/
abbrev I02 : List (HloOp τ sig (Elt F)) :=
  [ StableHlo.TRef.binary (.of main_v18 : TRef sig ⟨S100000x128, .f32⟩) (.of main_v18 : TRef sig ⟨S100000x128, .f32⟩) main_call1.v0 mulf,
    StableHlo.TRef.nullary main_call1.cst (constant S_ .f32 0x00000000#32),
    StableHlo.TRef.binary main_call1.v0 main_call1.cst main_call1.v1 (fun x v => Host.reduceAdd x v reducesTo_S100000x128_S100000_d1 h_S_),
    StableHlo.TRef.unary main_call1.v1 main_call1.v2 (broadcastInDim S100000x1 ![0] bcast_S100000_S100000x1_0),
    StableHlo.TRef.unary main_call1.v2 main_call1.v3 Host.sqrt ]

/-- 5 operations of @main, window 0, in order. -/
abbrev I03 : List (HloOp τ sig (Elt F)) :=
  [ StableHlo.nullary main_cst_3 (constant S_ .f32 0x2B8CBCCC#32),
    StableHlo.unary main_cst_3 main_v20 (broadcastInDim S100000x1 ![] bcast_S_S100000x1 : (⟨S_, .f32⟩ : BufTy).Contents (Elt F) → (⟨S100000x1, .f32⟩ : BufTy).Contents (Elt F)),
    StableHlo.binary main_v19 main_v20 main_v21 (maximumf : (⟨S100000x1, .f32⟩ : BufTy).Contents (Elt F) → (⟨S100000x1, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v22 main_v23 (Host.divf : (⟨S100000x128, .f32⟩ : BufTy).Contents (Elt F) → (⟨S100000x128, .f32⟩ : BufTy).Contents (Elt F) → (⟨S100000x128, .f32⟩ : BufTy).Contents (Elt F)) ]

/-- 23 operations of the call with record `main_call2`, window 0, in order. -/
abbrev I04 : List (HloOp τ sig (Elt F)) :=
  [ StableHlo.TRef.nullary main_call2.c (constantI S_ 32 0#32),
    StableHlo.TRef.unary main_call2.c main_call2.v0 (broadcastInDim S320000 ![] bcast_S_S320000),
    StableHlo.TRef.binary (.of main_arg4 : TRef sig ⟨S320000, .i32⟩) main_call2.v0 main_call2.v1 (cmpi .slt),
    StableHlo.TRef.nullary main_call2.c_0 (constantI S_ 32 50000#32),
    StableHlo.TRef.unary main_call2.c_0 main_call2.v2 (broadcastInDim S320000 ![] bcast_S_S320000),
    StableHlo.TRef.binary (.of main_arg4 : TRef sig ⟨S320000, .i32⟩) main_call2.v2 main_call2.v3 addi,
    StableHlo.TRef.ternary main_call2.v1 main_call2.v3 (.of main_arg4 : TRef sig ⟨S320000, .i32⟩) main_call2.call0.v0 select,
    StableHlo.TRef.unary main_call2.call0.v0 main_call2.v5 (broadcastInDim S320000x1 ![0] bcast_S320000_S320000x1_0),
    StableHlo.TRef.nullary main_call2.c_1 (constantI S1 32 49999#32),
    StableHlo.TRef.nullary main_call2.c_2 (constantI S_ 32 0#32),
    StableHlo.TRef.unary main_call2.c_2 main_call2.v6 (broadcastInDim S320000x1 ![] bcast_S_S320000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S320000x1 ![0, 1] bcast_S1x1_S320000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S320000x1_S320000_d1 h_S_),
    StableHlo.TRef.binary (.of main_arg1 : TRef sig ⟨S50000x128, .f32⟩) main_call2.v5 main_call2.v13 (fun x i => Host.gather gather_S50000x128_S320000x1_S320000x128_1_0_n_n_0_1_1128 x i),
    StableHlo.TRef.unary main_call2.v12 main_call2.v14 (broadcastInDim S320000x128 ![0] bcast_S320000_S320000x128_0),
    StableHlo.TRef.nullary main_call2.cst (constant S_ .f32 0x7FC00000#32),
    StableHlo.TRef.unary main_call2.cst main_call2.v15 (broadcastInDim S320000x128 ![] bcast_S_S320000x128),
    StableHlo.TRef.ternary main_call2.v14 main_call2.v13 main_call2.v15 main_call2.v16 select ]

/-- 22 operations of @main, window 0, in order. -/
abbrev I05 : List (HloOp τ sig (Elt F)) :=
  [ StableHlo.nullary main_cst_4 (constant S_ .f32 0x00000000#32),
    StableHlo.unary main_cst_4 main_v25 (broadcastInDim S100000x128 ![] bcast_S_S100000x128 : (⟨S_, .f32⟩ : BufTy).Contents (Elt F) → (⟨S100000x128, .f32⟩ : BufTy).Contents (Elt F)),
    StableHlo.unary main_arg5 main_v26 (broadcastInDim S320000x1 ![0] bcast_S320000_S320000x1_0 : (⟨S320000, .i32⟩ : BufTy).Contents (Elt F) → (⟨S320000x1, .i32⟩ : BufTy).Contents (Elt F)),
    StableHlo.ternary main_v25 main_v26 main_v24 main_v27 ((fun x i u => Host.scatterAdd scatter_S100000x128_S320000x1_S320000x128_1_0_0_1 x i u) : (⟨S100000x128, .f32⟩ : BufTy).Contents (Elt F) → (⟨S320000x1, .i32⟩ : BufTy).Contents (Elt F) → (⟨S320000x128, .f32⟩ : BufTy).Contents (Elt F) → (⟨S100000x128, .f32⟩ : BufTy).Contents (Elt F)),
    StableHlo.nullary main_cst_5 (constant S_ .f32 0x3F800000#32),
    StableHlo.unary main_cst_5 main_v28 (broadcastInDim S320000 ![] bcast_S_S320000 : (⟨S_, .f32⟩ : BufTy).Contents (Elt F) → (⟨S320000, .f32⟩ : BufTy).Contents (Elt F)),
    StableHlo.nullary main_cst_6 (constant S_ .f32 0x00000000#32),
    StableHlo.unary main_cst_6 main_v29 (broadcastInDim S100000 ![] bcast_S_S100000 : (⟨S_, .f32⟩ : BufTy).Contents (Elt F) → (⟨S100000, .f32⟩ : BufTy).Contents (Elt F)),
    StableHlo.unary main_arg5 main_v30 (broadcastInDim S320000x1 ![0] bcast_S320000_S320000x1_0 : (⟨S320000, .i32⟩ : BufTy).Contents (Elt F) → (⟨S320000x1, .i32⟩ : BufTy).Contents (Elt F)),
    StableHlo.ternary main_v29 main_v30 main_v28 main_v31 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_7 (constant S_ .f32 0x3F800000#32),
    StableHlo.unary main_cst_7 main_v32 (broadcastInDim S100000 ![] bcast_S_S100000 : (⟨S_, .f32⟩ : BufTy).Contents (Elt F) → (⟨S100000, .f32⟩ : BufTy).Contents (Elt F)),
    StableHlo.binary main_v31 main_v32 main_v33 (maximumf : (⟨S100000, .f32⟩ : BufTy).Contents (Elt F) → (⟨S100000, .f32⟩ : BufTy).Contents (Elt F) → (⟨S100000, .f32⟩ : BufTy).Contents (Elt F)),
    StableHlo.unary main_v33 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v35 main_v36 (Host.divf : (⟨S100000x128, .f32⟩ : BufTy).Contents (Elt F) → (⟨S100000x128, .f32⟩ : BufTy).Contents (Elt F) → (⟨S100000x128, .f32⟩ : BufTy).Contents (Elt F)),
    StableHlo.binary main_v36 main_arg11 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.binary main_arg0 main_arg13 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v40 main_v41 main_v42 (addf : (⟨S100000x128, .f32⟩ : BufTy).Contents (Elt F) → (⟨S100000x128, .f32⟩ : BufTy).Contents (Elt F) → (⟨S100000x128, .f32⟩ : BufTy).Contents (Elt F)) ]

/-- 5 operations of the call with record `main_call3`, window 0, in order. -/
abbrev I06 : List (HloOp τ sig (Elt F)) :=
  [ StableHlo.TRef.binary (.of main_v42 : TRef sig ⟨S100000x128, .f32⟩) (.of main_v42 : TRef sig ⟨S100000x128, .f32⟩) main_call3.v0 mulf,
    StableHlo.TRef.nullary main_call3.cst (constant S_ .f32 0x00000000#32),
    StableHlo.TRef.binary main_call3.v0 main_call3.cst main_call3.v1 (fun x v => Host.reduceAdd x v reducesTo_S100000x128_S100000_d1 h_S_),
    StableHlo.TRef.unary main_call3.v1 main_call3.v2 (broadcastInDim S100000x1 ![0] bcast_S100000_S100000x1_0),
    StableHlo.TRef.unary main_call3.v2 main_call3.v3 Host.sqrt ]

/-- 7 operations of @main, window 0, in order. -/
abbrev I07 : List (HloOp τ sig (Elt F)) :=
  [ StableHlo.nullary main_cst_8 (constant S_ .f32 0x2B8CBCCC#32),
    StableHlo.unary main_cst_8 main_v44 (broadcastInDim S100000x1 ![] bcast_S_S100000x1 : (⟨S_, .f32⟩ : BufTy).Contents (Elt F) → (⟨S100000x1, .f32⟩ : BufTy).Contents (Elt F)),
    StableHlo.binary main_v43 main_v44 main_v45 (maximumf : (⟨S100000x1, .f32⟩ : BufTy).Contents (Elt F) → (⟨S100000x1, .f32⟩ : BufTy).Contents (Elt F) → (⟨S100000x1, .f32⟩ : BufTy).Contents (Elt F)),
    StableHlo.unary main_v45 main_v46 (broadcastInDim S100000x128 ![0, 1] bcast_S100000x1_S100000x128_0_1 : (⟨S100000x1, .f32⟩ : BufTy).Contents (Elt F) → (⟨S100000x128, .f32⟩ : BufTy).Contents (Elt F)),
    StableHlo.binary main_v42 main_v46 main_v47 (Host.divf : (⟨S100000x128, .f32⟩ : BufTy).Contents (Elt F) → (⟨S100000x128, .f32⟩ : BufTy).Contents (Elt F) → (⟨S100000x128, .f32⟩ : BufTy).Contents (Elt F)),
    StableHlo.binary main_v23 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3F000000#32) ]

/-- 2 operations of @main, window 1, in order. -/
abbrev I08 : List (HloOp τ sig (Elt F)) :=
  [ StableHlo.unary main_cst_9 main_v49 (broadcastInDim S100000x128 ![] bcast_S_S100000x128 : (⟨S_, .f32⟩ : BufTy).Contents (Elt F) → (⟨S100000x128, .f32⟩ : BufTy).Contents (Elt F)),
    StableHlo.binary main_v49 main_v48 main_v50 (mulf : (⟨S100000x128, .f32⟩ : BufTy).Contents (Elt F) → (⟨S100000x128, .f32⟩ : BufTy).Contents (Elt F) → (⟨S100000x128, .f32⟩ : BufTy).Contents (Elt F)) ]

/-- 23 operations of the call with record `main_call4`, window 1, in order. -/
abbrev I09 : List (HloOp τ sig (Elt F)) :=
  [ StableHlo.TRef.nullary main_call4.c (constantI S_ 32 0#32),
    StableHlo.TRef.unary main_call4.c main_call4.v0 (broadcastInDim S320000 ![] bcast_S_S320000),
    StableHlo.TRef.binary (.of main_arg6 : TRef sig ⟨S320000, .i32⟩) main_call4.v0 main_call4.v1 (cmpi .slt),
    StableHlo.TRef.nullary main_call4.c_0 (constantI S_ 32 100000#32),
    StableHlo.TRef.unary main_call4.c_0 main_call4.v2 (broadcastInDim S320000 ![] bcast_S_S320000),
    StableHlo.TRef.binary (.of main_arg6 : TRef sig ⟨S320000, .i32⟩) main_call4.v2 main_call4.v3 addi,
    StableHlo.TRef.ternary main_call4.v1 main_call4.v3 (.of main_arg6 : TRef sig ⟨S320000, .i32⟩) main_call4.call0.v0 select,
    StableHlo.TRef.unary main_call4.call0.v0 main_call4.v5 (broadcastInDim S320000x1 ![0] bcast_S320000_S320000x1_0),
    StableHlo.TRef.nullary main_call4.c_1 (constantI S1 32 99999#32),
    StableHlo.TRef.nullary main_call4.c_2 (constantI S_ 32 0#32),
    StableHlo.TRef.unary main_call4.c_2 main_call4.v6 (broadcastInDim S320000x1 ![] bcast_S_S320000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S320000x1 ![0, 1] bcast_S1x1_S320000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S320000x1_S320000_d1 h_S_),
    StableHlo.TRef.binary (.of main_arg0 : TRef sig ⟨S100000x128, .f32⟩) main_call4.v5 main_call4.v13 (fun x i => Host.gather gather_S100000x128_S320000x1_S320000x128_1_0_n_n_0_1_1128 x i),
    StableHlo.TRef.unary main_call4.v12 main_call4.v14 (broadcastInDim S320000x128 ![0] bcast_S320000_S320000x128_0),
    StableHlo.TRef.nullary main_call4.cst (constant S_ .f32 0x7FC00000#32),
    StableHlo.TRef.unary main_call4.cst main_call4.v15 (broadcastInDim S320000x128 ![] bcast_S_S320000x128),
    StableHlo.TRef.ternary main_call4.v14 main_call4.v13 main_call4.v15 main_call4.v16 select ]

/-- 22 operations of @main, window 1, in order. -/
abbrev I10 : List (HloOp τ sig (Elt F)) :=
  [ StableHlo.nullary main_cst_10 (constant S_ .f32 0x00000000#32),
    StableHlo.unary main_cst_10 main_v52 (broadcastInDim S50000x128 ![] bcast_S_S50000x128 : (⟨S_, .f32⟩ : BufTy).Contents (Elt F) → (⟨S50000x128, .f32⟩ : BufTy).Contents (Elt F)),
    StableHlo.unary main_arg7 main_v53 (broadcastInDim S320000x1 ![0] bcast_S320000_S320000x1_0 : (⟨S320000, .i32⟩ : BufTy).Contents (Elt F) → (⟨S320000x1, .i32⟩ : BufTy).Contents (Elt F)),
    StableHlo.ternary main_v52 main_v53 main_v51 main_v54 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_11 (constant S_ .f32 0x3F800000#32),
    StableHlo.unary main_cst_11 main_v55 (broadcastInDim S320000 ![] bcast_S_S320000 : (⟨S_, .f32⟩ : BufTy).Contents (Elt F) → (⟨S320000, .f32⟩ : BufTy).Contents (Elt F)),
    StableHlo.nullary main_cst_12 (constant S_ .f32 0x00000000#32),
    StableHlo.unary main_cst_12 main_v56 (broadcastInDim S50000 ![] bcast_S_S50000 : (⟨S_, .f32⟩ : BufTy).Contents (Elt F) → (⟨S50000, .f32⟩ : BufTy).Contents (Elt F)),
    StableHlo.unary main_arg7 main_v57 (broadcastInDim S320000x1 ![0] bcast_S320000_S320000x1_0 : (⟨S320000, .i32⟩ : BufTy).Contents (Elt F) → (⟨S320000x1, .i32⟩ : BufTy).Contents (Elt F)),
    StableHlo.ternary main_v56 main_v57 main_v55 main_v58 ((fun x i u => Host.scatterAdd scatter_S50000_S320000x1_S320000_n_0_0_1 x i u) : (⟨S50000, .f32⟩ : BufTy).Contents (Elt F) → (⟨S320000x1, .i32⟩ : BufTy).Contents (Elt F) → (⟨S320000, .f32⟩ : BufTy).Contents (Elt F) → (⟨S50000, .f32⟩ : BufTy).Contents (Elt F)),
    StableHlo.nullary main_cst_13 (constant S_ .f32 0x3F800000#32),
    StableHlo.unary main_cst_13 main_v59 (broadcastInDim S50000 ![] bcast_S_S50000 : (⟨S_, .f32⟩ : BufTy).Contents (Elt F) → (⟨S50000, .f32⟩ : BufTy).Contents (Elt F)),
    StableHlo.binary main_v58 main_v59 main_v60 (maximumf : (⟨S50000, .f32⟩ : BufTy).Contents (Elt F) → (⟨S50000, .f32⟩ : BufTy).Contents (Elt F) → (⟨S50000, .f32⟩ : BufTy).Contents (Elt F)),
    StableHlo.unary main_v60 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v54 main_v62 main_v63 (Host.divf : (⟨S50000x128, .f32⟩ : BufTy).Contents (Elt F) → (⟨S50000x128, .f32⟩ : BufTy).Contents (Elt F) → (⟨S50000x128, .f32⟩ : BufTy).Contents (Elt F)),
    StableHlo.binary main_v63 main_arg14 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.binary main_arg1 main_arg16 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v67 main_v68 main_v69 (addf : (⟨S50000x128, .f32⟩ : BufTy).Contents (Elt F) → (⟨S50000x128, .f32⟩ : BufTy).Contents (Elt F) → (⟨S50000x128, .f32⟩ : BufTy).Contents (Elt F)) ]

/-- 5 operations of the call with record `main_call5`, window 1, in order. -/
abbrev I11 : List (HloOp τ sig (Elt F)) :=
  [ StableHlo.TRef.binary (.of main_v69 : TRef sig ⟨S50000x128, .f32⟩) (.of main_v69 : TRef sig ⟨S50000x128, .f32⟩) main_call5.v0 mulf,
    StableHlo.TRef.nullary main_call5.cst (constant S_ .f32 0x00000000#32),
    StableHlo.TRef.binary main_call5.v0 main_call5.cst main_call5.v1 (fun x v => Host.reduceAdd x v reducesTo_S50000x128_S50000_d1 h_S_),
    StableHlo.TRef.unary main_call5.v1 main_call5.v2 (broadcastInDim S50000x1 ![0] bcast_S50000_S50000x1_0),
    StableHlo.TRef.unary main_call5.v2 main_call5.v3 Host.sqrt ]

/-- 5 operations of @main, window 1, in order. -/
abbrev I12 : List (HloOp τ sig (Elt F)) :=
  [ StableHlo.nullary main_cst_14 (constant S_ .f32 0x2B8CBCCC#32),
    StableHlo.unary main_cst_14 main_v71 (broadcastInDim S50000x1 ![] bcast_S_S50000x1 : (⟨S_, .f32⟩ : BufTy).Contents (Elt F) → (⟨S50000x1, .f32⟩ : BufTy).Contents (Elt F)),
    StableHlo.binary main_v70 main_v71 main_v72 (maximumf : (⟨S50000x1, .f32⟩ : BufTy).Contents (Elt F) → (⟨S50000x1, .f32⟩ : BufTy).Contents (Elt F) → (⟨S50000x1, .f32⟩ : BufTy).Contents (Elt F)),
    StableHlo.unary main_v72 main_v73 (broadcastInDim S50000x128 ![0, 1] bcast_S50000x1_S50000x128_0_1 : (⟨S50000x1, .f32⟩ : BufTy).Contents (Elt F) → (⟨S50000x128, .f32⟩ : BufTy).Contents (Elt F)),
    StableHlo.binary main_v69 main_v73 main_v74 (Host.divf : (⟨S50000x128, .f32⟩ : BufTy).Contents (Elt F) → (⟨S50000x128, .f32⟩ : BufTy).Contents (Elt F) → (⟨S50000x128, .f32⟩ : BufTy).Contents (Elt F)) ]

/-- 3 operations of the call with record `main_call6`, window 1, in order. -/
abbrev I13 : List (HloOp τ sig (Elt F)) :=
  [ StableHlo.TRef.nullary main_call6.cst (constant S_ .f32 0x00000000#32),
    StableHlo.TRef.unary main_call6.cst main_call6.v0 (broadcastInDim S100000x128 ![] bcast_S_S100000x128),
    StableHlo.TRef.binary (.of main_v50 : TRef sig ⟨S100000x128, .f32⟩) main_call6.v0 main_call6.v1 maximumf ]

/-- 3 operations of the call with record `main_call7`, window 1, in order. -/
abbrev I14 : List (HloOp τ sig (Elt F)) :=
  [ StableHlo.TRef.nullary main_call7.cst (constant S_ .f32 0x00000000#32),
    StableHlo.TRef.unary main_call7.cst main_call7.v0 (broadcastInDim S50000x128 ![] bcast_S_S50000x128),
    StableHlo.TRef.binary (.of main_v74 : TRef sig ⟨S50000x128, .f32⟩) main_call7.v0 main_call7.v1 maximumf ]

/-- 23 operations of the call with record `main_call8`, window 1, in order. -/
abbrev I15 : List (HloOp τ sig (Elt F)) :=
  [ StableHlo.TRef.nullary main_call8.c (constantI S_ 32 0#32),
    StableHlo.TRef.unary main_call8.c main_call8.v0 (broadcastInDim S1000000 ![] bcast_S_S1000000),
    StableHlo.TRef.binary (.of main_arg2 : TRef sig ⟨S1000000, .i32⟩) main_call8.v0 main_call8.v1 (cmpi .slt),
    StableHlo.TRef.nullary main_call8.c_0 (constantI S_ 32 100000#32),
    StableHlo.TRef.unary main_call8.c_0 main_call8.v2 (broadcastInDim S1000000 ![] bcast_S_S1000000),
    StableHlo.TRef.binary (.of main_arg2 : TRef sig ⟨S1000000, .i32⟩) main_call8.v2 main_call8.v3 addi,
    StableHlo.TRef.ternary main_call8.v1 main_call8.v3 (.of main_arg2 : TRef sig ⟨S1000000, .i32⟩) main_call8.call0.v0 select,
    StableHlo.TRef.unary main_call8.call0.v0 main_call8.v5 (broadcastInDim S1000000x1 ![0] bcast_S1000000_S1000000x1_0),
    StableHlo.TRef.nullary main_call8.c_1 (constantI S1 32 99999#32),
    StableHlo.TRef.nullary main_call8.c_2 (constantI S_ 32 0#32),
    StableHlo.TRef.unary main_call8.c_2 main_call8.v6 (broadcastInDim S1000000x1 ![] bcast_S_S1000000x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S1000000x1 ![0, 1] bcast_S1x1_S1000000x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1000000x1_S1000000_d1 h_S_),
    StableHlo.TRef.binary (.of main_v75 : TRef sig ⟨S100000x128, .f32⟩) main_call8.v5 main_call8.v13 (fun x i => Host.gather gather_S100000x128_S1000000x1_S1000000x128_1_0_n_n_0_1_1128 x i),
    StableHlo.TRef.unary main_call8.v12 main_call8.v14 (broadcastInDim S1000000x128 ![0] bcast_S1000000_S1000000x128_0),
    StableHlo.TRef.nullary main_call8.cst (constant S_ .f32 0x7FC00000#32),
    StableHlo.TRef.unary main_call8.cst main_call8.v15 (broadcastInDim S1000000x128 ![] bcast_S_S1000000x128),
    StableHlo.TRef.ternary main_call8.v14 main_call8.v13 main_call8.v15 main_call8.v16 select ]

/-- 22 operations of @main, window 1, in order. -/
abbrev I16 : List (HloOp τ sig (Elt F)) :=
  [ StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_arg3 main_v79 (broadcastInDim S1000000x1 ![0] bcast_S1000000_S1000000x1_0 : (⟨S1000000, .i32⟩ : BufTy).Contents (Elt F) → (⟨S1000000x1, .i32⟩ : BufTy).Contents (Elt F)),
    StableHlo.ternary main_v78 main_v79 main_v77 main_v80 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_16 (constant S_ .f32 0x3F800000#32),
    StableHlo.unary main_cst_16 main_v81 (broadcastInDim S1000000 ![] bcast_S_S1000000 : (⟨S_, .f32⟩ : BufTy).Contents (Elt F) → (⟨S1000000, .f32⟩ : BufTy).Contents (Elt F)),
    StableHlo.nullary main_cst_17 (constant S_ .f32 0x00000000#32),
    StableHlo.unary main_cst_17 main_v82 (broadcastInDim S100000 ![] bcast_S_S100000 : (⟨S_, .f32⟩ : BufTy).Contents (Elt F) → (⟨S100000, .f32⟩ : BufTy).Contents (Elt F)),
    StableHlo.unary main_arg3 main_v83 (broadcastInDim S1000000x1 ![0] bcast_S1000000_S1000000x1_0 : (⟨S1000000, .i32⟩ : BufTy).Contents (Elt F) → (⟨S1000000x1, .i32⟩ : BufTy).Contents (Elt F)),
    StableHlo.ternary main_v82 main_v83 main_v81 main_v84 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_18 (constant S_ .f32 0x3F800000#32),
    StableHlo.unary main_cst_18 main_v85 (broadcastInDim S100000 ![] bcast_S_S100000 : (⟨S_, .f32⟩ : BufTy).Contents (Elt F) → (⟨S100000, .f32⟩ : BufTy).Contents (Elt F)),
    StableHlo.binary main_v84 main_v85 main_v86 (maximumf : (⟨S100000, .f32⟩ : BufTy).Contents (Elt F) → (⟨S100000, .f32⟩ : BufTy).Contents (Elt F) → (⟨S100000, .f32⟩ : BufTy).Contents (Elt F)),
    StableHlo.unary main_v86 main_v87 (broadcastInDim S100000x1 ![0] bcast_S100000_S100000x1_0 : (⟨S100000, .f32⟩ : BufTy).Contents (Elt F) → (⟨S100000x1, .f32⟩ : BufTy).Contents (Elt F)),
    StableHlo.unary main_v87 main_v88 (broadcastInDim S100000x128 ![0, 1] bcast_S100000x1_S100000x128_0_1 : (⟨S100000x1, .f32⟩ : BufTy).Contents (Elt F) → (⟨S100000x128, .f32⟩ : BufTy).Contents (Elt F)),
    StableHlo.binary main_v80 main_v88 main_v89 (Host.divf : (⟨S100000x128, .f32⟩ : BufTy).Contents (Elt F) → (⟨S100000x128, .f32⟩ : BufTy).Contents (Elt F) → (⟨S100000x128, .f32⟩ : BufTy).Contents (Elt F)),
    StableHlo.binary main_v89 main_arg17 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)),
    StableHlo.binary main_v75 main_arg19 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v93 main_v94 main_v95 (addf : (⟨S100000x128, .f32⟩ : BufTy).Contents (Elt F) → (⟨S100000x128, .f32⟩ : BufTy).Contents (Elt F) → (⟨S100000x128, .f32⟩ : BufTy).Contents (Elt F)) ]

/-- 5 operations of the call with record `main_call9`, window 1, in order. -/
abbrev I17 : List (HloOp τ sig (Elt F)) :=
  [ StableHlo.TRef.binary (.of main_v95 : TRef sig ⟨S100000x128, .f32⟩) (.of main_v95 : TRef sig ⟨S100000x128, .f32⟩) main_call9.v0 mulf,
    StableHlo.TRef.nullary main_call9.cst (constant S_ .f32 0x00000000#32),
    StableHlo.TRef.binary main_call9.v0 main_call9.cst main_call9.v1 (fun x v => Host.reduceAdd x v reducesTo_S100000x128_S100000_d1 h_S_),
    StableHlo.TRef.unary main_call9.v1 main_call9.v2 (broadcastInDim S100000x1 ![0] bcast_S100000_S100000x1_0),
    StableHlo.TRef.unary main_call9.v2 main_call9.v3 Host.sqrt ]

/-- 3 operations of @main, window 1, in order. -/
abbrev I18 : List (HloOp τ sig (Elt F)) :=
  [ StableHlo.nullary main_cst_19 (constant S_ .f32 0x2B8CBCCC#32),
    StableHlo.unary main_cst_19 main_v97 (broadcastInDim S100000x1 ![] bcast_S_S100000x1 : (⟨S_, .f32⟩ : BufTy).Contents (Elt F) → (⟨S100000x1, .f32⟩ : BufTy).Contents (Elt F)),
    StableHlo.binary main_v96 main_v97 main_v98 (maximumf : (⟨S100000x1, .f32⟩ : BufTy).Contents (Elt F) → (⟨S100000x1, .f32⟩ : BufTy).Contents (Elt F) → (⟨S100000x1, .f32⟩ : BufTy).Contents (Elt F)) ]

/-- 2 operations of @main, window 2, in order. -/
abbrev I19 : List (HloOp τ sig (Elt F)) :=
  [ StableHlo.unary main_v98 main_v99 (broadcastInDim S100000x128 ![0, 1] bcast_S100000x1_S100000x128_0_1 : (⟨S100000x1, .f32⟩ : BufTy).Contents (Elt F) → (⟨S100000x128, .f32⟩ : BufTy).Contents (Elt F)),
    StableHlo.binary main_v95 main_v99 main_v100 (Host.divf : (⟨S100000x128, .f32⟩ : BufTy).Contents (Elt F) → (⟨S100000x128, .f32⟩ : BufTy).Contents (Elt F) → (⟨S100000x128, .f32⟩ : BufTy).Contents (Elt F)) ]

/-- 23 operations of the call with record `main_call10`, window 2, in order. -/
abbrev I20 : List (HloOp τ sig (Elt F)) :=
  [ StableHlo.TRef.nullary main_call10.c (constantI S_ 32 0#32),
    StableHlo.TRef.unary main_call10.c main_call10.v0 (broadcastInDim S320000 ![] bcast_S_S320000),
    StableHlo.TRef.binary (.of main_arg4 : TRef sig ⟨S320000, .i32⟩) main_call10.v0 main_call10.v1 (cmpi .slt),
    StableHlo.TRef.nullary main_call10.c_0 (constantI S_ 32 50000#32),
    StableHlo.TRef.unary main_call10.c_0 main_call10.v2 (broadcastInDim S320000 ![] bcast_S_S320000),
    StableHlo.TRef.binary (.of main_arg4 : TRef sig ⟨S320000, .i32⟩) main_call10.v2 main_call10.v3 addi,
    StableHlo.TRef.ternary main_call10.v1 main_call10.v3 (.of main_arg4 : TRef sig ⟨S320000, .i32⟩) main_call10.call0.v0 select,
    StableHlo.TRef.unary main_call10.call0.v0 main_call10.v5 (broadcastInDim S320000x1 ![0] bcast_S320000_S320000x1_0),
    StableHlo.TRef.nullary main_call10.c_1 (constantI S1 32 49999#32),
    StableHlo.TRef.nullary main_call10.c_2 (constantI S_ 32 0#32),
    StableHlo.TRef.unary main_call10.c_2 main_call10.v6 (broadcastInDim S320000x1 ![] bcast_S_S320000x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S320000x1 ![0, 1] bcast_S1x1_S320000x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S320000x1_S320000_d1 h_S_),
    StableHlo.TRef.binary (.of main_v76 : TRef sig ⟨S50000x128, .f32⟩) main_call10.v5 main_call10.v13 (fun x i => Host.gather gather_S50000x128_S320000x1_S320000x128_1_0_n_n_0_1_1128 x i),
    StableHlo.TRef.unary main_call10.v12 main_call10.v14 (broadcastInDim S320000x128 ![0] bcast_S320000_S320000x128_0),
    StableHlo.TRef.nullary main_call10.cst (constant S_ .f32 0x7FC00000#32),
    StableHlo.TRef.unary main_call10.cst main_call10.v15 (broadcastInDim S320000x128 ![] bcast_S_S320000x128),
    StableHlo.TRef.ternary main_call10.v14 main_call10.v13 main_call10.v15 main_call10.v16 select ]

/-- 22 operations of @main, window 2, in order. -/
abbrev I21 : List (HloOp τ sig (Elt F)) :=
  [ StableHlo.nullary main_cst_20 (constant S_ .f32 0x00000000#32),
    StableHlo.unary main_cst_20 main_v102 (broadcastInDim S100000x128 ![] bcast_S_S100000x128 : (⟨S_, .f32⟩ : BufTy).Contents (Elt F) → (⟨S100000x128, .f32⟩ : BufTy).Contents (Elt F)),
    StableHlo.unary main_arg5 main_v103 (broadcastInDim S320000x1 ![0] bcast_S320000_S320000x1_0 : (⟨S320000, .i32⟩ : BufTy).Contents (Elt F) → (⟨S320000x1, .i32⟩ : BufTy).Contents (Elt F)),
    StableHlo.ternary main_v102 main_v103 main_v101 main_v104 ((fun x i u => Host.scatterAdd scatter_S100000x128_S320000x1_S320000x128_1_0_0_1 x i u) : (⟨S100000x128, .f32⟩ : BufTy).Contents (Elt F) → (⟨S320000x1, .i32⟩ : BufTy).Contents (Elt F) → (⟨S320000x128, .f32⟩ : BufTy).Contents (Elt F) → (⟨S100000x128, .f32⟩ : BufTy).Contents (Elt F)),
    StableHlo.nullary main_cst_21 (constant S_ .f32 0x3F800000#32),
    StableHlo.unary main_cst_21 main_v105 (broadcastInDim S320000 ![] bcast_S_S320000 : (⟨S_, .f32⟩ : BufTy).Contents (Elt F) → (⟨S320000, .f32⟩ : BufTy).Contents (Elt F)),
    StableHlo.nullary main_cst_22 (constant S_ .f32 0x00000000#32),
    StableHlo.unary main_cst_22 main_v106 (broadcastInDim S100000 ![] bcast_S_S100000 : (⟨S_, .f32⟩ : BufTy).Contents (Elt F) → (⟨S100000, .f32⟩ : BufTy).Contents (Elt F)),
    StableHlo.unary main_arg5 main_v107 (broadcastInDim S320000x1 ![0] bcast_S320000_S320000x1_0 : (⟨S320000, .i32⟩ : BufTy).Contents (Elt F) → (⟨S320000x1, .i32⟩ : BufTy).Contents (Elt F)),
    StableHlo.ternary main_v106 main_v107 main_v105 main_v108 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_23 (constant S_ .f32 0x3F800000#32),
    StableHlo.unary main_cst_23 main_v109 (broadcastInDim S100000 ![] bcast_S_S100000 : (⟨S_, .f32⟩ : BufTy).Contents (Elt F) → (⟨S100000, .f32⟩ : BufTy).Contents (Elt F)),
    StableHlo.binary main_v108 main_v109 main_v110 (maximumf : (⟨S100000, .f32⟩ : BufTy).Contents (Elt F) → (⟨S100000, .f32⟩ : BufTy).Contents (Elt F) → (⟨S100000, .f32⟩ : BufTy).Contents (Elt F)),
    StableHlo.unary main_v110 main_v111 (broadcastInDim S100000x1 ![0] bcast_S100000_S100000x1_0 : (⟨S100000, .f32⟩ : BufTy).Contents (Elt F) → (⟨S100000x1, .f32⟩ : BufTy).Contents (Elt F)),
    StableHlo.unary main_v111 main_v112 (broadcastInDim S100000x128 ![0, 1] bcast_S100000x1_S100000x128_0_1 : (⟨S100000x1, .f32⟩ : BufTy).Contents (Elt F) → (⟨S100000x128, .f32⟩ : BufTy).Contents (Elt F)),
    StableHlo.binary main_v104 main_v112 main_v113 (Host.divf : (⟨S100000x128, .f32⟩ : BufTy).Contents (Elt F) → (⟨S100000x128, .f32⟩ : BufTy).Contents (Elt F) → (⟨S100000x128, .f32⟩ : BufTy).Contents (Elt F)),
    StableHlo.binary main_v113 main_arg20 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg21 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (addf : (⟨S100000x128, .f32⟩ : BufTy).Contents (Elt F) → (⟨S100000x128, .f32⟩ : BufTy).Contents (Elt F) → (⟨S100000x128, .f32⟩ : BufTy).Contents (Elt F)),
    StableHlo.binary main_v75 main_arg22 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v117 main_v118 main_v119 (addf : (⟨S100000x128, .f32⟩ : BufTy).Contents (Elt F) → (⟨S100000x128, .f32⟩ : BufTy).Contents (Elt F) → (⟨S100000x128, .f32⟩ : BufTy).Contents (Elt F)) ]

/-- 5 operations of the call with record `main_call11`, window 2, in order. -/
abbrev I22 : List (HloOp τ sig (Elt F)) :=
  [ StableHlo.TRef.binary (.of main_v119 : TRef sig ⟨S100000x128, .f32⟩) (.of main_v119 : TRef sig ⟨S100000x128, .f32⟩) main_call11.v0 mulf,
    StableHlo.TRef.nullary main_call11.cst (constant S_ .f32 0x00000000#32),
    StableHlo.TRef.binary main_call11.v0 main_call11.cst main_call11.v1 (fun x v => Host.reduceAdd x v reducesTo_S100000x128_S100000_d1 h_S_),
    StableHlo.TRef.unary main_call11.v1 main_call11.v2 (broadcastInDim S100000x1 ![0] bcast_S100000_S100000x1_0),
    StableHlo.TRef.unary main_call11.v2 main_call11.v3 Host.sqrt ]

/-- 9 operations of @main, window 2, in order. -/
abbrev I23 : List (HloOp τ sig (Elt F)) :=
  [ StableHlo.nullary main_cst_24 (constant S_ .f32 0x2B8CBCCC#32),
    StableHlo.unary main_cst_24 main_v121 (broadcastInDim S100000x1 ![] bcast_S_S100000x1 : (⟨S_, .f32⟩ : BufTy).Contents (Elt F) → (⟨S100000x1, .f32⟩ : BufTy).Contents (Elt F)),
    StableHlo.binary main_v120 main_v121 main_v122 (maximumf : (⟨S100000x1, .f32⟩ : BufTy).Contents (Elt F) → (⟨S100000x1, .f32⟩ : BufTy).Contents (Elt F) → (⟨S100000x1, .f32⟩ : BufTy).Contents (Elt F)),
    StableHlo.unary main_v122 main_v123 (broadcastInDim S100000x128 ![0, 1] bcast_S100000x1_S100000x128_0_1 : (⟨S100000x1, .f32⟩ : BufTy).Contents (Elt F) → (⟨S100000x128, .f32⟩ : BufTy).Contents (Elt F)),
    StableHlo.binary main_v119 main_v123 main_v124 (Host.divf : (⟨S100000x128, .f32⟩ : BufTy).Contents (Elt F) → (⟨S100000x128, .f32⟩ : BufTy).Contents (Elt F) → (⟨S100000x128, .f32⟩ : BufTy).Contents (Elt F)),
    StableHlo.binary main_v100 main_v124 main_v125 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3F000000#32),
    StableHlo.unary main_cst_25 main_v126 (broadcastInDim S100000x128 ![] bcast_S_S100000x128 : (⟨S_, .f32⟩ : BufTy).Contents (Elt F) → (⟨S100000x128, .f32⟩ : BufTy).Contents (Elt F)),
    StableHlo.binary main_v126 main_v125 main_v127 (mulf : (⟨S100000x128, .f32⟩ : BufTy).Contents (Elt F) → (⟨S100000x128, .f32⟩ : BufTy).Contents (Elt F) → (⟨S100000x128, .f32⟩ : BufTy).Contents (Elt F)) ]

/-- 23 operations of the call with record `main_call12`, window 2, in order. -/
abbrev I24 : List (HloOp τ sig (Elt F)) :=
  [ StableHlo.TRef.nullary main_call12.c (constantI S_ 32 0#32),
    StableHlo.TRef.unary main_call12.c main_call12.v0 (broadcastInDim S320000 ![] bcast_S_S320000),
    StableHlo.TRef.binary (.of main_arg6 : TRef sig ⟨S320000, .i32⟩) main_call12.v0 main_call12.v1 (cmpi .slt),
    StableHlo.TRef.nullary main_call12.c_0 (constantI S_ 32 100000#32),
    StableHlo.TRef.unary main_call12.c_0 main_call12.v2 (broadcastInDim S320000 ![] bcast_S_S320000),
    StableHlo.TRef.binary (.of main_arg6 : TRef sig ⟨S320000, .i32⟩) main_call12.v2 main_call12.v3 addi,
    StableHlo.TRef.ternary main_call12.v1 main_call12.v3 (.of main_arg6 : TRef sig ⟨S320000, .i32⟩) main_call12.call0.v0 select,
    StableHlo.TRef.unary main_call12.call0.v0 main_call12.v5 (broadcastInDim S320000x1 ![0] bcast_S320000_S320000x1_0),
    StableHlo.TRef.nullary main_call12.c_1 (constantI S1 32 99999#32),
    StableHlo.TRef.nullary main_call12.c_2 (constantI S_ 32 0#32),
    StableHlo.TRef.unary main_call12.c_2 main_call12.v6 (broadcastInDim S320000x1 ![] bcast_S_S320000x1),
    StableHlo.TRef.binary main_call12.v5 main_call12.v6 main_call12.v7 (cmpi .sge),
    StableHlo.TRef.unary main_call12.c_1 main_call12.v8 (broadcastInDim S1x1 ![1] bcast_S1_S1x1_1),
    StableHlo.TRef.unary main_call12.v8 main_call12.v9 (broadcastInDim S320000x1 ![0, 1] bcast_S1x1_S320000x1_0_1),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S320000x1_S320000_d1 h_S_),
    StableHlo.TRef.binary (.of main_v75 : TRef sig ⟨S100000x128, .f32⟩) main_call12.v5 main_call12.v13 (fun x i => Host.gather gather_S100000x128_S320000x1_S320000x128_1_0_n_n_0_1_1128 x i),
    StableHlo.TRef.unary main_call12.v12 main_call12.v14 (broadcastInDim S320000x128 ![0] bcast_S320000_S320000x128_0),
    StableHlo.TRef.nullary main_call12.cst (constant S_ .f32 0x7FC00000#32),
    StableHlo.TRef.unary main_call12.cst main_call12.v15 (broadcastInDim S320000x128 ![] bcast_S_S320000x128),
    StableHlo.TRef.ternary main_call12.v14 main_call12.v13 main_call12.v15 main_call12.v16 select ]

/-- 22 operations of @main, window 2, in order. -/
abbrev I25 : List (HloOp τ sig (Elt F)) :=
  [ StableHlo.nullary main_cst_26 (constant S_ .f32 0x00000000#32),
    StableHlo.unary main_cst_26 main_v129 (broadcastInDim S50000x128 ![] bcast_S_S50000x128 : (⟨S_, .f32⟩ : BufTy).Contents (Elt F) → (⟨S50000x128, .f32⟩ : BufTy).Contents (Elt F)),
    StableHlo.unary main_arg7 main_v130 (broadcastInDim S320000x1 ![0] bcast_S320000_S320000x1_0 : (⟨S320000, .i32⟩ : BufTy).Contents (Elt F) → (⟨S320000x1, .i32⟩ : BufTy).Contents (Elt F)),
    StableHlo.ternary main_v129 main_v130 main_v128 main_v131 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_27 (constant S_ .f32 0x3F800000#32),
    StableHlo.unary main_cst_27 main_v132 (broadcastInDim S320000 ![] bcast_S_S320000 : (⟨S_, .f32⟩ : BufTy).Contents (Elt F) → (⟨S320000, .f32⟩ : BufTy).Contents (Elt F)),
    StableHlo.nullary main_cst_28 (constant S_ .f32 0x00000000#32),
    StableHlo.unary main_cst_28 main_v133 (broadcastInDim S50000 ![] bcast_S_S50000 : (⟨S_, .f32⟩ : BufTy).Contents (Elt F) → (⟨S50000, .f32⟩ : BufTy).Contents (Elt F)),
    StableHlo.unary main_arg7 main_v134 (broadcastInDim S320000x1 ![0] bcast_S320000_S320000x1_0 : (⟨S320000, .i32⟩ : BufTy).Contents (Elt F) → (⟨S320000x1, .i32⟩ : BufTy).Contents (Elt F)),
    StableHlo.ternary main_v133 main_v134 main_v132 main_v135 ((fun x i u => Host.scatterAdd scatter_S50000_S320000x1_S320000_n_0_0_1 x i u) : (⟨S50000, .f32⟩ : BufTy).Contents (Elt F) → (⟨S320000x1, .i32⟩ : BufTy).Contents (Elt F) → (⟨S320000, .f32⟩ : BufTy).Contents (Elt F) → (⟨S50000, .f32⟩ : BufTy).Contents (Elt F)),
    StableHlo.nullary main_cst_29 (constant S_ .f32 0x3F800000#32),
    StableHlo.unary main_cst_29 main_v136 (broadcastInDim S50000 ![] bcast_S_S50000 : (⟨S_, .f32⟩ : BufTy).Contents (Elt F) → (⟨S50000, .f32⟩ : BufTy).Contents (Elt F)),
    StableHlo.binary main_v135 main_v136 main_v137 (maximumf : (⟨S50000, .f32⟩ : BufTy).Contents (Elt F) → (⟨S50000, .f32⟩ : BufTy).Contents (Elt F) → (⟨S50000, .f32⟩ : BufTy).Contents (Elt F)),
    StableHlo.unary main_v137 main_v138 (broadcastInDim S50000x1 ![0] bcast_S50000_S50000x1_0 : (⟨S50000, .f32⟩ : BufTy).Contents (Elt F) → (⟨S50000x1, .f32⟩ : BufTy).Contents (Elt F)),
    StableHlo.unary main_v138 main_v139 (broadcastInDim S50000x128 ![0, 1] bcast_S50000x1_S50000x128_0_1 : (⟨S50000x1, .f32⟩ : BufTy).Contents (Elt F) → (⟨S50000x128, .f32⟩ : BufTy).Contents (Elt F)),
    StableHlo.binary main_v131 main_v139 main_v140 (Host.divf : (⟨S50000x128, .f32⟩ : BufTy).Contents (Elt F) → (⟨S50000x128, .f32⟩ : BufTy).Contents (Elt F) → (⟨S50000x128, .f32⟩ : BufTy).Contents (Elt F)),
    StableHlo.binary main_v140 main_arg23 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg24 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v143 main_v144 (addf : (⟨S50000x128, .f32⟩ : BufTy).Contents (Elt F) → (⟨S50000x128, .f32⟩ : BufTy).Contents (Elt F) → (⟨S50000x128, .f32⟩ : BufTy).Contents (Elt F)),
    StableHlo.binary main_v76 main_arg25 main_v145 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v144 main_v145 main_v146 (addf : (⟨S50000x128, .f32⟩ : BufTy).Contents (Elt F) → (⟨S50000x128, .f32⟩ : BufTy).Contents (Elt F) → (⟨S50000x128, .f32⟩ : BufTy).Contents (Elt F)) ]

/-- 5 operations of the call with record `main_call13`, window 2, in order. -/
abbrev I26 : List (HloOp τ sig (Elt F)) :=
  [ StableHlo.TRef.binary (.of main_v146 : TRef sig ⟨S50000x128, .f32⟩) (.of main_v146 : TRef sig ⟨S50000x128, .f32⟩) main_call13.v0 mulf,
    StableHlo.TRef.nullary main_call13.cst (constant S_ .f32 0x00000000#32),
    StableHlo.TRef.binary main_call13.v0 main_call13.cst main_call13.v1 (fun x v => Host.reduceAdd x v reducesTo_S50000x128_S50000_d1 h_S_),
    StableHlo.TRef.unary main_call13.v1 main_call13.v2 (broadcastInDim S50000x1 ![0] bcast_S50000_S50000x1_0),
    StableHlo.TRef.unary main_call13.v2 main_call13.v3 Host.sqrt ]

/-- 1 operations of @main, window 2, in order. -/
abbrev I27 : List (HloOp τ sig (Elt F)) :=
  [ StableHlo.nullary main_cst_30 (constant S_ .f32 0x2B8CBCCC#32) ]

/-- 4 operations of @main, window 3, in order. -/
abbrev I28 : List (HloOp τ sig (Elt F)) :=
  [ StableHlo.unary main_cst_30 main_v148 (broadcastInDim S50000x1 ![] bcast_S_S50000x1 : (⟨S_, .f32⟩ : BufTy).Contents (Elt F) → (⟨S50000x1, .f32⟩ : BufTy).Contents (Elt F)),
    StableHlo.binary main_v147 main_v148 main_v149 (maximumf : (⟨S50000x1, .f32⟩ : BufTy).Contents (Elt F) → (⟨S50000x1, .f32⟩ : BufTy).Contents (Elt F) → (⟨S50000x1, .f32⟩ : BufTy).Contents (Elt F)),
    StableHlo.unary main_v149 main_v150 (broadcastInDim S50000x128 ![0, 1] bcast_S50000x1_S50000x128_0_1 : (⟨S50000x1, .f32⟩ : BufTy).Contents (Elt F) → (⟨S50000x128, .f32⟩ : BufTy).Contents (Elt F)),
    StableHlo.binary main_v146 main_v150 main_v151 (Host.divf : (⟨S50000x128, .f32⟩ : BufTy).Contents (Elt F) → (⟨S50000x128, .f32⟩ : BufTy).Contents (Elt F) → (⟨S50000x128, .f32⟩ : BufTy).Contents (Elt F)) ]

/-- 3 operations of the call with record `main_call14`, window 3, in order. -/
abbrev I29 : List (HloOp τ sig (Elt F)) :=
  [ StableHlo.TRef.nullary main_call14.cst (constant S_ .f32 0x00000000#32),
    StableHlo.TRef.unary main_call14.cst main_call14.v0 (broadcastInDim S100000x128 ![] bcast_S_S100000x128),
    StableHlo.TRef.binary (.of main_v127 : TRef sig ⟨S100000x128, .f32⟩) main_call14.v0 main_call14.v1 maximumf ]

/-- 3 operations of the call with record `main_call15`, window 3, in order. -/
abbrev I30 : List (HloOp τ sig (Elt F)) :=
  [ StableHlo.TRef.nullary main_call15.cst (constant S_ .f32 0x00000000#32),
    StableHlo.TRef.unary main_call15.cst main_call15.v0 (broadcastInDim S50000x128 ![] bcast_S_S50000x128),
    StableHlo.TRef.binary (.of main_v151 : TRef sig ⟨S50000x128, .f32⟩) main_call15.v0 main_call15.v1 maximumf ]

/-- Window 0 of @main is the chain of its stretches, the last in tail position. -/
theorem main_part0_chain (c : Dev nD) : main_part0 (F := F) c = (Pipeline.chainK
  [ seq I00,
    seq I01,
    seq I02,
    seq I03,
    seq I04,
    seq I05,
    seq I06 ]
  (seq I07) : Prog (TpuEff nD τ sig (Elt F) (Pipeline.Sig Λ₀ (Fin 0) fun p => (pcfgs (F := F) p).Adm) .tc) PUnit) := by
  chain_rfl

/-- Window 1 of @main is the chain of its stretches, the last in tail position. -/
theorem main_part1_chain (c : Dev nD) : main_part1 (F := F) c = (Pipeline.chainK
  [ seq I08,
    seq I09,
    seq I10,
    seq I11,
    seq I12,
    seq I13,
    seq I14,
    seq I15,
    seq I16,
    seq I17 ]
  (seq I18) : Prog (TpuEff nD τ sig (Elt F) (Pipeline.Sig Λ₀ (Fin 0) fun p => (pcfgs (F := F) p).Adm) .tc) PUnit) := by
  chain_rfl

/-- Window 2 of @main is the chain of its stretches, the last in tail position. -/
theorem main_part2_chain (c : Dev nD) : main_part2 (F := F) c = (Pipeline.chainK
  [ seq I19,
    seq I20,
    seq I21,
    seq I22,
    seq I23,
    seq I24,
    seq I25,
    seq I26 ]
  (seq I27) : Prog (TpuEff nD τ sig (Elt F) (Pipeline.Sig Λ₀ (Fin 0) fun p => (pcfgs (F := F) p).Adm) .tc) PUnit) := by
  chain_rfl

/-- The last window of @main is the chain of its stretches. -/
theorem main_part3_chain (c : Dev nD) : main_part3 (F := F) c = (Pipeline.chain
  [ seq I28,
    seq I29,
    seq I30 ] : Prog (TpuEff nD τ sig (Elt F) (Pipeline.Sig Λ₀ (Fin 0) fun p => (pcfgs (F := F) p).Adm) .tc) PUnit) := by
  chain_rfl

/-- @main is the chain of all its stretches: the windows' equations joined at the window boundaries. -/
theorem main_chain (c : Dev nD) : main (F := F) c = (Pipeline.chain
  [ seq I00,
    seq I01,
    seq I02,
    seq I03,
    seq I04,
    seq I05,
    seq I06,
    seq I07,
    seq I08,
    seq I09,
    seq I10,
    seq I11,
    seq I12,
    seq I13,
    seq I14,
    seq I15,
    seq I16,
    seq I17,
    seq I18,
    seq I19,
    seq I20,
    seq I21,
    seq I22,
    seq I23,
    seq I24,
    seq I25,
    seq I26,
    seq I27,
    seq I28,
    seq I29,
    seq I30 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  rfl

end Cert.ReferenceIdeal.RefRun

end
-- ==== Proof.RefL0a.lean ====
/-
  The reference program's host operations K01 … K02 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0, the mean over the cites edges: the row gather (23 operations), then the two scatter-adds, the clamp of the count and the division. -/
abbrev K01 : List (HloOp τ sig (Elt F)) :=
  [ StableHlo.TRef.nullary main_call0.c (constantI S_ 32 0#32),
    StableHlo.TRef.unary main_call0.c main_call0.v0 (broadcastInDim S1000000 ![] bcast_S_S1000000),
    StableHlo.TRef.binary (.of main_arg2 : TRef sig ⟨S1000000, .i32⟩) main_call0.v0 main_call0.v1 (cmpi .slt),
    StableHlo.TRef.nullary main_call0.c_0 (constantI S_ 32 100000#32),
    StableHlo.TRef.unary main_call0.c_0 main_call0.v2 (broadcastInDim S1000000 ![] bcast_S_S1000000),
    StableHlo.TRef.binary (.of main_arg2 : TRef sig ⟨S1000000, .i32⟩) main_call0.v2 main_call0.v3 addi,
    StableHlo.TRef.ternary main_call0.v1 main_call0.v3 (.of main_arg2 : TRef sig ⟨S1000000, .i32⟩) main_call0.call0.v0 select,
    StableHlo.TRef.unary main_call0.call0.v0 main_call0.v5 (broadcastInDim S1000000x1 ![0] bcast_S1000000_S1000000x1_0),
    StableHlo.TRef.nullary main_call0.c_1 (constantI S1 32 99999#32),
    StableHlo.TRef.nullary main_call0.c_2 (constantI S_ 32 0#32),
    StableHlo.TRef.unary main_call0.c_2 main_call0.v6 (broadcastInDim S1000000x1 ![] bcast_S_S1000000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1000000x1 ![0, 1] bcast_S1x1_S1000000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1000000x1_S1000000_d1 h_S_),
    StableHlo.TRef.binary (.of main_arg0 : TRef sig ⟨S100000x128, .f32⟩) main_call0.v5 main_call0.v13 (fun x i => Host.gather gather_S100000x128_S1000000x1_S1000000x128_1_0_n_n_0_1_1128 x i),
    StableHlo.TRef.unary main_call0.v12 main_call0.v14 (broadcastInDim S1000000x128 ![0] bcast_S1000000_S1000000x128_0),
    StableHlo.TRef.nullary main_call0.cst (constant S_ .f32 0x7FC00000#32),
    StableHlo.TRef.unary main_call0.cst main_call0.v15 (broadcastInDim S1000000x128 ![] bcast_S_S1000000x128),
    StableHlo.TRef.ternary main_call0.v14 main_call0.v13 main_call0.v15 main_call0.v16 select,
    StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg3 main_v2 (broadcastInDim S1000000x1 ![0] bcast_S1000000_S1000000x1_0 : (⟨S1000000, .i32⟩ : BufTy).Contents (Elt F) → (⟨S1000000x1, .i32⟩ : BufTy).Contents (Elt F)),
    StableHlo.ternary main_v1 main_v2 main_v0 main_v3 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1000000 ![] bcast_S_S1000000 : (⟨S_, .f32⟩ : BufTy).Contents (Elt F) → (⟨S1000000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg3 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)) ]

/-- The buffers the operations of `K01` write, in order. -/
abbrev K01_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_cst, main_v1, main_v2, main_v3, main_cst_0, main_v4, main_cst_1, main_v5, main_v6, main_v7, main_cst_2, main_v8, main_v9, main_v10, main_v11, main_v12]

theorem K01_sub : (K01 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K01_fresh : (K01 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K01_writes : (K01 : List (HloOp τ sig (Elt F))).Forall fun op => op.writes ⊆ ((K01_W).map (Proc.devRef (τ := τ) .tc)).toFinset :=
  ⟨writes_sub_of_mem (y := main_call0_c) rfl (by decide),
   writes_sub_of_mem (y := main_call0_v0) rfl (by decide),
   writes_sub_of_mem (y := main_call0_v1) rfl (by decide),
   writes_sub_of_mem (y := main_call0_c_0) rfl (by decide),
   writes_sub_of_mem (y := main_call0_v2) rfl (by decide),
   writes_sub_of_mem (y := main_call0_v3) rfl (by decide),
   writes_sub_of_mem (y := main_call0_v4) rfl (by decide),
   writes_sub_of_mem (y := main_call0_v5) rfl (by decide),
   writes_sub_of_mem (y := main_call0_c_1) rfl (by decide),
   writes_sub_of_mem (y := main_call0_c_2) rfl (by decide),
   writes_sub_of_mem (y := main_call0_v6) rfl (by decide),
   writes_sub_of_mem (y := main_call0_v7) rfl (by decide),
   writes_sub_of_mem (y := main_call0_v8) rfl (by decide),
   writes_sub_of_mem (y := main_call0_v9) rfl (by decide),
   writes_sub_of_mem (y := main_call0_v10) rfl (by decide),
   writes_sub_of_mem (y := main_call0_v11) rfl (by decide),
   writes_sub_of_mem (y := main_call0_c_3) rfl (by decide),
   writes_sub_of_mem (y := main_call0_v12) rfl (by decide),
   writes_sub_of_mem (y := main_call0_v13) rfl (by decide),
   writes_sub_of_mem (y := main_call0_v14) rfl (by decide),
   writes_sub_of_mem (y := main_call0_cst) rfl (by decide),
   writes_sub_of_mem (y := main_call0_v15) rfl (by decide),
   writes_sub_of_mem (y := main_v0) rfl (by decide),
   writes_sub_of_mem (y := main_cst) rfl (by decide),
   writes_sub_of_mem (y := main_v1) rfl (by decide),
   writes_sub_of_mem (y := main_v2) rfl (by decide),
   writes_sub_of_mem (y := main_v3) rfl (by decide),
   writes_sub_of_mem (y := main_cst_0) rfl (by decide),
   writes_sub_of_mem (y := main_v4) rfl (by decide),
   writes_sub_of_mem (y := main_cst_1) rfl (by decide),
   writes_sub_of_mem (y := main_v5) rfl (by decide),
   writes_sub_of_mem (y := main_v6) rfl (by decide),
   writes_sub_of_mem (y := main_v7) rfl (by decide),
   writes_sub_of_mem (y := main_cst_2) rfl (by decide),
   writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_v12) rfl (by decide)⟩

/-- A buffer the operations of `K01` do not write keeps its contents. -/
theorem K01_frame (V : Valuation τ sig (Elt F)) (r : Ref sig .tc) (hr : r ∉ K01_W) :
    after K01 V (Proc.devRef .tc r) = V (Proc.devRef .tc r) :=
  after_of_writes_sub K01 V K01_writes hr

theorem K01_ofBuf_main_arg2 (h1 h2 h3) (v : (main_arg2 : Ref sig .tc).ty.Contents (Elt F)) :
    (TRef.of (T := ⟨S1000000, .i32⟩) main_arg2 h1 h2 h3).ofBuf v = v := rfl
theorem K01_ofBuf_main_arg0 (h1 h2 h3) (v : (main_arg0 : Ref sig .tc).ty.Contents (Elt F)) :
    (TRef.of (T := ⟨S100000x128, .f32⟩) main_arg0 h1 h2 h3).ofBuf v = v := rfl
theorem K01_toBuf_main_v0 (h1 h2 h3) (w : (⟨S1000000x128, .f32⟩ : BufTy).Contents (Elt F)) :
    (TRef.of (T := ⟨S1000000x128, .f32⟩) main_v0 h1 h2 h3).toBuf w = w := rfl

attribute [local irreducible] Host.gather Host.reduce broadcastInDim cmpi select addi andi constantI constant maximumf Host.divf addf mulf Host.sqrt in
set_option maxRecDepth 65536 in
/-- The result of `K01` is the stage applied to the contents of the buffers it reads. -/
theorem K01_res (V : Valuation τ sig (Elt F)) :
    after K01 V (main_v12 : DevRef τ sig)
      = Cert.Sage.meanC (V (main_arg0 : DevRef τ sig)) (V (main_arg2 : DevRef τ sig)) (V (main_arg3 : DevRef τ sig)) := by
  after_results_simp
  simp only [tref_ofBuf_toBuf, K01_ofBuf_main_arg2, K01_ofBuf_main_arg0, K01_toBuf_main_v0]
  rfl

/-- Layer 0, the update of the papers over the cites edges: the two products, the bias, the row norm, the clamp and the division. -/
abbrev K02 : List (HloOp τ sig (Elt F)) :=
  [ StableHlo.binary main_v12 main_arg8 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)),
    StableHlo.binary main_arg0 main_arg10 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v16 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.binary (.of main_v18 : TRef sig ⟨S100000x128, .f32⟩) (.of main_v18 : TRef sig ⟨S100000x128, .f32⟩) main_call1.v0 mulf,
    StableHlo.TRef.nullary main_call1.cst (constant S_ .f32 0x00000000#32),
    StableHlo.TRef.binary main_call1.v0 main_call1.cst main_call1.v1 (fun x v => Host.reduceAdd x v reducesTo_S100000x128_S100000_d1 h_S_),
    StableHlo.TRef.unary main_call1.v1 main_call1.v2 (broadcastInDim S100000x1 ![0] bcast_S100000_S100000x1_0),
    StableHlo.TRef.unary main_call1.v2 main_call1.v3 Host.sqrt,
    StableHlo.nullary main_cst_3 (constant S_ .f32 0x2B8CBCCC#32),
    StableHlo.unary main_cst_3 main_v20 (broadcastInDim S100000x1 ![] bcast_S_S100000x1 : (⟨S_, .f32⟩ : BufTy).Contents (Elt F) → (⟨S100000x1, .f32⟩ : BufTy).Contents (Elt F)),
    StableHlo.binary main_v19 main_v20 main_v21 (maximumf : (⟨S100000x1, .f32⟩ : BufTy).Contents (Elt F) → (⟨S100000x1, .f32⟩ : BufTy).Contents (Elt F) → (⟨S100000x1, .f32⟩ : BufTy).Contents (Elt F)),
    StableHlo.unary main_v21 main_v22 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v22 main_v23 (Host.divf : (⟨S100000x128, .f32⟩ : BufTy).Contents (Elt F) → (⟨S100000x128, .f32⟩ : BufTy).Contents (Elt F) → (⟨S100000x128, .f32⟩ : BufTy).Contents (Elt F)) ]

/-- The buffers the operations of `K02` write, in order. -/
abbrev K02_W : List (Ref sig .tc) :=
  [main_v13, main_v14, main_v15, main_v16, main_v17, main_v18, main_call1_v0, main_call1_cst, main_call1_v1, main_call1_v2, main_v19, main_cst_3, main_v20, main_v21, main_v22, main_v23]

theorem K02_sub : (K02 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K02_fresh : (K02 : List (HloOp τ sig (Elt F))).Forall fun op => op.fresh = ∅ :=
  ⟨rfl, rfl, rfl, rfl, rfl, rfl, rfl, rfl, rfl, rfl, rfl, rfl, rfl, rfl, rfl, rfl⟩

theorem K02_writes : (K02 : List (HloOp τ sig (Elt F))).Forall fun op => op.writes ⊆ ((K02_W).map (Proc.devRef (τ := τ) .tc)).toFinset :=
  ⟨writes_sub_of_mem (y := main_v13) rfl (by decide),
   writes_sub_of_mem (y := main_v14) rfl (by decide),
   writes_sub_of_mem (y := main_v15) rfl (by decide),
   writes_sub_of_mem (y := main_v16) rfl (by decide),
   writes_sub_of_mem (y := main_v17) rfl (by decide),
   writes_sub_of_mem (y := main_v18) rfl (by decide),
   writes_sub_of_mem (y := main_call1_v0) rfl (by decide),
   writes_sub_of_mem (y := main_call1_cst) rfl (by decide),
   writes_sub_of_mem (y := main_call1_v1) rfl (by decide),
   writes_sub_of_mem (y := main_call1_v2) rfl (by decide),
   writes_sub_of_mem (y := main_v19) rfl (by decide),
   writes_sub_of_mem (y := main_cst_3) rfl (by decide),
   writes_sub_of_mem (y := main_v20) rfl (by decide),
   writes_sub_of_mem (y := main_v21) rfl (by decide),
   writes_sub_of_mem (y := main_v22) rfl (by decide),
   writes_sub_of_mem (y := main_v23) rfl (by decide)⟩

/-- A buffer the operations of `K02` do not write keeps its contents. -/
theorem K02_frame (V : Valuation τ sig (Elt F)) (r : Ref sig .tc) (hr : r ∉ K02_W) :
    after K02 V (Proc.devRef .tc r) = V (Proc.devRef .tc r) :=
  after_of_writes_sub K02 V K02_writes hr

theorem K02_ofBuf_main_v18 (h1 h2 h3) (v : (main_v18 : Ref sig .tc).ty.Contents (Elt F)) :
    (TRef.of (T := ⟨S100000x128, .f32⟩) main_v18 h1 h2 h3).ofBuf v = v := rfl
theorem K02_toBuf_main_v19 (h1 h2 h3) (w : (⟨S100000x1, .f32⟩ : BufTy).Contents (Elt F)) :
    (TRef.of (T := ⟨S100000x1, .f32⟩) main_v19 h1 h2 h3).toBuf w = w := rfl

attribute [local irreducible] Host.gather Host.reduce broadcastInDim cmpi select addi andi constantI constant maximumf Host.divf addf mulf Host.sqrt in
set_option maxRecDepth 65536 in
/-- The result of `K02` is the stage applied to the contents of the buffers it reads. -/
theorem K02_res (V : Valuation τ sig (Elt F)) :
    after K02 V (main_v23 : DevRef τ sig)
      = Cert.Sage.sageP (V (main_v12 : DevRef τ sig)) (V (main_arg0 : DevRef τ sig)) (V (main_arg8 : DevRef τ sig)) (V (main_arg9 : DevRef τ sig)) (V (main_arg10 : DevRef τ sig)) := by
  after_results_simp
  simp only [tref_ofBuf_toBuf, K02_ofBuf_main_v18, K02_toBuf_main_v19]
  rfl

end Cert.ReferenceIdeal.RefRun

end
-- ==== Proof.RefL0b.lean ====
/-
  The reference program's host operations K03 … K05 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0, the mean over the writes edges. -/
abbrev K03 : List (HloOp τ sig (Elt F)) :=
  [ StableHlo.TRef.nullary main_call2.c (constantI S_ 32 0#32),
    StableHlo.TRef.unary main_call2.c main_call2.v0 (broadcastInDim S320000 ![] bcast_S_S320000),
    StableHlo.TRef.binary (.of main_arg4 : TRef sig ⟨S320000, .i32⟩) main_call2.v0 main_call2.v1 (cmpi .slt),
    StableHlo.TRef.nullary main_call2.c_0 (constantI S_ 32 50000#32),
    StableHlo.TRef.unary main_call2.c_0 main_call2.v2 (broadcastInDim S320000 ![] bcast_S_S320000),
    StableHlo.TRef.binary (.of main_arg4 : TRef sig ⟨S320000, .i32⟩) main_call2.v2 main_call2.v3 addi,
    StableHlo.TRef.ternary main_call2.v1 main_call2.v3 (.of main_arg4 : TRef sig ⟨S320000, .i32⟩) main_call2.call0.v0 select,
    StableHlo.TRef.unary main_call2.call0.v0 main_call2.v5 (broadcastInDim S320000x1 ![0] bcast_S320000_S320000x1_0),
    StableHlo.TRef.nullary main_call2.c_1 (constantI S1 32 49999#32),
    StableHlo.TRef.nullary main_call2.c_2 (constantI S_ 32 0#32),
    StableHlo.TRef.unary main_call2.c_2 main_call2.v6 (broadcastInDim S320000x1 ![] bcast_S_S320000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S320000x1 ![0, 1] bcast_S1x1_S320000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S320000x1_S320000_d1 h_S_),
    StableHlo.TRef.binary (.of main_arg1 : TRef sig ⟨S50000x128, .f32⟩) main_call2.v5 main_call2.v13 (fun x i => Host.gather gather_S50000x128_S320000x1_S320000x128_1_0_n_n_0_1_1128 x i),
    StableHlo.TRef.unary main_call2.v12 main_call2.v14 (broadcastInDim S320000x128 ![0] bcast_S320000_S320000x128_0),
    StableHlo.TRef.nullary main_call2.cst (constant S_ .f32 0x7FC00000#32),
    StableHlo.TRef.unary main_call2.cst main_call2.v15 (broadcastInDim S320000x128 ![] bcast_S_S320000x128),
    StableHlo.TRef.ternary main_call2.v14 main_call2.v13 main_call2.v15 main_call2.v16 select,
    StableHlo.nullary main_cst_4 (constant S_ .f32 0x00000000#32),
    StableHlo.unary main_cst_4 main_v25 (broadcastInDim S100000x128 ![] bcast_S_S100000x128 : (⟨S_, .f32⟩ : BufTy).Contents (Elt F) → (⟨S100000x128, .f32⟩ : BufTy).Contents (Elt F)),
    StableHlo.unary main_arg5 main_v26 (broadcastInDim S320000x1 ![0] bcast_S320000_S320000x1_0 : (⟨S320000, .i32⟩ : BufTy).Contents (Elt F) → (⟨S320000x1, .i32⟩ : BufTy).Contents (Elt F)),
    StableHlo.ternary main_v25 main_v26 main_v24 main_v27 ((fun x i u => Host.scatterAdd scatter_S100000x128_S320000x1_S320000x128_1_0_0_1 x i u) : (⟨S100000x128, .f32⟩ : BufTy).Contents (Elt F) → (⟨S320000x1, .i32⟩ : BufTy).Contents (Elt F) → (⟨S320000x128, .f32⟩ : BufTy).Contents (Elt F) → (⟨S100000x128, .f32⟩ : BufTy).Contents (Elt F)),
    StableHlo.nullary main_cst_5 (constant S_ .f32 0x3F800000#32),
    StableHlo.unary main_cst_5 main_v28 (broadcastInDim S320000 ![] bcast_S_S320000 : (⟨S_, .f32⟩ : BufTy).Contents (Elt F) → (⟨S320000, .f32⟩ : BufTy).Contents (Elt F)),
    StableHlo.nullary main_cst_6 (constant S_ .f32 0x00000000#32),
    StableHlo.unary main_cst_6 main_v29 (broadcastInDim S100000 ![] bcast_S_S100000 : (⟨S_, .f32⟩ : BufTy).Contents (Elt F) → (⟨S100000, .f32⟩ : BufTy).Contents (Elt F)),
    StableHlo.unary main_arg5 main_v30 (broadcastInDim S320000x1 ![0] bcast_S320000_S320000x1_0 : (⟨S320000, .i32⟩ : BufTy).Contents (Elt F) → (⟨S320000x1, .i32⟩ : BufTy).Contents (Elt F)),
    StableHlo.ternary main_v29 main_v30 main_v28 main_v31 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_7 (constant S_ .f32 0x3F800000#32),
    StableHlo.unary main_cst_7 main_v32 (broadcastInDim S100000 ![] bcast_S_S100000 : (⟨S_, .f32⟩ : BufTy).Contents (Elt F) → (⟨S100000, .f32⟩ : BufTy).Contents (Elt F)),
    StableHlo.binary main_v31 main_v32 main_v33 (maximumf : (⟨S100000, .f32⟩ : BufTy).Contents (Elt F) → (⟨S100000, .f32⟩ : BufTy).Contents (Elt F) → (⟨S100000, .f32⟩ : BufTy).Contents (Elt F)),
    StableHlo.unary main_v33 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v35 main_v36 (Host.divf : (⟨S100000x128, .f32⟩ : BufTy).Contents (Elt F) → (⟨S100000x128, .f32⟩ : BufTy).Contents (Elt F) → (⟨S100000x128, .f32⟩ : BufTy).Contents (Elt F)) ]

/-- The buffers the operations of `K03` write, in order. -/
abbrev K03_W : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v24, main_cst_4, main_v25, main_v26, main_v27, main_cst_5, main_v28, main_cst_6, main_v29, main_v30, main_v31, main_cst_7, main_v32, main_v33, main_v34, main_v35, main_v36]

theorem K03_sub : (K03 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K03_fresh : (K03 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K03_writes : (K03 : List (HloOp τ sig (Elt F))).Forall fun op => op.writes ⊆ ((K03_W).map (Proc.devRef (τ := τ) .tc)).toFinset :=
  ⟨writes_sub_of_mem (y := main_call2_c) rfl (by decide),
   writes_sub_of_mem (y := main_call2_v0) rfl (by decide),
   writes_sub_of_mem (y := main_call2_v1) rfl (by decide),
   writes_sub_of_mem (y := main_call2_c_0) rfl (by decide),
   writes_sub_of_mem (y := main_call2_v2) rfl (by decide),
   writes_sub_of_mem (y := main_call2_v3) rfl (by decide),
   writes_sub_of_mem (y := main_call2_v4) rfl (by decide),
   writes_sub_of_mem (y := main_call2_v5) rfl (by decide),
   writes_sub_of_mem (y := main_call2_c_1) rfl (by decide),
   writes_sub_of_mem (y := main_call2_c_2) rfl (by decide),
   writes_sub_of_mem (y := main_call2_v6) rfl (by decide),
   writes_sub_of_mem (y := main_call2_v7) rfl (by decide),
   writes_sub_of_mem (y := main_call2_v8) rfl (by decide),
   writes_sub_of_mem (y := main_call2_v9) rfl (by decide),
   writes_sub_of_mem (y := main_call2_v10) rfl (by decide),
   writes_sub_of_mem (y := main_call2_v11) rfl (by decide),
   writes_sub_of_mem (y := main_call2_c_3) rfl (by decide),
   writes_sub_of_mem (y := main_call2_v12) rfl (by decide),
   writes_sub_of_mem (y := main_call2_v13) rfl (by decide),
   writes_sub_of_mem (y := main_call2_v14) rfl (by decide),
   writes_sub_of_mem (y := main_call2_cst) rfl (by decide),
   writes_sub_of_mem (y := main_call2_v15) rfl (by decide),
   writes_sub_of_mem (y := main_v24) rfl (by decide),
   writes_sub_of_mem (y := main_cst_4) rfl (by decide),
   writes_sub_of_mem (y := main_v25) rfl (by decide),
   writes_sub_of_mem (y := main_v26) rfl (by decide),
   writes_sub_of_mem (y := main_v27) rfl (by decide),
   writes_sub_of_mem (y := main_cst_5) rfl (by decide),
   writes_sub_of_mem (y := main_v28) rfl (by decide),
   writes_sub_of_mem (y := main_cst_6) rfl (by decide),
   writes_sub_of_mem (y := main_v29) rfl (by decide),
   writes_sub_of_mem (y := main_v30) rfl (by decide),
   writes_sub_of_mem (y := main_v31) rfl (by decide),
   writes_sub_of_mem (y := main_cst_7) rfl (by decide),
   writes_sub_of_mem (y := main_v32) rfl (by decide),
   writes_sub_of_mem (y := main_v33) rfl (by decide),
   writes_sub_of_mem (y := main_v34) rfl (by decide),
   writes_sub_of_mem (y := main_v35) rfl (by decide),
   writes_sub_of_mem (y := main_v36) rfl (by decide)⟩

/-- A buffer the operations of `K03` do not write keeps its contents. -/
theorem K03_frame (V : Valuation τ sig (Elt F)) (r : Ref sig .tc) (hr : r ∉ K03_W) :
    after K03 V (Proc.devRef .tc r) = V (Proc.devRef .tc r) :=
  after_of_writes_sub K03 V K03_writes hr

theorem K03_ofBuf_main_arg4 (h1 h2 h3) (v : (main_arg4 : Ref sig .tc).ty.Contents (Elt F)) :
    (TRef.of (T := ⟨S320000, .i32⟩) main_arg4 h1 h2 h3).ofBuf v = v := rfl
theorem K03_ofBuf_main_arg1 (h1 h2 h3) (v : (main_arg1 : Ref sig .tc).ty.Contents (Elt F)) :
    (TRef.of (T := ⟨S50000x128, .f32⟩) main_arg1 h1 h2 h3).ofBuf v = v := rfl
theorem K03_toBuf_main_v24 (h1 h2 h3) (w : (⟨S320000x128, .f32⟩ : BufTy).Contents (Elt F)) :
    (TRef.of (T := ⟨S320000x128, .f32⟩) main_v24 h1 h2 h3).toBuf w = w := rfl

attribute [local irreducible] Host.gather Host.reduce broadcastInDim cmpi select addi andi constantI constant maximumf Host.divf addf mulf Host.sqrt in
set_option maxRecDepth 65536 in
/-- The result of `K03` is the stage applied to the contents of the buffers it reads. -/
theorem K03_res (V : Valuation τ sig (Elt F)) :
    after K03 V (main_v36 : DevRef τ sig)
      = Cert.Sage.meanW (V (main_arg1 : DevRef τ sig)) (V (main_arg4 : DevRef τ sig)) (V (main_arg5 : DevRef τ sig)) := by
  after_results_simp
  simp only [tref_ofBuf_toBuf, K03_ofBuf_main_arg4, K03_ofBuf_main_arg1, K03_toBuf_main_v24]
  rfl

/-- Layer 0, the update of the papers over the writes edges. -/
abbrev K04 : List (HloOp τ sig (Elt F)) :=
  [ StableHlo.binary main_v36 main_arg11 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.binary main_arg0 main_arg13 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v40 main_v41 main_v42 (addf : (⟨S100000x128, .f32⟩ : BufTy).Contents (Elt F) → (⟨S100000x128, .f32⟩ : BufTy).Contents (Elt F) → (⟨S100000x128, .f32⟩ : BufTy).Contents (Elt F)),
    StableHlo.TRef.binary (.of main_v42 : TRef sig ⟨S100000x128, .f32⟩) (.of main_v42 : TRef sig ⟨S100000x128, .f32⟩) main_call3.v0 mulf,
    StableHlo.TRef.nullary main_call3.cst (constant S_ .f32 0x00000000#32),
    StableHlo.TRef.binary main_call3.v0 main_call3.cst main_call3.v1 (fun x v => Host.reduceAdd x v reducesTo_S100000x128_S100000_d1 h_S_),
    StableHlo.TRef.unary main_call3.v1 main_call3.v2 (broadcastInDim S100000x1 ![0] bcast_S100000_S100000x1_0),
    StableHlo.TRef.unary main_call3.v2 main_call3.v3 Host.sqrt,
    StableHlo.nullary main_cst_8 (constant S_ .f32 0x2B8CBCCC#32),
    StableHlo.unary main_cst_8 main_v44 (broadcastInDim S100000x1 ![] bcast_S_S100000x1 : (⟨S_, .f32⟩ : BufTy).Contents (Elt F) → (⟨S100000x1, .f32⟩ : BufTy).Contents (Elt F)),
    StableHlo.binary main_v43 main_v44 main_v45 (maximumf : (⟨S100000x1, .f32⟩ : BufTy).Contents (Elt F) → (⟨S100000x1, .f32⟩ : BufTy).Contents (Elt F) → (⟨S100000x1, .f32⟩ : BufTy).Contents (Elt F)),
    StableHlo.unary main_v45 main_v46 (broadcastInDim S100000x128 ![0, 1] bcast_S100000x1_S100000x128_0_1 : (⟨S100000x1, .f32⟩ : BufTy).Contents (Elt F) → (⟨S100000x128, .f32⟩ : BufTy).Contents (Elt F)),
    StableHlo.binary main_v42 main_v46 main_v47 (Host.divf : (⟨S100000x128, .f32⟩ : BufTy).Contents (Elt F) → (⟨S100000x128, .f32⟩ : BufTy).Contents (Elt F) → (⟨S100000x128, .f32⟩ : BufTy).Contents (Elt F)) ]

/-- The buffers the operations of `K04` write, in order. -/
abbrev K04_W : List (Ref sig .tc) :=
  [main_v37, main_v38, main_v39, main_v40, main_v41, main_v42, main_call3_v0, main_call3_cst, main_call3_v1, main_call3_v2, main_v43, main_cst_8, main_v44, main_v45, main_v46, main_v47]

theorem K04_sub : (K04 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K04_fresh : (K04 : List (HloOp τ sig (Elt F))).Forall fun op => op.fresh = ∅ :=
  ⟨rfl, rfl, rfl, rfl, rfl, rfl, rfl, rfl, rfl, rfl, rfl, rfl, rfl, rfl, rfl, rfl⟩

theorem K04_writes : (K04 : List (HloOp τ sig (Elt F))).Forall fun op => op.writes ⊆ ((K04_W).map (Proc.devRef (τ := τ) .tc)).toFinset :=
  ⟨writes_sub_of_mem (y := main_v37) rfl (by decide),
   writes_sub_of_mem (y := main_v38) rfl (by decide),
   writes_sub_of_mem (y := main_v39) rfl (by decide),
   writes_sub_of_mem (y := main_v40) rfl (by decide),
   writes_sub_of_mem (y := main_v41) rfl (by decide),
   writes_sub_of_mem (y := main_v42) rfl (by decide),
   writes_sub_of_mem (y := main_call3_v0) rfl (by decide),
   writes_sub_of_mem (y := main_call3_cst) rfl (by decide),
   writes_sub_of_mem (y := main_call3_v1) rfl (by decide),
   writes_sub_of_mem (y := main_call3_v2) rfl (by decide),
   writes_sub_of_mem (y := main_v43) rfl (by decide),
   writes_sub_of_mem (y := main_cst_8) rfl (by decide),
   writes_sub_of_mem (y := main_v44) rfl (by decide),
   writes_sub_of_mem (y := main_v45) rfl (by decide),
   writes_sub_of_mem (y := main_v46) rfl (by decide),
   writes_sub_of_mem (y := main_v47) rfl (by decide)⟩

/-- A buffer the operations of `K04` do not write keeps its contents. -/
theorem K04_frame (V : Valuation τ sig (Elt F)) (r : Ref sig .tc) (hr : r ∉ K04_W) :
    after K04 V (Proc.devRef .tc r) = V (Proc.devRef .tc r) :=
  after_of_writes_sub K04 V K04_writes hr

theorem K04_ofBuf_main_v42 (h1 h2 h3) (v : (main_v42 : Ref sig .tc).ty.Contents (Elt F)) :
    (TRef.of (T := ⟨S100000x128, .f32⟩) main_v42 h1 h2 h3).ofBuf v = v := rfl
theorem K04_toBuf_main_v43 (h1 h2 h3) (w : (⟨S100000x1, .f32⟩ : BufTy).Contents (Elt F)) :
    (TRef.of (T := ⟨S100000x1, .f32⟩) main_v43 h1 h2 h3).toBuf w = w := rfl

attribute [local irreducible] Host.gather Host.reduce broadcastInDim cmpi select addi andi constantI constant maximumf Host.divf addf mulf Host.sqrt in
set_option maxRecDepth 65536 in
/-- The result of `K04` is the stage applied to the contents of the buffers it reads. -/
theorem K04_res (V : Valuation τ sig (Elt F)) :
    after K04 V (main_v47 : DevRef τ sig)
      = Cert.Sage.sageP (V (main_v36 : DevRef τ sig)) (V (main_arg0 : DevRef τ sig)) (V (main_arg11 : DevRef τ sig)) (V (main_arg12 : DevRef τ sig)) (V (main_arg13 : DevRef τ sig)) := by
  after_results_simp
  simp only [tref_ofBuf_toBuf, K04_ofBuf_main_v42, K04_toBuf_main_v43]
  rfl

/-- Layer 0, half the sum of the two paper updates. -/
abbrev K05 : List (HloOp τ sig (Elt F)) :=
  [ StableHlo.binary main_v23 main_v47 main_v48 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3F000000#32),
    StableHlo.unary main_cst_9 main_v49 (broadcastInDim S100000x128 ![] bcast_S_S100000x128 : (⟨S_, .f32⟩ : BufTy).Contents (Elt F) → (⟨S100000x128, .f32⟩ : BufTy).Contents (Elt F)),
    StableHlo.binary main_v49 main_v48 main_v50 (mulf : (⟨S100000x128, .f32⟩ : BufTy).Contents (Elt F) → (⟨S100000x128, .f32⟩ : BufTy).Contents (Elt F) → (⟨S100000x128, .f32⟩ : BufTy).Contents (Elt F)) ]

/-- The buffers the operations of `K05` write, in order. -/
abbrev K05_W : List (Ref sig .tc) :=
  [main_v48, main_cst_9, main_v49, main_v50]

theorem K05_sub : (K05 : List (HloOp τ sig (Elt F))).Forall fun op => op.bufs ⊆ tcRefs τ sig :=
  ⟨binary_bufs_sub .., nullary_bufs_sub .., unary_bufs_sub .., binary_bufs_sub ..⟩

theorem K05_fresh : (K05 : List (HloOp τ sig (Elt F))).Forall fun op => op.fresh = ∅ :=
  ⟨rfl, rfl, rfl, rfl⟩

theorem K05_writes : (K05 : List (HloOp τ sig (Elt F))).Forall fun op => op.writes ⊆ ((K05_W).map (Proc.devRef (τ := τ) .tc)).toFinset :=
  ⟨writes_sub_of_mem (y := main_v48) rfl (by decide),
   writes_sub_of_mem (y := main_cst_9) rfl (by decide),
   writes_sub_of_mem (y := main_v49) rfl (by decide),
   writes_sub_of_mem (y := main_v50) rfl (by decide)⟩

/-- A buffer the operations of `K05` do not write keeps its contents. -/
theorem K05_frame (V : Valuation τ sig (Elt F)) (r : Ref sig .tc) (hr : r ∉ K05_W) :
    after K05 V (Proc.devRef .tc r) = V (Proc.devRef .tc r) :=
  after_of_writes_sub K05 V K05_writes hr

attribute [local irreducible] Host.gather Host.reduce broadcastInDim cmpi select addi andi constantI constant maximumf Host.divf addf mulf Host.sqrt in
set_option maxRecDepth 65536 in
/-- The result of `K05` is the stage applied to the contents of the buffers it reads. -/
theorem K05_res (V : Valuation τ sig (Elt F)) :
    after K05 V (main_v50 : DevRef τ sig)
      = Cert.Sage.halfSum (V (main_v23 : DevRef τ sig)) (V (main_v47 : DevRef τ sig)) := by
  after_results_simp
  rfl

end Cert.ReferenceIdeal.RefRun

end
-- ==== Proof.RefL0c.lean ====
/-
  The reference program's host operations K06 … K09 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0, the mean over the reversed writes edges. -/
abbrev K06 : List (HloOp τ sig (Elt F)) :=
  [ StableHlo.TRef.nullary main_call4.c (constantI S_ 32 0#32),
    StableHlo.TRef.unary main_call4.c main_call4.v0 (broadcastInDim S320000 ![] bcast_S_S320000),
    StableHlo.TRef.binary (.of main_arg6 : TRef sig ⟨S320000, .i32⟩) main_call4.v0 main_call4.v1 (cmpi .slt),
    StableHlo.TRef.nullary main_call4.c_0 (constantI S_ 32 100000#32),
    StableHlo.TRef.unary main_call4.c_0 main_call4.v2 (broadcastInDim S320000 ![] bcast_S_S320000),
    StableHlo.TRef.binary (.of main_arg6 : TRef sig ⟨S320000, .i32⟩) main_call4.v2 main_call4.v3 addi,
    StableHlo.TRef.ternary main_call4.v1 main_call4.v3 (.of main_arg6 : TRef sig ⟨S320000, .i32⟩) main_call4.call0.v0 select,
    StableHlo.TRef.unary main_call4.call0.v0 main_call4.v5 (broadcastInDim S320000x1 ![0] bcast_S320000_S320000x1_0),
    StableHlo.TRef.nullary main_call4.c_1 (constantI S1 32 99999#32),
    StableHlo.TRef.nullary main_call4.c_2 (constantI S_ 32 0#32),
    StableHlo.TRef.unary main_call4.c_2 main_call4.v6 (broadcastInDim S320000x1 ![] bcast_S_S320000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S320000x1 ![0, 1] bcast_S1x1_S320000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S320000x1_S320000_d1 h_S_),
    StableHlo.TRef.binary (.of main_arg0 : TRef sig ⟨S100000x128, .f32⟩) main_call4.v5 main_call4.v13 (fun x i => Host.gather gather_S100000x128_S320000x1_S320000x128_1_0_n_n_0_1_1128 x i),
    StableHlo.TRef.unary main_call4.v12 main_call4.v14 (broadcastInDim S320000x128 ![0] bcast_S320000_S320000x128_0),
    StableHlo.TRef.nullary main_call4.cst (constant S_ .f32 0x7FC00000#32),
    StableHlo.TRef.unary main_call4.cst main_call4.v15 (broadcastInDim S320000x128 ![] bcast_S_S320000x128),
    StableHlo.TRef.ternary main_call4.v14 main_call4.v13 main_call4.v15 main_call4.v16 select,
    StableHlo.nullary main_cst_10 (constant S_ .f32 0x00000000#32),
    StableHlo.unary main_cst_10 main_v52 (broadcastInDim S50000x128 ![] bcast_S_S50000x128 : (⟨S_, .f32⟩ : BufTy).Contents (Elt F) → (⟨S50000x128, .f32⟩ : BufTy).Contents (Elt F)),
    StableHlo.unary main_arg7 main_v53 (broadcastInDim S320000x1 ![0] bcast_S320000_S320000x1_0 : (⟨S320000, .i32⟩ : BufTy).Contents (Elt F) → (⟨S320000x1, .i32⟩ : BufTy).Contents (Elt F)),
    StableHlo.ternary main_v52 main_v53 main_v51 main_v54 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_11 (constant S_ .f32 0x3F800000#32),
    StableHlo.unary main_cst_11 main_v55 (broadcastInDim S320000 ![] bcast_S_S320000 : (⟨S_, .f32⟩ : BufTy).Contents (Elt F) → (⟨S320000, .f32⟩ : BufTy).Contents (Elt F)),
    StableHlo.nullary main_cst_12 (constant S_ .f32 0x00000000#32),
    StableHlo.unary main_cst_12 main_v56 (broadcastInDim S50000 ![] bcast_S_S50000 : (⟨S_, .f32⟩ : BufTy).Contents (Elt F) → (⟨S50000, .f32⟩ : BufTy).Contents (Elt F)),
    StableHlo.unary main_arg7 main_v57 (broadcastInDim S320000x1 ![0] bcast_S320000_S320000x1_0 : (⟨S320000, .i32⟩ : BufTy).Contents (Elt F) → (⟨S320000x1, .i32⟩ : BufTy).Contents (Elt F)),
    StableHlo.ternary main_v56 main_v57 main_v55 main_v58 ((fun x i u => Host.scatterAdd scatter_S50000_S320000x1_S320000_n_0_0_1 x i u) : (⟨S50000, .f32⟩ : BufTy).Contents (Elt F) → (⟨S320000x1, .i32⟩ : BufTy).Contents (Elt F) → (⟨S320000, .f32⟩ : BufTy).Contents (Elt F) → (⟨S50000, .f32⟩ : BufTy).Contents (Elt F)),
    StableHlo.nullary main_cst_13 (constant S_ .f32 0x3F800000#32),
    StableHlo.unary main_cst_13 main_v59 (broadcastInDim S50000 ![] bcast_S_S50000 : (⟨S_, .f32⟩ : BufTy).Contents (Elt F) → (⟨S50000, .f32⟩ : BufTy).Contents (Elt F)),
    StableHlo.binary main_v58 main_v59 main_v60 (maximumf : (⟨S50000, .f32⟩ : BufTy).Contents (Elt F) → (⟨S50000, .f32⟩ : BufTy).Contents (Elt F) → (⟨S50000, .f32⟩ : BufTy).Contents (Elt F)),
    StableHlo.unary main_v60 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x128 ![0, 1] bcast_S50000x1_S50000x128_0_1 : (⟨S50000x1, .f32⟩ : BufTy).Contents (Elt F) → (⟨S50000x128, .f32⟩ : BufTy).Contents (Elt F)),
    StableHlo.binary main_v54 main_v62 main_v63 (Host.divf : (⟨S50000x128, .f32⟩ : BufTy).Contents (Elt F) → (⟨S50000x128, .f32⟩ : BufTy).Contents (Elt F) → (⟨S50000x128, .f32⟩ : BufTy).Contents (Elt F)) ]

/-- The buffers the operations of `K06` write, in order. -/
abbrev K06_W : List (Ref sig .tc) :=
  [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v51, main_cst_10, main_v52, main_v53, main_v54, main_cst_11, main_v55, main_cst_12, main_v56, main_v57, main_v58, main_cst_13, main_v59, main_v60, main_v61, main_v62, main_v63]

theorem K06_sub : (K06 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K06_fresh : (K06 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K06_writes : (K06 : List (HloOp τ sig (Elt F))).Forall fun op => op.writes ⊆ ((K06_W).map (Proc.devRef (τ := τ) .tc)).toFinset :=
  ⟨writes_sub_of_mem (y := main_call4_c) rfl (by decide),
   writes_sub_of_mem (y := main_call4_v0) rfl (by decide),
   writes_sub_of_mem (y := main_call4_v1) rfl (by decide),
   writes_sub_of_mem (y := main_call4_c_0) rfl (by decide),
   writes_sub_of_mem (y := main_call4_v2) rfl (by decide),
   writes_sub_of_mem (y := main_call4_v3) rfl (by decide),
   writes_sub_of_mem (y := main_call4_v4) rfl (by decide),
   writes_sub_of_mem (y := main_call4_v5) rfl (by decide),
   writes_sub_of_mem (y := main_call4_c_1) rfl (by decide),
   writes_sub_of_mem (y := main_call4_c_2) rfl (by decide),
   writes_sub_of_mem (y := main_call4_v6) rfl (by decide),
   writes_sub_of_mem (y := main_call4_v7) rfl (by decide),
   writes_sub_of_mem (y := main_call4_v8) rfl (by decide),
   writes_sub_of_mem (y := main_call4_v9) rfl (by decide),
   writes_sub_of_mem (y := main_call4_v10) rfl (by decide),
   writes_sub_of_mem (y := main_call4_v11) rfl (by decide),
   writes_sub_of_mem (y := main_call4_c_3) rfl (by decide),
   writes_sub_of_mem (y := main_call4_v12) rfl (by decide),
   writes_sub_of_mem (y := main_call4_v13) rfl (by decide),
   writes_sub_of_mem (y := main_call4_v14) rfl (by decide),
   writes_sub_of_mem (y := main_call4_cst) rfl (by decide),
   writes_sub_of_mem (y := main_call4_v15) rfl (by decide),
   writes_sub_of_mem (y := main_v51) rfl (by decide),
   writes_sub_of_mem (y := main_cst_10) rfl (by decide),
   writes_sub_of_mem (y := main_v52) rfl (by decide),
   writes_sub_of_mem (y := main_v53) rfl (by decide),
   writes_sub_of_mem (y := main_v54) rfl (by decide),
   writes_sub_of_mem (y := main_cst_11) rfl (by decide),
   writes_sub_of_mem (y := main_v55) rfl (by decide),
   writes_sub_of_mem (y := main_cst_12) rfl (by decide),
   writes_sub_of_mem (y := main_v56) rfl (by decide),
   writes_sub_of_mem (y := main_v57) rfl (by decide),
   writes_sub_of_mem (y := main_v58) rfl (by decide),
   writes_sub_of_mem (y := main_cst_13) rfl (by decide),
   writes_sub_of_mem (y := main_v59) rfl (by decide),
   writes_sub_of_mem (y := main_v60) rfl (by decide),
   writes_sub_of_mem (y := main_v61) rfl (by decide),
   writes_sub_of_mem (y := main_v62) rfl (by decide),
   writes_sub_of_mem (y := main_v63) rfl (by decide)⟩

/-- A buffer the operations of `K06` do not write keeps its contents. -/
theorem K06_frame (V : Valuation τ sig (Elt F)) (r : Ref sig .tc) (hr : r ∉ K06_W) :
    after K06 V (Proc.devRef .tc r) = V (Proc.devRef .tc r) :=
  after_of_writes_sub K06 V K06_writes hr

theorem K06_ofBuf_main_arg6 (h1 h2 h3) (v : (main_arg6 : Ref sig .tc).ty.Contents (Elt F)) :
    (TRef.of (T := ⟨S320000, .i32⟩) main_arg6 h1 h2 h3).ofBuf v = v := rfl
theorem K06_ofBuf_main_arg0 (h1 h2 h3) (v : (main_arg0 : Ref sig .tc).ty.Contents (Elt F)) :
    (TRef.of (T := ⟨S100000x128, .f32⟩) main_arg0 h1 h2 h3).ofBuf v = v := rfl
theorem K06_toBuf_main_v51 (h1 h2 h3) (w : (⟨S320000x128, .f32⟩ : BufTy).Contents (Elt F)) :
    (TRef.of (T := ⟨S320000x128, .f32⟩) main_v51 h1 h2 h3).toBuf w = w := rfl

attribute [local irreducible] Host.gather Host.reduce broadcastInDim cmpi select addi andi constantI constant maximumf Host.divf addf mulf Host.sqrt in
set_option maxRecDepth 65536 in
/-- The result of `K06` is the stage applied to the contents of the buffers it reads. -/
theorem K06_res (V : Valuation τ sig (Elt F)) :
    after K06 V (main_v63 : DevRef τ sig)
      = Cert.Sage.meanR (V (main_arg0 : DevRef τ sig)) (V (main_arg6 : DevRef τ sig)) (V (main_arg7 : DevRef τ sig)) := by
  after_results_simp
  simp only [tref_ofBuf_toBuf, K06_ofBuf_main_arg6, K06_ofBuf_main_arg0, K06_toBuf_main_v51]
  rfl

/-- Layer 0, the update of the authors. -/
abbrev K07 : List (HloOp τ sig (Elt F)) :=
  [ StableHlo.binary main_v63 main_arg14 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg15 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.binary main_arg1 main_arg16 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v67 main_v68 main_v69 (addf : (⟨S50000x128, .f32⟩ : BufTy).Contents (Elt F) → (⟨S50000x128, .f32⟩ : BufTy).Contents (Elt F) → (⟨S50000x128, .f32⟩ : BufTy).Contents (Elt F)),
    StableHlo.TRef.binary (.of main_v69 : TRef sig ⟨S50000x128, .f32⟩) (.of main_v69 : TRef sig ⟨S50000x128, .f32⟩) main_call5.v0 mulf,
    StableHlo.TRef.nullary main_call5.cst (constant S_ .f32 0x00000000#32),
    StableHlo.TRef.binary main_call5.v0 main_call5.cst main_call5.v1 (fun x v => Host.reduceAdd x v reducesTo_S50000x128_S50000_d1 h_S_),
    StableHlo.TRef.unary main_call5.v1 main_call5.v2 (broadcastInDim S50000x1 ![0] bcast_S50000_S50000x1_0),
    StableHlo.TRef.unary main_call5.v2 main_call5.v3 Host.sqrt,
    StableHlo.nullary main_cst_14 (constant S_ .f32 0x2B8CBCCC#32),
    StableHlo.unary main_cst_14 main_v71 (broadcastInDim S50000x1 ![] bcast_S_S50000x1 : (⟨S_, .f32⟩ : BufTy).Contents (Elt F) → (⟨S50000x1, .f32⟩ : BufTy).Contents (Elt F)),
    StableHlo.binary main_v70 main_v71 main_v72 (maximumf : (⟨S50000x1, .f32⟩ : BufTy).Contents (Elt F) → (⟨S50000x1, .f32⟩ : BufTy).Contents (Elt F) → (⟨S50000x1, .f32⟩ : BufTy).Contents (Elt F)),
    StableHlo.unary main_v72 main_v73 (broadcastInDim S50000x128 ![0, 1] bcast_S50000x1_S50000x128_0_1 : (⟨S50000x1, .f32⟩ : BufTy).Contents (Elt F) → (⟨S50000x128, .f32⟩ : BufTy).Contents (Elt F)),
    StableHlo.binary main_v69 main_v73 main_v74 (Host.divf : (⟨S50000x128, .f32⟩ : BufTy).Contents (Elt F) → (⟨S50000x128, .f32⟩ : BufTy).Contents (Elt F) → (⟨S50000x128, .f32⟩ : BufTy).Contents (Elt F)) ]

/-- The buffers the operations of `K07` write, in order. -/
abbrev K07_W : List (Ref sig .tc) :=
  [main_v64, main_v65, main_v66, main_v67, main_v68, main_v69, main_call5_v0, main_call5_cst, main_call5_v1, main_call5_v2, main_v70, main_cst_14, main_v71, main_v72, main_v73, main_v74]

theorem K07_sub : (K07 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K07_fresh : (K07 : List (HloOp τ sig (Elt F))).Forall fun op => op.fresh = ∅ :=
  ⟨rfl, rfl, rfl, rfl, rfl, rfl, rfl, rfl, rfl, rfl, rfl, rfl, rfl, rfl, rfl, rfl⟩

theorem K07_writes : (K07 : List (HloOp τ sig (Elt F))).Forall fun op => op.writes ⊆ ((K07_W).map (Proc.devRef (τ := τ) .tc)).toFinset :=
  ⟨writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_v69) rfl (by decide),
   writes_sub_of_mem (y := main_call5_v0) rfl (by decide),
   writes_sub_of_mem (y := main_call5_cst) rfl (by decide),
   writes_sub_of_mem (y := main_call5_v1) rfl (by decide),
   writes_sub_of_mem (y := main_call5_v2) rfl (by decide),
   writes_sub_of_mem (y := main_v70) rfl (by decide),
   writes_sub_of_mem (y := main_cst_14) rfl (by decide),
   writes_sub_of_mem (y := main_v71) rfl (by decide),
   writes_sub_of_mem (y := main_v72) rfl (by decide),
   writes_sub_of_mem (y := main_v73) rfl (by decide),
   writes_sub_of_mem (y := main_v74) rfl (by decide)⟩

/-- A buffer the operations of `K07` do not write keeps its contents. -/
theorem K07_frame (V : Valuation τ sig (Elt F)) (r : Ref sig .tc) (hr : r ∉ K07_W) :
    after K07 V (Proc.devRef .tc r) = V (Proc.devRef .tc r) :=
  after_of_writes_sub K07 V K07_writes hr

theorem K07_ofBuf_main_v69 (h1 h2 h3) (v : (main_v69 : Ref sig .tc).ty.Contents (Elt F)) :
    (TRef.of (T := ⟨S50000x128, .f32⟩) main_v69 h1 h2 h3).ofBuf v = v := rfl
theorem K07_toBuf_main_v70 (h1 h2 h3) (w : (⟨S50000x1, .f32⟩ : BufTy).Contents (Elt F)) :
    (TRef.of (T := ⟨S50000x1, .f32⟩) main_v70 h1 h2 h3).toBuf w = w := rfl

attribute [local irreducible] Host.gather Host.reduce broadcastInDim cmpi select addi andi constantI constant maximumf Host.divf addf mulf Host.sqrt in
set_option maxRecDepth 65536 in
/-- The result of `K07` is the stage applied to the contents of the buffers it reads. -/
theorem K07_res (V : Valuation τ sig (Elt F)) :
    after K07 V (main_v74 : DevRef τ sig)
      = Cert.Sage.sageA (V (main_v63 : DevRef τ sig)) (V (main_arg1 : DevRef τ sig)) (V (main_arg14 : DevRef τ sig)) (V (main_arg15 : DevRef τ sig)) (V (main_arg16 : DevRef τ sig)) := by
  after_results_simp
  simp only [tref_ofBuf_toBuf, K07_ofBuf_main_v69, K07_toBuf_main_v70]
  rfl

/-- Layer 0, the rectifier on the papers. -/
abbrev K08 : List (HloOp τ sig (Elt F)) :=
  [ StableHlo.TRef.nullary main_call6.cst (constant S_ .f32 0x00000000#32),
    StableHlo.TRef.unary main_call6.cst main_call6.v0 (broadcastInDim S100000x128 ![] bcast_S_S100000x128),
    StableHlo.TRef.binary (.of main_v50 : TRef sig ⟨S100000x128, .f32⟩) main_call6.v0 main_call6.v1 maximumf ]

/-- The buffers the operations of `K08` write, in order. -/
abbrev K08_W : List (Ref sig .tc) :=
  [main_call6_cst, main_call6_v0, main_v75]

theorem K08_sub : (K08 : List (HloOp τ sig (Elt F))).Forall fun op => op.bufs ⊆ tcRefs τ sig :=
  ⟨nullary_bufs_sub .., unary_bufs_sub .., binary_bufs_sub ..⟩

theorem K08_fresh : (K08 : List (HloOp τ sig (Elt F))).Forall fun op => op.fresh = ∅ :=
  ⟨rfl, rfl, rfl⟩

theorem K08_writes : (K08 : List (HloOp τ sig (Elt F))).Forall fun op => op.writes ⊆ ((K08_W).map (Proc.devRef (τ := τ) .tc)).toFinset :=
  ⟨writes_sub_of_mem (y := main_call6_cst) rfl (by decide),
   writes_sub_of_mem (y := main_call6_v0) rfl (by decide),
   writes_sub_of_mem (y := main_v75) rfl (by decide)⟩

/-- A buffer the operations of `K08` do not write keeps its contents. -/
theorem K08_frame (V : Valuation τ sig (Elt F)) (r : Ref sig .tc) (hr : r ∉ K08_W) :
    after K08 V (Proc.devRef .tc r) = V (Proc.devRef .tc r) :=
  after_of_writes_sub K08 V K08_writes hr

theorem K08_ofBuf_main_v50 (h1 h2 h3) (v : (main_v50 : Ref sig .tc).ty.Contents (Elt F)) :
    (TRef.of (T := ⟨S100000x128, .f32⟩) main_v50 h1 h2 h3).ofBuf v = v := rfl
theorem K08_toBuf_main_v75 (h1 h2 h3) (w : (⟨S100000x128, .f32⟩ : BufTy).Contents (Elt F)) :
    (TRef.of (T := ⟨S100000x128, .f32⟩) main_v75 h1 h2 h3).toBuf w = w := rfl

attribute [local irreducible] Host.gather Host.reduce broadcastInDim cmpi select addi andi constantI constant maximumf Host.divf addf mulf Host.sqrt in
set_option maxRecDepth 65536 in
/-- The result of `K08` is the stage applied to the contents of the buffers it reads. -/
theorem K08_res (V : Valuation τ sig (Elt F)) :
    after K08 V (main_v75 : DevRef τ sig)
      = Cert.Sage.reluP (V (main_v50 : DevRef τ sig)) := by
  after_results_simp
  simp only [tref_ofBuf_toBuf, K08_ofBuf_main_v50, K08_toBuf_main_v75]
  rfl

/-- Layer 0, the rectifier on the authors. -/
abbrev K09 : List (HloOp τ sig (Elt F)) :=
  [ StableHlo.TRef.nullary main_call7.cst (constant S_ .f32 0x00000000#32),
    StableHlo.TRef.unary main_call7.cst main_call7.v0 (broadcastInDim S50000x128 ![] bcast_S_S50000x128),
    StableHlo.TRef.binary (.of main_v74 : TRef sig ⟨S50000x128, .f32⟩) main_call7.v0 main_call7.v1 maximumf ]

/-- The buffers the operations of `K09` write, in order. -/
abbrev K09_W : List (Ref sig .tc) :=
  [main_call7_cst, main_call7_v0, main_v76]

theorem K09_sub : (K09 : List (HloOp τ sig (Elt F))).Forall fun op => op.bufs ⊆ tcRefs τ sig :=
  ⟨nullary_bufs_sub .., unary_bufs_sub .., binary_bufs_sub ..⟩

theorem K09_fresh : (K09 : List (HloOp τ sig (Elt F))).Forall fun op => op.fresh = ∅ :=
  ⟨rfl, rfl, rfl⟩

theorem K09_writes : (K09 : List (HloOp τ sig (Elt F))).Forall fun op => op.writes ⊆ ((K09_W).map (Proc.devRef (τ := τ) .tc)).toFinset :=
  ⟨writes_sub_of_mem (y := main_call7_cst) rfl (by decide),
   writes_sub_of_mem (y := main_call7_v0) rfl (by decide),
   writes_sub_of_mem (y := main_v76) rfl (by decide)⟩

/-- A buffer the operations of `K09` do not write keeps its contents. -/
theorem K09_frame (V : Valuation τ sig (Elt F)) (r : Ref sig .tc) (hr : r ∉ K09_W) :
    after K09 V (Proc.devRef .tc r) = V (Proc.devRef .tc r) :=
  after_of_writes_sub K09 V K09_writes hr

theorem K09_ofBuf_main_v74 (h1 h2 h3) (v : (main_v74 : Ref sig .tc).ty.Contents (Elt F)) :
    (TRef.of (T := ⟨S50000x128, .f32⟩) main_v74 h1 h2 h3).ofBuf v = v := rfl
theorem K09_toBuf_main_v76 (h1 h2 h3) (w : (⟨S50000x128, .f32⟩ : BufTy).Contents (Elt F)) :
    (TRef.of (T := ⟨S50000x128, .f32⟩) main_v76 h1 h2 h3).toBuf w = w := rfl

attribute [local irreducible] Host.gather Host.reduce broadcastInDim cmpi select addi andi constantI constant maximumf Host.divf addf mulf Host.sqrt in
set_option maxRecDepth 65536 in
/-- The result of `K09` is the stage applied to the contents of the buffers it reads. -/
theorem K09_res (V : Valuation τ sig (Elt F)) :
    after K09 V (main_v76 : DevRef τ sig)
      = Cert.Sage.reluA (V (main_v74 : DevRef τ sig)) := by
  after_results_simp
  simp only [tref_ofBuf_toBuf, K09_ofBuf_main_v74, K09_toBuf_main_v76]
  rfl

end Cert.ReferenceIdeal.RefRun

end
-- ==== Proof.RefL1a.lean ====
/-
  The reference program's host operations K10 … K11 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, the mean over the cites edges: the row gather (23 operations), then the two scatter-adds, the clamp of the count and the division. -/
abbrev K10 : List (HloOp τ sig (Elt F)) :=
  [ StableHlo.TRef.nullary main_call8.c (constantI S_ 32 0#32),
    StableHlo.TRef.unary main_call8.c main_call8.v0 (broadcastInDim S1000000 ![] bcast_S_S1000000),
    StableHlo.TRef.binary (.of main_arg2 : TRef sig ⟨S1000000, .i32⟩) main_call8.v0 main_call8.v1 (cmpi .slt),
    StableHlo.TRef.nullary main_call8.c_0 (constantI S_ 32 100000#32),
    StableHlo.TRef.unary main_call8.c_0 main_call8.v2 (broadcastInDim S1000000 ![] bcast_S_S1000000),
    StableHlo.TRef.binary (.of main_arg2 : TRef sig ⟨S1000000, .i32⟩) main_call8.v2 main_call8.v3 addi,
    StableHlo.TRef.ternary main_call8.v1 main_call8.v3 (.of main_arg2 : TRef sig ⟨S1000000, .i32⟩) main_call8.call0.v0 select,
    StableHlo.TRef.unary main_call8.call0.v0 main_call8.v5 (broadcastInDim S1000000x1 ![0] bcast_S1000000_S1000000x1_0),
    StableHlo.TRef.nullary main_call8.c_1 (constantI S1 32 99999#32),
    StableHlo.TRef.nullary main_call8.c_2 (constantI S_ 32 0#32),
    StableHlo.TRef.unary main_call8.c_2 main_call8.v6 (broadcastInDim S1000000x1 ![] bcast_S_S1000000x1),
    StableHlo.TRef.binary main_call8.v5 main_call8.v6 main_call8.v7 (cmpi .sge),
    StableHlo.TRef.unary main_call8.c_1 main_call8.v8 (broadcastInDim S1x1 ![1] bcast_S1_S1x1_1),
    StableHlo.TRef.unary main_call8.v8 main_call8.v9 (broadcastInDim S1000000x1 ![0, 1] bcast_S1x1_S1000000x1_0_1),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1000000x1_S1000000_d1 h_S_),
    StableHlo.TRef.binary (.of main_v75 : TRef sig ⟨S100000x128, .f32⟩) main_call8.v5 main_call8.v13 (fun x i => Host.gather gather_S100000x128_S1000000x1_S1000000x128_1_0_n_n_0_1_1128 x i),
    StableHlo.TRef.unary main_call8.v12 main_call8.v14 (broadcastInDim S1000000x128 ![0] bcast_S1000000_S1000000x128_0),
    StableHlo.TRef.nullary main_call8.cst (constant S_ .f32 0x7FC00000#32),
    StableHlo.TRef.unary main_call8.cst main_call8.v15 (broadcastInDim S1000000x128 ![] bcast_S_S1000000x128),
    StableHlo.TRef.ternary main_call8.v14 main_call8.v13 main_call8.v15 main_call8.v16 select,
    StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_arg3 main_v79 (broadcastInDim S1000000x1 ![0] bcast_S1000000_S1000000x1_0 : (⟨S1000000, .i32⟩ : BufTy).Contents (Elt F) → (⟨S1000000x1, .i32⟩ : BufTy).Contents (Elt F)),
    StableHlo.ternary main_v78 main_v79 main_v77 main_v80 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.nullary main_cst_16 (constant S_ .f32 0x3F800000#32),
    StableHlo.unary main_cst_16 main_v81 (broadcastInDim S1000000 ![] bcast_S_S1000000 : (⟨S_, .f32⟩ : BufTy).Contents (Elt F) → (⟨S1000000, .f32⟩ : BufTy).Contents (Elt F)),
    StableHlo.nullary main_cst_17 (constant S_ .f32 0x00000000#32),
    StableHlo.unary main_cst_17 main_v82 (broadcastInDim S100000 ![] bcast_S_S100000 : (⟨S_, .f32⟩ : BufTy).Contents (Elt F) → (⟨S100000, .f32⟩ : BufTy).Contents (Elt F)),
    StableHlo.unary main_arg3 main_v83 (broadcastInDim S1000000x1 ![0] bcast_S1000000_S1000000x1_0 : (⟨S1000000, .i32⟩ : BufTy).Contents (Elt F) → (⟨S1000000x1, .i32⟩ : BufTy).Contents (Elt F)),
    StableHlo.ternary main_v82 main_v83 main_v81 main_v84 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_18 (constant S_ .f32 0x3F800000#32),
    StableHlo.unary main_cst_18 main_v85 (broadcastInDim S100000 ![] bcast_S_S100000 : (⟨S_, .f32⟩ : BufTy).Contents (Elt F) → (⟨S100000, .f32⟩ : BufTy).Contents (Elt F)),
    StableHlo.binary main_v84 main_v85 main_v86 (maximumf : (⟨S100000, .f32⟩ : BufTy).Contents (Elt F) → (⟨S100000, .f32⟩ : BufTy).Contents (Elt F) → (⟨S100000, .f32⟩ : BufTy).Contents (Elt F)),
    StableHlo.unary main_v86 main_v87 (broadcastInDim S100000x1 ![0] bcast_S100000_S100000x1_0 : (⟨S100000, .f32⟩ : BufTy).Contents (Elt F) → (⟨S100000x1, .f32⟩ : BufTy).Contents (Elt F)),
    StableHlo.unary main_v87 main_v88 (broadcastInDim S100000x128 ![0, 1] bcast_S100000x1_S100000x128_0_1 : (⟨S100000x1, .f32⟩ : BufTy).Contents (Elt F) → (⟨S100000x128, .f32⟩ : BufTy).Contents (Elt F)),
    StableHlo.binary main_v80 main_v88 main_v89 (Host.divf : (⟨S100000x128, .f32⟩ : BufTy).Contents (Elt F) → (⟨S100000x128, .f32⟩ : BufTy).Contents (Elt F) → (⟨S100000x128, .f32⟩ : BufTy).Contents (Elt F)) ]

/-- The buffers the operations of `K10` write, in order. -/
abbrev K10_W : List (Ref sig .tc) :=
  [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v77, main_cst_15, main_v78, main_v79, main_v80, main_cst_16, main_v81, main_cst_17, main_v82, main_v83, main_v84, main_cst_18, main_v85, main_v86, main_v87, main_v88, main_v89]

theorem K10_sub : (K10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K10_fresh : (K10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K10_writes : (K10 : List (HloOp τ sig (Elt F))).Forall fun op => op.writes ⊆ ((K10_W).map (Proc.devRef (τ := τ) .tc)).toFinset :=
  ⟨writes_sub_of_mem (y := main_call8_c) rfl (by decide),
   writes_sub_of_mem (y := main_call8_v0) rfl (by decide),
   writes_sub_of_mem (y := main_call8_v1) rfl (by decide),
   writes_sub_of_mem (y := main_call8_c_0) rfl (by decide),
   writes_sub_of_mem (y := main_call8_v2) rfl (by decide),
   writes_sub_of_mem (y := main_call8_v3) rfl (by decide),
   writes_sub_of_mem (y := main_call8_v4) rfl (by decide),
   writes_sub_of_mem (y := main_call8_v5) rfl (by decide),
   writes_sub_of_mem (y := main_call8_c_1) rfl (by decide),
   writes_sub_of_mem (y := main_call8_c_2) rfl (by decide),
   writes_sub_of_mem (y := main_call8_v6) rfl (by decide),
   writes_sub_of_mem (y := main_call8_v7) rfl (by decide),
   writes_sub_of_mem (y := main_call8_v8) rfl (by decide),
   writes_sub_of_mem (y := main_call8_v9) rfl (by decide),
   writes_sub_of_mem (y := main_call8_v10) rfl (by decide),
   writes_sub_of_mem (y := main_call8_v11) rfl (by decide),
   writes_sub_of_mem (y := main_call8_c_3) rfl (by decide),
   writes_sub_of_mem (y := main_call8_v12) rfl (by decide),
   writes_sub_of_mem (y := main_call8_v13) rfl (by decide),
   writes_sub_of_mem (y := main_call8_v14) rfl (by decide),
   writes_sub_of_mem (y := main_call8_cst) rfl (by decide),
   writes_sub_of_mem (y := main_call8_v15) rfl (by decide),
   writes_sub_of_mem (y := main_v77) rfl (by decide),
   writes_sub_of_mem (y := main_cst_15) rfl (by decide),
   writes_sub_of_mem (y := main_v78) rfl (by decide),
   writes_sub_of_mem (y := main_v79) rfl (by decide),
   writes_sub_of_mem (y := main_v80) rfl (by decide),
   writes_sub_of_mem (y := main_cst_16) rfl (by decide),
   writes_sub_of_mem (y := main_v81) rfl (by decide),
   writes_sub_of_mem (y := main_cst_17) rfl (by decide),
   writes_sub_of_mem (y := main_v82) rfl (by decide),
   writes_sub_of_mem (y := main_v83) rfl (by decide),
   writes_sub_of_mem (y := main_v84) rfl (by decide),
   writes_sub_of_mem (y := main_cst_18) rfl (by decide),
   writes_sub_of_mem (y := main_v85) rfl (by decide),
   writes_sub_of_mem (y := main_v86) rfl (by decide),
   writes_sub_of_mem (y := main_v87) rfl (by decide),
   writes_sub_of_mem (y := main_v88) rfl (by decide),
   writes_sub_of_mem (y := main_v89) rfl (by decide)⟩

/-- A buffer the operations of `K10` do not write keeps its contents. -/
theorem K10_frame (V : Valuation τ sig (Elt F)) (r : Ref sig .tc) (hr : r ∉ K10_W) :
    after K10 V (Proc.devRef .tc r) = V (Proc.devRef .tc r) :=
  after_of_writes_sub K10 V K10_writes hr

theorem K10_ofBuf_main_arg2 (h1 h2 h3) (v : (main_arg2 : Ref sig .tc).ty.Contents (Elt F)) :
    (TRef.of (T := ⟨S1000000, .i32⟩) main_arg2 h1 h2 h3).ofBuf v = v := rfl
theorem K10_ofBuf_main_v75 (h1 h2 h3) (v : (main_v75 : Ref sig .tc).ty.Contents (Elt F)) :
    (TRef.of (T := ⟨S100000x128, .f32⟩) main_v75 h1 h2 h3).ofBuf v = v := rfl
theorem K10_toBuf_main_v77 (h1 h2 h3) (w : (⟨S1000000x128, .f32⟩ : BufTy).Contents (Elt F)) :
    (TRef.of (T := ⟨S1000000x128, .f32⟩) main_v77 h1 h2 h3).toBuf w = w := rfl

attribute [local irreducible] Host.gather Host.reduce broadcastInDim cmpi select addi andi constantI constant maximumf Host.divf addf mulf Host.sqrt in
set_option maxRecDepth 65536 in
/-- The result of `K10` is the stage applied to the contents of the buffers it reads. -/
theorem K10_res (V : Valuation τ sig (Elt F)) :
    after K10 V (main_v89 : DevRef τ sig)
      = Cert.Sage.meanC (V (main_v75 : DevRef τ sig)) (V (main_arg2 : DevRef τ sig)) (V (main_arg3 : DevRef τ sig)) := by
  after_results_simp
  simp only [tref_ofBuf_toBuf, K10_ofBuf_main_arg2, K10_ofBuf_main_v75, K10_toBuf_main_v77]
  rfl

/-- Layer 1, the update of the papers over the cites edges: the two products, the bias, the row norm, the clamp and the division. -/
abbrev K11 : List (HloOp τ sig (Elt F)) :=
  [ StableHlo.binary main_v89 main_arg17 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)),
    StableHlo.binary main_v75 main_arg19 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v93 main_v94 main_v95 (addf : (⟨S100000x128, .f32⟩ : BufTy).Contents (Elt F) → (⟨S100000x128, .f32⟩ : BufTy).Contents (Elt F) → (⟨S100000x128, .f32⟩ : BufTy).Contents (Elt F)),
    StableHlo.TRef.binary (.of main_v95 : TRef sig ⟨S100000x128, .f32⟩) (.of main_v95 : TRef sig ⟨S100000x128, .f32⟩) main_call9.v0 mulf,
    StableHlo.TRef.nullary main_call9.cst (constant S_ .f32 0x00000000#32),
    StableHlo.TRef.binary main_call9.v0 main_call9.cst main_call9.v1 (fun x v => Host.reduceAdd x v reducesTo_S100000x128_S100000_d1 h_S_),
    StableHlo.TRef.unary main_call9.v1 main_call9.v2 (broadcastInDim S100000x1 ![0] bcast_S100000_S100000x1_0),
    StableHlo.TRef.unary main_call9.v2 main_call9.v3 Host.sqrt,
    StableHlo.nullary main_cst_19 (constant S_ .f32 0x2B8CBCCC#32),
    StableHlo.unary main_cst_19 main_v97 (broadcastInDim S100000x1 ![] bcast_S_S100000x1 : (⟨S_, .f32⟩ : BufTy).Contents (Elt F) → (⟨S100000x1, .f32⟩ : BufTy).Contents (Elt F)),
    StableHlo.binary main_v96 main_v97 main_v98 (maximumf : (⟨S100000x1, .f32⟩ : BufTy).Contents (Elt F) → (⟨S100000x1, .f32⟩ : BufTy).Contents (Elt F) → (⟨S100000x1, .f32⟩ : BufTy).Contents (Elt F)),
    StableHlo.unary main_v98 main_v99 (broadcastInDim S100000x128 ![0, 1] bcast_S100000x1_S100000x128_0_1 : (⟨S100000x1, .f32⟩ : BufTy).Contents (Elt F) → (⟨S100000x128, .f32⟩ : BufTy).Contents (Elt F)),
    StableHlo.binary main_v95 main_v99 main_v100 (Host.divf : (⟨S100000x128, .f32⟩ : BufTy).Contents (Elt F) → (⟨S100000x128, .f32⟩ : BufTy).Contents (Elt F) → (⟨S100000x128, .f32⟩ : BufTy).Contents (Elt F)) ]

/-- The buffers the operations of `K11` write, in order. -/
abbrev K11_W : List (Ref sig .tc) :=
  [main_v90, main_v91, main_v92, main_v93, main_v94, main_v95, main_call9_v0, main_call9_cst, main_call9_v1, main_call9_v2, main_v96, main_cst_19, main_v97, main_v98, main_v99, main_v100]

theorem K11_sub : (K11 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K11_fresh : (K11 : List (HloOp τ sig (Elt F))).Forall fun op => op.fresh = ∅ :=
  ⟨rfl, rfl, rfl, rfl, rfl, rfl, rfl, rfl, rfl, rfl, rfl, rfl, rfl, rfl, rfl, rfl⟩

theorem K11_writes : (K11 : List (HloOp τ sig (Elt F))).Forall fun op => op.writes ⊆ ((K11_W).map (Proc.devRef (τ := τ) .tc)).toFinset :=
  ⟨writes_sub_of_mem (y := main_v90) rfl (by decide),
   writes_sub_of_mem (y := main_v91) rfl (by decide),
   writes_sub_of_mem (y := main_v92) rfl (by decide),
   writes_sub_of_mem (y := main_v93) rfl (by decide),
   writes_sub_of_mem (y := main_v94) rfl (by decide),
   writes_sub_of_mem (y := main_v95) rfl (by decide),
   writes_sub_of_mem (y := main_call9_v0) rfl (by decide),
   writes_sub_of_mem (y := main_call9_cst) rfl (by decide),
   writes_sub_of_mem (y := main_call9_v1) rfl (by decide),
   writes_sub_of_mem (y := main_call9_v2) rfl (by decide),
   writes_sub_of_mem (y := main_v96) rfl (by decide),
   writes_sub_of_mem (y := main_cst_19) rfl (by decide),
   writes_sub_of_mem (y := main_v97) rfl (by decide),
   writes_sub_of_mem (y := main_v98) rfl (by decide),
   writes_sub_of_mem (y := main_v99) rfl (by decide),
   writes_sub_of_mem (y := main_v100) rfl (by decide)⟩

/-- A buffer the operations of `K11` do not write keeps its contents. -/
theorem K11_frame (V : Valuation τ sig (Elt F)) (r : Ref sig .tc) (hr : r ∉ K11_W) :
    after K11 V (Proc.devRef .tc r) = V (Proc.devRef .tc r) :=
  after_of_writes_sub K11 V K11_writes hr

theorem K11_ofBuf_main_v95 (h1 h2 h3) (v : (main_v95 : Ref sig .tc).ty.Contents (Elt F)) :
    (TRef.of (T := ⟨S100000x128, .f32⟩) main_v95 h1 h2 h3).ofBuf v = v := rfl
theorem K11_toBuf_main_v96 (h1 h2 h3) (w : (⟨S100000x1, .f32⟩ : BufTy).Contents (Elt F)) :
    (TRef.of (T := ⟨S100000x1, .f32⟩) main_v96 h1 h2 h3).toBuf w = w := rfl

attribute [local irreducible] Host.gather Host.reduce broadcastInDim cmpi select addi andi constantI constant maximumf Host.divf addf mulf Host.sqrt in
set_option maxRecDepth 65536 in
/-- The result of `K11` is the stage applied to the contents of the buffers it reads. -/
theorem K11_res (V : Valuation τ sig (Elt F)) :
    after K11 V (main_v100 : DevRef τ sig)
      = Cert.Sage.sageP (V (main_v89 : DevRef τ sig)) (V (main_v75 : DevRef τ sig)) (V (main_arg17 : DevRef τ sig)) (V (main_arg18 : DevRef τ sig)) (V (main_arg19 : DevRef τ sig)) := by
  after_results_simp
  simp only [tref_ofBuf_toBuf, K11_ofBuf_main_v95, K11_toBuf_main_v96]
  rfl

end Cert.ReferenceIdeal.RefRun

end
-- ==== Proof.RefL1b.lean ====
/-
  The reference program's host operations K12 … K14 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, the mean over the writes edges. -/
abbrev K12 : List (HloOp τ sig (Elt F)) :=
  [ StableHlo.TRef.nullary main_call10.c (constantI S_ 32 0#32),
    StableHlo.TRef.unary main_call10.c main_call10.v0 (broadcastInDim S320000 ![] bcast_S_S320000),
    StableHlo.TRef.binary (.of main_arg4 : TRef sig ⟨S320000, .i32⟩) main_call10.v0 main_call10.v1 (cmpi .slt),
    StableHlo.TRef.nullary main_call10.c_0 (constantI S_ 32 50000#32),
    StableHlo.TRef.unary main_call10.c_0 main_call10.v2 (broadcastInDim S320000 ![] bcast_S_S320000),
    StableHlo.TRef.binary (.of main_arg4 : TRef sig ⟨S320000, .i32⟩) main_call10.v2 main_call10.v3 addi,
    StableHlo.TRef.ternary main_call10.v1 main_call10.v3 (.of main_arg4 : TRef sig ⟨S320000, .i32⟩) main_call10.call0.v0 select,
    StableHlo.TRef.unary main_call10.call0.v0 main_call10.v5 (broadcastInDim S320000x1 ![0] bcast_S320000_S320000x1_0),
    StableHlo.TRef.nullary main_call10.c_1 (constantI S1 32 49999#32),
    StableHlo.TRef.nullary main_call10.c_2 (constantI S_ 32 0#32),
    StableHlo.TRef.unary main_call10.c_2 main_call10.v6 (broadcastInDim S320000x1 ![] bcast_S_S320000x1),
    StableHlo.TRef.binary main_call10.v5 main_call10.v6 main_call10.v7 (cmpi .sge),
    StableHlo.TRef.unary main_call10.c_1 main_call10.v8 (broadcastInDim S1x1 ![1] bcast_S1_S1x1_1),
    StableHlo.TRef.unary main_call10.v8 main_call10.v9 (broadcastInDim S320000x1 ![0, 1] bcast_S1x1_S320000x1_0_1),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S320000x1_S320000_d1 h_S_),
    StableHlo.TRef.binary (.of main_v76 : TRef sig ⟨S50000x128, .f32⟩) main_call10.v5 main_call10.v13 (fun x i => Host.gather gather_S50000x128_S320000x1_S320000x128_1_0_n_n_0_1_1128 x i),
    StableHlo.TRef.unary main_call10.v12 main_call10.v14 (broadcastInDim S320000x128 ![0] bcast_S320000_S320000x128_0),
    StableHlo.TRef.nullary main_call10.cst (constant S_ .f32 0x7FC00000#32),
    StableHlo.TRef.unary main_call10.cst main_call10.v15 (broadcastInDim S320000x128 ![] bcast_S_S320000x128),
    StableHlo.TRef.ternary main_call10.v14 main_call10.v13 main_call10.v15 main_call10.v16 select,
    StableHlo.nullary main_cst_20 (constant S_ .f32 0x00000000#32),
    StableHlo.unary main_cst_20 main_v102 (broadcastInDim S100000x128 ![] bcast_S_S100000x128 : (⟨S_, .f32⟩ : BufTy).Contents (Elt F) → (⟨S100000x128, .f32⟩ : BufTy).Contents (Elt F)),
    StableHlo.unary main_arg5 main_v103 (broadcastInDim S320000x1 ![0] bcast_S320000_S320000x1_0 : (⟨S320000, .i32⟩ : BufTy).Contents (Elt F) → (⟨S320000x1, .i32⟩ : BufTy).Contents (Elt F)),
    StableHlo.ternary main_v102 main_v103 main_v101 main_v104 ((fun x i u => Host.scatterAdd scatter_S100000x128_S320000x1_S320000x128_1_0_0_1 x i u) : (⟨S100000x128, .f32⟩ : BufTy).Contents (Elt F) → (⟨S320000x1, .i32⟩ : BufTy).Contents (Elt F) → (⟨S320000x128, .f32⟩ : BufTy).Contents (Elt F) → (⟨S100000x128, .f32⟩ : BufTy).Contents (Elt F)),
    StableHlo.nullary main_cst_21 (constant S_ .f32 0x3F800000#32),
    StableHlo.unary main_cst_21 main_v105 (broadcastInDim S320000 ![] bcast_S_S320000 : (⟨S_, .f32⟩ : BufTy).Contents (Elt F) → (⟨S320000, .f32⟩ : BufTy).Contents (Elt F)),
    StableHlo.nullary main_cst_22 (constant S_ .f32 0x00000000#32),
    StableHlo.unary main_cst_22 main_v106 (broadcastInDim S100000 ![] bcast_S_S100000 : (⟨S_, .f32⟩ : BufTy).Contents (Elt F) → (⟨S100000, .f32⟩ : BufTy).Contents (Elt F)),
    StableHlo.unary main_arg5 main_v107 (broadcastInDim S320000x1 ![0] bcast_S320000_S320000x1_0 : (⟨S320000, .i32⟩ : BufTy).Contents (Elt F) → (⟨S320000x1, .i32⟩ : BufTy).Contents (Elt F)),
    StableHlo.ternary main_v106 main_v107 main_v105 main_v108 ((fun x i u => Host.scatterAdd scatter_S100000_S320000x1_S320000_n_0_0_1 x i u) : (⟨S100000, .f32⟩ : BufTy).Contents (Elt F) → (⟨S320000x1, .i32⟩ : BufTy).Contents (Elt F) → (⟨S320000, .f32⟩ : BufTy).Contents (Elt F) → (⟨S100000, .f32⟩ : BufTy).Contents (Elt F)),
    StableHlo.nullary main_cst_23 (constant S_ .f32 0x3F800000#32),
    StableHlo.unary main_cst_23 main_v109 (broadcastInDim S100000 ![] bcast_S_S100000 : (⟨S_, .f32⟩ : BufTy).Contents (Elt F) → (⟨S100000, .f32⟩ : BufTy).Contents (Elt F)),
    StableHlo.binary main_v108 main_v109 main_v110 (maximumf : (⟨S100000, .f32⟩ : BufTy).Contents (Elt F) → (⟨S100000, .f32⟩ : BufTy).Contents (Elt F) → (⟨S100000, .f32⟩ : BufTy).Contents (Elt F)),
    StableHlo.unary main_v110 main_v111 (broadcastInDim S100000x1 ![0] bcast_S100000_S100000x1_0 : (⟨S100000, .f32⟩ : BufTy).Contents (Elt F) → (⟨S100000x1, .f32⟩ : BufTy).Contents (Elt F)),
    StableHlo.unary main_v111 main_v112 (broadcastInDim S100000x128 ![0, 1] bcast_S100000x1_S100000x128_0_1 : (⟨S100000x1, .f32⟩ : BufTy).Contents (Elt F) → (⟨S100000x128, .f32⟩ : BufTy).Contents (Elt F)),
    StableHlo.binary main_v104 main_v112 main_v113 (Host.divf : (⟨S100000x128, .f32⟩ : BufTy).Contents (Elt F) → (⟨S100000x128, .f32⟩ : BufTy).Contents (Elt F) → (⟨S100000x128, .f32⟩ : BufTy).Contents (Elt F)) ]

/-- The buffers the operations of `K12` write, in order. -/
abbrev K12_W : List (Ref sig .tc) :=
  [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v101, main_cst_20, main_v102, main_v103, main_v104, main_cst_21, main_v105, main_cst_22, main_v106, main_v107, main_v108, main_cst_23, main_v109, main_v110, main_v111, main_v112, main_v113]

theorem K12_sub : (K12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K12_fresh : (K12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K12_writes : (K12 : List (HloOp τ sig (Elt F))).Forall fun op => op.writes ⊆ ((K12_W).map (Proc.devRef (τ := τ) .tc)).toFinset :=
  ⟨writes_sub_of_mem (y := main_call10_c) rfl (by decide),
   writes_sub_of_mem (y := main_call10_v0) rfl (by decide),
   writes_sub_of_mem (y := main_call10_v1) rfl (by decide),
   writes_sub_of_mem (y := main_call10_c_0) rfl (by decide),
   writes_sub_of_mem (y := main_call10_v2) rfl (by decide),
   writes_sub_of_mem (y := main_call10_v3) rfl (by decide),
   writes_sub_of_mem (y := main_call10_v4) rfl (by decide),
   writes_sub_of_mem (y := main_call10_v5) rfl (by decide),
   writes_sub_of_mem (y := main_call10_c_1) rfl (by decide),
   writes_sub_of_mem (y := main_call10_c_2) rfl (by decide),
   writes_sub_of_mem (y := main_call10_v6) rfl (by decide),
   writes_sub_of_mem (y := main_call10_v7) rfl (by decide),
   writes_sub_of_mem (y := main_call10_v8) rfl (by decide),
   writes_sub_of_mem (y := main_call10_v9) rfl (by decide),
   writes_sub_of_mem (y := main_call10_v10) rfl (by decide),
   writes_sub_of_mem (y := main_call10_v11) rfl (by decide),
   writes_sub_of_mem (y := main_call10_c_3) rfl (by decide),
   writes_sub_of_mem (y := main_call10_v12) rfl (by decide),
   writes_sub_of_mem (y := main_call10_v13) rfl (by decide),
   writes_sub_of_mem (y := main_call10_v14) rfl (by decide),
   writes_sub_of_mem (y := main_call10_cst) rfl (by decide),
   writes_sub_of_mem (y := main_call10_v15) rfl (by decide),
   writes_sub_of_mem (y := main_v101) rfl (by decide),
   writes_sub_of_mem (y := main_cst_20) rfl (by decide),
   writes_sub_of_mem (y := main_v102) rfl (by decide),
   writes_sub_of_mem (y := main_v103) rfl (by decide),
   writes_sub_of_mem (y := main_v104) rfl (by decide),
   writes_sub_of_mem (y := main_cst_21) rfl (by decide),
   writes_sub_of_mem (y := main_v105) rfl (by decide),
   writes_sub_of_mem (y := main_cst_22) rfl (by decide),
   writes_sub_of_mem (y := main_v106) rfl (by decide),
   writes_sub_of_mem (y := main_v107) rfl (by decide),
   writes_sub_of_mem (y := main_v108) rfl (by decide),
   writes_sub_of_mem (y := main_cst_23) rfl (by decide),
   writes_sub_of_mem (y := main_v109) rfl (by decide),
   writes_sub_of_mem (y := main_v110) rfl (by decide),
   writes_sub_of_mem (y := main_v111) rfl (by decide),
   writes_sub_of_mem (y := main_v112) rfl (by decide),
   writes_sub_of_mem (y := main_v113) rfl (by decide)⟩

/-- A buffer the operations of `K12` do not write keeps its contents. -/
theorem K12_frame (V : Valuation τ sig (Elt F)) (r : Ref sig .tc) (hr : r ∉ K12_W) :
    after K12 V (Proc.devRef .tc r) = V (Proc.devRef .tc r) :=
  after_of_writes_sub K12 V K12_writes hr

theorem K12_ofBuf_main_arg4 (h1 h2 h3) (v : (main_arg4 : Ref sig .tc).ty.Contents (Elt F)) :
    (TRef.of (T := ⟨S320000, .i32⟩) main_arg4 h1 h2 h3).ofBuf v = v := rfl
theorem K12_ofBuf_main_v76 (h1 h2 h3) (v : (main_v76 : Ref sig .tc).ty.Contents (Elt F)) :
    (TRef.of (T := ⟨S50000x128, .f32⟩) main_v76 h1 h2 h3).ofBuf v = v := rfl
theorem K12_toBuf_main_v101 (h1 h2 h3) (w : (⟨S320000x128, .f32⟩ : BufTy).Contents (Elt F)) :
    (TRef.of (T := ⟨S320000x128, .f32⟩) main_v101 h1 h2 h3).toBuf w = w := rfl

attribute [local irreducible] Host.gather Host.reduce broadcastInDim cmpi select addi andi constantI constant maximumf Host.divf addf mulf Host.sqrt in
set_option maxRecDepth 65536 in
/-- The result of `K12` is the stage applied to the contents of the buffers it reads. -/
theorem K12_res (V : Valuation τ sig (Elt F)) :
    after K12 V (main_v113 : DevRef τ sig)
      = Cert.Sage.meanW (V (main_v76 : DevRef τ sig)) (V (main_arg4 : DevRef τ sig)) (V (main_arg5 : DevRef τ sig)) := by
  after_results_simp
  simp only [tref_ofBuf_toBuf, K12_ofBuf_main_arg4, K12_ofBuf_main_v76, K12_toBuf_main_v101]
  rfl

/-- Layer 1, the update of the papers over the writes edges. -/
abbrev K13 : List (HloOp τ sig (Elt F)) :=
  [ StableHlo.binary main_v113 main_arg20 main_v114 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg21 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v116 main_v117 (addf : (⟨S100000x128, .f32⟩ : BufTy).Contents (Elt F) → (⟨S100000x128, .f32⟩ : BufTy).Contents (Elt F) → (⟨S100000x128, .f32⟩ : BufTy).Contents (Elt F)),
    StableHlo.binary main_v75 main_arg22 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v117 main_v118 main_v119 (addf : (⟨S100000x128, .f32⟩ : BufTy).Contents (Elt F) → (⟨S100000x128, .f32⟩ : BufTy).Contents (Elt F) → (⟨S100000x128, .f32⟩ : BufTy).Contents (Elt F)),
    StableHlo.TRef.binary (.of main_v119 : TRef sig ⟨S100000x128, .f32⟩) (.of main_v119 : TRef sig ⟨S100000x128, .f32⟩) main_call11.v0 mulf,
    StableHlo.TRef.nullary main_call11.cst (constant S_ .f32 0x00000000#32),
    StableHlo.TRef.binary main_call11.v0 main_call11.cst main_call11.v1 (fun x v => Host.reduceAdd x v reducesTo_S100000x128_S100000_d1 h_S_),
    StableHlo.TRef.unary main_call11.v1 main_call11.v2 (broadcastInDim S100000x1 ![0] bcast_S100000_S100000x1_0),
    StableHlo.TRef.unary main_call11.v2 main_call11.v3 Host.sqrt,
    StableHlo.nullary main_cst_24 (constant S_ .f32 0x2B8CBCCC#32),
    StableHlo.unary main_cst_24 main_v121 (broadcastInDim S100000x1 ![] bcast_S_S100000x1 : (⟨S_, .f32⟩ : BufTy).Contents (Elt F) → (⟨S100000x1, .f32⟩ : BufTy).Contents (Elt F)),
    StableHlo.binary main_v120 main_v121 main_v122 (maximumf : (⟨S100000x1, .f32⟩ : BufTy).Contents (Elt F) → (⟨S100000x1, .f32⟩ : BufTy).Contents (Elt F) → (⟨S100000x1, .f32⟩ : BufTy).Contents (Elt F)),
    StableHlo.unary main_v122 main_v123 (broadcastInDim S100000x128 ![0, 1] bcast_S100000x1_S100000x128_0_1 : (⟨S100000x1, .f32⟩ : BufTy).Contents (Elt F) → (⟨S100000x128, .f32⟩ : BufTy).Contents (Elt F)),
    StableHlo.binary main_v119 main_v123 main_v124 (Host.divf : (⟨S100000x128, .f32⟩ : BufTy).Contents (Elt F) → (⟨S100000x128, .f32⟩ : BufTy).Contents (Elt F) → (⟨S100000x128, .f32⟩ : BufTy).Contents (Elt F)) ]

/-- The buffers the operations of `K13` write, in order. -/
abbrev K13_W : List (Ref sig .tc) :=
  [main_v114, main_v115, main_v116, main_v117, main_v118, main_v119, main_call11_v0, main_call11_cst, main_call11_v1, main_call11_v2, main_v120, main_cst_24, main_v121, main_v122, main_v123, main_v124]

theorem K13_sub : (K13 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K13_fresh : (K13 : List (HloOp τ sig (Elt F))).Forall fun op => op.fresh = ∅ :=
  ⟨rfl, rfl, rfl, rfl, rfl, rfl, rfl, rfl, rfl, rfl, rfl, rfl, rfl, rfl, rfl, rfl⟩

theorem K13_writes : (K13 : List (HloOp τ sig (Elt F))).Forall fun op => op.writes ⊆ ((K13_W).map (Proc.devRef (τ := τ) .tc)).toFinset :=
  ⟨writes_sub_of_mem (y := main_v114) rfl (by decide),
   writes_sub_of_mem (y := main_v115) rfl (by decide),
   writes_sub_of_mem (y := main_v116) rfl (by decide),
   writes_sub_of_mem (y := main_v117) rfl (by decide),
   writes_sub_of_mem (y := main_v118) rfl (by decide),
   writes_sub_of_mem (y := main_v119) rfl (by decide),
   writes_sub_of_mem (y := main_call11_v0) rfl (by decide),
   writes_sub_of_mem (y := main_call11_cst) rfl (by decide),
   writes_sub_of_mem (y := main_call11_v1) rfl (by decide),
   writes_sub_of_mem (y := main_call11_v2) rfl (by decide),
   writes_sub_of_mem (y := main_v120) rfl (by decide),
   writes_sub_of_mem (y := main_cst_24) rfl (by decide),
   writes_sub_of_mem (y := main_v121) rfl (by decide),
   writes_sub_of_mem (y := main_v122) rfl (by decide),
   writes_sub_of_mem (y := main_v123) rfl (by decide),
   writes_sub_of_mem (y := main_v124) rfl (by decide)⟩

/-- A buffer the operations of `K13` do not write keeps its contents. -/
theorem K13_frame (V : Valuation τ sig (Elt F)) (r : Ref sig .tc) (hr : r ∉ K13_W) :
    after K13 V (Proc.devRef .tc r) = V (Proc.devRef .tc r) :=
  after_of_writes_sub K13 V K13_writes hr

theorem K13_ofBuf_main_v119 (h1 h2 h3) (v : (main_v119 : Ref sig .tc).ty.Contents (Elt F)) :
    (TRef.of (T := ⟨S100000x128, .f32⟩) main_v119 h1 h2 h3).ofBuf v = v := rfl
theorem K13_toBuf_main_v120 (h1 h2 h3) (w : (⟨S100000x1, .f32⟩ : BufTy).Contents (Elt F)) :
    (TRef.of (T := ⟨S100000x1, .f32⟩) main_v120 h1 h2 h3).toBuf w = w := rfl

attribute [local irreducible] Host.gather Host.reduce broadcastInDim cmpi select addi andi constantI constant maximumf Host.divf addf mulf Host.sqrt in
set_option maxRecDepth 65536 in
/-- The result of `K13` is the stage applied to the contents of the buffers it reads. -/
theorem K13_res (V : Valuation τ sig (Elt F)) :
    after K13 V (main_v124 : DevRef τ sig)
      = Cert.Sage.sageP (V (main_v113 : DevRef τ sig)) (V (main_v75 : DevRef τ sig)) (V (main_arg20 : DevRef τ sig)) (V (main_arg21 : DevRef τ sig)) (V (main_arg22 : DevRef τ sig)) := by
  after_results_simp
  simp only [tref_ofBuf_toBuf, K13_ofBuf_main_v119, K13_toBuf_main_v120]
  rfl

/-- Layer 1, half the sum of the two paper updates. -/
abbrev K14 : List (HloOp τ sig (Elt F)) :=
  [ StableHlo.binary main_v100 main_v124 main_v125 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3F000000#32),
    StableHlo.unary main_cst_25 main_v126 (broadcastInDim S100000x128 ![] bcast_S_S100000x128 : (⟨S_, .f32⟩ : BufTy).Contents (Elt F) → (⟨S100000x128, .f32⟩ : BufTy).Contents (Elt F)),
    StableHlo.binary main_v126 main_v125 main_v127 (mulf : (⟨S100000x128, .f32⟩ : BufTy).Contents (Elt F) → (⟨S100000x128, .f32⟩ : BufTy).Contents (Elt F) → (⟨S100000x128, .f32⟩ : BufTy).Contents (Elt F)) ]

/-- The buffers the operations of `K14` write, in order. -/
abbrev K14_W : List (Ref sig .tc) :=
  [main_v125, main_cst_25, main_v126, main_v127]

theorem K14_sub : (K14 : List (HloOp τ sig (Elt F))).Forall fun op => op.bufs ⊆ tcRefs τ sig :=
  ⟨binary_bufs_sub .., nullary_bufs_sub .., unary_bufs_sub .., binary_bufs_sub ..⟩

theorem K14_fresh : (K14 : List (HloOp τ sig (Elt F))).Forall fun op => op.fresh = ∅ :=
  ⟨rfl, rfl, rfl, rfl⟩

theorem K14_writes : (K14 : List (HloOp τ sig (Elt F))).Forall fun op => op.writes ⊆ ((K14_W).map (Proc.devRef (τ := τ) .tc)).toFinset :=
  ⟨writes_sub_of_mem (y := main_v125) rfl (by decide),
   writes_sub_of_mem (y := main_cst_25) rfl (by decide),
   writes_sub_of_mem (y := main_v126) rfl (by decide),
   writes_sub_of_mem (y := main_v127) rfl (by decide)⟩

/-- A buffer the operations of `K14` do not write keeps its contents. -/
theorem K14_frame (V : Valuation τ sig (Elt F)) (r : Ref sig .tc) (hr : r ∉ K14_W) :
    after K14 V (Proc.devRef .tc r) = V (Proc.devRef .tc r) :=
  after_of_writes_sub K14 V K14_writes hr

attribute [local irreducible] Host.gather Host.reduce broadcastInDim cmpi select addi andi constantI constant maximumf Host.divf addf mulf Host.sqrt in
set_option maxRecDepth 65536 in
/-- The result of `K14` is the stage applied to the contents of the buffers it reads. -/
theorem K14_res (V : Valuation τ sig (Elt F)) :
    after K14 V (main_v127 : DevRef τ sig)
      = Cert.Sage.halfSum (V (main_v100 : DevRef τ sig)) (V (main_v124 : DevRef τ sig)) := by
  after_results_simp
  rfl

end Cert.ReferenceIdeal.RefRun

end
-- ==== Proof.RefL1c.lean ====
/-
  The reference program's host operations K15 … K18 as lists, each a stage of the forward pass: the buffers a list writes,
  that it leaves every other buffer alone, and that its result buffer ends holding the stage's function of the buffers it reads.
-/
import proofs.«106662_j20968030339503_1_alg».proof.Proof.Gen.ReferenceIdeal
import Idealize.ShloMosaic.Lib.StableHlo.Run
import proofs.«106662_j20968030339503_1_alg».proof.Proof.Stages
import proofs.«106662_j20968030339503_1_alg».proof.Proof.RefCommon

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1, the mean over the reversed writes edges. -/
abbrev K15 : List (HloOp τ sig (Elt F)) :=
  [ StableHlo.TRef.nullary main_call12.c (constantI S_ 32 0#32),
    StableHlo.TRef.unary main_call12.c main_call12.v0 (broadcastInDim S320000 ![] bcast_S_S320000),
    StableHlo.TRef.binary (.of main_arg6 : TRef sig ⟨S320000, .i32⟩) main_call12.v0 main_call12.v1 (cmpi .slt),
    StableHlo.TRef.nullary main_call12.c_0 (constantI S_ 32 100000#32),
    StableHlo.TRef.unary main_call12.c_0 main_call12.v2 (broadcastInDim S320000 ![] bcast_S_S320000),
    StableHlo.TRef.binary (.of main_arg6 : TRef sig ⟨S320000, .i32⟩) main_call12.v2 main_call12.v3 addi,
    StableHlo.TRef.ternary main_call12.v1 main_call12.v3 (.of main_arg6 : TRef sig ⟨S320000, .i32⟩) main_call12.call0.v0 select,
    StableHlo.TRef.unary main_call12.call0.v0 main_call12.v5 (broadcastInDim S320000x1 ![0] bcast_S320000_S320000x1_0),
    StableHlo.TRef.nullary main_call12.c_1 (constantI S1 32 99999#32),
    StableHlo.TRef.nullary main_call12.c_2 (constantI S_ 32 0#32),
    StableHlo.TRef.unary main_call12.c_2 main_call12.v6 (broadcastInDim S320000x1 ![] bcast_S_S320000x1),
    StableHlo.TRef.binary main_call12.v5 main_call12.v6 main_call12.v7 (cmpi .sge),
    StableHlo.TRef.unary main_call12.c_1 main_call12.v8 (broadcastInDim S1x1 ![1] bcast_S1_S1x1_1),
    StableHlo.TRef.unary main_call12.v8 main_call12.v9 (broadcastInDim S320000x1 ![0, 1] bcast_S1x1_S320000x1_0_1),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S320000x1_S320000_d1 h_S_),
    StableHlo.TRef.binary (.of main_v75 : TRef sig ⟨S100000x128, .f32⟩) main_call12.v5 main_call12.v13 (fun x i => Host.gather gather_S100000x128_S320000x1_S320000x128_1_0_n_n_0_1_1128 x i),
    StableHlo.TRef.unary main_call12.v12 main_call12.v14 (broadcastInDim S320000x128 ![0] bcast_S320000_S320000x128_0),
    StableHlo.TRef.nullary main_call12.cst (constant S_ .f32 0x7FC00000#32),
    StableHlo.TRef.unary main_call12.cst main_call12.v15 (broadcastInDim S320000x128 ![] bcast_S_S320000x128),
    StableHlo.TRef.ternary main_call12.v14 main_call12.v13 main_call12.v15 main_call12.v16 select,
    StableHlo.nullary main_cst_26 (constant S_ .f32 0x00000000#32),
    StableHlo.unary main_cst_26 main_v129 (broadcastInDim S50000x128 ![] bcast_S_S50000x128 : (⟨S_, .f32⟩ : BufTy).Contents (Elt F) → (⟨S50000x128, .f32⟩ : BufTy).Contents (Elt F)),
    StableHlo.unary main_arg7 main_v130 (broadcastInDim S320000x1 ![0] bcast_S320000_S320000x1_0 : (⟨S320000, .i32⟩ : BufTy).Contents (Elt F) → (⟨S320000x1, .i32⟩ : BufTy).Contents (Elt F)),
    StableHlo.ternary main_v129 main_v130 main_v128 main_v131 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_27 (constant S_ .f32 0x3F800000#32),
    StableHlo.unary main_cst_27 main_v132 (broadcastInDim S320000 ![] bcast_S_S320000 : (⟨S_, .f32⟩ : BufTy).Contents (Elt F) → (⟨S320000, .f32⟩ : BufTy).Contents (Elt F)),
    StableHlo.nullary main_cst_28 (constant S_ .f32 0x00000000#32),
    StableHlo.unary main_cst_28 main_v133 (broadcastInDim S50000 ![] bcast_S_S50000 : (⟨S_, .f32⟩ : BufTy).Contents (Elt F) → (⟨S50000, .f32⟩ : BufTy).Contents (Elt F)),
    StableHlo.unary main_arg7 main_v134 (broadcastInDim S320000x1 ![0] bcast_S320000_S320000x1_0 : (⟨S320000, .i32⟩ : BufTy).Contents (Elt F) → (⟨S320000x1, .i32⟩ : BufTy).Contents (Elt F)),
    StableHlo.ternary main_v133 main_v134 main_v132 main_v135 ((fun x i u => Host.scatterAdd scatter_S50000_S320000x1_S320000_n_0_0_1 x i u) : (⟨S50000, .f32⟩ : BufTy).Contents (Elt F) → (⟨S320000x1, .i32⟩ : BufTy).Contents (Elt F) → (⟨S320000, .f32⟩ : BufTy).Contents (Elt F) → (⟨S50000, .f32⟩ : BufTy).Contents (Elt F)),
    StableHlo.nullary main_cst_29 (constant S_ .f32 0x3F800000#32),
    StableHlo.unary main_cst_29 main_v136 (broadcastInDim S50000 ![] bcast_S_S50000 : (⟨S_, .f32⟩ : BufTy).Contents (Elt F) → (⟨S50000, .f32⟩ : BufTy).Contents (Elt F)),
    StableHlo.binary main_v135 main_v136 main_v137 (maximumf : (⟨S50000, .f32⟩ : BufTy).Contents (Elt F) → (⟨S50000, .f32⟩ : BufTy).Contents (Elt F) → (⟨S50000, .f32⟩ : BufTy).Contents (Elt F)),
    StableHlo.unary main_v137 main_v138 (broadcastInDim S50000x1 ![0] bcast_S50000_S50000x1_0 : (⟨S50000, .f32⟩ : BufTy).Contents (Elt F) → (⟨S50000x1, .f32⟩ : BufTy).Contents (Elt F)),
    StableHlo.unary main_v138 main_v139 (broadcastInDim S50000x128 ![0, 1] bcast_S50000x1_S50000x128_0_1 : (⟨S50000x1, .f32⟩ : BufTy).Contents (Elt F) → (⟨S50000x128, .f32⟩ : BufTy).Contents (Elt F)),
    StableHlo.binary main_v131 main_v139 main_v140 (Host.divf : (⟨S50000x128, .f32⟩ : BufTy).Contents (Elt F) → (⟨S50000x128, .f32⟩ : BufTy).Contents (Elt F) → (⟨S50000x128, .f32⟩ : BufTy).Contents (Elt F)) ]

/-- The buffers the operations of `K15` write, in order. -/
abbrev K15_W : List (Ref sig .tc) :=
  [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v128, main_cst_26, main_v129, main_v130, main_v131, main_cst_27, main_v132, main_cst_28, main_v133, main_v134, main_v135, main_cst_29, main_v136, main_v137, main_v138, main_v139, main_v140]

theorem K15_sub : (K15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem K15_fresh : (K15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem K15_writes : (K15 : List (HloOp τ sig (Elt F))).Forall fun op => op.writes ⊆ ((K15_W).map (Proc.devRef (τ := τ) .tc)).toFinset :=
  ⟨writes_sub_of_mem (y := main_call12_c) rfl (by decide),
   writes_sub_of_mem (y := main_call12_v0) rfl (by decide),
   writes_sub_of_mem (y := main_call12_v1) rfl (by decide),
   writes_sub_of_mem (y := main_call12_c_0) rfl (by decide),
   writes_sub_of_mem (y := main_call12_v2) rfl (by decide),
   writes_sub_of_mem (y := main_call12_v3) rfl (by decide),
   writes_sub_of_mem (y := main_call12_v4) rfl (by decide),
   writes_sub_of_mem (y := main_call12_v5) rfl (by decide),
   writes_sub_of_mem (y := main_call12_c_1) rfl (by decide),
   writes_sub_of_mem (y := main_call12_c_2) rfl (by decide),
   writes_sub_of_mem (y := main_call12_v6) rfl (by decide),
   writes_sub_of_mem (y := main_call12_v7) rfl (by decide),
   writes_sub_of_mem (y := main_call12_v8) rfl (by decide),
   writes_sub_of_mem (y := main_call12_v9) rfl (by decide),
   writes_sub_of_mem (y := main_call12_v10) rfl (by decide),
   writes_sub_of_mem (y := main_call12_v11) rfl (by decide),
   writes_sub_of_mem (y := main_call12_c_3) rfl (by decide),
   writes_sub_of_mem (y := main_call12_v12) rfl (by decide),
   writes_sub_of_mem (y := main_call12_v13) rfl (by decide),
   writes_sub_of_mem (y := main_call12_v14) rfl (by decide),
   writes_sub_of_mem (y := main_call12_cst) rfl (by decide),
   writes_sub_of_mem (y := main_call12_v15) rfl (by decide),
   writes_sub_of_mem (y := main_v128) rfl (by decide),
   writes_sub_of_mem (y := main_cst_26) rfl (by decide),
   writes_sub_of_mem (y := main_v129) rfl (by decide),
   writes_sub_of_mem (y := main_v130) rfl (by decide),
   writes_sub_of_mem (y := main_v131) rfl (by decide),
   writes_sub_of_mem (y := main_cst_27) rfl (by decide),
   writes_sub_of_mem (y := main_v132) rfl (by decide),
   writes_sub_of_mem (y := main_cst_28) rfl (by decide),
   writes_sub_of_mem (y := main_v133) rfl (by decide),
   writes_sub_of_mem (y := main_v134) rfl (by decide),
   writes_sub_of_mem (y := main_v135) rfl (by decide),
   writes_sub_of_mem (y := main_cst_29) rfl (by decide),
   writes_sub_of_mem (y := main_v136) rfl (by decide),
   writes_sub_of_mem (y := main_v137) rfl (by decide),
   writes_sub_of_mem (y := main_v138) rfl (by decide),
   writes_sub_of_mem (y := main_v139) rfl (by decide),
   writes_sub_of_mem (y := main_v140) rfl (by decide)⟩

/-- A buffer the operations of `K15` do not write keeps its contents. -/
theorem K15_frame (V : Valuation τ sig (Elt F)) (r : Ref sig .tc) (hr : r ∉ K15_W) :
    after K15 V (Proc.devRef .tc r) = V (Proc.devRef .tc r) :=
  after_of_writes_sub K15 V K15_writes hr

theorem K15_ofBuf_main_arg6 (h1 h2 h3) (v : (main_arg6 : Ref sig .tc).ty.Contents (Elt F)) :
    (TRef.of (T := ⟨S320000, .i32⟩) main_arg6 h1 h2 h3).ofBuf v = v := rfl
theorem K15_ofBuf_main_v75 (h1 h2 h3) (v : (main_v75 : Ref sig .tc).ty.Contents (Elt F)) :
    (TRef.of (T := ⟨S100000x128, .f32⟩) main_v75 h1 h2 h3).ofBuf v = v := rfl
theorem K15_toBuf_main_v128 (h1 h2 h3) (w : (⟨S320000x128, .f32⟩ : BufTy).Contents (Elt F)) :
    (TRef.of (T := ⟨S320000x128, .f32⟩) main_v128 h1 h2 h3).toBuf w = w := rfl

attribute [local irreducible] Host.gather Host.reduce broadcastInDim cmpi select addi andi constantI constant maximumf Host.divf addf mulf Host.sqrt in
set_option maxRecDepth 65536 in
/-- The result of `K15` is the stage applied to the contents of the buffers it reads. -/
theorem K15_res (V : Valuation τ sig (Elt F)) :
    after K15 V (main_v140 : DevRef τ sig)
      = Cert.Sage.meanR (V (main_v75 : DevRef τ sig)) (V (main_arg6 : DevRef τ sig)) (V (main_arg7 : DevRef τ sig)) := by
  after_results_simp
  simp only [tref_ofBuf_toBuf, K15_ofBuf_main_arg6, K15_ofBuf_main_v75, K15_toBuf_main_v128]
  rfl

/-- Layer 1, the update of the authors. -/
abbrev K16 : List (HloOp τ sig (Elt F)) :=
  [ StableHlo.binary main_v140 main_arg23 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg24 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v143 main_v144 (addf : (⟨S50000x128, .f32⟩ : BufTy).Contents (Elt F) → (⟨S50000x128, .f32⟩ : BufTy).Contents (Elt F) → (⟨S50000x128, .f32⟩ : BufTy).Contents (Elt F)),
    StableHlo.binary main_v76 main_arg25 main_v145 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v144 main_v145 main_v146 (addf : (⟨S50000x128, .f32⟩ : BufTy).Contents (Elt F) → (⟨S50000x128, .f32⟩ : BufTy).Contents (Elt F) → (⟨S50000x128, .f32⟩ : BufTy).Contents (Elt F)),
    StableHlo.TRef.binary (.of main_v146 : TRef sig ⟨S50000x128, .f32⟩) (.of main_v146 : TRef sig ⟨S50000x128, .f32⟩) main_call13.v0 mulf,
    StableHlo.TRef.nullary main_call13.cst (constant S_ .f32 0x00000000#32),
    StableHlo.TRef.binary main_call13.v0 main_call13.cst main_call13.v1 (fun x v => Host.reduceAdd x v reducesTo_S50000x128_S50000_d1 h_S_),
    StableHlo.TRef.unary main_call13.v1 main_call13.v2 (broadcastInDim S50000x1 ![0] bcast_S50000_S50000x1_0),
    StableHlo.TRef.unary main_call13.v2 main_call13.v3 Host.sqrt,
    StableHlo.nullary main_cst_30 (constant S_ .f32 0x2B8CBCCC#32),
    StableHlo.unary main_cst_30 main_v148 (broadcastInDim S50000x1 ![] bcast_S_S50000x1 : (⟨S_, .f32⟩ : BufTy).Contents (Elt F) → (⟨S50000x1, .f32⟩ : BufTy).Contents (Elt F)),
    StableHlo.binary main_v147 main_v148 main_v149 (maximumf : (⟨S50000x1, .f32⟩ : BufTy).Contents (Elt F) → (⟨S50000x1, .f32⟩ : BufTy).Contents (Elt F) → (⟨S50000x1, .f32⟩ : BufTy).Contents (Elt F)),
    StableHlo.unary main_v149 main_v150 (broadcastInDim S50000x128 ![0, 1] bcast_S50000x1_S50000x128_0_1 : (⟨S50000x1, .f32⟩ : BufTy).Contents (Elt F) → (⟨S50000x128, .f32⟩ : BufTy).Contents (Elt F)),
    StableHlo.binary main_v146 main_v150 main_v151 (Host.divf : (⟨S50000x128, .f32⟩ : BufTy).Contents (Elt F) → (⟨S50000x128, .f32⟩ : BufTy).Contents (Elt F) → (⟨S50000x128, .f32⟩ : BufTy).Contents (Elt F)) ]

/-- The buffers the operations of `K16` write, in order. -/
abbrev K16_W : List (Ref sig .tc) :=
  [main_v141, main_v142, main_v143, main_v144, main_v145, main_v146, main_call13_v0, main_call13_cst, main_call13_v1, main_call13_v2, main_v147, main_cst_30, main_v148, main_v149, main_v150, main_v151]

theorem K16_sub : (K16 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem K16_fresh : (K16 : List (HloOp τ sig (Elt F))).Forall fun op => op.fresh = ∅ :=
  ⟨rfl, rfl, rfl, rfl, rfl, rfl, rfl, rfl, rfl, rfl, rfl, rfl, rfl, rfl, rfl, rfl⟩

theorem K16_writes : (K16 : List (HloOp τ sig (Elt F))).Forall fun op => op.writes ⊆ ((K16_W).map (Proc.devRef (τ := τ) .tc)).toFinset :=
  ⟨writes_sub_of_mem (y := main_v141) rfl (by decide),
   writes_sub_of_mem (y := main_v142) rfl (by decide),
   writes_sub_of_mem (y := main_v143) rfl (by decide),
   writes_sub_of_mem (y := main_v144) rfl (by decide),
   writes_sub_of_mem (y := main_v145) rfl (by decide),
   writes_sub_of_mem (y := main_v146) rfl (by decide),
   writes_sub_of_mem (y := main_call13_v0) rfl (by decide),
   writes_sub_of_mem (y := main_call13_cst) rfl (by decide),
   writes_sub_of_mem (y := main_call13_v1) rfl (by decide),
   writes_sub_of_mem (y := main_call13_v2) rfl (by decide),
   writes_sub_of_mem (y := main_v147) rfl (by decide),
   writes_sub_of_mem (y := main_cst_30) rfl (by decide),
   writes_sub_of_mem (y := main_v148) rfl (by decide),
   writes_sub_of_mem (y := main_v149) rfl (by decide),
   writes_sub_of_mem (y := main_v150) rfl (by decide),
   writes_sub_of_mem (y := main_v151) rfl (by decide)⟩

/-- A buffer the operations of `K16` do not write keeps its contents. -/
theorem K16_frame (V : Valuation τ sig (Elt F)) (r : Ref sig .tc) (hr : r ∉ K16_W) :
    after K16 V (Proc.devRef .tc r) = V (Proc.devRef .tc r) :=
  after_of_writes_sub K16 V K16_writes hr

theorem K16_ofBuf_main_v146 (h1 h2 h3) (v : (main_v146 : Ref sig .tc).ty.Contents (Elt F)) :
    (TRef.of (T := ⟨S50000x128, .f32⟩) main_v146 h1 h2 h3).ofBuf v = v := rfl
theorem K16_toBuf_main_v147 (h1 h2 h3) (w : (⟨S50000x1, .f32⟩ : BufTy).Contents (Elt F)) :
    (TRef.of (T := ⟨S50000x1, .f32⟩) main_v147 h1 h2 h3).toBuf w = w := rfl

attribute [local irreducible] Host.gather Host.reduce broadcastInDim cmpi select addi andi constantI constant maximumf Host.divf addf mulf Host.sqrt in
set_option maxRecDepth 65536 in
/-- The result of `K16` is the stage applied to the contents of the buffers it reads. -/
theorem K16_res (V : Valuation τ sig (Elt F)) :
    after K16 V (main_v151 : DevRef τ sig)
      = Cert.Sage.sageA (V (main_v140 : DevRef τ sig)) (V (main_v76 : DevRef τ sig)) (V (main_arg23 : DevRef τ sig)) (V (main_arg24 : DevRef τ sig)) (V (main_arg25 : DevRef τ sig)) := by
  after_results_simp
  simp only [tref_ofBuf_toBuf, K16_ofBuf_main_v146, K16_toBuf_main_v147]
  rfl

/-- Layer 1, the rectifier on the papers. -/
abbrev K17 : List (HloOp τ sig (Elt F)) :=
  [ StableHlo.TRef.nullary main_call14.cst (constant S_ .f32 0x00000000#32),
    StableHlo.TRef.unary main_call14.cst main_call14.v0 (broadcastInDim S100000x128 ![] bcast_S_S100000x128),
    StableHlo.TRef.binary (.of main_v127 : TRef sig ⟨S100000x128, .f32⟩) main_call14.v0 main_call14.v1 maximumf ]

/-- The buffers the operations of `K17` write, in order. -/
abbrev K17_W : List (Ref sig .tc) :=
  [main_call14_cst, main_call14_v0, main_v152]

theorem K17_sub : (K17 : List (HloOp τ sig (Elt F))).Forall fun op => op.bufs ⊆ tcRefs τ sig :=
  ⟨nullary_bufs_sub .., unary_bufs_sub .., binary_bufs_sub ..⟩

theorem K17_fresh : (K17 : List (HloOp τ sig (Elt F))).Forall fun op => op.fresh = ∅ :=
  ⟨rfl, rfl, rfl⟩

theorem K17_writes : (K17 : List (HloOp τ sig (Elt F))).Forall fun op => op.writes ⊆ ((K17_W).map (Proc.devRef (τ := τ) .tc)).toFinset :=
  ⟨writes_sub_of_mem (y := main_call14_cst) rfl (by decide),
   writes_sub_of_mem (y := main_call14_v0) rfl (by decide),
   writes_sub_of_mem (y := main_v152) rfl (by decide)⟩

/-- A buffer the operations of `K17` do not write keeps its contents. -/
theorem K17_frame (V : Valuation τ sig (Elt F)) (r : Ref sig .tc) (hr : r ∉ K17_W) :
    after K17 V (Proc.devRef .tc r) = V (Proc.devRef .tc r) :=
  after_of_writes_sub K17 V K17_writes hr

theorem K17_ofBuf_main_v127 (h1 h2 h3) (v : (main_v127 : Ref sig .tc).ty.Contents (Elt F)) :
    (TRef.of (T := ⟨S100000x128, .f32⟩) main_v127 h1 h2 h3).ofBuf v = v := rfl
theorem K17_toBuf_main_v152 (h1 h2 h3) (w : (⟨S100000x128, .f32⟩ : BufTy).Contents (Elt F)) :
    (TRef.of (T := ⟨S100000x128, .f32⟩) main_v152 h1 h2 h3).toBuf w = w := rfl

attribute [local irreducible] Host.gather Host.reduce broadcastInDim cmpi select addi andi constantI constant maximumf Host.divf addf mulf Host.sqrt in
set_option maxRecDepth 65536 in
/-- The result of `K17` is the stage applied to the contents of the buffers it reads. -/
theorem K17_res (V : Valuation τ sig (Elt F)) :
    after K17 V (main_v152 : DevRef τ sig)
      = Cert.Sage.reluP (V (main_v127 : DevRef τ sig)) := by
  after_results_simp
  simp only [tref_ofBuf_toBuf, K17_ofBuf_main_v127, K17_toBuf_main_v152]
  rfl

/-- Layer 1, the rectifier on the authors. -/
abbrev K18 : List (HloOp τ sig (Elt F)) :=
  [ StableHlo.TRef.nullary main_call15.cst (constant S_ .f32 0x00000000#32),
    StableHlo.TRef.unary main_call15.cst main_call15.v0 (broadcastInDim S50000x128 ![] bcast_S_S50000x128),
    StableHlo.TRef.binary (.of main_v151 : TRef sig ⟨S50000x128, .f32⟩) main_call15.v0 main_call15.v1 maximumf ]

/-- The buffers the operations of `K18` write, in order. -/
abbrev K18_W : List (Ref sig .tc) :=
  [main_call15_cst, main_call15_v0, main_v153]

theorem K18_sub : (K18 : List (HloOp τ sig (Elt F))).Forall fun op => op.bufs ⊆ tcRefs τ sig :=
  ⟨nullary_bufs_sub .., unary_bufs_sub .., binary_bufs_sub ..⟩

theorem K18_fresh : (K18 : List (HloOp τ sig (Elt F))).Forall fun op => op.fresh = ∅ :=
  ⟨rfl, rfl, rfl⟩

theorem K18_writes : (K18 : List (HloOp τ sig (Elt F))).Forall fun op => op.writes ⊆ ((K18_W).map (Proc.devRef (τ := τ) .tc)).toFinset :=
  ⟨writes_sub_of_mem (y := main_call15_cst) rfl (by decide),
   writes_sub_of_mem (y := main_call15_v0) rfl (by decide),
   writes_sub_of_mem (y := main_v153) rfl (by decide)⟩

/-- A buffer the operations of `K18` do not write keeps its contents. -/
theorem K18_frame (V : Valuation τ sig (Elt F)) (r : Ref sig .tc) (hr : r ∉ K18_W) :
    after K18 V (Proc.devRef .tc r) = V (Proc.devRef .tc r) :=
  after_of_writes_sub K18 V K18_writes hr

theorem K18_ofBuf_main_v151 (h1 h2 h3) (v : (main_v151 : Ref sig .tc).ty.Contents (Elt F)) :
    (TRef.of (T := ⟨S50000x128, .f32⟩) main_v151 h1 h2 h3).ofBuf v = v := rfl
theorem K18_toBuf_main_v153 (h1 h2 h3) (w : (⟨S50000x128, .f32⟩ : BufTy).Contents (Elt F)) :
    (TRef.of (T := ⟨S50000x128, .f32⟩) main_v153 h1 h2 h3).toBuf w = w := rfl

attribute [local irreducible] Host.gather Host.reduce broadcastInDim cmpi select addi andi constantI constant maximumf Host.divf addf mulf Host.sqrt in
set_option maxRecDepth 65536 in
/-- The result of `K18` is the stage applied to the contents of the buffers it reads. -/
theorem K18_res (V : Valuation τ sig (Elt F)) :
    after K18 V (main_v153 : DevRef τ sig)
      = Cert.Sage.reluA (V (main_v151 : DevRef τ sig)) := by
  after_results_simp
  simp only [tref_ofBuf_toBuf, K18_ofBuf_main_v151, K18_toBuf_main_v153]
  rfl

end Cert.ReferenceIdeal.RefRun

end
-- ==== Proof.RefRun.lean ====
/-
  The reference program's run, read back: @main is the straight line of its 350 host operations; stage by stage, the
  result buffers end holding the two-layer forward pass of the arguments, and no argument is written.
-/
import proofs.«106662_j20968030339503_1_alg».proof.Proof.Gen.ReferenceIdeal
import Idealize.ShloMosaic.Lib.StableHlo.Run
import Idealize.ShloMosaic.Lib.Pipeline.Regions
import proofs.«106662_j20968030339503_1_alg».proof.Proof.Stages
import proofs.«106662_j20968030339503_1_alg».proof.Proof.RefCommon
import proofs.«106662_j20968030339503_1_alg».proof.Proof.RefItems
import proofs.«106662_j20968030339503_1_alg».proof.Proof.RefL0a
import proofs.«106662_j20968030339503_1_alg».proof.Proof.RefL0b
import proofs.«106662_j20968030339503_1_alg».proof.Proof.RefL0c
import proofs.«106662_j20968030339503_1_alg».proof.Proof.RefL1a
import proofs.«106662_j20968030339503_1_alg».proof.Proof.RefL1b
import proofs.«106662_j20968030339503_1_alg».proof.Proof.RefL1c

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole line of @main's 350 host operations: the eighteen stages' lists, in order. -/
abbrev ops : List (HloOp τ sig (Elt F)) :=
  K01 ++ (K02 ++ (K03 ++ (K04 ++ (K05 ++ (K06 ++ (K07 ++ (K08 ++ (K09 ++ (K10 ++ (K11 ++ (K12 ++ (K13 ++ (K14 ++ (K15 ++ (K16 ++ (K17 ++ (K18)))))))))))))))))

/-- A chain of straight lines is the straight line of their concatenation. -/
theorem chain_seqs (ls : List (List (HloOp τ sig (Elt F)))) :
    (Pipeline.chain (ls.map seq) : Prog (TpuEff nD τ sig (Elt F) (Pipeline.Sig Λ₀ (Fin 0) fun p => (pcfgs (F := F) p).Adm) .tc) PUnit) = seq ls.flatten := by
  induction ls with
  | nil => rfl
  | cons l ls ih => rw [List.map_cons, Pipeline.chain_cons, ih, List.flatten_cons, seq_append]

/-- The stretches cut at the calls and windows and the stages' lists are the same 350 operations in the same order. -/
theorem items_eq : ([I00, I01, I02, I03, I04, I05, I06, I07, I08, I09, I10, I11, I12, I13, I14, I15, I16, I17, I18, I19, I20, I21, I22, I23, I24, I25, I26, I27, I28, I29, I30] : List (List (HloOp τ sig (Elt F)))).flatten = ops := by
  chain_rfl

/-- @main is the straight line of those operations. -/
theorem main_eq (c : Dev nD) : main (F := F) c = seq ops :=
  (main_chain c).trans ((chain_seqs [I00, I01, I02, I03, I04, I05, I06, I07, I08, I09, I10, I11, I12, I13, I14, I15, I16, I17, I18, I19, I20, I21, I22, I23, I24, I25, I26, I27, I28, I29, I30]).trans (congrArg seq items_eq))

theorem ops_sub : (ops : List (HloOp τ sig (Elt F))).Forall fun op => op.bufs ⊆ tcRefs τ sig :=
  forall_append K01_sub (forall_append K02_sub (forall_append K03_sub (forall_append K04_sub (forall_append K05_sub (forall_append K06_sub (forall_append K07_sub (forall_append K08_sub (forall_append K09_sub (forall_append K10_sub (forall_append K11_sub (forall_append K12_sub (forall_append K13_sub (forall_append K14_sub (forall_append K15_sub (forall_append K16_sub (forall_append K17_sub (K18_sub)))))))))))))))))

theorem ops_fresh : ∀ op ∈ (ops : List (HloOp τ sig (Elt F))), op.fresh = ∅ :=
  List.forall_iff_forall_mem.1 (forall_append K01_fresh (forall_append K02_fresh (forall_append K03_fresh (forall_append K04_fresh (forall_append K05_fresh (forall_append K06_fresh (forall_append K07_fresh (forall_append K08_fresh (forall_append K09_fresh (forall_append K10_fresh (forall_append K11_fresh (forall_append K12_fresh (forall_append K13_fresh (forall_append K14_fresh (forall_append K15_fresh (forall_append K16_fresh (forall_append K17_fresh (K18_fresh))))))))))))))))))

theorem scopedRefs_eq : (Finset.univ.filter fun b : Ref sig .tc => b.isScoped) = ∅ := by decide
theorem scopedSems_eq : (Finset.univ.filter fun sm : SemLoc sig => sm.isScoped .tc) = ∅ := by decide

/-! ## The contents after each stage -/

/-- The contents after the first 1 stage. -/
abbrev W01 (V : Valuation τ sig (Elt F)) : Valuation τ sig (Elt F) := after K01 V
/-- The contents after the first 2 stages. -/
abbrev W02 (V : Valuation τ sig (Elt F)) : Valuation τ sig (Elt F) := after K02 (W01 V)
/-- The contents after the first 3 stages. -/
abbrev W03 (V : Valuation τ sig (Elt F)) : Valuation τ sig (Elt F) := after K03 (W02 V)
/-- The contents after the first 4 stages. -/
abbrev W04 (V : Valuation τ sig (Elt F)) : Valuation τ sig (Elt F) := after K04 (W03 V)
/-- The contents after the first 5 stages. -/
abbrev W05 (V : Valuation τ sig (Elt F)) : Valuation τ sig (Elt F) := after K05 (W04 V)
/-- The contents after the first 6 stages. -/
abbrev W06 (V : Valuation τ sig (Elt F)) : Valuation τ sig (Elt F) := after K06 (W05 V)
/-- The contents after the first 7 stages. -/
abbrev W07 (V : Valuation τ sig (Elt F)) : Valuation τ sig (Elt F) := after K07 (W06 V)
/-- The contents after the first 8 stages. -/
abbrev W08 (V : Valuation τ sig (Elt F)) : Valuation τ sig (Elt F) := after K08 (W07 V)
/-- The contents after the first 9 stages. -/
abbrev W09 (V : Valuation τ sig (Elt F)) : Valuation τ sig (Elt F) := after K09 (W08 V)
/-- The contents after the first 10 stages. -/
abbrev W10 (V : Valuation τ sig (Elt F)) : Valuation τ sig (Elt F) := after K10 (W09 V)
/-- The contents after the first 11 stages. -/
abbrev W11 (V : Valuation τ sig (Elt F)) : Valuation τ sig (Elt F) := after K11 (W10 V)
/-- The contents after the first 12 stages. -/
abbrev W12 (V : Valuation τ sig (Elt F)) : Valuation τ sig (Elt F) := after K12 (W11 V)
/-- The contents after the first 13 stages. -/
abbrev W13 (V : Valuation τ sig (Elt F)) : Valuation τ sig (Elt F) := after K13 (W12 V)
/-- The contents after the first 14 stages. -/
abbrev W14 (V : Valuation τ sig (Elt F)) : Valuation τ sig (Elt F) := after K14 (W13 V)
/-- The contents after the first 15 stages. -/
abbrev W15 (V : Valuation τ sig (Elt F)) : Valuation τ sig (Elt F) := after K15 (W14 V)
/-- The contents after the first 16 stages. -/
abbrev W16 (V : Valuation τ sig (Elt F)) : Valuation τ sig (Elt F) := after K16 (W15 V)
/-- The contents after the first 17 stages. -/
abbrev W17 (V : Valuation τ sig (Elt F)) : Valuation τ sig (Elt F) := after K17 (W16 V)
/-- The contents after the first 18 stages. -/
abbrev W18 (V : Valuation τ sig (Elt F)) : Valuation τ sig (Elt F) := after K18 (W17 V)

theorem after_ops (V : Valuation τ sig (Elt F)) : after ops V = W18 V := by
  show after (K01 ++ (K02 ++ (K03 ++ (K04 ++ (K05 ++ (K06 ++ (K07 ++ (K08 ++ (K09 ++ (K10 ++ (K11 ++ (K12 ++ (K13 ++ (K14 ++ (K15 ++ (K16 ++ (K17 ++ (K18)))))))))))))))))) V = _
  rw [after_append, after_append, after_append, after_append, after_append, after_append, after_append, after_append, after_append, after_append, after_append, after_append, after_append, after_append, after_append, after_append, after_append]

/-- The result of stage 1 (meanC) in terms of the launch contents. -/
theorem val01 (V : Valuation τ sig (Elt F)) : (W01 V) (main_v12 : DevRef τ sig) = Cert.Sage.meanC (V (main_arg0 : DevRef τ sig)) (V (main_arg2 : DevRef τ sig)) (V (main_arg3 : DevRef τ sig)) :=
  K01_res V

theorem in02_main_v12 (V : Valuation τ sig (Elt F)) : (W01 V) (main_v12 : DevRef τ sig) = (Cert.Sage.meanC (V (main_arg0 : DevRef τ sig)) (V (main_arg2 : DevRef τ sig)) (V (main_arg3 : DevRef τ sig))) :=
  (val01 V)
theorem in02_main_arg0 (V : Valuation τ sig (Elt F)) : (W01 V) (main_arg0 : DevRef τ sig) = (V (main_arg0 : DevRef τ sig)) :=
  (K01_frame V main_arg0 (by decide))
theorem in02_main_arg8 (V : Valuation τ sig (Elt F)) : (W01 V) (main_arg8 : DevRef τ sig) = (V (main_arg8 : DevRef τ sig)) :=
  (K01_frame V main_arg8 (by decide))
theorem in02_main_arg9 (V : Valuation τ sig (Elt F)) : (W01 V) (main_arg9 : DevRef τ sig) = (V (main_arg9 : DevRef τ sig)) :=
  (K01_frame V main_arg9 (by decide))
theorem in02_main_arg10 (V : Valuation τ sig (Elt F)) : (W01 V) (main_arg10 : DevRef τ sig) = (V (main_arg10 : DevRef τ sig)) :=
  (K01_frame V main_arg10 (by decide))
/-- The result of stage 2 (sageP) in terms of the launch contents. -/
theorem val02 (V : Valuation τ sig (Elt F)) : (W02 V) (main_v23 : DevRef τ sig) = Cert.Sage.sageP (Cert.Sage.meanC (V (main_arg0 : DevRef τ sig)) (V (main_arg2 : DevRef τ sig)) (V (main_arg3 : DevRef τ sig))) (V (main_arg0 : DevRef τ sig)) (V (main_arg8 : DevRef τ sig)) (V (main_arg9 : DevRef τ sig)) (V (main_arg10 : DevRef τ sig)) :=
  (K02_res (W01 V)).trans (by rw [in02_main_v12 V, in02_main_arg0 V, in02_main_arg8 V, in02_main_arg9 V, in02_main_arg10 V])

theorem in03_main_arg1 (V : Valuation τ sig (Elt F)) : (W02 V) (main_arg1 : DevRef τ sig) = (V (main_arg1 : DevRef τ sig)) :=
  ((K02_frame (W01 V) main_arg1 (by decide)).trans (K01_frame V main_arg1 (by decide)))
theorem in03_main_arg4 (V : Valuation τ sig (Elt F)) : (W02 V) (main_arg4 : DevRef τ sig) = (V (main_arg4 : DevRef τ sig)) :=
  ((K02_frame (W01 V) main_arg4 (by decide)).trans (K01_frame V main_arg4 (by decide)))
theorem in03_main_arg5 (V : Valuation τ sig (Elt F)) : (W02 V) (main_arg5 : DevRef τ sig) = (V (main_arg5 : DevRef τ sig)) :=
  ((K02_frame (W01 V) main_arg5 (by decide)).trans (K01_frame V main_arg5 (by decide)))
/-- The result of stage 3 (meanW) in terms of the launch contents. -/
theorem val03 (V : Valuation τ sig (Elt F)) : (W03 V) (main_v36 : DevRef τ sig) = Cert.Sage.meanW (V (main_arg1 : DevRef τ sig)) (V (main_arg4 : DevRef τ sig)) (V (main_arg5 : DevRef τ sig)) :=
  (K03_res (W02 V)).trans (by rw [in03_main_arg1 V, in03_main_arg4 V, in03_main_arg5 V])

theorem in04_main_v36 (V : Valuation τ sig (Elt F)) : (W03 V) (main_v36 : DevRef τ sig) = (Cert.Sage.meanW (V (main_arg1 : DevRef τ sig)) (V (main_arg4 : DevRef τ sig)) (V (main_arg5 : DevRef τ sig))) :=
  (val03 V)
theorem in04_main_arg0 (V : Valuation τ sig (Elt F)) : (W03 V) (main_arg0 : DevRef τ sig) = (V (main_arg0 : DevRef τ sig)) :=
  ((K03_frame (W02 V) main_arg0 (by decide)).trans ((K02_frame (W01 V) main_arg0 (by decide)).trans (K01_frame V main_arg0 (by decide))))
theorem in04_main_arg11 (V : Valuation τ sig (Elt F)) : (W03 V) (main_arg11 : DevRef τ sig) = (V (main_arg11 : DevRef τ sig)) :=
  ((K03_frame (W02 V) main_arg11 (by decide)).trans ((K02_frame (W01 V) main_arg11 (by decide)).trans (K01_frame V main_arg11 (by decide))))
theorem in04_main_arg12 (V : Valuation τ sig (Elt F)) : (W03 V) (main_arg12 : DevRef τ sig) = (V (main_arg12 : DevRef τ sig)) :=
  ((K03_frame (W02 V) main_arg12 (by decide)).trans ((K02_frame (W01 V) main_arg12 (by decide)).trans (K01_frame V main_arg12 (by decide))))
theorem in04_main_arg13 (V : Valuation τ sig (Elt F)) : (W03 V) (main_arg13 : DevRef τ sig) = (V (main_arg13 : DevRef τ sig)) :=
  ((K03_frame (W02 V) main_arg13 (by decide)).trans ((K02_frame (W01 V) main_arg13 (by decide)).trans (K01_frame V main_arg13 (by decide))))
/-- The result of stage 4 (sageP) in terms of the launch contents. -/
theorem val04 (V : Valuation τ sig (Elt F)) : (W04 V) (main_v47 : DevRef τ sig) = Cert.Sage.sageP (Cert.Sage.meanW (V (main_arg1 : DevRef τ sig)) (V (main_arg4 : DevRef τ sig)) (V (main_arg5 : DevRef τ sig))) (V (main_arg0 : DevRef τ sig)) (V (main_arg11 : DevRef τ sig)) (V (main_arg12 : DevRef τ sig)) (V (main_arg13 : DevRef τ sig)) :=
  (K04_res (W03 V)).trans (by rw [in04_main_v36 V, in04_main_arg0 V, in04_main_arg11 V, in04_main_arg12 V, in04_main_arg13 V])

theorem in05_main_v23 (V : Valuation τ sig (Elt F)) : (W04 V) (main_v23 : DevRef τ sig) = (Cert.Sage.sageP (Cert.Sage.meanC (V (main_arg0 : DevRef τ sig)) (V (main_arg2 : DevRef τ sig)) (V (main_arg3 : DevRef τ sig))) (V (main_arg0 : DevRef τ sig)) (V (main_arg8 : DevRef τ sig)) (V (main_arg9 : DevRef τ sig)) (V (main_arg10 : DevRef τ sig))) :=
  ((K04_frame (W03 V) main_v23 (by decide)).trans ((K03_frame (W02 V) main_v23 (by decide)).trans (val02 V)))
theorem in05_main_v47 (V : Valuation τ sig (Elt F)) : (W04 V) (main_v47 : DevRef τ sig) = (Cert.Sage.sageP (Cert.Sage.meanW (V (main_arg1 : DevRef τ sig)) (V (main_arg4 : DevRef τ sig)) (V (main_arg5 : DevRef τ sig))) (V (main_arg0 : DevRef τ sig)) (V (main_arg11 : DevRef τ sig)) (V (main_arg12 : DevRef τ sig)) (V (main_arg13 : DevRef τ sig))) :=
  (val04 V)
/-- The result of stage 5 (halfSum) in terms of the launch contents. -/
theorem val05 (V : Valuation τ sig (Elt F)) : (W05 V) (main_v50 : DevRef τ sig) = Cert.Sage.halfSum (Cert.Sage.sageP (Cert.Sage.meanC (V (main_arg0 : DevRef τ sig)) (V (main_arg2 : DevRef τ sig)) (V (main_arg3 : DevRef τ sig))) (V (main_arg0 : DevRef τ sig)) (V (main_arg8 : DevRef τ sig)) (V (main_arg9 : DevRef τ sig)) (V (main_arg10 : DevRef τ sig))) (Cert.Sage.sageP (Cert.Sage.meanW (V (main_arg1 : DevRef τ sig)) (V (main_arg4 : DevRef τ sig)) (V (main_arg5 : DevRef τ sig))) (V (main_arg0 : DevRef τ sig)) (V (main_arg11 : DevRef τ sig)) (V (main_arg12 : DevRef τ sig)) (V (main_arg13 : DevRef τ sig))) :=
  (K05_res (W04 V)).trans (by rw [in05_main_v23 V, in05_main_v47 V])

theorem in06_main_arg0 (V : Valuation τ sig (Elt F)) : (W05 V) (main_arg0 : DevRef τ sig) = (V (main_arg0 : DevRef τ sig)) :=
  ((K05_frame (W04 V) main_arg0 (by decide)).trans ((K04_frame (W03 V) main_arg0 (by decide)).trans ((K03_frame (W02 V) main_arg0 (by decide)).trans ((K02_frame (W01 V) main_arg0 (by decide)).trans (K01_frame V main_arg0 (by decide))))))
theorem in06_main_arg6 (V : Valuation τ sig (Elt F)) : (W05 V) (main_arg6 : DevRef τ sig) = (V (main_arg6 : DevRef τ sig)) :=
  ((K05_frame (W04 V) main_arg6 (by decide)).trans ((K04_frame (W03 V) main_arg6 (by decide)).trans ((K03_frame (W02 V) main_arg6 (by decide)).trans ((K02_frame (W01 V) main_arg6 (by decide)).trans (K01_frame V main_arg6 (by decide))))))
theorem in06_main_arg7 (V : Valuation τ sig (Elt F)) : (W05 V) (main_arg7 : DevRef τ sig) = (V (main_arg7 : DevRef τ sig)) :=
  ((K05_frame (W04 V) main_arg7 (by decide)).trans ((K04_frame (W03 V) main_arg7 (by decide)).trans ((K03_frame (W02 V) main_arg7 (by decide)).trans ((K02_frame (W01 V) main_arg7 (by decide)).trans (K01_frame V main_arg7 (by decide))))))
/-- The result of stage 6 (meanR) in terms of the launch contents. -/
theorem val06 (V : Valuation τ sig (Elt F)) : (W06 V) (main_v63 : DevRef τ sig) = Cert.Sage.meanR (V (main_arg0 : DevRef τ sig)) (V (main_arg6 : DevRef τ sig)) (V (main_arg7 : DevRef τ sig)) :=
  (K06_res (W05 V)).trans (by rw [in06_main_arg0 V, in06_main_arg6 V, in06_main_arg7 V])

theorem in07_main_v63 (V : Valuation τ sig (Elt F)) : (W06 V) (main_v63 : DevRef τ sig) = (Cert.Sage.meanR (V (main_arg0 : DevRef τ sig)) (V (main_arg6 : DevRef τ sig)) (V (main_arg7 : DevRef τ sig))) :=
  (val06 V)
theorem in07_main_arg1 (V : Valuation τ sig (Elt F)) : (W06 V) (main_arg1 : DevRef τ sig) = (V (main_arg1 : DevRef τ sig)) :=
  ((K06_frame (W05 V) main_arg1 (by decide)).trans ((K05_frame (W04 V) main_arg1 (by decide)).trans ((K04_frame (W03 V) main_arg1 (by decide)).trans ((K03_frame (W02 V) main_arg1 (by decide)).trans ((K02_frame (W01 V) main_arg1 (by decide)).trans (K01_frame V main_arg1 (by decide)))))))
theorem in07_main_arg14 (V : Valuation τ sig (Elt F)) : (W06 V) (main_arg14 : DevRef τ sig) = (V (main_arg14 : DevRef τ sig)) :=
  ((K06_frame (W05 V) main_arg14 (by decide)).trans ((K05_frame (W04 V) main_arg14 (by decide)).trans ((K04_frame (W03 V) main_arg14 (by decide)).trans ((K03_frame (W02 V) main_arg14 (by decide)).trans ((K02_frame (W01 V) main_arg14 (by decide)).trans (K01_frame V main_arg14 (by decide)))))))
theorem in07_main_arg15 (V : Valuation τ sig (Elt F)) : (W06 V) (main_arg15 : DevRef τ sig) = (V (main_arg15 : DevRef τ sig)) :=
  ((K06_frame (W05 V) main_arg15 (by decide)).trans ((K05_frame (W04 V) main_arg15 (by decide)).trans ((K04_frame (W03 V) main_arg15 (by decide)).trans ((K03_frame (W02 V) main_arg15 (by decide)).trans ((K02_frame (W01 V) main_arg15 (by decide)).trans (K01_frame V main_arg15 (by decide)))))))
theorem in07_main_arg16 (V : Valuation τ sig (Elt F)) : (W06 V) (main_arg16 : DevRef τ sig) = (V (main_arg16 : DevRef τ sig)) :=
  ((K06_frame (W05 V) main_arg16 (by decide)).trans ((K05_frame (W04 V) main_arg16 (by decide)).trans ((K04_frame (W03 V) main_arg16 (by decide)).trans ((K03_frame (W02 V) main_arg16 (by decide)).trans ((K02_frame (W01 V) main_arg16 (by decide)).trans (K01_frame V main_arg16 (by decide)))))))
/-- The result of stage 7 (sageA) in terms of the launch contents. -/
theorem val07 (V : Valuation τ sig (Elt F)) : (W07 V) (main_v74 : DevRef τ sig) = Cert.Sage.sageA (Cert.Sage.meanR (V (main_arg0 : DevRef τ sig)) (V (main_arg6 : DevRef τ sig)) (V (main_arg7 : DevRef τ sig))) (V (main_arg1 : DevRef τ sig)) (V (main_arg14 : DevRef τ sig)) (V (main_arg15 : DevRef τ sig)) (V (main_arg16 : DevRef τ sig)) :=
  (K07_res (W06 V)).trans (by rw [in07_main_v63 V, in07_main_arg1 V, in07_main_arg14 V, in07_main_arg15 V, in07_main_arg16 V])

theorem in08_main_v50 (V : Valuation τ sig (Elt F)) : (W07 V) (main_v50 : DevRef τ sig) = (Cert.Sage.halfSum (Cert.Sage.sageP (Cert.Sage.meanC (V (main_arg0 : DevRef τ sig)) (V (main_arg2 : DevRef τ sig)) (V (main_arg3 : DevRef τ sig))) (V (main_arg0 : DevRef τ sig)) (V (main_arg8 : DevRef τ sig)) (V (main_arg9 : DevRef τ sig)) (V (main_arg10 : DevRef τ sig))) (Cert.Sage.sageP (Cert.Sage.meanW (V (main_arg1 : DevRef τ sig)) (V (main_arg4 : DevRef τ sig)) (V (main_arg5 : DevRef τ sig))) (V (main_arg0 : DevRef τ sig)) (V (main_arg11 : DevRef τ sig)) (V (main_arg12 : DevRef τ sig)) (V (main_arg13 : DevRef τ sig)))) :=
  ((K07_frame (W06 V) main_v50 (by decide)).trans ((K06_frame (W05 V) main_v50 (by decide)).trans (val05 V)))
/-- The result of stage 8 (reluP) in terms of the launch contents. -/
theorem val08_raw (V : Valuation τ sig (Elt F)) : (W08 V) (main_v75 : DevRef τ sig) = Cert.Sage.reluP (Cert.Sage.halfSum (Cert.Sage.sageP (Cert.Sage.meanC (V (main_arg0 : DevRef τ sig)) (V (main_arg2 : DevRef τ sig)) (V (main_arg3 : DevRef τ sig))) (V (main_arg0 : DevRef τ sig)) (V (main_arg8 : DevRef τ sig)) (V (main_arg9 : DevRef τ sig)) (V (main_arg10 : DevRef τ sig))) (Cert.Sage.sageP (Cert.Sage.meanW (V (main_arg1 : DevRef τ sig)) (V (main_arg4 : DevRef τ sig)) (V (main_arg5 : DevRef τ sig))) (V (main_arg0 : DevRef τ sig)) (V (main_arg11 : DevRef τ sig)) (V (main_arg12 : DevRef τ sig)) (V (main_arg13 : DevRef τ sig)))) :=
  (K08_res (W07 V)).trans (by rw [in08_main_v50 V])
theorem val08 (V : Valuation τ sig (Elt F)) : (W08 V) (main_v75 : DevRef τ sig) = (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  (val08_raw V).trans rfl

theorem in09_main_v74 (V : Valuation τ sig (Elt F)) : (W08 V) (main_v74 : DevRef τ sig) = (Cert.Sage.sageA (Cert.Sage.meanR (V (main_arg0 : DevRef τ sig)) (V (main_arg6 : DevRef τ sig)) (V (main_arg7 : DevRef τ sig))) (V (main_arg1 : DevRef τ sig)) (V (main_arg14 : DevRef τ sig)) (V (main_arg15 : DevRef τ sig)) (V (main_arg16 : DevRef τ sig))) :=
  ((K08_frame (W07 V) main_v74 (by decide)).trans (val07 V))
/-- The result of stage 9 (reluA) in terms of the launch contents. -/
theorem val09_raw (V : Valuation τ sig (Elt F)) : (W09 V) (main_v76 : DevRef τ sig) = Cert.Sage.reluA (Cert.Sage.sageA (Cert.Sage.meanR (V (main_arg0 : DevRef τ sig)) (V (main_arg6 : DevRef τ sig)) (V (main_arg7 : DevRef τ sig))) (V (main_arg1 : DevRef τ sig)) (V (main_arg14 : DevRef τ sig)) (V (main_arg15 : DevRef τ sig)) (V (main_arg16 : DevRef τ sig))) :=
  (K09_res (W08 V)).trans (by rw [in09_main_v74 V])
theorem val09 (V : Valuation τ sig (Elt F)) : (W09 V) (main_v76 : DevRef τ sig) = (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  (val09_raw V).trans rfl

theorem in10_main_v75 (V : Valuation τ sig (Elt F)) : (W09 V) (main_v75 : DevRef τ sig) = (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K09_frame (W08 V) main_v75 (by decide)).trans (val08 V))
theorem in10_main_arg2 (V : Valuation τ sig (Elt F)) : (W09 V) (main_arg2 : DevRef τ sig) = (V (main_arg2 : DevRef τ sig)) :=
  ((K09_frame (W08 V) main_arg2 (by decide)).trans ((K08_frame (W07 V) main_arg2 (by decide)).trans ((K07_frame (W06 V) main_arg2 (by decide)).trans ((K06_frame (W05 V) main_arg2 (by decide)).trans ((K05_frame (W04 V) main_arg2 (by decide)).trans ((K04_frame (W03 V) main_arg2 (by decide)).trans ((K03_frame (W02 V) main_arg2 (by decide)).trans ((K02_frame (W01 V) main_arg2 (by decide)).trans (K01_frame V main_arg2 (by decide))))))))))
theorem in10_main_arg3 (V : Valuation τ sig (Elt F)) : (W09 V) (main_arg3 : DevRef τ sig) = (V (main_arg3 : DevRef τ sig)) :=
  ((K09_frame (W08 V) main_arg3 (by decide)).trans ((K08_frame (W07 V) main_arg3 (by decide)).trans ((K07_frame (W06 V) main_arg3 (by decide)).trans ((K06_frame (W05 V) main_arg3 (by decide)).trans ((K05_frame (W04 V) main_arg3 (by decide)).trans ((K04_frame (W03 V) main_arg3 (by decide)).trans ((K03_frame (W02 V) main_arg3 (by decide)).trans ((K02_frame (W01 V) main_arg3 (by decide)).trans (K01_frame V main_arg3 (by decide))))))))))
/-- The result of stage 10 (meanC) in terms of the launch contents. -/
theorem val10 (V : Valuation τ sig (Elt F)) : (W10 V) (main_v89 : DevRef τ sig) = Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig)) :=
  (K10_res (W09 V)).trans (by rw [in10_main_v75 V, in10_main_arg2 V, in10_main_arg3 V])

theorem in11_main_v89 (V : Valuation τ sig (Elt F)) : (W10 V) (main_v89 : DevRef τ sig) = (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) :=
  (val10 V)
theorem in11_main_v75 (V : Valuation τ sig (Elt F)) : (W10 V) (main_v75 : DevRef τ sig) = (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K10_frame (W09 V) main_v75 (by decide)).trans ((K09_frame (W08 V) main_v75 (by decide)).trans (val08 V)))
theorem in11_main_arg17 (V : Valuation τ sig (Elt F)) : (W10 V) (main_arg17 : DevRef τ sig) = (V (main_arg17 : DevRef τ sig)) :=
  ((K10_frame (W09 V) main_arg17 (by decide)).trans ((K09_frame (W08 V) main_arg17 (by decide)).trans ((K08_frame (W07 V) main_arg17 (by decide)).trans ((K07_frame (W06 V) main_arg17 (by decide)).trans ((K06_frame (W05 V) main_arg17 (by decide)).trans ((K05_frame (W04 V) main_arg17 (by decide)).trans ((K04_frame (W03 V) main_arg17 (by decide)).trans ((K03_frame (W02 V) main_arg17 (by decide)).trans ((K02_frame (W01 V) main_arg17 (by decide)).trans (K01_frame V main_arg17 (by decide)))))))))))
theorem in11_main_arg18 (V : Valuation τ sig (Elt F)) : (W10 V) (main_arg18 : DevRef τ sig) = (V (main_arg18 : DevRef τ sig)) :=
  ((K10_frame (W09 V) main_arg18 (by decide)).trans ((K09_frame (W08 V) main_arg18 (by decide)).trans ((K08_frame (W07 V) main_arg18 (by decide)).trans ((K07_frame (W06 V) main_arg18 (by decide)).trans ((K06_frame (W05 V) main_arg18 (by decide)).trans ((K05_frame (W04 V) main_arg18 (by decide)).trans ((K04_frame (W03 V) main_arg18 (by decide)).trans ((K03_frame (W02 V) main_arg18 (by decide)).trans ((K02_frame (W01 V) main_arg18 (by decide)).trans (K01_frame V main_arg18 (by decide)))))))))))
theorem in11_main_arg19 (V : Valuation τ sig (Elt F)) : (W10 V) (main_arg19 : DevRef τ sig) = (V (main_arg19 : DevRef τ sig)) :=
  ((K10_frame (W09 V) main_arg19 (by decide)).trans ((K09_frame (W08 V) main_arg19 (by decide)).trans ((K08_frame (W07 V) main_arg19 (by decide)).trans ((K07_frame (W06 V) main_arg19 (by decide)).trans ((K06_frame (W05 V) main_arg19 (by decide)).trans ((K05_frame (W04 V) main_arg19 (by decide)).trans ((K04_frame (W03 V) main_arg19 (by decide)).trans ((K03_frame (W02 V) main_arg19 (by decide)).trans ((K02_frame (W01 V) main_arg19 (by decide)).trans (K01_frame V main_arg19 (by decide)))))))))))
/-- The result of stage 11 (sageP) in terms of the launch contents. -/
theorem val11 (V : Valuation τ sig (Elt F)) : (W11 V) (main_v100 : DevRef τ sig) = Cert.Sage.sageP (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg17 : DevRef τ sig)) (V (main_arg18 : DevRef τ sig)) (V (main_arg19 : DevRef τ sig)) :=
  (K11_res (W10 V)).trans (by rw [in11_main_v89 V, in11_main_v75 V, in11_main_arg17 V, in11_main_arg18 V, in11_main_arg19 V])

theorem in12_main_v76 (V : Valuation τ sig (Elt F)) : (W11 V) (main_v76 : DevRef τ sig) = (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K11_frame (W10 V) main_v76 (by decide)).trans ((K10_frame (W09 V) main_v76 (by decide)).trans (val09 V)))
theorem in12_main_arg4 (V : Valuation τ sig (Elt F)) : (W11 V) (main_arg4 : DevRef τ sig) = (V (main_arg4 : DevRef τ sig)) :=
  ((K11_frame (W10 V) main_arg4 (by decide)).trans ((K10_frame (W09 V) main_arg4 (by decide)).trans ((K09_frame (W08 V) main_arg4 (by decide)).trans ((K08_frame (W07 V) main_arg4 (by decide)).trans ((K07_frame (W06 V) main_arg4 (by decide)).trans ((K06_frame (W05 V) main_arg4 (by decide)).trans ((K05_frame (W04 V) main_arg4 (by decide)).trans ((K04_frame (W03 V) main_arg4 (by decide)).trans ((K03_frame (W02 V) main_arg4 (by decide)).trans ((K02_frame (W01 V) main_arg4 (by decide)).trans (K01_frame V main_arg4 (by decide))))))))))))
theorem in12_main_arg5 (V : Valuation τ sig (Elt F)) : (W11 V) (main_arg5 : DevRef τ sig) = (V (main_arg5 : DevRef τ sig)) :=
  ((K11_frame (W10 V) main_arg5 (by decide)).trans ((K10_frame (W09 V) main_arg5 (by decide)).trans ((K09_frame (W08 V) main_arg5 (by decide)).trans ((K08_frame (W07 V) main_arg5 (by decide)).trans ((K07_frame (W06 V) main_arg5 (by decide)).trans ((K06_frame (W05 V) main_arg5 (by decide)).trans ((K05_frame (W04 V) main_arg5 (by decide)).trans ((K04_frame (W03 V) main_arg5 (by decide)).trans ((K03_frame (W02 V) main_arg5 (by decide)).trans ((K02_frame (W01 V) main_arg5 (by decide)).trans (K01_frame V main_arg5 (by decide))))))))))))
/-- The result of stage 12 (meanW) in terms of the launch contents. -/
theorem val12 (V : Valuation τ sig (Elt F)) : (W12 V) (main_v113 : DevRef τ sig) = Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig)) :=
  (K12_res (W11 V)).trans (by rw [in12_main_v76 V, in12_main_arg4 V, in12_main_arg5 V])

theorem in13_main_v113 (V : Valuation τ sig (Elt F)) : (W12 V) (main_v113 : DevRef τ sig) = (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) :=
  (val12 V)
theorem in13_main_v75 (V : Valuation τ sig (Elt F)) : (W12 V) (main_v75 : DevRef τ sig) = (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K12_frame (W11 V) main_v75 (by decide)).trans ((K11_frame (W10 V) main_v75 (by decide)).trans ((K10_frame (W09 V) main_v75 (by decide)).trans ((K09_frame (W08 V) main_v75 (by decide)).trans (val08 V)))))
theorem in13_main_arg20 (V : Valuation τ sig (Elt F)) : (W12 V) (main_arg20 : DevRef τ sig) = (V (main_arg20 : DevRef τ sig)) :=
  ((K12_frame (W11 V) main_arg20 (by decide)).trans ((K11_frame (W10 V) main_arg20 (by decide)).trans ((K10_frame (W09 V) main_arg20 (by decide)).trans ((K09_frame (W08 V) main_arg20 (by decide)).trans ((K08_frame (W07 V) main_arg20 (by decide)).trans ((K07_frame (W06 V) main_arg20 (by decide)).trans ((K06_frame (W05 V) main_arg20 (by decide)).trans ((K05_frame (W04 V) main_arg20 (by decide)).trans ((K04_frame (W03 V) main_arg20 (by decide)).trans ((K03_frame (W02 V) main_arg20 (by decide)).trans ((K02_frame (W01 V) main_arg20 (by decide)).trans (K01_frame V main_arg20 (by decide)))))))))))))
theorem in13_main_arg21 (V : Valuation τ sig (Elt F)) : (W12 V) (main_arg21 : DevRef τ sig) = (V (main_arg21 : DevRef τ sig)) :=
  ((K12_frame (W11 V) main_arg21 (by decide)).trans ((K11_frame (W10 V) main_arg21 (by decide)).trans ((K10_frame (W09 V) main_arg21 (by decide)).trans ((K09_frame (W08 V) main_arg21 (by decide)).trans ((K08_frame (W07 V) main_arg21 (by decide)).trans ((K07_frame (W06 V) main_arg21 (by decide)).trans ((K06_frame (W05 V) main_arg21 (by decide)).trans ((K05_frame (W04 V) main_arg21 (by decide)).trans ((K04_frame (W03 V) main_arg21 (by decide)).trans ((K03_frame (W02 V) main_arg21 (by decide)).trans ((K02_frame (W01 V) main_arg21 (by decide)).trans (K01_frame V main_arg21 (by decide)))))))))))))
theorem in13_main_arg22 (V : Valuation τ sig (Elt F)) : (W12 V) (main_arg22 : DevRef τ sig) = (V (main_arg22 : DevRef τ sig)) :=
  ((K12_frame (W11 V) main_arg22 (by decide)).trans ((K11_frame (W10 V) main_arg22 (by decide)).trans ((K10_frame (W09 V) main_arg22 (by decide)).trans ((K09_frame (W08 V) main_arg22 (by decide)).trans ((K08_frame (W07 V) main_arg22 (by decide)).trans ((K07_frame (W06 V) main_arg22 (by decide)).trans ((K06_frame (W05 V) main_arg22 (by decide)).trans ((K05_frame (W04 V) main_arg22 (by decide)).trans ((K04_frame (W03 V) main_arg22 (by decide)).trans ((K03_frame (W02 V) main_arg22 (by decide)).trans ((K02_frame (W01 V) main_arg22 (by decide)).trans (K01_frame V main_arg22 (by decide)))))))))))))
/-- The result of stage 13 (sageP) in terms of the launch contents. -/
theorem val13 (V : Valuation τ sig (Elt F)) : (W13 V) (main_v124 : DevRef τ sig) = Cert.Sage.sageP (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg20 : DevRef τ sig)) (V (main_arg21 : DevRef τ sig)) (V (main_arg22 : DevRef τ sig)) :=
  (K13_res (W12 V)).trans (by rw [in13_main_v113 V, in13_main_v75 V, in13_main_arg20 V, in13_main_arg21 V, in13_main_arg22 V])

theorem in14_main_v100 (V : Valuation τ sig (Elt F)) : (W13 V) (main_v100 : DevRef τ sig) = (Cert.Sage.sageP (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg17 : DevRef τ sig)) (V (main_arg18 : DevRef τ sig)) (V (main_arg19 : DevRef τ sig))) :=
  ((K13_frame (W12 V) main_v100 (by decide)).trans ((K12_frame (W11 V) main_v100 (by decide)).trans (val11 V)))
theorem in14_main_v124 (V : Valuation τ sig (Elt F)) : (W13 V) (main_v124 : DevRef τ sig) = (Cert.Sage.sageP (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg20 : DevRef τ sig)) (V (main_arg21 : DevRef τ sig)) (V (main_arg22 : DevRef τ sig))) :=
  (val13 V)
/-- The result of stage 14 (halfSum) in terms of the launch contents. -/
theorem val14 (V : Valuation τ sig (Elt F)) : (W14 V) (main_v127 : DevRef τ sig) = Cert.Sage.halfSum (Cert.Sage.sageP (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg17 : DevRef τ sig)) (V (main_arg18 : DevRef τ sig)) (V (main_arg19 : DevRef τ sig))) (Cert.Sage.sageP (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg20 : DevRef τ sig)) (V (main_arg21 : DevRef τ sig)) (V (main_arg22 : DevRef τ sig))) :=
  (K14_res (W13 V)).trans (by rw [in14_main_v100 V, in14_main_v124 V])

theorem in15_main_v75 (V : Valuation τ sig (Elt F)) : (W14 V) (main_v75 : DevRef τ sig) = (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K14_frame (W13 V) main_v75 (by decide)).trans ((K13_frame (W12 V) main_v75 (by decide)).trans ((K12_frame (W11 V) main_v75 (by decide)).trans ((K11_frame (W10 V) main_v75 (by decide)).trans ((K10_frame (W09 V) main_v75 (by decide)).trans ((K09_frame (W08 V) main_v75 (by decide)).trans (val08 V)))))))
theorem in15_main_arg6 (V : Valuation τ sig (Elt F)) : (W14 V) (main_arg6 : DevRef τ sig) = (V (main_arg6 : DevRef τ sig)) :=
  ((K14_frame (W13 V) main_arg6 (by decide)).trans ((K13_frame (W12 V) main_arg6 (by decide)).trans ((K12_frame (W11 V) main_arg6 (by decide)).trans ((K11_frame (W10 V) main_arg6 (by decide)).trans ((K10_frame (W09 V) main_arg6 (by decide)).trans ((K09_frame (W08 V) main_arg6 (by decide)).trans ((K08_frame (W07 V) main_arg6 (by decide)).trans ((K07_frame (W06 V) main_arg6 (by decide)).trans ((K06_frame (W05 V) main_arg6 (by decide)).trans ((K05_frame (W04 V) main_arg6 (by decide)).trans ((K04_frame (W03 V) main_arg6 (by decide)).trans ((K03_frame (W02 V) main_arg6 (by decide)).trans ((K02_frame (W01 V) main_arg6 (by decide)).trans (K01_frame V main_arg6 (by decide)))))))))))))))
theorem in15_main_arg7 (V : Valuation τ sig (Elt F)) : (W14 V) (main_arg7 : DevRef τ sig) = (V (main_arg7 : DevRef τ sig)) :=
  ((K14_frame (W13 V) main_arg7 (by decide)).trans ((K13_frame (W12 V) main_arg7 (by decide)).trans ((K12_frame (W11 V) main_arg7 (by decide)).trans ((K11_frame (W10 V) main_arg7 (by decide)).trans ((K10_frame (W09 V) main_arg7 (by decide)).trans ((K09_frame (W08 V) main_arg7 (by decide)).trans ((K08_frame (W07 V) main_arg7 (by decide)).trans ((K07_frame (W06 V) main_arg7 (by decide)).trans ((K06_frame (W05 V) main_arg7 (by decide)).trans ((K05_frame (W04 V) main_arg7 (by decide)).trans ((K04_frame (W03 V) main_arg7 (by decide)).trans ((K03_frame (W02 V) main_arg7 (by decide)).trans ((K02_frame (W01 V) main_arg7 (by decide)).trans (K01_frame V main_arg7 (by decide)))))))))))))))
/-- The result of stage 15 (meanR) in terms of the launch contents. -/
theorem val15 (V : Valuation τ sig (Elt F)) : (W15 V) (main_v140 : DevRef τ sig) = Cert.Sage.meanR (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg6 : DevRef τ sig)) (V (main_arg7 : DevRef τ sig)) :=
  (K15_res (W14 V)).trans (by rw [in15_main_v75 V, in15_main_arg6 V, in15_main_arg7 V])

theorem in16_main_v140 (V : Valuation τ sig (Elt F)) : (W15 V) (main_v140 : DevRef τ sig) = (Cert.Sage.meanR (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg6 : DevRef τ sig)) (V (main_arg7 : DevRef τ sig))) :=
  (val15 V)
theorem in16_main_v76 (V : Valuation τ sig (Elt F)) : (W15 V) (main_v76 : DevRef τ sig) = (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) :=
  ((K15_frame (W14 V) main_v76 (by decide)).trans ((K14_frame (W13 V) main_v76 (by decide)).trans ((K13_frame (W12 V) main_v76 (by decide)).trans ((K12_frame (W11 V) main_v76 (by decide)).trans ((K11_frame (W10 V) main_v76 (by decide)).trans ((K10_frame (W09 V) main_v76 (by decide)).trans (val09 V)))))))
theorem in16_main_arg23 (V : Valuation τ sig (Elt F)) : (W15 V) (main_arg23 : DevRef τ sig) = (V (main_arg23 : DevRef τ sig)) :=
  ((K15_frame (W14 V) main_arg23 (by decide)).trans ((K14_frame (W13 V) main_arg23 (by decide)).trans ((K13_frame (W12 V) main_arg23 (by decide)).trans ((K12_frame (W11 V) main_arg23 (by decide)).trans ((K11_frame (W10 V) main_arg23 (by decide)).trans ((K10_frame (W09 V) main_arg23 (by decide)).trans ((K09_frame (W08 V) main_arg23 (by decide)).trans ((K08_frame (W07 V) main_arg23 (by decide)).trans ((K07_frame (W06 V) main_arg23 (by decide)).trans ((K06_frame (W05 V) main_arg23 (by decide)).trans ((K05_frame (W04 V) main_arg23 (by decide)).trans ((K04_frame (W03 V) main_arg23 (by decide)).trans ((K03_frame (W02 V) main_arg23 (by decide)).trans ((K02_frame (W01 V) main_arg23 (by decide)).trans (K01_frame V main_arg23 (by decide))))))))))))))))
theorem in16_main_arg24 (V : Valuation τ sig (Elt F)) : (W15 V) (main_arg24 : DevRef τ sig) = (V (main_arg24 : DevRef τ sig)) :=
  ((K15_frame (W14 V) main_arg24 (by decide)).trans ((K14_frame (W13 V) main_arg24 (by decide)).trans ((K13_frame (W12 V) main_arg24 (by decide)).trans ((K12_frame (W11 V) main_arg24 (by decide)).trans ((K11_frame (W10 V) main_arg24 (by decide)).trans ((K10_frame (W09 V) main_arg24 (by decide)).trans ((K09_frame (W08 V) main_arg24 (by decide)).trans ((K08_frame (W07 V) main_arg24 (by decide)).trans ((K07_frame (W06 V) main_arg24 (by decide)).trans ((K06_frame (W05 V) main_arg24 (by decide)).trans ((K05_frame (W04 V) main_arg24 (by decide)).trans ((K04_frame (W03 V) main_arg24 (by decide)).trans ((K03_frame (W02 V) main_arg24 (by decide)).trans ((K02_frame (W01 V) main_arg24 (by decide)).trans (K01_frame V main_arg24 (by decide))))))))))))))))
theorem in16_main_arg25 (V : Valuation τ sig (Elt F)) : (W15 V) (main_arg25 : DevRef τ sig) = (V (main_arg25 : DevRef τ sig)) :=
  ((K15_frame (W14 V) main_arg25 (by decide)).trans ((K14_frame (W13 V) main_arg25 (by decide)).trans ((K13_frame (W12 V) main_arg25 (by decide)).trans ((K12_frame (W11 V) main_arg25 (by decide)).trans ((K11_frame (W10 V) main_arg25 (by decide)).trans ((K10_frame (W09 V) main_arg25 (by decide)).trans ((K09_frame (W08 V) main_arg25 (by decide)).trans ((K08_frame (W07 V) main_arg25 (by decide)).trans ((K07_frame (W06 V) main_arg25 (by decide)).trans ((K06_frame (W05 V) main_arg25 (by decide)).trans ((K05_frame (W04 V) main_arg25 (by decide)).trans ((K04_frame (W03 V) main_arg25 (by decide)).trans ((K03_frame (W02 V) main_arg25 (by decide)).trans ((K02_frame (W01 V) main_arg25 (by decide)).trans (K01_frame V main_arg25 (by decide))))))))))))))))
/-- The result of stage 16 (sageA) in terms of the launch contents. -/
theorem val16 (V : Valuation τ sig (Elt F)) : (W16 V) (main_v151 : DevRef τ sig) = Cert.Sage.sageA (Cert.Sage.meanR (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg6 : DevRef τ sig)) (V (main_arg7 : DevRef τ sig))) (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg23 : DevRef τ sig)) (V (main_arg24 : DevRef τ sig)) (V (main_arg25 : DevRef τ sig)) :=
  (K16_res (W15 V)).trans (by rw [in16_main_v140 V, in16_main_v76 V, in16_main_arg23 V, in16_main_arg24 V, in16_main_arg25 V])

theorem in17_main_v127 (V : Valuation τ sig (Elt F)) : (W16 V) (main_v127 : DevRef τ sig) = (Cert.Sage.halfSum (Cert.Sage.sageP (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg17 : DevRef τ sig)) (V (main_arg18 : DevRef τ sig)) (V (main_arg19 : DevRef τ sig))) (Cert.Sage.sageP (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg20 : DevRef τ sig)) (V (main_arg21 : DevRef τ sig)) (V (main_arg22 : DevRef τ sig)))) :=
  ((K16_frame (W15 V) main_v127 (by decide)).trans ((K15_frame (W14 V) main_v127 (by decide)).trans (val14 V)))
/-- The result of stage 17 (reluP) in terms of the launch contents. -/
theorem val17 (V : Valuation τ sig (Elt F)) : (W17 V) (main_v152 : DevRef τ sig) = Cert.Sage.reluP (Cert.Sage.halfSum (Cert.Sage.sageP (Cert.Sage.meanC (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg2 : DevRef τ sig)) (V (main_arg3 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg17 : DevRef τ sig)) (V (main_arg18 : DevRef τ sig)) (V (main_arg19 : DevRef τ sig))) (Cert.Sage.sageP (Cert.Sage.meanW (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg4 : DevRef τ sig)) (V (main_arg5 : DevRef τ sig))) (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg20 : DevRef τ sig)) (V (main_arg21 : DevRef τ sig)) (V (main_arg22 : DevRef τ sig)))) :=
  (K17_res (W16 V)).trans (by rw [in17_main_v127 V])

theorem in18_main_v151 (V : Valuation τ sig (Elt F)) : (W17 V) (main_v151 : DevRef τ sig) = (Cert.Sage.sageA (Cert.Sage.meanR (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg6 : DevRef τ sig)) (V (main_arg7 : DevRef τ sig))) (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg23 : DevRef τ sig)) (V (main_arg24 : DevRef τ sig)) (V (main_arg25 : DevRef τ sig))) :=
  ((K17_frame (W16 V) main_v151 (by decide)).trans (val16 V))
/-- The result of stage 18 (reluA) in terms of the launch contents. -/
theorem val18 (V : Valuation τ sig (Elt F)) : (W18 V) (main_v153 : DevRef τ sig) = Cert.Sage.reluA (Cert.Sage.sageA (Cert.Sage.meanR (Cert.Sage.xp1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg6 : DevRef τ sig)) (V (main_arg7 : DevRef τ sig))) (Cert.Sage.xa1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) (V (main_arg23 : DevRef τ sig)) (V (main_arg24 : DevRef τ sig)) (V (main_arg25 : DevRef τ sig))) :=
  (K18_res (W17 V)).trans (by rw [in18_main_v151 V])

/-- The first result after the whole line. -/
theorem out0_eq (V : Valuation τ sig (Elt F)) : after ops V (main_v152 : DevRef τ sig) = Cert.Sage.out0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) := by
  rw [after_ops]
  exact ((K18_frame (W17 V) main_v152 (by decide)).trans (val17 V)).trans rfl

/-- The second result after the whole line. -/
theorem out1_eq (V : Valuation τ sig (Elt F)) : after ops V (main_v153 : DevRef τ sig) = Cert.Sage.out1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) := by
  rw [after_ops]
  exact (val18 V).trans rfl

/-- No operation writes an argument. -/
theorem arg0_eq (V : Valuation τ sig (Elt F)) : after ops V (main_arg0 : DevRef τ sig) = V (main_arg0 : DevRef τ sig) := by
  rw [after_ops]
  exact ((K18_frame (W17 V) main_arg0 (by decide)).trans ((K17_frame (W16 V) main_arg0 (by decide)).trans ((K16_frame (W15 V) main_arg0 (by decide)).trans ((K15_frame (W14 V) main_arg0 (by decide)).trans ((K14_frame (W13 V) main_arg0 (by decide)).trans ((K13_frame (W12 V) main_arg0 (by decide)).trans ((K12_frame (W11 V) main_arg0 (by decide)).trans ((K11_frame (W10 V) main_arg0 (by decide)).trans ((K10_frame (W09 V) main_arg0 (by decide)).trans ((K09_frame (W08 V) main_arg0 (by decide)).trans ((K08_frame (W07 V) main_arg0 (by decide)).trans ((K07_frame (W06 V) main_arg0 (by decide)).trans ((K06_frame (W05 V) main_arg0 (by decide)).trans ((K05_frame (W04 V) main_arg0 (by decide)).trans ((K04_frame (W03 V) main_arg0 (by decide)).trans ((K03_frame (W02 V) main_arg0 (by decide)).trans ((K02_frame (W01 V) main_arg0 (by decide)).trans (K01_frame V main_arg0 (by decide)))))))))))))))))))
theorem arg1_eq (V : Valuation τ sig (Elt F)) : after ops V (main_arg1 : DevRef τ sig) = V (main_arg1 : DevRef τ sig) := by
  rw [after_ops]
  exact ((K18_frame (W17 V) main_arg1 (by decide)).trans ((K17_frame (W16 V) main_arg1 (by decide)).trans ((K16_frame (W15 V) main_arg1 (by decide)).trans ((K15_frame (W14 V) main_arg1 (by decide)).trans ((K14_frame (W13 V) main_arg1 (by decide)).trans ((K13_frame (W12 V) main_arg1 (by decide)).trans ((K12_frame (W11 V) main_arg1 (by decide)).trans ((K11_frame (W10 V) main_arg1 (by decide)).trans ((K10_frame (W09 V) main_arg1 (by decide)).trans ((K09_frame (W08 V) main_arg1 (by decide)).trans ((K08_frame (W07 V) main_arg1 (by decide)).trans ((K07_frame (W06 V) main_arg1 (by decide)).trans ((K06_frame (W05 V) main_arg1 (by decide)).trans ((K05_frame (W04 V) main_arg1 (by decide)).trans ((K04_frame (W03 V) main_arg1 (by decide)).trans ((K03_frame (W02 V) main_arg1 (by decide)).trans ((K02_frame (W01 V) main_arg1 (by decide)).trans (K01_frame V main_arg1 (by decide)))))))))))))))))))
theorem arg2_eq (V : Valuation τ sig (Elt F)) : after ops V (main_arg2 : DevRef τ sig) = V (main_arg2 : DevRef τ sig) := by
  rw [after_ops]
  exact ((K18_frame (W17 V) main_arg2 (by decide)).trans ((K17_frame (W16 V) main_arg2 (by decide)).trans ((K16_frame (W15 V) main_arg2 (by decide)).trans ((K15_frame (W14 V) main_arg2 (by decide)).trans ((K14_frame (W13 V) main_arg2 (by decide)).trans ((K13_frame (W12 V) main_arg2 (by decide)).trans ((K12_frame (W11 V) main_arg2 (by decide)).trans ((K11_frame (W10 V) main_arg2 (by decide)).trans ((K10_frame (W09 V) main_arg2 (by decide)).trans ((K09_frame (W08 V) main_arg2 (by decide)).trans ((K08_frame (W07 V) main_arg2 (by decide)).trans ((K07_frame (W06 V) main_arg2 (by decide)).trans ((K06_frame (W05 V) main_arg2 (by decide)).trans ((K05_frame (W04 V) main_arg2 (by decide)).trans ((K04_frame (W03 V) main_arg2 (by decide)).trans ((K03_frame (W02 V) main_arg2 (by decide)).trans ((K02_frame (W01 V) main_arg2 (by decide)).trans (K01_frame V main_arg2 (by decide)))))))))))))))))))
theorem arg3_eq (V : Valuation τ sig (Elt F)) : after ops V (main_arg3 : DevRef τ sig) = V (main_arg3 : DevRef τ sig) := by
  rw [after_ops]
  exact ((K18_frame (W17 V) main_arg3 (by decide)).trans ((K17_frame (W16 V) main_arg3 (by decide)).trans ((K16_frame (W15 V) main_arg3 (by decide)).trans ((K15_frame (W14 V) main_arg3 (by decide)).trans ((K14_frame (W13 V) main_arg3 (by decide)).trans ((K13_frame (W12 V) main_arg3 (by decide)).trans ((K12_frame (W11 V) main_arg3 (by decide)).trans ((K11_frame (W10 V) main_arg3 (by decide)).trans ((K10_frame (W09 V) main_arg3 (by decide)).trans ((K09_frame (W08 V) main_arg3 (by decide)).trans ((K08_frame (W07 V) main_arg3 (by decide)).trans ((K07_frame (W06 V) main_arg3 (by decide)).trans ((K06_frame (W05 V) main_arg3 (by decide)).trans ((K05_frame (W04 V) main_arg3 (by decide)).trans ((K04_frame (W03 V) main_arg3 (by decide)).trans ((K03_frame (W02 V) main_arg3 (by decide)).trans ((K02_frame (W01 V) main_arg3 (by decide)).trans (K01_frame V main_arg3 (by decide)))))))))))))))))))
theorem arg4_eq (V : Valuation τ sig (Elt F)) : after ops V (main_arg4 : DevRef τ sig) = V (main_arg4 : DevRef τ sig) := by
  rw [after_ops]
  exact ((K18_frame (W17 V) main_arg4 (by decide)).trans ((K17_frame (W16 V) main_arg4 (by decide)).trans ((K16_frame (W15 V) main_arg4 (by decide)).trans ((K15_frame (W14 V) main_arg4 (by decide)).trans ((K14_frame (W13 V) main_arg4 (by decide)).trans ((K13_frame (W12 V) main_arg4 (by decide)).trans ((K12_frame (W11 V) main_arg4 (by decide)).trans ((K11_frame (W10 V) main_arg4 (by decide)).trans ((K10_frame (W09 V) main_arg4 (by decide)).trans ((K09_frame (W08 V) main_arg4 (by decide)).trans ((K08_frame (W07 V) main_arg4 (by decide)).trans ((K07_frame (W06 V) main_arg4 (by decide)).trans ((K06_frame (W05 V) main_arg4 (by decide)).trans ((K05_frame (W04 V) main_arg4 (by decide)).trans ((K04_frame (W03 V) main_arg4 (by decide)).trans ((K03_frame (W02 V) main_arg4 (by decide)).trans ((K02_frame (W01 V) main_arg4 (by decide)).trans (K01_frame V main_arg4 (by decide)))))))))))))))))))
theorem arg5_eq (V : Valuation τ sig (Elt F)) : after ops V (main_arg5 : DevRef τ sig) = V (main_arg5 : DevRef τ sig) := by
  rw [after_ops]
  exact ((K18_frame (W17 V) main_arg5 (by decide)).trans ((K17_frame (W16 V) main_arg5 (by decide)).trans ((K16_frame (W15 V) main_arg5 (by decide)).trans ((K15_frame (W14 V) main_arg5 (by decide)).trans ((K14_frame (W13 V) main_arg5 (by decide)).trans ((K13_frame (W12 V) main_arg5 (by decide)).trans ((K12_frame (W11 V) main_arg5 (by decide)).trans ((K11_frame (W10 V) main_arg5 (by decide)).trans ((K10_frame (W09 V) main_arg5 (by decide)).trans ((K09_frame (W08 V) main_arg5 (by decide)).trans ((K08_frame (W07 V) main_arg5 (by decide)).trans ((K07_frame (W06 V) main_arg5 (by decide)).trans ((K06_frame (W05 V) main_arg5 (by decide)).trans ((K05_frame (W04 V) main_arg5 (by decide)).trans ((K04_frame (W03 V) main_arg5 (by decide)).trans ((K03_frame (W02 V) main_arg5 (by decide)).trans ((K02_frame (W01 V) main_arg5 (by decide)).trans (K01_frame V main_arg5 (by decide)))))))))))))))))))
theorem arg6_eq (V : Valuation τ sig (Elt F)) : after ops V (main_arg6 : DevRef τ sig) = V (main_arg6 : DevRef τ sig) := by
  rw [after_ops]
  exact ((K18_frame (W17 V) main_arg6 (by decide)).trans ((K17_frame (W16 V) main_arg6 (by decide)).trans ((K16_frame (W15 V) main_arg6 (by decide)).trans ((K15_frame (W14 V) main_arg6 (by decide)).trans ((K14_frame (W13 V) main_arg6 (by decide)).trans ((K13_frame (W12 V) main_arg6 (by decide)).trans ((K12_frame (W11 V) main_arg6 (by decide)).trans ((K11_frame (W10 V) main_arg6 (by decide)).trans ((K10_frame (W09 V) main_arg6 (by decide)).trans ((K09_frame (W08 V) main_arg6 (by decide)).trans ((K08_frame (W07 V) main_arg6 (by decide)).trans ((K07_frame (W06 V) main_arg6 (by decide)).trans ((K06_frame (W05 V) main_arg6 (by decide)).trans ((K05_frame (W04 V) main_arg6 (by decide)).trans ((K04_frame (W03 V) main_arg6 (by decide)).trans ((K03_frame (W02 V) main_arg6 (by decide)).trans ((K02_frame (W01 V) main_arg6 (by decide)).trans (K01_frame V main_arg6 (by decide)))))))))))))))))))
theorem arg7_eq (V : Valuation τ sig (Elt F)) : after ops V (main_arg7 : DevRef τ sig) = V (main_arg7 : DevRef τ sig) := by
  rw [after_ops]
  exact ((K18_frame (W17 V) main_arg7 (by decide)).trans ((K17_frame (W16 V) main_arg7 (by decide)).trans ((K16_frame (W15 V) main_arg7 (by decide)).trans ((K15_frame (W14 V) main_arg7 (by decide)).trans ((K14_frame (W13 V) main_arg7 (by decide)).trans ((K13_frame (W12 V) main_arg7 (by decide)).trans ((K12_frame (W11 V) main_arg7 (by decide)).trans ((K11_frame (W10 V) main_arg7 (by decide)).trans ((K10_frame (W09 V) main_arg7 (by decide)).trans ((K09_frame (W08 V) main_arg7 (by decide)).trans ((K08_frame (W07 V) main_arg7 (by decide)).trans ((K07_frame (W06 V) main_arg7 (by decide)).trans ((K06_frame (W05 V) main_arg7 (by decide)).trans ((K05_frame (W04 V) main_arg7 (by decide)).trans ((K04_frame (W03 V) main_arg7 (by decide)).trans ((K03_frame (W02 V) main_arg7 (by decide)).trans ((K02_frame (W01 V) main_arg7 (by decide)).trans (K01_frame V main_arg7 (by decide)))))))))))))))))))
theorem arg8_eq (V : Valuation τ sig (Elt F)) : after ops V (main_arg8 : DevRef τ sig) = V (main_arg8 : DevRef τ sig) := by
  rw [after_ops]
  exact ((K18_frame (W17 V) main_arg8 (by decide)).trans ((K17_frame (W16 V) main_arg8 (by decide)).trans ((K16_frame (W15 V) main_arg8 (by decide)).trans ((K15_frame (W14 V) main_arg8 (by decide)).trans ((K14_frame (W13 V) main_arg8 (by decide)).trans ((K13_frame (W12 V) main_arg8 (by decide)).trans ((K12_frame (W11 V) main_arg8 (by decide)).trans ((K11_frame (W10 V) main_arg8 (by decide)).trans ((K10_frame (W09 V) main_arg8 (by decide)).trans ((K09_frame (W08 V) main_arg8 (by decide)).trans ((K08_frame (W07 V) main_arg8 (by decide)).trans ((K07_frame (W06 V) main_arg8 (by decide)).trans ((K06_frame (W05 V) main_arg8 (by decide)).trans ((K05_frame (W04 V) main_arg8 (by decide)).trans ((K04_frame (W03 V) main_arg8 (by decide)).trans ((K03_frame (W02 V) main_arg8 (by decide)).trans ((K02_frame (W01 V) main_arg8 (by decide)).trans (K01_frame V main_arg8 (by decide)))))))))))))))))))
theorem arg9_eq (V : Valuation τ sig (Elt F)) : after ops V (main_arg9 : DevRef τ sig) = V (main_arg9 : DevRef τ sig) := by
  rw [after_ops]
  exact ((K18_frame (W17 V) main_arg9 (by decide)).trans ((K17_frame (W16 V) main_arg9 (by decide)).trans ((K16_frame (W15 V) main_arg9 (by decide)).trans ((K15_frame (W14 V) main_arg9 (by decide)).trans ((K14_frame (W13 V) main_arg9 (by decide)).trans ((K13_frame (W12 V) main_arg9 (by decide)).trans ((K12_frame (W11 V) main_arg9 (by decide)).trans ((K11_frame (W10 V) main_arg9 (by decide)).trans ((K10_frame (W09 V) main_arg9 (by decide)).trans ((K09_frame (W08 V) main_arg9 (by decide)).trans ((K08_frame (W07 V) main_arg9 (by decide)).trans ((K07_frame (W06 V) main_arg9 (by decide)).trans ((K06_frame (W05 V) main_arg9 (by decide)).trans ((K05_frame (W04 V) main_arg9 (by decide)).trans ((K04_frame (W03 V) main_arg9 (by decide)).trans ((K03_frame (W02 V) main_arg9 (by decide)).trans ((K02_frame (W01 V) main_arg9 (by decide)).trans (K01_frame V main_arg9 (by decide)))))))))))))))))))
theorem arg10_eq (V : Valuation τ sig (Elt F)) : after ops V (main_arg10 : DevRef τ sig) = V (main_arg10 : DevRef τ sig) := by
  rw [after_ops]
  exact ((K18_frame (W17 V) main_arg10 (by decide)).trans ((K17_frame (W16 V) main_arg10 (by decide)).trans ((K16_frame (W15 V) main_arg10 (by decide)).trans ((K15_frame (W14 V) main_arg10 (by decide)).trans ((K14_frame (W13 V) main_arg10 (by decide)).trans ((K13_frame (W12 V) main_arg10 (by decide)).trans ((K12_frame (W11 V) main_arg10 (by decide)).trans ((K11_frame (W10 V) main_arg10 (by decide)).trans ((K10_frame (W09 V) main_arg10 (by decide)).trans ((K09_frame (W08 V) main_arg10 (by decide)).trans ((K08_frame (W07 V) main_arg10 (by decide)).trans ((K07_frame (W06 V) main_arg10 (by decide)).trans ((K06_frame (W05 V) main_arg10 (by decide)).trans ((K05_frame (W04 V) main_arg10 (by decide)).trans ((K04_frame (W03 V) main_arg10 (by decide)).trans ((K03_frame (W02 V) main_arg10 (by decide)).trans ((K02_frame (W01 V) main_arg10 (by decide)).trans (K01_frame V main_arg10 (by decide)))))))))))))))))))
theorem arg11_eq (V : Valuation τ sig (Elt F)) : after ops V (main_arg11 : DevRef τ sig) = V (main_arg11 : DevRef τ sig) := by
  rw [after_ops]
  exact ((K18_frame (W17 V) main_arg11 (by decide)).trans ((K17_frame (W16 V) main_arg11 (by decide)).trans ((K16_frame (W15 V) main_arg11 (by decide)).trans ((K15_frame (W14 V) main_arg11 (by decide)).trans ((K14_frame (W13 V) main_arg11 (by decide)).trans ((K13_frame (W12 V) main_arg11 (by decide)).trans ((K12_frame (W11 V) main_arg11 (by decide)).trans ((K11_frame (W10 V) main_arg11 (by decide)).trans ((K10_frame (W09 V) main_arg11 (by decide)).trans ((K09_frame (W08 V) main_arg11 (by decide)).trans ((K08_frame (W07 V) main_arg11 (by decide)).trans ((K07_frame (W06 V) main_arg11 (by decide)).trans ((K06_frame (W05 V) main_arg11 (by decide)).trans ((K05_frame (W04 V) main_arg11 (by decide)).trans ((K04_frame (W03 V) main_arg11 (by decide)).trans ((K03_frame (W02 V) main_arg11 (by decide)).trans ((K02_frame (W01 V) main_arg11 (by decide)).trans (K01_frame V main_arg11 (by decide)))))))))))))))))))
theorem arg12_eq (V : Valuation τ sig (Elt F)) : after ops V (main_arg12 : DevRef τ sig) = V (main_arg12 : DevRef τ sig) := by
  rw [after_ops]
  exact ((K18_frame (W17 V) main_arg12 (by decide)).trans ((K17_frame (W16 V) main_arg12 (by decide)).trans ((K16_frame (W15 V) main_arg12 (by decide)).trans ((K15_frame (W14 V) main_arg12 (by decide)).trans ((K14_frame (W13 V) main_arg12 (by decide)).trans ((K13_frame (W12 V) main_arg12 (by decide)).trans ((K12_frame (W11 V) main_arg12 (by decide)).trans ((K11_frame (W10 V) main_arg12 (by decide)).trans ((K10_frame (W09 V) main_arg12 (by decide)).trans ((K09_frame (W08 V) main_arg12 (by decide)).trans ((K08_frame (W07 V) main_arg12 (by decide)).trans ((K07_frame (W06 V) main_arg12 (by decide)).trans ((K06_frame (W05 V) main_arg12 (by decide)).trans ((K05_frame (W04 V) main_arg12 (by decide)).trans ((K04_frame (W03 V) main_arg12 (by decide)).trans ((K03_frame (W02 V) main_arg12 (by decide)).trans ((K02_frame (W01 V) main_arg12 (by decide)).trans (K01_frame V main_arg12 (by decide)))))))))))))))))))
theorem arg13_eq (V : Valuation τ sig (Elt F)) : after ops V (main_arg13 : DevRef τ sig) = V (main_arg13 : DevRef τ sig) := by
  rw [after_ops]
  exact ((K18_frame (W17 V) main_arg13 (by decide)).trans ((K17_frame (W16 V) main_arg13 (by decide)).trans ((K16_frame (W15 V) main_arg13 (by decide)).trans ((K15_frame (W14 V) main_arg13 (by decide)).trans ((K14_frame (W13 V) main_arg13 (by decide)).trans ((K13_frame (W12 V) main_arg13 (by decide)).trans ((K12_frame (W11 V) main_arg13 (by decide)).trans ((K11_frame (W10 V) main_arg13 (by decide)).trans ((K10_frame (W09 V) main_arg13 (by decide)).trans ((K09_frame (W08 V) main_arg13 (by decide)).trans ((K08_frame (W07 V) main_arg13 (by decide)).trans ((K07_frame (W06 V) main_arg13 (by decide)).trans ((K06_frame (W05 V) main_arg13 (by decide)).trans ((K05_frame (W04 V) main_arg13 (by decide)).trans ((K04_frame (W03 V) main_arg13 (by decide)).trans ((K03_frame (W02 V) main_arg13 (by decide)).trans ((K02_frame (W01 V) main_arg13 (by decide)).trans (K01_frame V main_arg13 (by decide)))))))))))))))))))
theorem arg14_eq (V : Valuation τ sig (Elt F)) : after ops V (main_arg14 : DevRef τ sig) = V (main_arg14 : DevRef τ sig) := by
  rw [after_ops]
  exact ((K18_frame (W17 V) main_arg14 (by decide)).trans ((K17_frame (W16 V) main_arg14 (by decide)).trans ((K16_frame (W15 V) main_arg14 (by decide)).trans ((K15_frame (W14 V) main_arg14 (by decide)).trans ((K14_frame (W13 V) main_arg14 (by decide)).trans ((K13_frame (W12 V) main_arg14 (by decide)).trans ((K12_frame (W11 V) main_arg14 (by decide)).trans ((K11_frame (W10 V) main_arg14 (by decide)).trans ((K10_frame (W09 V) main_arg14 (by decide)).trans ((K09_frame (W08 V) main_arg14 (by decide)).trans ((K08_frame (W07 V) main_arg14 (by decide)).trans ((K07_frame (W06 V) main_arg14 (by decide)).trans ((K06_frame (W05 V) main_arg14 (by decide)).trans ((K05_frame (W04 V) main_arg14 (by decide)).trans ((K04_frame (W03 V) main_arg14 (by decide)).trans ((K03_frame (W02 V) main_arg14 (by decide)).trans ((K02_frame (W01 V) main_arg14 (by decide)).trans (K01_frame V main_arg14 (by decide)))))))))))))))))))
theorem arg15_eq (V : Valuation τ sig (Elt F)) : after ops V (main_arg15 : DevRef τ sig) = V (main_arg15 : DevRef τ sig) := by
  rw [after_ops]
  exact ((K18_frame (W17 V) main_arg15 (by decide)).trans ((K17_frame (W16 V) main_arg15 (by decide)).trans ((K16_frame (W15 V) main_arg15 (by decide)).trans ((K15_frame (W14 V) main_arg15 (by decide)).trans ((K14_frame (W13 V) main_arg15 (by decide)).trans ((K13_frame (W12 V) main_arg15 (by decide)).trans ((K12_frame (W11 V) main_arg15 (by decide)).trans ((K11_frame (W10 V) main_arg15 (by decide)).trans ((K10_frame (W09 V) main_arg15 (by decide)).trans ((K09_frame (W08 V) main_arg15 (by decide)).trans ((K08_frame (W07 V) main_arg15 (by decide)).trans ((K07_frame (W06 V) main_arg15 (by decide)).trans ((K06_frame (W05 V) main_arg15 (by decide)).trans ((K05_frame (W04 V) main_arg15 (by decide)).trans ((K04_frame (W03 V) main_arg15 (by decide)).trans ((K03_frame (W02 V) main_arg15 (by decide)).trans ((K02_frame (W01 V) main_arg15 (by decide)).trans (K01_frame V main_arg15 (by decide)))))))))))))))))))
theorem arg16_eq (V : Valuation τ sig (Elt F)) : after ops V (main_arg16 : DevRef τ sig) = V (main_arg16 : DevRef τ sig) := by
  rw [after_ops]
  exact ((K18_frame (W17 V) main_arg16 (by decide)).trans ((K17_frame (W16 V) main_arg16 (by decide)).trans ((K16_frame (W15 V) main_arg16 (by decide)).trans ((K15_frame (W14 V) main_arg16 (by decide)).trans ((K14_frame (W13 V) main_arg16 (by decide)).trans ((K13_frame (W12 V) main_arg16 (by decide)).trans ((K12_frame (W11 V) main_arg16 (by decide)).trans ((K11_frame (W10 V) main_arg16 (by decide)).trans ((K10_frame (W09 V) main_arg16 (by decide)).trans ((K09_frame (W08 V) main_arg16 (by decide)).trans ((K08_frame (W07 V) main_arg16 (by decide)).trans ((K07_frame (W06 V) main_arg16 (by decide)).trans ((K06_frame (W05 V) main_arg16 (by decide)).trans ((K05_frame (W04 V) main_arg16 (by decide)).trans ((K04_frame (W03 V) main_arg16 (by decide)).trans ((K03_frame (W02 V) main_arg16 (by decide)).trans ((K02_frame (W01 V) main_arg16 (by decide)).trans (K01_frame V main_arg16 (by decide)))))))))))))))))))
theorem arg17_eq (V : Valuation τ sig (Elt F)) : after ops V (main_arg17 : DevRef τ sig) = V (main_arg17 : DevRef τ sig) := by
  rw [after_ops]
  exact ((K18_frame (W17 V) main_arg17 (by decide)).trans ((K17_frame (W16 V) main_arg17 (by decide)).trans ((K16_frame (W15 V) main_arg17 (by decide)).trans ((K15_frame (W14 V) main_arg17 (by decide)).trans ((K14_frame (W13 V) main_arg17 (by decide)).trans ((K13_frame (W12 V) main_arg17 (by decide)).trans ((K12_frame (W11 V) main_arg17 (by decide)).trans ((K11_frame (W10 V) main_arg17 (by decide)).trans ((K10_frame (W09 V) main_arg17 (by decide)).trans ((K09_frame (W08 V) main_arg17 (by decide)).trans ((K08_frame (W07 V) main_arg17 (by decide)).trans ((K07_frame (W06 V) main_arg17 (by decide)).trans ((K06_frame (W05 V) main_arg17 (by decide)).trans ((K05_frame (W04 V) main_arg17 (by decide)).trans ((K04_frame (W03 V) main_arg17 (by decide)).trans ((K03_frame (W02 V) main_arg17 (by decide)).trans ((K02_frame (W01 V) main_arg17 (by decide)).trans (K01_frame V main_arg17 (by decide)))))))))))))))))))
theorem arg18_eq (V : Valuation τ sig (Elt F)) : after ops V (main_arg18 : DevRef τ sig) = V (main_arg18 : DevRef τ sig) := by
  rw [after_ops]
  exact ((K18_frame (W17 V) main_arg18 (by decide)).trans ((K17_frame (W16 V) main_arg18 (by decide)).trans ((K16_frame (W15 V) main_arg18 (by decide)).trans ((K15_frame (W14 V) main_arg18 (by decide)).trans ((K14_frame (W13 V) main_arg18 (by decide)).trans ((K13_frame (W12 V) main_arg18 (by decide)).trans ((K12_frame (W11 V) main_arg18 (by decide)).trans ((K11_frame (W10 V) main_arg18 (by decide)).trans ((K10_frame (W09 V) main_arg18 (by decide)).trans ((K09_frame (W08 V) main_arg18 (by decide)).trans ((K08_frame (W07 V) main_arg18 (by decide)).trans ((K07_frame (W06 V) main_arg18 (by decide)).trans ((K06_frame (W05 V) main_arg18 (by decide)).trans ((K05_frame (W04 V) main_arg18 (by decide)).trans ((K04_frame (W03 V) main_arg18 (by decide)).trans ((K03_frame (W02 V) main_arg18 (by decide)).trans ((K02_frame (W01 V) main_arg18 (by decide)).trans (K01_frame V main_arg18 (by decide)))))))))))))))))))
theorem arg19_eq (V : Valuation τ sig (Elt F)) : after ops V (main_arg19 : DevRef τ sig) = V (main_arg19 : DevRef τ sig) := by
  rw [after_ops]
  exact ((K18_frame (W17 V) main_arg19 (by decide)).trans ((K17_frame (W16 V) main_arg19 (by decide)).trans ((K16_frame (W15 V) main_arg19 (by decide)).trans ((K15_frame (W14 V) main_arg19 (by decide)).trans ((K14_frame (W13 V) main_arg19 (by decide)).trans ((K13_frame (W12 V) main_arg19 (by decide)).trans ((K12_frame (W11 V) main_arg19 (by decide)).trans ((K11_frame (W10 V) main_arg19 (by decide)).trans ((K10_frame (W09 V) main_arg19 (by decide)).trans ((K09_frame (W08 V) main_arg19 (by decide)).trans ((K08_frame (W07 V) main_arg19 (by decide)).trans ((K07_frame (W06 V) main_arg19 (by decide)).trans ((K06_frame (W05 V) main_arg19 (by decide)).trans ((K05_frame (W04 V) main_arg19 (by decide)).trans ((K04_frame (W03 V) main_arg19 (by decide)).trans ((K03_frame (W02 V) main_arg19 (by decide)).trans ((K02_frame (W01 V) main_arg19 (by decide)).trans (K01_frame V main_arg19 (by decide)))))))))))))))))))
theorem arg20_eq (V : Valuation τ sig (Elt F)) : after ops V (main_arg20 : DevRef τ sig) = V (main_arg20 : DevRef τ sig) := by
  rw [after_ops]
  exact ((K18_frame (W17 V) main_arg20 (by decide)).trans ((K17_frame (W16 V) main_arg20 (by decide)).trans ((K16_frame (W15 V) main_arg20 (by decide)).trans ((K15_frame (W14 V) main_arg20 (by decide)).trans ((K14_frame (W13 V) main_arg20 (by decide)).trans ((K13_frame (W12 V) main_arg20 (by decide)).trans ((K12_frame (W11 V) main_arg20 (by decide)).trans ((K11_frame (W10 V) main_arg20 (by decide)).trans ((K10_frame (W09 V) main_arg20 (by decide)).trans ((K09_frame (W08 V) main_arg20 (by decide)).trans ((K08_frame (W07 V) main_arg20 (by decide)).trans ((K07_frame (W06 V) main_arg20 (by decide)).trans ((K06_frame (W05 V) main_arg20 (by decide)).trans ((K05_frame (W04 V) main_arg20 (by decide)).trans ((K04_frame (W03 V) main_arg20 (by decide)).trans ((K03_frame (W02 V) main_arg20 (by decide)).trans ((K02_frame (W01 V) main_arg20 (by decide)).trans (K01_frame V main_arg20 (by decide)))))))))))))))))))
theorem arg21_eq (V : Valuation τ sig (Elt F)) : after ops V (main_arg21 : DevRef τ sig) = V (main_arg21 : DevRef τ sig) := by
  rw [after_ops]
  exact ((K18_frame (W17 V) main_arg21 (by decide)).trans ((K17_frame (W16 V) main_arg21 (by decide)).trans ((K16_frame (W15 V) main_arg21 (by decide)).trans ((K15_frame (W14 V) main_arg21 (by decide)).trans ((K14_frame (W13 V) main_arg21 (by decide)).trans ((K13_frame (W12 V) main_arg21 (by decide)).trans ((K12_frame (W11 V) main_arg21 (by decide)).trans ((K11_frame (W10 V) main_arg21 (by decide)).trans ((K10_frame (W09 V) main_arg21 (by decide)).trans ((K09_frame (W08 V) main_arg21 (by decide)).trans ((K08_frame (W07 V) main_arg21 (by decide)).trans ((K07_frame (W06 V) main_arg21 (by decide)).trans ((K06_frame (W05 V) main_arg21 (by decide)).trans ((K05_frame (W04 V) main_arg21 (by decide)).trans ((K04_frame (W03 V) main_arg21 (by decide)).trans ((K03_frame (W02 V) main_arg21 (by decide)).trans ((K02_frame (W01 V) main_arg21 (by decide)).trans (K01_frame V main_arg21 (by decide)))))))))))))))))))
theorem arg22_eq (V : Valuation τ sig (Elt F)) : after ops V (main_arg22 : DevRef τ sig) = V (main_arg22 : DevRef τ sig) := by
  rw [after_ops]
  exact ((K18_frame (W17 V) main_arg22 (by decide)).trans ((K17_frame (W16 V) main_arg22 (by decide)).trans ((K16_frame (W15 V) main_arg22 (by decide)).trans ((K15_frame (W14 V) main_arg22 (by decide)).trans ((K14_frame (W13 V) main_arg22 (by decide)).trans ((K13_frame (W12 V) main_arg22 (by decide)).trans ((K12_frame (W11 V) main_arg22 (by decide)).trans ((K11_frame (W10 V) main_arg22 (by decide)).trans ((K10_frame (W09 V) main_arg22 (by decide)).trans ((K09_frame (W08 V) main_arg22 (by decide)).trans ((K08_frame (W07 V) main_arg22 (by decide)).trans ((K07_frame (W06 V) main_arg22 (by decide)).trans ((K06_frame (W05 V) main_arg22 (by decide)).trans ((K05_frame (W04 V) main_arg22 (by decide)).trans ((K04_frame (W03 V) main_arg22 (by decide)).trans ((K03_frame (W02 V) main_arg22 (by decide)).trans ((K02_frame (W01 V) main_arg22 (by decide)).trans (K01_frame V main_arg22 (by decide)))))))))))))))))))
theorem arg23_eq (V : Valuation τ sig (Elt F)) : after ops V (main_arg23 : DevRef τ sig) = V (main_arg23 : DevRef τ sig) := by
  rw [after_ops]
  exact ((K18_frame (W17 V) main_arg23 (by decide)).trans ((K17_frame (W16 V) main_arg23 (by decide)).trans ((K16_frame (W15 V) main_arg23 (by decide)).trans ((K15_frame (W14 V) main_arg23 (by decide)).trans ((K14_frame (W13 V) main_arg23 (by decide)).trans ((K13_frame (W12 V) main_arg23 (by decide)).trans ((K12_frame (W11 V) main_arg23 (by decide)).trans ((K11_frame (W10 V) main_arg23 (by decide)).trans ((K10_frame (W09 V) main_arg23 (by decide)).trans ((K09_frame (W08 V) main_arg23 (by decide)).trans ((K08_frame (W07 V) main_arg23 (by decide)).trans ((K07_frame (W06 V) main_arg23 (by decide)).trans ((K06_frame (W05 V) main_arg23 (by decide)).trans ((K05_frame (W04 V) main_arg23 (by decide)).trans ((K04_frame (W03 V) main_arg23 (by decide)).trans ((K03_frame (W02 V) main_arg23 (by decide)).trans ((K02_frame (W01 V) main_arg23 (by decide)).trans (K01_frame V main_arg23 (by decide)))))))))))))))))))
theorem arg24_eq (V : Valuation τ sig (Elt F)) : after ops V (main_arg24 : DevRef τ sig) = V (main_arg24 : DevRef τ sig) := by
  rw [after_ops]
  exact ((K18_frame (W17 V) main_arg24 (by decide)).trans ((K17_frame (W16 V) main_arg24 (by decide)).trans ((K16_frame (W15 V) main_arg24 (by decide)).trans ((K15_frame (W14 V) main_arg24 (by decide)).trans ((K14_frame (W13 V) main_arg24 (by decide)).trans ((K13_frame (W12 V) main_arg24 (by decide)).trans ((K12_frame (W11 V) main_arg24 (by decide)).trans ((K11_frame (W10 V) main_arg24 (by decide)).trans ((K10_frame (W09 V) main_arg24 (by decide)).trans ((K09_frame (W08 V) main_arg24 (by decide)).trans ((K08_frame (W07 V) main_arg24 (by decide)).trans ((K07_frame (W06 V) main_arg24 (by decide)).trans ((K06_frame (W05 V) main_arg24 (by decide)).trans ((K05_frame (W04 V) main_arg24 (by decide)).trans ((K04_frame (W03 V) main_arg24 (by decide)).trans ((K03_frame (W02 V) main_arg24 (by decide)).trans ((K02_frame (W01 V) main_arg24 (by decide)).trans (K01_frame V main_arg24 (by decide)))))))))))))))))))
theorem arg25_eq (V : Valuation τ sig (Elt F)) : after ops V (main_arg25 : DevRef τ sig) = V (main_arg25 : DevRef τ sig) := by
  rw [after_ops]
  exact ((K18_frame (W17 V) main_arg25 (by decide)).trans ((K17_frame (W16 V) main_arg25 (by decide)).trans ((K16_frame (W15 V) main_arg25 (by decide)).trans ((K15_frame (W14 V) main_arg25 (by decide)).trans ((K14_frame (W13 V) main_arg25 (by decide)).trans ((K13_frame (W12 V) main_arg25 (by decide)).trans ((K12_frame (W11 V) main_arg25 (by decide)).trans ((K11_frame (W10 V) main_arg25 (by decide)).trans ((K10_frame (W09 V) main_arg25 (by decide)).trans ((K09_frame (W08 V) main_arg25 (by decide)).trans ((K08_frame (W07 V) main_arg25 (by decide)).trans ((K07_frame (W06 V) main_arg25 (by decide)).trans ((K06_frame (W05 V) main_arg25 (by decide)).trans ((K05_frame (W04 V) main_arg25 (by decide)).trans ((K04_frame (W03 V) main_arg25 (by decide)).trans ((K03_frame (W02 V) main_arg25 (by decide)).trans ((K02_frame (W01 V) main_arg25 (by decide)).trans (K01_frame V main_arg25 (by decide)))))))))))))))))))

/-- On every device, for any float values, from any memory with zero counters: every weakly fair execution of the
    reference's @main terminates with the two results at the two-layer forward pass of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v152) = Cert.Sage.out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v153) = Cert.Sage.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v152).trans (out0_eq (launchContents m c)),
      (h c main_v153).trans (out1_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c)),
      (h c main_arg21).trans (arg21_eq (launchContents m c)),
      (h c main_arg22).trans (arg22_eq (launchContents m c)),
      (h c main_arg23).trans (arg23_eq (launchContents m c)),
      (h c main_arg24).trans (arg24_eq (launchContents m c)),
      (h c main_arg25).trans (arg25_eq (launchContents m c))⟩)
    (run_seq scopedRefs_eq scopedSems_eq defs main (fun _ => ops) main_eq (fun _ => ops_sub) m ρ (fun _ => ops_fresh))

end Cert.ReferenceIdeal.RefRun

end
-- ==== Proof.lean ====
/-
  The certificate's claim: on the extended reals the kernel program and the reference end with the same two arrays.

  Both programs run two layers of a two-type graph network over 100000 papers and 50000 authors with 128 features each.
  A layer takes, for each of three edge types (paper to paper, author to paper, paper to author), the mean of the source
  rows over the edges into each destination node (a gather, a scatter-add of the rows and of ones, a quotient by the
  count clamped below at one), and updates each node's row to  normalize(mean · Wl + b + x · Wr):  the row divided by its
  Euclidean length, the length clamped below at a tiny constant. A paper takes half the sum of its two edge types' rows;
  every new row is clamped at zero. The reference does all of it with whole-array host operations. The kernel program
  takes the means with the same host operations and does the update in a blocked kernel, 2000 rows at a time against the
  whole 128 × 128 weights, its operands rounded to half precision first — the identity on the extended reals.

  Each run ends with its two result buffers holding the same two functions `out0` (papers) and `out1` (authors) of its
  own 26 argument arrays, and the arguments in place: the reference because its host operations are those functions'
  text; the kernel program because a block's entry (p, q) at grid point t and the whole array's entry (2000 t + p, q)
  are one function of row 2000 t + p of the left operands. No law of arithmetic joins the two sides beyond reading both
  at an entry: a product's entry is the sum over the contraction index in any order, a row's squared length is the sum
  over its 128 lanes in any order, and a row-blocked product is the whole product at that row. The two programs start
  from memories that agree on the arguments, so their results are equal.

  The three frame conjuncts are the generated frame certificates (the reference's is its run with the two results
  forgotten). Idealizing the kernel program rewrote no operation, so the fourth conjunct is trivial.
-/
import proofs.«106662_j20968030339503_1_alg».proof.Defs
import proofs.«106662_j20968030339503_1_alg».proof.Proof.Gen.Kernel
import proofs.«106662_j20968030339503_1_alg».proof.Proof.Gen.Kernel.Skeleton
import proofs.«106662_j20968030339503_1_alg».proof.Proof.Gen.Kernel.Launch
import proofs.«106662_j20968030339503_1_alg».proof.Proof.Gen.Kernel.Points
import proofs.«106662_j20968030339503_1_alg».proof.Proof.Gen.Kernel.Frame
import proofs.«106662_j20968030339503_1_alg».proof.Proof.Gen.KernelIdeal
import proofs.«106662_j20968030339503_1_alg».proof.Proof.Gen.KernelIdeal.Skeleton
import proofs.«106662_j20968030339503_1_alg».proof.Proof.Gen.KernelIdeal.Launch
import proofs.«106662_j20968030339503_1_alg».proof.Proof.Gen.KernelIdeal.Points
import proofs.«106662_j20968030339503_1_alg».proof.Proof.Gen.KernelIdeal.Frame
import proofs.«106662_j20968030339503_1_alg».proof.Proof.Gen.ReferenceIdeal
import proofs.«106662_j20968030339503_1_alg».proof.Proof.Gen.Pre_finite_inputs
import proofs.«106662_j20968030339503_1_alg».proof.Proof.Stages
import proofs.«106662_j20968030339503_1_alg».proof.Proof.KernelValue
import proofs.«106662_j20968030339503_1_alg».proof.Proof.RefRun
import Idealize.ShloMosaic.Adequacy
import Idealize.ShloMosaic.Init

noncomputable section

namespace Cert.Proof

open Idealize.ShloMosaic Idealize.SL.Sem

/-- A function of twenty-six arguments takes equal values at equal arguments. -/
theorem congr26 {α0 α1 α2 α3 α4 α5 α6 α7 α8 α9 α10 α11 α12 α13 α14 α15 α16 α17 α18 α19 α20 α21 α22 α23 α24 α25 β : Type}
    (f : α0 → α1 → α2 → α3 → α4 → α5 → α6 → α7 → α8 → α9 → α10 → α11 → α12 → α13 → α14 → α15 → α16 → α17 → α18 → α19 → α20 → α21 → α22 → α23 → α24 → α25 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14} {a15 b15 : α15} {a16 b16 : α16} {a17 b17 : α17} {a18 b18 : α18} {a19 b19 : α19} {a20 b20 : α20} {a21 b21 : α21} {a22 b22 : α22} {a23 b23 : α23} {a24 b24 : α24} {a25 b25 : α25}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) (h22 : a22 = b22) (h23 : a23 = b23) (h24 : a24 = b24) (h25 : a25 = b25) :
    f a0 a1 a2 a3 a4 a5 a6 a7 a8 a9 a10 a11 a12 a13 a14 a15 a16 a17 a18 a19 a20 a21 a22 a23 a24 a25 = f b0 b1 b2 b3 b4 b5 b6 b7 b8 b9 b10 b11 b12 b13 b14 b15 b16 b17 b18 b19 b20 b21 b22 b23 b24 b25 := by
  subst h0 h1 h2 h3 h4 h5 h6 h7 h8 h9 h10 h11 h12 h13 h14 h15 h16 h17 h18 h19 h20 h21 h22 h23 h24 h25
  rfl

/-- The printed kernel program runs and leaves its arguments in place. -/
theorem frame_k : Cert.frame_Kernel := fun m ρ _ => Cert.Kernel.Gen.frame m ρ

/-- The idealized kernel program runs and leaves its arguments in place. -/
theorem frame_ki : Cert.frame_KernelIdeal := fun m ρ _ => Cert.KernelIdeal.Gen.frame m ρ

/-- The idealized reference runs and leaves its arguments in place: its run's end state, the two results forgotten. -/
theorem frame_ri : Cert.frame_ReferenceIdeal := fun m ρ _ =>
  (θ_run Cert.ReferenceIdeal.defs _ _).mono (fun _ h c => (h c).2.2) (Cert.ReferenceIdeal.RefRun.run (F := Ideal) m ρ)

/-- On the extended reals both programs end with the same two arrays: each run ends at the two stage functions of its own
    arguments, and the arguments agree. -/
theorem algebraic : Cert.algebraic_KernelIdeal_ReferenceIdeal := by
  intro m ρ m' ρ' _ hagree
  refine ⟨fun c => Cert.Sage.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    fun c => Cert.Sage.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)),
    Cert.KernelIdeal.Out.run_value m ρ, ?_⟩
  refine (θ_run Cert.ReferenceIdeal.defs _ _).mono (fun _ h c => ?_) (Cert.ReferenceIdeal.RefRun.run (F := Ideal) m' ρ')
  obtain ⟨h0, h1, h2, h3, h4, h5, h6, h7, h8, h9, h10, h11, h12, h13, h14, h15, h16, h17, h18, h19, h20, h21, h22, h23, h24, h25⟩ := hagree c
  refine ⟨(h c).1.trans ?_, (h c).2.1.trans ?_, (h c).2.2⟩
  · exact congr26 (Cert.Sage.out0 (F := Ideal)) h0 h1 h2 h3 h4 h5 h6 h7 h8 h9 h10 h11 h12 h13 h14 h15 h16 h17 h18 h19 h20 h21 h22 h23 h24 h25
  · exact congr26 (Cert.Sage.out1 (F := Ideal)) h0 h1 h2 h3 h4 h5 h6 h7 h8 h9 h10 h11 h12 h13 h14 h15 h16 h17 h18 h19 h20 h21 h22 h23 h24 h25

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
